-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S1000x64 : Shape := ⟨2, ![1000, 64]⟩
abbrev S_ : Shape := ⟨0, ![]⟩

class Facts : Prop where
  bcast_S_S1000x64 : S_.BroadcastsInDim S1000x64 (![] : Fin 0 → Fin S1000x64.rank)
  reducesTo_S1000x64_S_d0_1 : S1000x64.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S1000x64 .f32) : IVec S_ 1 :=
  let main_v0 : FVec F S1000x64 .f32 := Host.absf main_arg1
  let main_cst : FVec F S_ .f32 := constant S_ .f32 0x7F800000#32
  let main_v1 : FVec F S1000x64 .f32 := broadcastInDim S1000x64 ![] bcast_S_S1000x64 main_cst
  let main_v2 : IVec S1000x64 1 := cmpf .olt main_v0 main_v1
  let main_c : IVec S_ 1 := constantI S_ 1 1#1
  let main_v3 : IVec S_ 1 := (fun x v => Host.reduce IntOp.andi x v reducesTo_S1000x64_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S1000x64 : Shape := ⟨2, ![1000, 64]⟩
abbrev S200x4096 : Shape := ⟨2, ![200, 4096]⟩
abbrev S1x819200 : Shape := ⟨2, ![1, 819200]⟩
abbrev S_ : Shape := ⟨0, ![]⟩
abbrev S1000x128 : Shape := ⟨2, ![1000, 128]⟩
abbrev S819200x128 : Shape := ⟨2, ![819200, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S200x4096x128 : Shape := ⟨3, ![200, 4096, 128]⟩
abbrev S200x64x4096 : Shape := ⟨3, ![200, 64, 4096]⟩
abbrev S1x4096x128 : Shape := ⟨3, ![1, 4096, 128]⟩
abbrev S1x64x4096 : Shape := ⟨3, ![1, 64, 4096]⟩
abbrev S4096x128 : Shape := ⟨2, ![4096, 128]⟩
abbrev S4096x64 : Shape := ⟨2, ![4096, 64]⟩
abbrev S64x4096 : Shape := ⟨2, ![64, 4096]⟩
abbrev S4096x200x64 : Shape := ⟨3, ![4096, 200, 64]⟩

abbrev nBuf : Table → Nat
  | .hbm => 11
  | .local .tc .vmem => 4
  | .local .scVector .vmem => 2
  | _ => 0

abbrev bufTy : (tb : Table) → Fin (nBuf tb) → BufTy
  | .hbm, ⟨0, _⟩ => ⟨S4096x200, .i32⟩
  | .hbm, ⟨1, _⟩ => ⟨S1000x64, .f32⟩
  | .hbm, ⟨2, _⟩ => ⟨S200x4096, .i32⟩
  | .hbm, ⟨3, _⟩ => ⟨S1x819200, .i32⟩
  | .hbm, ⟨4, _⟩ => ⟨S_, .i32⟩
  | .hbm, ⟨5, _⟩ => ⟨S_, .f32⟩
  | .hbm, ⟨6, _⟩ => ⟨S1000x128, .f32⟩
  | .hbm, ⟨7, _⟩ => ⟨S819200x128, .f32⟩
  | .hbm, ⟨8, _⟩ => ⟨S200x4096x128, .f32⟩
  | .hbm, ⟨9, _⟩ => ⟨S200x64x4096, .f32⟩
  | .hbm, ⟨10, _⟩ => ⟨S4096x200x64, .f32⟩
  | .local .tc .vmem, ⟨0, _⟩ => ⟨S1x4096x128, .f32⟩
  | .local .tc .vmem, ⟨1, _⟩ => ⟨S1x4096x128, .f32⟩
  | .local .tc .vmem, ⟨2, _⟩ => ⟨S1x64x4096, .f32⟩
  | .local .tc .vmem, ⟨3, _⟩ => ⟨S1x64x4096, .f32⟩
  | .local .scVector .vmem, ⟨0, _⟩ => ⟨S2x1x128, .i32⟩
  | .local .scVector .vmem, ⟨1, _⟩ => ⟨S2x128x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v2_scv : Ref sig .scVector := ⟨.hbm, 6, rfl⟩
abbrev main_v1_scv : Ref sig .scVector := ⟨.hbm, 3, rfl⟩
abbrev main_v3_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem1_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c200_i32_27_r0 : BitVec 32 := 200#32
  let v32_r0 : BitVec 32 := Scalar.addi c0_i32_26_r0 c200_i32_27_r0
  let c1_i32_28_r0 : BitVec 32 := 1#32
  ⟨c0_i32_26_r0, v32_r0, c1_i32_28_r0⟩
def k0_off4 (arg6_r0 : BitVec 32) : Fin 3 → Nat :=
  let c2_i32_100_r0 : BitVec 32 := 2#32
  let v145_r0 : BitVec 32 := Scalar.remui arg6_r0 c2_i32_100_r0
  let c0_i32_102_r0 : BitVec 32 := 0#32
  let c0_i32_103_r0 : BitVec 32 := 0#32
  ![v145_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c200_i32_62_r0 : BitVec 32 := 200#32
  let v74_r0 : BitVec 1 := Scalar.cmpi .eq v73_r0 c200_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c199_i32_68_r0 : BitVec 32 := 199#32
  let v83_r0 : BitVec 1 := Scalar.cmpi .sge arg5_r0 c199_i32_68_r0
  let true_69_r0 : BitVec 1 := 1#1
  let v84_r0 : BitVec 1 := Scalar.xori v83_r0 true_69_r0
  let v85_r0 : BitVec 1 := Scalar.andi v82_r0 v84_r0
  let v86_r0 : BitVec 32 := Scalar.extui v85_r0
  let c0_i32_70_r0 : BitVec 32 := 0#32
  let v87_r0 : BitVec 1 := Scalar.cmpi .ne v86_r0 c0_i32_70_r0
  v87_r0

def k0_off5 (i : grid0.Coords) (arg10_r0 : BitVec 32) : Fin 2 → Nat :=
  let c0_i32_104_r0 : BitVec 32 := 0#32
  let c128_i32_101_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c200_i32_62_r0 : BitVec 32 := 200#32
  let v74_r0 : BitVec 1 := Scalar.cmpi .eq v73_r0 c200_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v76_r0 : BitVec 32 := Scalar.addi v75_r0 v4
  let v146_r0 : BitVec 32 := Scalar.muli c128_i32_101_r0 v76_r0
  ![0, v146_r0.toNat]
def k0_off6 (arg6_r0 : BitVec 32) : Fin 1 → Nat :=
  let c2_i32_100_r0 : BitVec 32 := 2#32
  let v145_r0 : BitVec 32 := Scalar.remui arg6_r0 c2_i32_100_r0
  ![v145_r0.toNat]
def k0_off7 (arg7_r0 : BitVec 32) : Fin 3 → Nat :=
  let c2_i32_101_r0 : BitVec 32 := 2#32
  let v146_r0 : BitVec 32 := Scalar.remui arg7_r0 c2_i32_101_r0
  let c0_i32_102_r0 : BitVec 32 := 0#32
  let c0_i32_103_r0 : BitVec 32 := 0#32
  ![v146_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c199_i32_59_r0 : BitVec 32 := 199#32
  let v70_r0 : BitVec 32 := Scalar.select v69_r0 c199_i32_59_r0 v68_r0
  let v71_r0 : BitVec 32 := Scalar.addi v70_r0 v4
  let v95_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v96_r0 : BitVec 1 := Scalar.ori v95_r0 v64_r0
  let c0_i32_75_r0 : BitVec 32 := 0#32
  let v97_r0 : BitVec 1 := Scalar.cmpi .slt arg5_r0 c0_i32_75_r0
  let true_76_r0 : BitVec 1 := 1#1
  let v98_r0 : BitVec 1 := Scalar.xori v97_r0 true_76_r0
  let v99_r0 : BitVec 1 := Scalar.andi v96_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_104_r0 : BitVec 32 := 0#32
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let v145_r0 : BitVec 32 := Scalar.muli c128_i32_100_r0 v66_r0
  ![0, v145_r0.toNat]
def k0_off9 (arg7_r0 : BitVec 32) : Fin 1 → Nat :=
  let c2_i32_101_r0 : BitVec 32 := 2#32
  let v146_r0 : BitVec 32 := Scalar.remui arg7_r0 c2_i32_101_r0
  ![v146_r0.toNat]
def k0_off10 (arg8_r0 : BitVec 32) : Fin 3 → Nat :=
  let c2_i32_82_r0 : BitVec 32 := 2#32
  let v110_r0 : BitVec 32 := Scalar.remui arg8_r0 c2_i32_82_r0
  let c0_i32_100_r1 : BitVec 32 := 0#32
  let c0_i32_101_r1 : BitVec 32 := 0#32
  ![v110_r0.toNat, 0, 0]

def k0_chk2 (arg8_r0 : BitVec 32) : Prop :=
  (∀ a, (k0_off10 arg8_r0) a + S1x128x128.size a ≤ S2x128x128.size a)
instance k0_chk2.dec : ∀ (arg8_r0 : BitVec 32), Decidable (k0_chk2 arg8_r0) := fun arg8_r0 => decidable_of_iff' _ (Iff.of_eq (k0_chk2.eq_1 arg8_r0))
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_81_r0 : BitVec 32 := 2#32
  let v109_r0 : BitVec 32 := Scalar.remui arg7_r0 c2_i32_81_r0
  let c0_i32_102_r1 : BitVec 32 := 0#32
  let c0_i32_103_r1 : BitVec 32 := 0#32
  ![v109_r0.toNat, 0, 0]

def k0_chk3 (arg7_r0 : BitVec 32) : Prop :=
  (∀ a, (k0_off11 arg7_r0) a + S1x1x128.size a ≤ S2x1x128.size a)
instance k0_chk3.dec : ∀ (arg7_r0 : BitVec 32), Decidable (k0_chk3 arg7_r0) := fun arg7_r0 => decidable_of_iff' _ (Iff.of_eq (k0_chk3.eq_1 arg7_r0))
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_100_r0 : BitVec 32 := 2#32
  let v145_r0 : BitVec 32 := Scalar.remui arg8_r0 c2_i32_100_r0
  let c0_i32_102_r0 : BitVec 32 := 0#32
  let c0_i32_103_r0 : BitVec 32 := 0#32
  ![v145_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c200_i32_62_r0 : BitVec 32 := 200#32
  let v74_r0 : BitVec 1 := Scalar.cmpi .eq v73_r0 c200_i32_62_r0
  let c0_i32_63_r0 : BitVec 32 := 0#32
  let v75_r0 : BitVec 32 := Scalar.select v74_r0 c0_i32_63_r0 v73_r0
  let v76_r0 : BitVec 32 := Scalar.addi v75_r0 v4
  let v116_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c199_i32_55_r0 : BitVec 32 := 199#32
  let v65_r0 : BitVec 1 := Scalar.cmpi .eq arg5_r0 c199_i32_55_r0
  let v117_r0 : BitVec 1 := Scalar.ori v116_r0 v65_r0
  let v118_r0 : BitVec 32 := Scalar.extui v117_r0
  let c0_i32_85_r0 : BitVec 32 := 0#32
  let v119_r0 : BitVec 1 := Scalar.cmpi .ne v118_r0 c0_i32_85_r0
  v119_r0

def k0_off13 (i : grid0.Coords) (arg10_r0 : BitVec 32) : Fin 2 → Nat :=
  let c128_i32_101_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let v146_r0 : BitVec 32 := Scalar.muli c128_i32_101_r0 v66_r0
  let c0_i32_104_r0 : BitVec 32 := 0#32
  ![v146_r0.toNat, 0]
def k0_off14 (arg8_r0 : BitVec 32) : Fin 1 → Nat :=
  let c2_i32_100_r0 : BitVec 32 := 2#32
  let v145_r0 : BitVec 32 := Scalar.remui arg8_r0 c2_i32_100_r0
  ![v145_r0.toNat]
def k0_off15 (arg9_r0 : BitVec 32) : Fin 3 → Nat :=
  let c2_i32_100_r0 : BitVec 32 := 2#32
  let v145_r0 : BitVec 32 := Scalar.remui arg9_r0 c2_i32_100_r0
  let c0_i32_102_r0 : BitVec 32 := 0#32
  let c0_i32_103_r0 : BitVec 32 := 0#32
  ![v145_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c199_i32_59_r0 : BitVec 32 := 199#32
  let v70_r0 : BitVec 32 := Scalar.select v69_r0 c199_i32_59_r0 v68_r0
  let v71_r0 : BitVec 32 := Scalar.addi v70_r0 v4
  let v129_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_91_r0 : BitVec 1 := 1#1
  let v130_r0 : BitVec 1 := Scalar.xori v64_r0 true_91_r0
  let v131_r0 : BitVec 1 := Scalar.andi v129_r0 v130_r0
  let v132_r0 : BitVec 32 := Scalar.extui v131_r0
  let c0_i32_92_r0 : BitVec 32 := 0#32
  let v133_r0 : BitVec 1 := Scalar.cmpi .ne v132_r0 c0_i32_92_r0
  v133_r0

def k0_off16 (i : grid0.Coords) (arg10_r0 : BitVec 32) : Fin 2 → Nat :=
  let c128_i32_101_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c199_i32_59_r0 : BitVec 32 := 199#32
  let v70_r0 : BitVec 32 := Scalar.select v69_r0 c199_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v71_r0 : BitVec 32 := Scalar.addi v70_r0 v4
  let v146_r0 : BitVec 32 := Scalar.muli c128_i32_101_r0 v71_r0
  let c0_i32_104_r0 : BitVec 32 := 0#32
  ![v146_r0.toNat, 0]
def k0_off17 (arg9_r0 : BitVec 32) : Fin 1 → Nat :=
  let c2_i32_100_r0 : BitVec 32 := 2#32
  let v145_r0 : BitVec 32 := Scalar.remui arg9_r0 c2_i32_100_r0
  ![v145_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x819200.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x819200.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S819200x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S819200x128.size a) ∧
  (∀ (k0_h7 : k0_cond7 i k0_t1 arg10_r0 = 1#1), ∀ a, (k0_off17 arg9_r0) a + S1.size a ≤ S2.size a)
instance k0_chk1.dec : ∀ (i : grid0.Coords) (k0_t1 : Fin k0_t1_loop.trips) (arg6_r0 : BitVec 32) (arg7_r0 : BitVec 32) (arg8_r0 : BitVec 32) (arg9_r0 : BitVec 32) (arg10_r0 : BitVec 32), Decidable (k0_chk1 i k0_t1 arg6_r0 arg7_r0 arg8_r0 arg9_r0 arg10_r0) := fun i k0_t1 arg6_r0 arg7_r0 arg8_r0 arg9_r0 arg10_r0 => decidable_of_iff' _ (Iff.of_eq (k0_chk1.eq_1 i k0_t1 arg6_r0 arg7_r0 arg8_r0 arg9_r0 arg10_r0))
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x819200.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x819200.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S819200x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S819200x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c199_i32_33_r0 : BitVec 32 := 199#32
  let v37_r0 : BitVec 32 := Scalar.select v36_r0 c199_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c200_i32 : BitVec 32 := 200#32
  let v4 : BitVec 32 := Scalar.muli v3 c200_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S819200x128.size a)
instance k0_chk5.dec : ∀ (i : grid0.Coords) (v33_4_r0 : BitVec 32), Decidable (k0_chk5 i v33_4_r0) := fun i v33_4_r0 => decidable_of_iff' _ (Iff.of_eq (k0_chk5.eq_1 i v33_4_r0))
theorem k0_off19_inb : ∀ (i : grid0.Coords) (v33_4_r0 : BitVec 32) (k0_hw5 : k0_chk5 i v33_4_r0), ∀ a, (k0_off19 i v33_4_r0) a + S128x128.size a ≤ S819200x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
instance k0_chk4.dec : ∀ (v33_3_r0 : BitVec 32), Decidable (k0_chk4 v33_3_r0) := fun v33_3_r0 => decidable_of_iff' _ (Iff.of_eq (k0_chk4.eq_1 v33_3_r0))
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨1, ![200], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x200_S200x4096_1_0 : S4096x200.Transposes [1, 0] S200x4096
  shapeCasts_S200x4096_S1x819200 : S200x4096.ShapeCasts S1x819200
  pads_S1000x64_S1000x128_000_0640 : S1000x64.Pads (![0, 0] : Fin 2 → Nat) ![0, 64] ![0, 0] S1000x128
  h_S_ : 0 < S_.numel
  squeezes_S1x1x128_S1x128 : S1x1x128.Squeezes S1x128
  squeezes_S1_S_ : S1.Squeezes S_
  squeezes_S1x128x128_S128x128 : S1x128x128.Squeezes S128x128
  inb_S1x128_S1x128_0_0 : ∀ a, (![0, 0] : Fin 2 → Nat) a + S1x128.size a ≤ S1x128.size a
  squeezes_S1x128_S128 : S1x128.Squeezes S128
  inb_S1000x128_S1000x128_0_0 : ∀ a, (![0, 0] : Fin 2 → Nat) a + S1000x128.size a ≤ S1000x128.size a
  gathers_S1000x128_S128x128 : S1000x128.Gathers 0 S128x128
  shapeCasts_S819200x128_S200x4096x128 : S819200x128.ShapeCasts S200x4096x128
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  slices_S4096x128_o0_0_S4096x64 : S4096x128.Slices ![0, 0] S4096x64
  transposes_S4096x64_p1_0_S64x4096 : S4096x64.Transposes [1, 0] S64x4096
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  shapeCasts_S64x4096_S1x64x4096 : S64x4096.ShapeCasts S1x64x4096
  transposes_S200x64x4096_S4096x200x64_2_0_1 : S200x64x4096.Transposes [2, 0, 1] S4096x200x64
  hcc0_scoped1 : 0 + S2.numel ≤ 9
  hcc0_scoped3 : 2 + S2.numel ≤ 9
  hcc0_scoped4 : 4 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ a, k0_off1 a + S1x1x128.size a ≤ S2x1x128.size a
  k0_off2_inb : ∀ i : grid0.Coords, ∀ a, (k0_off2 i) a + S1x128.size a ≤ S1x819200.size a
  k0_off3_inb : ∀ a, k0_off3 a + S1.size a ≤ S2.size a
  k0_t1_ok : k0_t1_loop.OK
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x128.size a ≤ S200x4096x128.size a
  hwx1_0 : ∀ i : grid1.Coords, EltTy.bits .f32 = 32 ∨ (Rect.block (s := S200x4096x128) S1x4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x4096.size a ≤ S200x64x4096.size a
  hwx1_1 : ∀ i : grid1.Coords, EltTy.bits .f32 = 32 ∨ (Rect.block (s := S200x64x4096) S1x64x4096.size (cc1_transform_1 i) (hinb1_1 i)).WholeWords (EltTy.packing .f32)

variable [Facts₀]

abbrev cc0_scoped1 : DmaSems sig S2 := SemArray.consecutive 0 S2 hcc0_scoped1
abbrev cc0_scoped3 : DmaSems sig S2 := SemArray.consecutive 2 S2 hcc0_scoped3
abbrev cc0_scoped4 : DmaSems sig S_ := SemArray.consecutive 4 S_ hcc0_scoped4

abbrev win1_0 : Pipeline.Window sig grid1 :=
  Pipeline.Window.ofSpec (Memref.whole main_v4) S1x4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x64x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S4096x200 : Shape := ⟨2, ![4096, 200]⟩
abbrev S1000x64 : Shape := ⟨2, ![1000, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000x64, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x64, .f32⟩
  | .hbm, ⟨21, _⟩ => ⟨S4096x200x64, .i1⟩
  | .hbm, ⟨22, _⟩ => ⟨S_, .f32⟩
  | .hbm, ⟨23, _⟩ => ⟨S4096x200x64, .f32⟩
  | .hbm, ⟨24, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x64_0_1 : S4096x200.BroadcastsInDim S4096x200x64 (![0, 1] : Fin 2 → Fin S4096x200x64.rank)
  bcast_S_S4096x200x64 : S_.BroadcastsInDim S4096x200x64 (![] : Fin 0 → Fin S4096x200x64.rank)
  gather_S1000x64_S4096x200x1_S4096x200x64_2_0_n_n_0_2_164_wf : GatherDims.WF S1000x64 S4096x200x1 S4096x200x64 [2] [0] [] [0] [] 2 ![1, 64]

variable [Facts₀]

def gather_S1000x64_S4096x200x1_S4096x200x64_2_0_n_n_0_2_164 : GatherDims S1000x64 S4096x200x1 S4096x200x64 where
  offsetDims := [2]
  collapsedSliceDims := [0]
  operandBatchingDims := []
  startIndicesBatchingDims := []
  startIndexMap := [0]
  indexVectorDim := 2
  sliceSizes := ![1, 64]
  wf := gather_S1000x64_S4096x200x1_S4096x200x64_2_0_n_n_0_2_164_wf

class Facts : Prop extends Facts₀ where

variable [Facts]
-- ==== Proof.PreFacts.lean ====
/-
  What the certificate's precondition says of the index array, read back.

  The precondition is a conjunction of two "for all entries" tests, each an `and`-reduction over a whole
  array into a single word: every table entry has finite magnitude, and every index word `w` satisfies
  `0 ≤ w` and `w ≤ 999` as a signed 32-bit number. Only the second is needed: a lookup moves data and
  computes nothing. A word that is nonnegative as a signed number has its top bit clear, so its signed and
  unsigned readings agree; hence `w ≤ 999` signed gives `w.toNat < 1000`.
-/
import proofs.«203052_g23699629540016_cont_8to1_215_27_alg».proof.Pre_input_domain
import proofs.«203052_g23699629540016_cont_8to1_215_27_alg».proof.Proof.Gen.Pre_input_domain
import Idealize.ShloMosaic.Lib.ReduceAll
import Idealize.ShloMosaic.Lib.ValueIdx

namespace Cert.Proof.PreFacts

open Idealize.ShloMosaic

/-- The shape of rank 0 has exactly one index: a function out of the empty type. -/
instance : Subsingleton Cert.Pre_input_domain.S_.Idx := ⟨fun _ _ => funext fun d => d.elim0⟩

/-- A 32-bit word between 0 and 999 as a signed number is below 1000 as an unsigned one:
    if the unsigned value were 2³¹ or more, the signed value would be negative. -/
theorem toNat_lt_of_signed_range (v : BitVec 32)
    (h0 : IntOp.cmpi .sge v 0#32 = 1#1) (h1 : IntOp.cmpi .sle v 999#32 = 1#1) : v.toNat < 1000 := by
  rw [IntOp.cmpi_sge] at h0
  rw [IntOp.cmpi_sle] at h1
  have e0 : (0#32 : BitVec 32).toInt = 0 := by decide
  have e1 : (999#32 : BitVec 32).toInt = 999 := by decide
  rw [e0] at h0
  rw [e1] at h1
  rw [BitVec.toInt_eq_toNat_cond] at h0 h1
  by_cases hc : 2 * v.toNat < 2 ^ 32
  · rw [if_pos hc] at h1
    omega
  · rw [if_neg hc] at h0
    have hv : v.toNat < 2 ^ 32 := v.isLt
    omega

/-- Under the precondition every index word, read unsigned, is below 1000. -/
theorem idx_lt {F : FTy → Type} [FloatOps F] (a0 : IVec Cert.Pre_input_domain.S4096x200 32) (a1 : FVec F Cert.Pre_input_domain.S1000x64 .f32)
    (h : Cert.Pre_input_domain.fn (F := F) a0 a1 = fun _ => 1#1) : ∀ j, (a0 j).toNat < 1000 := by
  intro j
  have e := congrFun h ValueIdx.ix0
  dsimp only [Cert.Pre_input_domain.fn] at e
  -- the conjunction of the two whole-array tests: keep the second, the one about the index words
  have e2 := (IntOp.andi_eq_one.1 e).2
  -- an `and`-reduction over every axis that is 1 had a 1 at every entry
  have ej := Host.reduce_andi_all _ _ _ _ _ e2 j
  -- at the entry `j`: (a0 j ≥ 0) and (a0 j ≤ 999), the constants broadcast to every entry
  obtain ⟨h0, h1⟩ := IntOp.andi_eq_one.1 ej
  exact toNat_lt_of_signed_range (a0 j) h0 h1

end Cert.Proof.PreFacts
-- ==== Proof.Spec.lean ====
/-
  The function both programs compute, stated once over plain index functions and no program.

  An embedding lookup: `atom_types` is a 4096 × 200 array of 32-bit words, `table` a 1000 × 64 array of
  numbers, and the result's entry `(b, n, d)` is column `d` of the table row that the word
  `atom_types[b, n]` names. Nothing is computed: every entry of the result is a copy of one entry of the
  table, so the same statement serves at any element type (words read bit for bit, or extended reals).
  A word names the row equal to its unsigned value; under the certificate's precondition every word is
  below 1000, and the fallback to row 0 for a larger word is never met.
-/
import Idealize.ShloMosaic.PureOps
import Idealize.ShloMosaic.Lib.ValueIdx

noncomputable section

namespace Cert.Spec

open Idealize.ShloMosaic Idealize.ShloMosaic.ValueIdx

abbrev SIdx : Shape := ⟨2, ![4096, 200]⟩
abbrev STab : Shape := ⟨2, ![1000, 64]⟩
abbrev SOut : Shape := ⟨3, ![4096, 200, 64]⟩

/-- The table row a word names: its unsigned value when that is below 1000, else row 0. -/
def rowOfWord (w : BitVec 32) : Fin 1000 := if h : w.toNat < 1000 then ⟨w.toNat, h⟩ else ⟨0, by decide⟩

theorem rowOfWord_val {w : BitVec 32} (h : w.toNat < 1000) : (rowOfWord w).val = w.toNat := by
  unfold rowOfWord; rw [dif_pos h]

/-- The lookup: entry `(b, n, d)` of the result is entry `(row named by idx[b, n], d)` of the table. -/
def lookup {α : Type} (idx : SIdx.Idx → BitVec 32) (tab : STab.Idx → α) : SOut.Idx → α :=
  fun j => tab (ix2 (rowOfWord (idx (ix2 ⟨(j 0).val, (j 0).isLt⟩ ⟨(j 1).val, (j 1).isLt⟩))) ⟨(j 2).val, (j 2).isLt⟩)

theorem lookup_apply {α : Type} (idx : SIdx.Idx → BitVec 32) (tab : STab.Idx → α) (b : Fin 4096) (n : Fin 200) (d : Fin 64) :
    lookup idx tab (ix3 b n d) = tab (ix2 (rowOfWord (idx (ix2 b n))) d) := rfl

end Cert.Spec

end
-- ==== Proof.RefRun.lean ====
/-
  The reference's run, and its value.

  The reference is an embedding lookup written as one call of a row-take function, which itself calls a
  three-way select once. Unfolding the two calls, the program is a straight line of twenty-three host
  operations: the wrap of negative index words (compare with 0, add 1000, select), the widening of the
  index array by a unit axis, the in-bounds test (at least 0 and at most 999, reduced by `and` over the
  unit axis), a gather of whole table rows at the widened indices, and a final select between the gathered
  rows and a not-a-number fill under the in-bounds test.

  Part one: every weakly fair execution of that line terminates with the result buffer at the operations'
  composed term of the two arguments, the arguments unchanged. Part two: when every index word is below
  1000 read unsigned, the composed term is the lookup, entry by entry — no word is negative, so the wrap
  leaves it alone; the in-bounds test holds everywhere, so the fill is never chosen; and the gather's clamp
  of the start row into [0, 999] is the identity, so entry (b, n, d) reads the table at (idx[b, n], d).
-/
import proofs.«203052_g23699629540016_cont_8to1_215_27_alg».proof.ReferenceIdeal
import proofs.«203052_g23699629540016_cont_8to1_215_27_alg».proof.Proof.Gen.ReferenceIdeal
import proofs.«203052_g23699629540016_cont_8to1_215_27_alg».proof.Proof.Spec
import Idealize.ShloMosaic.Lib.StableHlo.Run
import Idealize.ShloMosaic.Lib.ValueIdx
import Idealize.ShloMosaic.Lib.Affine
import Idealize.ShloMosaic.PureOps.Reduce
import Idealize.ShloMosaic.PureOps.Ideal

noncomputable section

namespace Cert.Proof.RefRun

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-! ## The program as a straight line -/

/-- The reference's twenty-three operations in order, the two calls unfolded: the row-take function's six
    leading operations, the select of the function it calls, and its sixteen remaining ones. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0 : TRef sig ⟨S4096x200, .i32⟩) main_call0.v0 main_call0.v1 (cmpi .slt),
    TRef.nullary main_call0.c_0 (constantI S_ 32 1000#32),
    TRef.unary main_call0.c_0 main_call0.v2 (broadcastInDim S4096x200 ![] bcast_S_S4096x200),
    TRef.binary (.of main_arg0 : TRef sig ⟨S4096x200, .i32⟩) main_call0.v2 main_call0.v3 addi,
    TRef.ternary main_call0.v1 main_call0.v3 (.of main_arg0 : TRef sig ⟨S4096x200, .i32⟩) main_call0.call0.v0 select,
    TRef.unary main_call0.call0.v0 main_call0.v5 (broadcastInDim S4096x200x1 ![0, 1] bcast_S4096x200_S4096x200x1_0_1),
    TRef.nullary main_call0.c_1 (constantI S1 32 999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1 : TRef sig ⟨S1000x64, .f32⟩) main_call0.v5 main_call0.v13 (fun x i => Host.gather gather_S1000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select ]

set_option maxRecDepth 1024 in
/-- The program is that line: with the two functions' definitions unfolded at their calls, both sides are one
    chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters, every weakly fair execution of the program terminates, and every final
    state has each buffer at the fold of the operations' results over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The composed term -/

/-- The index words after the wrap of negative ones: a word below 0 (signed) has 1000 added. -/
def wrapped (idx : IVec S4096x200 32) : IVec S4096x200 32 :=
  select (cmpi .slt idx (broadcastInDim S4096x200 ![] bcast_S_S4096x200 (constantI S_ 32 0#32)))
    (addi idx (broadcastInDim S4096x200 ![] bcast_S_S4096x200 (constantI S_ 32 1000#32))) idx

/-- The gather's start indices: the wrapped words, with a unit axis appended. -/
def starts (idx : IVec S4096x200 32) : IVec S4096x200x1 32 :=
  broadcastInDim S4096x200x1 ![0, 1] bcast_S4096x200_S4096x200x1_0_1 (wrapped idx)

/-- The in-bounds test of an array of start indices: at least 0 and at most 999, reduced by `and` over the unit axis. -/
def inBoundsOf (st : IVec S4096x200x1 32) : IVec S4096x200 1 :=
  Host.reduce IntOp.andi
    (andi (cmpi .sge st (broadcastInDim S4096x200x1 ![] bcast_S_S4096x200x1 (constantI S_ 32 0#32)))
      (cmpi .sle st (broadcastInDim S4096x200x1 ![0, 1, 2] bcast_S1x1x1_S4096x200x1_0_1_2
        (broadcastInDim S1x1x1 ![2] bcast_S1_S1x1x1_2 (constantI S1 32 999#32)))))
    (constantI S_ 1 1#1) reducesTo_S4096x200x1_S4096x200_d2 h_S_

/-- The gather's dimension numbers, under a short name. -/
abbrev gdims : GatherDims S1000x64 S4096x200x1 S4096x200x64 := gather_S1000x64_S4096x200x1_S4096x200x64_2_0_n_n_0_2_164

/-- The last stretch: under a test `t`, the rows gathered at start indices `st` where the test holds, the fill elsewhere. -/
def pick (t : IVec S4096x200 1) (st : IVec S4096x200x1 32) (tab : FVec F S1000x64 .f32) : FVec F S4096x200x64 .f32 :=
  select (broadcastInDim S4096x200x64 ![0, 1] bcast_S4096x200_S4096x200x64_0_1 t)
    (Host.gather gdims tab st)
    (broadcastInDim S4096x200x64 ![] bcast_S_S4096x200x64 (constant S_ .f32 0x7FC00000#32))

/-- What the program leaves in its result, as a term of its two arguments. -/
def composed (idx : IVec S4096x200 32) (tab : FVec F S1000x64 .f32) : FVec F S4096x200x64 .f32 :=
  pick (inBoundsOf (starts idx)) (starts idx) tab

/-! ## The line in four stretches

The start indices feed three later operations (both comparisons and the gather), so the fold is read one stretch at a
time — the wrap, the widening, the in-bounds test, the gather and final select — each stretch's result a term of the
one or two buffers it reads, every other buffer it is asked about left as it was. -/

/-- The wrap of negative index words: compare with 0, add 1000, select. -/
abbrev opsWrap : List (HloOp τ sig (Elt F)) :=
  [ TRef.nullary main_call0.c (constantI S_ 32 0#32),
    TRef.unary main_call0.c main_call0.v0 (broadcastInDim S4096x200 ![] bcast_S_S4096x200),
    TRef.binary (.of main_arg0 : TRef sig ⟨S4096x200, .i32⟩) main_call0.v0 main_call0.v1 (cmpi .slt),
    TRef.nullary main_call0.c_0 (constantI S_ 32 1000#32),
    TRef.unary main_call0.c_0 main_call0.v2 (broadcastInDim S4096x200 ![] bcast_S_S4096x200),
    TRef.binary (.of main_arg0 : TRef sig ⟨S4096x200, .i32⟩) main_call0.v2 main_call0.v3 addi,
    TRef.ternary main_call0.v1 main_call0.v3 (.of main_arg0 : TRef sig ⟨S4096x200, .i32⟩) main_call0.call0.v0 select ]

/-- The widening of the wrapped words by a unit axis. -/
abbrev opsWiden : List (HloOp τ sig (Elt F)) :=
  [ TRef.unary main_call0.call0.v0 main_call0.v5 (broadcastInDim S4096x200x1 ![0, 1] bcast_S4096x200_S4096x200x1_0_1) ]

/-- The in-bounds test of the start indices. -/
abbrev opsTest : List (HloOp τ sig (Elt F)) :=
  [ TRef.nullary main_call0.c_1 (constantI S1 32 999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_) ]

/-- The gather of rows and the final select. -/
abbrev opsPick : List (HloOp τ sig (Elt F)) :=
  [ TRef.binary (.of main_arg1 : TRef sig ⟨S1000x64, .f32⟩) main_call0.v5 main_call0.v13 (fun x i => Host.gather gather_S1000x64_S4096x200x1_S4096x200x64_2_0_n_n_0_2_164 x i),
    TRef.unary main_call0.v12 main_call0.v14 (broadcastInDim S4096x200x64 ![0, 1] bcast_S4096x200_S4096x200x64_0_1),
    TRef.nullary main_call0.cst (constant S_ .f32 0x7FC00000#32),
    TRef.unary main_call0.cst main_call0.v15 (broadcastInDim S4096x200x64 ![] bcast_S_S4096x200x64),
    TRef.ternary main_call0.v14 main_call0.v13 main_call0.v15 main_call0.v16 select ]

/-- The line is the four stretches in order. -/
theorem ops_split : (ops : List (HloOp τ sig (Elt F))) = opsWrap ++ (opsWiden ++ (opsTest ++ opsPick)) := rfl

/-- The contents after two lines run one after the other: the second's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

section Stretches

variable (W : Valuation τ sig (Elt F))

/-- The wrap leaves the wrapped words in its select's buffer … -/
theorem wrap_out : after opsWrap W (main_call0_v4 : DevRef τ sig) = wrapped (W (main_arg0 : DevRef τ sig)) := by
  unfold wrapped
  after_results
  rfl
/-- … and the table as it was. -/
theorem wrap_tab : after opsWrap W (main_arg1 : DevRef τ sig) = W (main_arg1 : DevRef τ sig) := by after_results

/-- The widening reads the wrapped words … -/
theorem widen_out : after opsWiden W (main_call0_v5 : DevRef τ sig)
    = broadcastInDim S4096x200x1 ![0, 1] bcast_S4096x200_S4096x200x1_0_1 (W (main_call0_v4 : DevRef τ sig)) := by
  after_results
  rfl
/-- … and leaves the table as it was. -/
theorem widen_tab : after opsWiden W (main_arg1 : DevRef τ sig) = W (main_arg1 : DevRef τ sig) := by after_results

attribute [local irreducible] Host.reduce in
/-- The test stretch leaves the in-bounds test of the start indices in the reduction's buffer … -/
theorem test_out : after opsTest W (main_call0_v12 : DevRef τ sig) = inBoundsOf (W (main_call0_v5 : DevRef τ sig)) := by
  unfold inBoundsOf
  after_results
  rfl
/-- … and the start indices and the table as they were. -/
theorem test_starts : after opsTest W (main_call0_v5 : DevRef τ sig) = W (main_call0_v5 : DevRef τ sig) := by after_results
theorem test_tab : after opsTest W (main_arg1 : DevRef τ sig) = W (main_arg1 : DevRef τ sig) := by after_results

attribute [local irreducible] Host.gather in
/-- The last stretch leaves, in the result buffer, the gathered rows under the test. -/
theorem pick_out : after opsPick W (main_v0 : DevRef τ sig)
    = pick (W (main_call0_v12 : DevRef τ sig)) (W (main_call0_v5 : DevRef τ sig)) (W (main_arg1 : DevRef τ sig)) := by
  unfold pick
  after_results
  rfl

end Stretches

/-- The fold at the result buffer is the composed term of the two arguments' contents: the four stretches' results,
    each substituted into the next. -/
theorem out_eq (V : Valuation τ sig (Elt F)) :
    after ops V (main_v0 : DevRef τ sig) = composed (V (main_arg0 : DevRef τ sig)) (V (main_arg1 : DevRef τ sig)) := by
  rw [ops_split, after_app, after_app, after_app, pick_out, test_out, test_starts, test_tab, widen_out, widen_tab, wrap_out,
    wrap_tab]
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

/-! ## The value: under the precondition the composed term is the lookup -/

section Words

variable {w : BitVec 32}

/-- A word below 1000 read unsigned has its top bit clear, so read signed it is the same number. -/
theorem toInt_of_lt (h : w.toNat < 1000) : w.toInt = (w.toNat : Int) :=
  BitVec.toInt_eq_toNat_of_lt (by omega)

/-- Such a word is not negative … -/
theorem not_neg (h : w.toNat < 1000) : ¬IntOp.cmpi .slt w 0#32 = 1#1 := by
  rw [IntOp.cmpi_slt, toInt_of_lt h, show (0#32 : BitVec 32).toInt = 0 from by decide]
  omega

/-- … it is at least 0 … -/
theorem ge_zero (h : w.toNat < 1000) : IntOp.cmpi .sge w 0#32 = 1#1 := by
  rw [IntOp.cmpi_sge, toInt_of_lt h, show (0#32 : BitVec 32).toInt = 0 from by decide]
  omega

/-- … and at most 999. -/
theorem le_999 (h : w.toNat < 1000) : IntOp.cmpi .sle w 999#32 = 1#1 := by
  rw [IntOp.cmpi_sle, toInt_of_lt h, show (999#32 : BitVec 32).toInt = 999 from by decide]
  omega

end Words

/-- The wrap leaves a word below 1000 alone: it is not negative. -/
theorem wrapped_apply (idx : IVec S4096x200 32) (k : S4096x200.Idx) (h : (idx k).toNat < 1000) : wrapped idx k = idx k := by
  show Scalar.select (IntOp.cmpi .slt (idx k) 0#32) _ (idx k) = idx k
  unfold Scalar.select
  exact if_neg (not_neg h)

/-- Appending a unit axis: entry `(b, n, 0)` of the widened array is entry `(b, n)`. -/
theorem bcast_unit_apply {α : Type} (x : S4096x200.Idx → α) (b : Fin 4096) (n : Fin 200) (z : Fin 1) :
    broadcastInDim S4096x200x1 ![0, 1] bcast_S4096x200_S4096x200x1_0_1 x (ix3 b n z) = x (ix2 b n) := by
  unfold broadcastInDim
  congr 1
  funext a
  match a with
  | ⟨0, _⟩ => rfl
  | ⟨1, _⟩ => rfl

/-- Repeating along a new last axis of 64: entry `(b, n, d)` of the widened array is entry `(b, n)`. -/
theorem bcast_cols_apply {α : Type} (x : S4096x200.Idx → α) (b : Fin 4096) (n : Fin 200) (d : Fin 64) :
    broadcastInDim S4096x200x64 ![0, 1] bcast_S4096x200_S4096x200x64_0_1 x (ix3 b n d) = x (ix2 b n) := by
  unfold broadcastInDim
  congr 1
  funext a
  match a with
  | ⟨0, _⟩ => rfl
  | ⟨1, _⟩ => rfl

/-- The start index at `(b, n, 0)` is the index word at `(b, n)`. -/
theorem starts_apply (idx : IVec S4096x200 32) (h : ∀ k, (idx k).toNat < 1000) (b : Fin 4096) (n : Fin 200) (z : Fin 1) :
    starts idx (ix3 b n z) = idx (ix2 b n) := by
  unfold starts
  rw [bcast_unit_apply, wrapped_apply _ _ (h _)]

/-- A left fold by `and` from 1 over words that are all 1 is 1. -/
theorem foldl_andi_one {ι : Type} (f : ι → BitVec 1) (hf : ∀ i, f i = 1#1) :
    ∀ l : List ι, l.foldl (fun r i => IntOp.andi r (f i)) 1#1 = 1#1
  | [] => rfl
  | a :: l => by
    have e : IntOp.andi 1#1 (f a) = 1#1 := by rw [hf a]; decide
    rw [List.foldl_cons, e]
    exact foldl_andi_one f hf l

/-- The in-bounds test holds everywhere: it is a fold by `and`, from 1, of tests that all hold. -/
theorem inBounds_apply (idx : IVec S4096x200 32) (h : ∀ k, (idx k).toNat < 1000) (k : S4096x200.Idx) :
    inBoundsOf (starts idx) k = 1#1 := by
  unfold inBoundsOf
  rw [Host.reduce_eq_foldl]
  refine foldl_andi_one _ (fun i => ?_) _
  obtain ⟨b, n, z, rfl⟩ : ∃ b n z, i = ix3 b n z := ⟨i 0, i 1, i 2, eq_ix3 i⟩
  show IntOp.andi (IntOp.cmpi .sge (starts idx (ix3 b n z)) 0#32) (IntOp.cmpi .sle (starts idx (ix3 b n z)) 999#32) = 1#1
  rw [starts_apply idx h]
  exact IntOp.andi_eq_one.2 ⟨ge_zero (h _), le_999 (h _)⟩

/-! ### The gather of whole rows, read at an entry

The gather takes from a `1000 × 64` table, at each start index `st[b, n, 0]`, the slice of one row and all 64
columns: the table's row axis is collapsed and addressed by the start index, its column axis is the result's
last axis. Result entry `(b, n, d)` reads the table at row `st[b, n, 0]` — read signed and clamped into
`[0, 999]` — and column `d`. -/

/-- The row read: the start index, unclamped when it is below 1000. -/
theorem operand_row (st : IVec S4096x200x1 32) (b : Fin 4096) (n : Fin 200) (d : Fin 64)
    (hw : (st (ix3 b n (0 : Fin 1))).toNat < 1000) :
    (gdims.operandIdx (ix3 b n d) st (0 : Fin 2)).val = (st (ix3 b n (0 : Fin 1))).toNat := by
  show gdims.start (ix3 b n d) st (0 : Fin 2) + gdims.batchCoord (ix3 b n d) (0 : Fin 2) + gdims.offCoord (ix3 b n d) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gdims.startIndexMap from List.mem_singleton.mpr rfl)]
  have hsi : gdims.siIdx (ix3 b n d) ⟨List.idxOf (0 : Fin 2) gdims.startIndexMap,
      List.idxOf_lt_length_iff.2 (List.mem_singleton.mpr rfl)⟩ = ix3 b n (0 : Fin 1) := by
    funext c; refine Fin.ext ?_
    match c with
    | ⟨0, _⟩ => rfl
    | ⟨1, _⟩ => rfl
    | ⟨2, _⟩ => rfl
  rw [hsi]
  show min (st (ix3 b n (0 : Fin 1))).toInt.toNat (1000 - 1) = (st (ix3 b n (0 : Fin 1))).toNat
  rw [toInt_of_lt hw, Int.toNat_natCast]
  omega

/-- The column read: the result's last coordinate. -/
theorem operand_col (st : IVec S4096x200x1 32) (b : Fin 4096) (n : Fin 200) (d : Fin 64) :
    (gdims.operandIdx (ix3 b n d) st (1 : Fin 2)).val = d.val := by
  show gdims.start (ix3 b n d) st (1 : Fin 2) + gdims.batchCoord (ix3 b n d) (1 : Fin 2) + gdims.offCoord (ix3 b n d) (1 : Fin 2) = _
  rw [GatherDims.batchCoord_eq_zero _ _ _ List.not_mem_nil]
  have hs : gdims.start (ix3 b n d) st (1 : Fin 2) = 0 := by
    unfold GatherDims.start
    exact dif_neg (show (1 : Fin 2) ∉ gdims.startIndexMap from by decide)
  rw [hs]
  unfold GatherDims.offCoord
  rw [dif_pos (show (1 : Fin 2) ∈ gdims.sKept from by decide), Nat.add_zero, Nat.zero_add]
  rfl

/-- The gather read at `(b, n, d)`: the table at the row the start index names, column `d`. -/
theorem gather_row_apply {α : Type} (tab : S1000x64.Idx → α) (st : IVec S4096x200x1 32) (b : Fin 4096) (n : Fin 200) (d : Fin 64)
    (hw : (st (ix3 b n (0 : Fin 1))).toNat < 1000) :
    Host.gather gdims tab st (ix3 b n d) = tab (ix2 ⟨(st (ix3 b n (0 : Fin 1))).toNat, hw⟩ d) := by
  unfold Host.gather
  congr 1
  funext a
  refine Fin.ext ?_
  match a with
  | ⟨0, _⟩ => exact operand_row st b n d hw
  | ⟨1, _⟩ => exact operand_col st b n d

/-- Under the precondition the composed term is the lookup. -/
theorem composed_eq_lookup (idx : IVec S4096x200 32) (tab : FVec F S1000x64 .f32) (h : ∀ k, (idx k).toNat < 1000) :
    composed idx tab = Cert.Spec.lookup idx tab := by
  funext j
  obtain ⟨b, n, d, rfl⟩ : ∃ b n d, j = ix3 b n d := ⟨j 0, j 1, j 2, eq_ix3 j⟩
  have hst : starts idx (ix3 b n (0 : Fin 1)) = idx (ix2 b n) := starts_apply idx h b n 0
  have hw : (starts idx (ix3 b n (0 : Fin 1))).toNat < 1000 := by rw [hst]; exact h _
  unfold composed pick
  rw [select_apply, bcast_cols_apply, inBounds_apply idx h, select_one, gather_row_apply tab (starts idx) b n d hw,
    Cert.Spec.lookup_apply]
  congr 2
  refine Fin.ext ?_
  rw [Cert.Spec.rowOfWord_val (h _)]
  show (starts idx (ix3 b n (0 : Fin 1))).toNat = (idx (ix2 b n)).toNat
  rw [hst]

/-! ## The run -/

/-- From any memory with zero counters whose index words are all below 1000: every weakly fair execution of the
    reference terminates with its result the lookup of the two arguments' launch contents, the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg)
    (hidx : ∀ (c : Dev Cert.ReferenceIdeal.nD) j, ((m ((c.tc : Thread Cert.ReferenceIdeal.nD Cert.ReferenceIdeal.τ).loc Cert.ReferenceIdeal.main_arg0)) j).toNat < 1000) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v0)
            = Cert.Spec.lookup (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run defs _ _).mono (fun _ h c =>
      ⟨(h c main_v0).trans ((out_eq _).trans (composed_eq_lookup _ _ (hidx c))),
        (h c main_arg0).trans (arg0_eq _),
        (h c main_arg1).trans (arg1_eq _)⟩)
    (run_ops m ρ)

end Cert.Proof.RefRun

end
-- ==== Proof.KI.Common.lean ====
/-
  What every part of the kernel's proof shares: the program as the launch theorem for programs with
  SparseCore kernels sees it, the ghost state, and the arrays' locations.

  The program runs on one device: the TensorCore runs the host operations and starts ONE SparseCore call,
  whose thirty-two vector subcores (two SparseCores, sixteen each) each gather 200 chunks of 128 table rows;
  then one pipelined TensorCore kernel transposes the gathered rows, 200 grid points of one [4096, 128] block each.
  The ghost state has three parts side by side: the rounds of the four launch handshakes, the rounds of the
  TensorCore pipeline's staging cells, and the counters of the copies the subcores make and wait for themselves.
-/
import proofs.«203052_g23699629540016_cont_8to1_215_27_alg».proof.KernelIdeal
import proofs.«203052_g23699629540016_cont_8to1_215_27_alg».proof.Proof.Gen.KernelIdeal
import proofs.«203052_g23699629540016_cont_8to1_215_27_alg».proof.Proof.Gen.KernelIdeal.Skeleton
import proofs.«203052_g23699629540016_cont_8to1_215_27_alg».proof.Proof.Gen.KernelIdeal.Launch
import proofs.«203052_g23699629540016_cont_8to1_215_27_alg».proof.Proof.Gen.KernelIdeal.Points
import proofs.«203052_g23699629540016_cont_8to1_215_27_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: handshake rounds, pipeline rounds, transfer counters -/

abbrev UH : Type := URounds (GSem nD τ sig) ℕ
abbrev UP : Type := UR sig nD τ
abbrev UU : Type := UH × (UP × Counters)

abbrev MM (F : FTy → Type) : Type := MT nD τ sig (HIx 1) (Elt F) ℕ UU ℕ

abbrev EH : Emb UH (MM F) := embL
abbrev EP : Emb UP (MM F) := (Emb.inl : Emb UP (UP × Counters)).trans embR

/-! ## The arrays, as the TensorCore names them -/

abbrev a0Loc (d : Dev nD) : Loc nD τ sig := (SparseCore.T d).loc main_arg0
abbrev a1Loc (d : Dev nD) : Loc nD τ sig := (SparseCore.T d).loc main_arg1
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5
abbrev v6Loc (d : Dev nD) : Loc nD τ sig := (SparseCore.T d).loc main_v6

end Cert.Proof.KI

end
-- ==== Proof.KI.Stages.lean ====
/-
  The arrays the kernel's program passes through, each as one pure function of the one before.

  From the index array (4096 × 200 words) and the table (1000 × 64 numbers):
    the index array transposed and laid out flat, word number n·4096 + b being `atom_types[b, n]`;
    the table widened to 128 columns, the new columns zero;
    the gathered rows, row k of which is the widened table's row named by flat index word k;
    those rows regrouped as 200 slabs of 4096 rows;
    each slab cut back to its first 64 columns and transposed, entry (n, d, b) being slab n's row b, column d;
    and the last transposition, which moves b to the front: entry (b, n, d).
  Read index by index the composite is the lookup `table[atom_types[b, n], d]`: the widening's new columns
  are never read, and the three re-layouts undo one another.
-/
import proofs.«203052_g23699629540016_cont_8to1_215_27_alg».proof.KernelIdeal
import proofs.«203052_g23699629540016_cont_8to1_215_27_alg».proof.Proof.Gen.KernelIdeal
import proofs.«203052_g23699629540016_cont_8to1_215_27_alg».proof.Proof.Spec
import Idealize.ShloMosaic.Lib.ValueIdx
import Idealize.ShloMosaic.Lib.Pipeline.Value
import Idealize.ShloMosaic.Lib.ValueLayout

noncomputable section

namespace Cert.Proof.KI.Stages

open Cert.KernelIdeal Cert.KernelIdeal.Gen
open Idealize.ShloMosaic Idealize.ShloMosaic.ValueIdx

variable {F : FTy → Type} [FloatOps F]

/-- The index array transposed, then flat: what the two host operations before the gather compute. -/
def idxFlat (a0 : IVec S4096x200 32) : IVec S1x819200 32 :=
  shapeCast S1x819200 (transpose S200x4096 [1, 0] a0 transposes_S4096x200_S200x4096_1_0) shapeCasts_S200x4096_S1x819200

/-- The table widened to 128 columns with zeros (the zero is the integer 0 converted). -/
def tabPad (a1 : FVec F S1000x64 .f32) : FVec F S1000x128 .f32 :=
  pad S1000x128 ![0, 0] ![0, 64] ![0, 0] a1 (sitofp .f32 (constantI S_ 32 0#32)) pads_S1000x64_S1000x128_000_0640 h_S_

/-- The gathered rows: row `k` is the row of `f2` that flat index word `k` names. -/
def gathered {α : Type} (f2 : S1000x128.Idx → α) (f1 : S1x819200.Idx → BitVec 32) : S819200x128.Idx → α :=
  fun j => f2 (ix2 (Cert.Spec.rowOfWord (f1 (ix2 (⟨0, Nat.one_pos⟩ : Fin 1) (⟨(j 0).val, (j 0).isLt⟩ : Fin 819200))))
    (⟨(j 1).val, (j 1).isLt⟩ : Fin 128))

/-- The gathered rows regrouped as 200 slabs of 4096 rows. -/
def regrouped (f3 : FVec F S819200x128 .f32) : FVec F S200x4096x128 .f32 :=
  shapeCast S200x4096x128 f3 shapeCasts_S819200x128_S200x4096x128

/-- Each slab cut to its first 64 columns and transposed: entry `(n, d, b)` is slab `n`'s row `b`, column `d`. -/
def slabsT {α : Type} (f4 : S200x4096x128.Idx → α) : S200x64x4096.Idx → α :=
  fun j => f4 (ix3 (⟨(j 0).val, (j 0).isLt⟩ : Fin 200) (⟨(j 2).val, (j 2).isLt⟩ : Fin 4096)
    (⟨(j 1).val, Nat.lt_of_lt_of_le (j 1).isLt (by decide : 64 ≤ 128)⟩ : Fin 128))

/-- The last host operation: the axes permuted so that `b` comes first. -/
def final (f5 : FVec F S200x64x4096 .f32) : FVec F S4096x200x64 .f32 :=
  transpose S4096x200x64 [2, 0, 1] f5 transposes_S200x64x4096_S4096x200x64_2_0_1

/-- The whole program's result as a function of its two arguments. -/
def result (a0 : IVec S4096x200 32) (a1 : FVec F S1000x64 .f32) : FVec F S4096x200x64 .f32 :=
  final (slabsT (regrouped (gathered (tabPad a1) (idxFlat a0))))

end Cert.Proof.KI.Stages

end
-- ==== Proof.KI.Res.lean ====
/-
  What the one SparseCore call takes and gives back, tile by tile.

  The thirty-two tiles are numbered `16·c + i` (SparseCore `c`, subcore `i`). Tile `w` only READS the flat index
  array and the widened table, so it holds one of thirty-two pieces of a share of each, whole; and it WRITES rows
  `25600·w … 25600·w + 25599` of the gathered array, nobody else's, so it holds exactly those rows outright.
  The call takes the three arrays whole and hands each tile its pieces; it gives the two read arrays back as they
  were and the gathered array with every row at the table row its flat index word names.
-/
import proofs.«203052_g23699629540016_cont_8to1_215_27_alg».proof.Proof.KI.Common
import proofs.«203052_g23699629540016_cont_8to1_215_27_alg».proof.Proof.KI.Stages

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Tiles, their pieces of the read arrays, their rows of the written one -/

/-- Tile number of subcore `i` of SparseCore `c`. -/
def tileNo (c : Fin 2) (i : Fin 16) : Fin 32 := ⟨16 * c.val + i.val, by omega⟩

/-- Tile `w`'s piece of a full share cut in thirty-two. -/
abbrev tsh (w : Fin 32) : PosShare TreeShare := pieceOf fullShare 32 (by decide) w

theorem odiv : 32 ∣ S819200x128.size 0 := ⟨25600, rfl⟩
/-- Tile `w`'s rows of the gathered array, as a rectangle, and as the set of its entries. -/
abbrev oRect (w : Fin 32) : Rect S819200x128 := Rect.part (s := S819200x128) (a₀ := 0) odiv w
abbrev oSet (w : Fin 32) : Finset S819200x128.Idx := ((Memref.whole main_v3_scv : Memref sig .scVector .hbm S819200x128 .f32).view.slice (oRect w)).set

section Res

variable (d : Dev nD) (f1 : Buf (Elt F) (v1Loc d)) (f2 : Buf (Elt F) (v2Loc d))

/-- Tile `w`'s hold on the flat index array, on the widened table, and on its rows of the gathered array at contents `f`. -/
abbrev idxSh (w : Fin 32) : sProp 𝕄 := v1Loc d ↦{tsh w} f1
abbrev tabSh (w : Fin 32) : sProp 𝕄 := v2Loc d ↦{tsh w} f2
abbrev outPart (w : Fin 32) (f : Buf (Elt F) (v3Loc d)) : sProp 𝕄 := v3Loc d ↦[oSet w]{fullShare} f

/-- What tile `w` starts from (its rows of the gathered array still at `f3`) and what it ends with (they hold the gathered rows). -/
abbrev tileIn (f3 : Buf (Elt F) (v3Loc d)) (w : Fin 32) : sProp 𝕄 := iprop(idxSh d f1 w ∗ tabSh d f2 w ∗ outPart d w f3)
abbrev tileOut (w : Fin 32) : sProp 𝕄 := iprop(idxSh d f1 w ∗ tabSh d f2 w ∗ outPart d w (Stages.gathered f2 f1))

end Res

/-! ## What the handshakes carry -/

variable [FloatOps F] (m : (ℓ : Loc nD τ sig) → Buf (Elt F) ℓ)

/-- The flat index array and the widened table as the host operations before the call leave them. -/
abbrev F1 (d : Dev nD) : Buf (Elt F) (v1Loc d) := Stages.idxFlat (m (a0Loc d))
abbrev F2 (d : Dev nD) : Buf (Elt F) (v2Loc d) := Stages.tabPad (F := F) (m (a1Loc d))

/-- The call's tile `(c, i)`, as a tile number. -/
abbrev tileOf (c : Fin ((K (F := F)).nCore 0)) (i : Fin ((K (F := F)).nSub 0)) : Fin 32 := tileNo (Fin.cast nCore_zero c) (Fin.cast nSub_zero i)

/-- Each SparseCore is handed its sixteen tiles' holdings and hands them back, the written rows gathered. -/
def P : (K (F := F)).Pay (nD := nD) (Val := Elt F) (Name := ℕ) (U := UU) where
  st := fun q d c => match q with
    | 0 => bigSep Finset.univ fun i : Fin ((K (F := F)).nSub 0) => tileIn d (F1 m d) (F2 m d) (m (v3Loc d)) (tileOf c i)
  dn := fun q d c => match q with
    | 0 => bigSep Finset.univ fun i : Fin ((K (F := F)).nSub 0) => tileOut d (F1 m d) (F2 m d) (tileOf c i)
  go := fun q d c i => match q with
    | 0 => tileIn d (F1 m d) (F2 m d) (m (v3Loc d)) (tileOf c i)
  td := fun q d c i => match q with
    | 0 => tileOut d (F1 m d) (F2 m d) (tileOf c i)
  x := fun _ _ => iprop(emp)

end Cert.Proof.KI

end
-- ==== Proof.KI.Split.lean ====
/-
  The three arrays of the SparseCore call, whole, are the thirty-two tiles' holdings side by side.

  The gathered array's rows fall into thirty-two consecutive runs of 25,600, pairwise disjoint and together
  everything, so holding the array whole at one contents is holding every run at it; a full share of a read
  array is its thirty-two pieces; and the tiles, numbered 16·c + i, are the pairs (SparseCore c, subcore i).
  Hence what the call hands its two SparseCores is exactly the three arrays whole, and what it gets back is
  the two read arrays as they were with the gathered array at the gathered rows.
-/
import proofs.«203052_g23699629540016_cont_8to1_215_27_alg».proof.Proof.KI.Res

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The rows' thirty-two runs -/

theorem oSet_eq (w : Fin 32) : oSet w = (oRect w).set := by
  show ((View.whole (main_v3_scv : Ref sig .scVector)).slice (oRect w)).set = _
  rw [View.set_slice]; exact Finset.map_refl

theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h

theorem oSets_cover : (Finset.univ : Finset (Fin 32)).biUnion oSet = Finset.univ :=
  (Finset.biUnion_congr rfl fun i _ => oSet_eq i).trans (Rect.biUnion_part odiv)

section Arrays

variable (d : Dev nD)

theorem out_parts (f : Buf (Elt F) (v3Loc d)) :
    (v3Loc d ↦{fullShare} f : sProp 𝕄) = bigSep Finset.univ fun w : Fin 32 => outPart d w f := by
  rw [← pointsTo_biUnion Finset.univ (ℓ := v3Loc d) oSet oSets_disjoint, oSets_cover]; try rfl

theorem idx_shares (f1 : Buf (Elt F) (v1Loc d)) :
    (v1Loc d ↦{fullShare} f1 : sProp 𝕄) = bigSep Finset.univ fun w : Fin 32 => idxSh d f1 w :=
  pointsTo_piecesOf Finset.univ f1 (by decide) fullShare

theorem tab_shares (f2 : Buf (Elt F) (v2Loc d)) :
    (v2Loc d ↦{fullShare} f2 : sProp 𝕄) = bigSep Finset.univ fun w : Fin 32 => tabSh d f2 w :=
  pointsTo_piecesOf Finset.univ f2 (by decide) fullShare

/-- The three arrays whole are the tiles' starting holdings. -/
theorem tiles_in (f1 : Buf (Elt F) (v1Loc d)) (f2 : Buf (Elt F) (v2Loc d)) (f3 : Buf (Elt F) (v3Loc d)) :
    (bigSep Finset.univ fun w : Fin 32 => tileIn d f1 f2 f3 w)
      = (iprop((v1Loc d ↦{fullShare} f1) ∗ (v2Loc d ↦{fullShare} f2) ∗ (v3Loc d ↦{fullShare} f3)) : sProp 𝕄) := by
  rw [idx_shares, tab_shares, out_parts, bigSep_sep', bigSep_sep']

/-- The tiles' final holdings are the read arrays whole and the gathered array at the gathered rows. -/
theorem tiles_out (f1 : Buf (Elt F) (v1Loc d)) (f2 : Buf (Elt F) (v2Loc d)) :
    (bigSep Finset.univ fun w : Fin 32 => tileOut d f1 f2 w)
      = (iprop((v1Loc d ↦{fullShare} f1) ∗ (v2Loc d ↦{fullShare} f2) ∗ (v3Loc d ↦{fullShare} Stages.gathered f2 f1)) : sProp 𝕄) := by
  rw [idx_shares, tab_shares, out_parts, bigSep_sep', bigSep_sep']

end Arrays

/-! ## Tiles as pairs (SparseCore, subcore) -/

def tileEquiv : Fin 2 × Fin 16 ≃ Fin 32 := finProdFinEquiv

theorem tileEquiv_apply (c : Fin 2) (i : Fin 16) : tileEquiv (c, i) = tileNo c i :=
  Fin.ext (by simp [tileEquiv, tileNo, finProdFinEquiv]; omega)

theorem bigSep_tiles (Φ : Fin 32 → sProp 𝕄) :
    bigSep Finset.univ Φ = bigSep Finset.univ fun c : Fin 2 => bigSep Finset.univ fun i : Fin 16 => Φ (tileNo c i) := by
  rw [bigSep_univ_equiv tileEquiv Φ, bigSep_univ_prod]
  simp only [tileEquiv_apply]

theorem bigSep_call (Φ : Fin 2 → Fin 16 → sProp 𝕄) :
    (bigSep Finset.univ fun c : Fin ((K (F := F)).nCore 0) => bigSep Finset.univ fun i : Fin ((K (F := F)).nSub 0) =>
        Φ (Fin.cast nCore_zero c) (Fin.cast nSub_zero i))
      = bigSep Finset.univ fun c : Fin 2 => bigSep Finset.univ fun i : Fin 16 => Φ c i :=
  bigSep_congr fun _ _ => bigSep_congr fun _ _ => rfl

/-! ## What the call takes and returns, over both SparseCores -/

variable [FloatOps F] (m : (ℓ : Loc nD τ sig) → Buf (Elt F) ℓ)

theorem st_all (d : Dev nD) :
    (bigSep Finset.univ fun c : Fin ((K (F := F)).nCore 0) => (P m).st 0 d c)
      = (iprop((v1Loc d ↦{fullShare} F1 m d) ∗ (v2Loc d ↦{fullShare} F2 m d) ∗ (v3Loc d ↦{fullShare} m (v3Loc d))) : sProp 𝕄) := by
  rw [← tiles_in, bigSep_tiles]
  exact bigSep_call (F := F) fun c i => tileIn d (F1 m d) (F2 m d) (m (v3Loc d)) (tileNo c i)

theorem dn_all (d : Dev nD) :
    (bigSep Finset.univ fun c : Fin ((K (F := F)).nCore 0) => (P m).dn 0 d c)
      = (iprop((v1Loc d ↦{fullShare} F1 m d) ∗ (v2Loc d ↦{fullShare} F2 m d) ∗ (v3Loc d ↦{fullShare} Stages.gathered (F2 m d) (F1 m d))) : sProp 𝕄) := by
  rw [← tiles_out, bigSep_tiles]
  exact bigSep_call (F := F) fun c i => tileOut d (F1 m d) (F2 m d) (tileNo c i)

/-- Within one SparseCore nothing is regrouped: the operands are the tasks' holdings, the results the tasks' results. -/
theorem vecSplit : (K (F := F)).VecSplit' (P m) 0 := by
  intro d c
  show (bigSep Finset.univ fun i : Fin ((K (F := F)).nSub 0) => tileIn d (F1 m d) (F2 m d) (m (v3Loc d)) (tileOf c i))
    ⊢ |={Set.univ}=> iprop((bigSep Finset.univ fun i : Fin ((K (F := F)).nSub 0) => tileIn d (F1 m d) (F2 m d) (m (v3Loc d)) (tileOf c i))
      ∗ ((bigSep Finset.univ fun i : Fin ((K (F := F)).nSub 0) => tileOut d (F1 m d) (F2 m d) (tileOf c i))
          -∗ bigSep Finset.univ fun i : Fin ((K (F := F)).nSub 0) => tileOut d (F1 m d) (F2 m d) (tileOf c i)))
  iintro H; imodintro
  isplitl [H]; · iexact H
  iintro H; iexact H

end Cert.Proof.KI

end
-- ==== Proof.KI.Front.lean ====
/-
  The front of the program on the TensorCore: five host operations, then the one SparseCore call.

  The host operations write the transposed index array, its flat re-layout, the integer zero, its conversion
  and the widened table into their own arrays and touch nothing else, so after them the flat index array holds
  `Stages.idxFlat` of the first argument, the widened table `Stages.tabPad` of the second, and the arguments
  and the not-yet-written result arrays are as launched. The call takes the flat index array, the widened table
  and the gathered array whole and returns them with the gathered array at the gathered rows. What is left of
  the program is three statements, `tailProg`.
-/
import proofs.«203052_g23699629540016_cont_8to1_215_27_alg».proof.Proof.KI.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

/-! ## The TensorCore's eleven arrays -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev c' : DevRef τ sig := Proc.devRef .tc (main_c : Ref sig .tc)
abbrev cv' : DevRef τ sig := Proc.devRef .tc (main_call0_v0 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

abbrev S11 : Finset (DevRef τ sig) := {a0', a1', v0', v1', c', cv', v2', v3', v4', v5', v6'}

abbrev tcLoc (d : Dev nD) (r : Ref sig .tc) : Loc nD τ sig := (SparseCore.T d).loc r

theorem held_S11 (d : Dev nD) (W : Valuation τ sig (Elt F)) :
    (held (T d) S11 W : sProp 𝕄)
      = iprop((a0Loc d ↦{fullShare} W a0') ∗ (a1Loc d ↦{fullShare} W a1') ∗ (tcLoc d main_v0 ↦{fullShare} W v0') ∗ (v1Loc d ↦{fullShare} W v1')
          ∗ (tcLoc d main_c ↦{fullShare} W c') ∗ (tcLoc d main_call0_v0 ↦{fullShare} W cv') ∗ (v2Loc d ↦{fullShare} W v2') ∗ (v3Loc d ↦{fullShare} W v3')
          ∗ (v4Loc d ↦{fullShare} W v4') ∗ (v5Loc d ↦{fullShare} W v5') ∗ (v6Loc d ↦{fullShare} W v6')) := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (tcLoc d main_v0 ↦{fullShare} W main_v0) ∗ (v1Loc d ↦{fullShare} W main_v1)
          ∗ (tcLoc d main_c ↦{fullShare} W main_c) ∗ (tcLoc d main_call0_v0 ↦{fullShare} W main_call0_v0) ∗ (v2Loc d ↦{fullShare} W main_v2) ∗ (v3Loc d ↦{fullShare} W main_v3)
          ∗ (v4Loc d ↦{fullShare} W main_v4) ∗ (v5Loc d ↦{fullShare} W main_v5) ∗ (v6Loc d ↦{fullShare} W main_v6)) := by
  unfold unscopedBufs
  rw [show (Finset.univ.filter fun b : Ref sig .tc => ¬ b.isScoped)
      = {main_arg0, main_arg1, main_v0, main_v1, main_c, main_call0_v0, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The five host operations and what they leave -/

variable [FloatOps F]

abbrev opT0 : HloOp τ sig (Elt F) :=
  StableHlo.unary main_arg0 main_v0 ((transpose S200x4096 [1, 0] · transposes_S4096x200_S200x4096_1_0) : (⟨S4096x200, .i32⟩ : BufTy).Contents (Elt F) → (⟨S200x4096, .i32⟩ : BufTy).Contents (Elt F))
abbrev opR1 : HloOp τ sig (Elt F) := StableHlo.reshape main_v0 main_v1 rfl shapeCasts_S200x4096_S1x819200
abbrev opC : HloOp τ sig (Elt F) := StableHlo.nullary main_c (constantI S_ 32 0#32)
abbrev opCv : HloOp τ sig (Elt F) := StableHlo.TRef.unary (.of main_c : StableHlo.TRef sig ⟨S_, .i32⟩) main_call0.v0 (sitofp .f32)
abbrev opPad : HloOp τ sig (Elt F) :=
  StableHlo.TRef.binary (.of main_arg1 : StableHlo.TRef sig ⟨S1000x64, .f32⟩) main_call0.v0 main_call0.v1 (fun x v => pad S1000x128 ![0, 0] ![0, 64] ![0, 0] x v pads_S1000x64_S1000x128_000_0640 h_S_)

theorem hT0 : (opT0 (F := F)).bufs ⊆ S11 := show ({a0', v0'} : Finset (DevRef τ sig)) ⊆ S11 by decide
theorem hR1 : (opR1 (F := F)).bufs ⊆ S11 := show ({v0', v1'} : Finset (DevRef τ sig)) ⊆ S11 by decide
theorem hC : (opC (F := F)).bufs ⊆ S11 := show ({c'} : Finset (DevRef τ sig)) ⊆ S11 by decide
theorem hCv : (opCv (F := F)).bufs ⊆ S11 := show ({c', cv'} : Finset (DevRef τ sig)) ⊆ S11 by decide
theorem hPad : (opPad (F := F)).bufs ⊆ S11 := show ({a1', cv', v2'} : Finset (DevRef τ sig)) ⊆ S11 by decide

variable (m : (ℓ : Loc nD τ sig) → Buf (Elt F) ℓ) (ρ : Dev nD → PrngReg)

/-- The launch valuation and the valuation after the five operations. -/
def V0 (d : Dev nD) : Valuation τ sig (Elt F) := fun b => m (d, b)
def V5 (d : Dev nD) : Valuation τ sig (Elt F) :=
  (opPad (F := F)).result ((opCv (F := F)).result ((opC (F := F)).result ((opR1 (F := F)).result ((opT0 (F := F)).result (V0 m d)))))

theorem unscoped_held (d : Dev nD) : (unscopedBufs d (fun b => m ((SparseCore.T d).loc b)) : sProp 𝕄) = held (T d) S11 (V0 m d) := by
  rw [unscopedBufs_eq, held_S11]; rfl

/-- An array none of the five operations writes is as launched. -/
theorem V5_kept (d : Dev nD) (b : DevRef τ sig) (h0 : b ≠ v0') (h1 : b ≠ v1') (hc : b ≠ c') (hcv : b ≠ cv') (h2 : b ≠ v2') : V5 m d b = m (d, b) := by
  unfold V5
  rw [(opPad (F := F)).result_of_not_mem _ (show b ∉ ({v2'} : Finset (DevRef τ sig)) by simpa using h2),
    (opCv (F := F)).result_of_not_mem _ (show b ∉ ({cv'} : Finset (DevRef τ sig)) by simpa using hcv),
    (opC (F := F)).result_of_not_mem _ (show b ∉ ({c'} : Finset (DevRef τ sig)) by simpa using hc),
    (opR1 (F := F)).result_of_not_mem _ (show b ∉ ({v1'} : Finset (DevRef τ sig)) by simpa using h1),
    (opT0 (F := F)).result_of_not_mem _ (show b ∉ ({v0'} : Finset (DevRef τ sig)) by simpa using h0)]
  rfl

end Cert.Proof.KI

end
-- ==== Proof.KI.TailProg.lean ====
/-
  The last three statements of the program on the TensorCore: the gathered rows regrouped into 200 slabs, the
  pipelined kernel that cuts each slab to 64 columns and transposes it, and the final transposition.
-/
import proofs.«203052_g23699629540016_cont_8to1_215_27_alg».proof.Proof.KI.Common

noncomputable section

namespace Cert.Proof.KI

open Cert.KernelIdeal Cert.KernelIdeal.Gen
open Idealize.ShloMosaic Idealize.SL.Sem

variable {F : FTy → Type} [FloatOps F]

/-- What is left of the program after the SparseCore call. -/
def tailProg (d : Dev nD) : Prog (TpuEff nD τ sig (Elt F) (SparseCore.Sig (Pipeline.Sig Λ₀ (Fin 1) fun p => (pcfgs (F := F) p).Adm) 1) .tc) PUnit := do
  hlo rfl (StableHlo.reshape main_v3 main_v4 rfl shapeCasts_S819200x128_S200x4096x128) (fun _ => .ret ⟨⟩)
  Prog.lift (.customCall (SparseCore.inner (Pipeline.entry 0)) ())
  hlo rfl (StableHlo.unary main_v5 main_v6 ((transpose S4096x200x64 [2, 0, 1] · transposes_S200x64x4096_S4096x200x64_2_0_1) : (⟨S200x64x4096, .f32⟩ : BufTy).Contents (Elt F) → (⟨S4096x200x64, .f32⟩ : BufTy).Contents (Elt F))) (fun _ => .ret ⟨⟩)
  pure ⟨⟩

/-- The program is its first five host operations, the SparseCore call, and that tail. -/
theorem main_eq (d : Dev nD) : main (F := F) d = (do
    hlo rfl (StableHlo.unary main_arg0 main_v0 ((transpose S200x4096 [1, 0] · transposes_S4096x200_S200x4096_1_0) : (⟨S4096x200, .i32⟩ : BufTy).Contents (Elt F) → (⟨S200x4096, .i32⟩ : BufTy).Contents (Elt F))) (fun _ => .ret ⟨⟩)
    hlo rfl (StableHlo.reshape main_v0 main_v1 rfl shapeCasts_S200x4096_S1x819200) (fun _ => .ret ⟨⟩)
    hlo rfl (StableHlo.nullary main_c (constantI S_ 32 0#32)) (fun _ => .ret ⟨⟩)
    fn_pad.body (.of main_arg1) (.of main_c) main_call0
    sc.run d 0
    tailProg d) := rfl

end Cert.Proof.KI

end
-- ==== Proof.KI.FrontRun.lean ====
/-
  The front of the program run: from the launch to the tail.

  After the five host operations the flat index array holds `Stages.idxFlat` of the first argument and the
  widened table `Stages.tabPad` of the second (the fill value is the integer zero converted), and nothing else
  that matters has changed; the SparseCore call then takes those two and the gathered array whole and returns the
  gathered array at the gathered rows. What remains is the tail, entered with the arguments as launched, the
  gathered rows in place and the three later arrays still as launched.
-/
import proofs.«203052_g23699629540016_cont_8to1_215_27_alg».proof.Proof.KI.Front
import proofs.«203052_g23699629540016_cont_8to1_215_27_alg».proof.Proof.KI.TailProg

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable [FloatOps F] (m : (ℓ : Loc nD τ sig) → Buf (Elt F) ℓ) (ρ : Dev nD → PrngReg)

/-- After the five operations the flat index array is the first argument transposed and laid out flat. -/
theorem V5_v1 (d : Dev nD) : V5 m d v1' = F1 m d := by
  unfold V5
  rw [(opPad (F := F)).result_of_not_mem _ (show v1' ∉ ({v2'} : Finset (DevRef τ sig)) by decide),
    (opCv (F := F)).result_of_not_mem _ (show v1' ∉ ({cv'} : Finset (DevRef τ sig)) by decide),
    (opC (F := F)).result_of_not_mem _ (show v1' ∉ ({c'} : Finset (DevRef τ sig)) by decide)]
  rw [StableHlo.reshape_result, StableHlo.unary_result]
  rfl

/-- and the widened table is the second argument padded with the converted zero. -/
theorem V5_v2 (d : Dev nD) : V5 m d v2' = F2 m d := by
  unfold V5
  rw [StableHlo.binary_result, StableHlo.unary_result, StableHlo.nullary_result,
    (opCv (F := F)).result_of_not_mem _ (show a1' ∉ ({cv'} : Finset (DevRef τ sig)) by decide),
    (opC (F := F)).result_of_not_mem _ (show a1' ∉ ({c'} : Finset (DevRef τ sig)) by decide),
    (opR1 (F := F)).result_of_not_mem _ (show a1' ∉ ({v1'} : Finset (DevRef τ sig)) by decide),
    (opT0 (F := F)).result_of_not_mem _ (show a1' ∉ ({v0'} : Finset (DevRef τ sig)) by decide)]
  rfl

/-- The eleven arrays after the five operations. -/
theorem held_V5 (d : Dev nD) :
    (held (T d) S11 ((opPad (F := F)).result ((opCv (F := F)).result ((opC (F := F)).result ((opR1 (F := F)).result ((opT0 (F := F)).result (V0 m d)))))) : sProp 𝕄)
      = iprop((a0Loc d ↦{fullShare} m (a0Loc d)) ∗ (a1Loc d ↦{fullShare} m (a1Loc d)) ∗ (tcLoc d main_v0 ↦{fullShare} V5 m d v0') ∗ (v1Loc d ↦{fullShare} F1 m d)
          ∗ (tcLoc d main_c ↦{fullShare} V5 m d c') ∗ (tcLoc d main_call0_v0 ↦{fullShare} V5 m d cv') ∗ (v2Loc d ↦{fullShare} F2 m d) ∗ (v3Loc d ↦{fullShare} m (v3Loc d))
          ∗ (v4Loc d ↦{fullShare} m (v4Loc d)) ∗ (v5Loc d ↦{fullShare} m (v5Loc d)) ∗ (v6Loc d ↦{fullShare} m (v6Loc d))) := by
  show held (SparseCore.T d) S11 (V5 m d) = _
  rw [held_S11, V5_v1, V5_v2,
    V5_kept m d a0' (by decide) (by decide) (by decide) (by decide) (by decide),
    V5_kept m d a1' (by decide) (by decide) (by decide) (by decide) (by decide),
    V5_kept m d v3' (by decide) (by decide) (by decide) (by decide) (by decide),
    V5_kept m d v4' (by decide) (by decide) (by decide) (by decide) (by decide),
    V5_kept m d v5' (by decide) (by decide) (by decide) (by decide) (by decide),
    V5_kept m d v6' (by decide) (by decide) (by decide) (by decide) (by decide)]

/-- What the tail is entered with. -/
abbrev TailPre (d : Dev nD) : sProp 𝕄 :=
  iprop((K (F := F)).tcSt EH d 1 ∗ boundary (SparseCore.T d) ∗ (K (F := F)).tcSems0 d ∗ prngReg d (ρ d)
    ∗ (a0Loc d ↦{fullShare} m (a0Loc d)) ∗ (a1Loc d ↦{fullShare} m (a1Loc d))
    ∗ (v3Loc d ↦{fullShare} Stages.gathered (F2 m d) (F1 m d))
    ∗ (v4Loc d ↦{fullShare} m (v4Loc d)) ∗ (v5Loc d ↦{fullShare} m (v5Loc d)) ∗ (v6Loc d ↦{fullShare} m (v6Loc d)))

/-- The program on device `d`'s TensorCore down to its tail: the five host operations over the eleven arrays held
    whole, then the call from the flat index array, the widened table and the gathered array. -/
theorem front_wp (κ : GSem nD τ sig → ℕ) (d : Dev nD) (Ψ : PUnit → sProp 𝕄) :
    iprop((K (F := F)).ctx EH (P m) κ ∗ (K (F := F)).tcSt EH d 0 ∗ (K (F := F)).tcRes m ρ d
        ∗ (TailPre m ρ d -∗ wp frame (wpE ((K (F := F)).defs (D (F := F))) 𝒱 (SparseCore.T d) none) Set.univ (tailProg d) Ψ))
      ⊢ wp frame (wpE ((K (F := F)).defs (D (F := F))) 𝒱 (SparseCore.T d) none) Set.univ (main d) Ψ := by
  unfold SparseCore.Cfg.tcRes
  rw [unscoped_held, main_eq]
  simp only [fn_pad.body, wp_bind, wp_pure]
  iintro ⟨#Hctx, Hst, ⟨Hb, Hheld, Hsems, Hprng⟩, Hk⟩
  iapply (wp_hlo_within 𝒱 (SparseCore.T d) none Set.univ (op := opT0) (S := S11) hT0 (V := V0 m d)) $$ [Hb Hheld]
  · isplitl [Hb] <;> iassumption
  iintro ⟨Hb, Hheld⟩
  rw [wp_ret]; imodintro
  iapply (wp_hlo_within 𝒱 (SparseCore.T d) none Set.univ (op := opR1) (S := S11) hR1 (V := (opT0 (F := F)).result (V0 m d))) $$ [Hb Hheld]
  · isplitl [Hb] <;> iassumption
  iintro ⟨Hb, Hheld⟩
  rw [wp_ret]; imodintro
  iapply (wp_hlo_within 𝒱 (SparseCore.T d) none Set.univ (op := opC) (S := S11) hC (V := (opR1 (F := F)).result ((opT0 (F := F)).result (V0 m d)))) $$ [Hb Hheld]
  · isplitl [Hb] <;> iassumption
  iintro ⟨Hb, Hheld⟩
  rw [wp_ret]; imodintro
  iapply (wp_hlo_within 𝒱 (SparseCore.T d) none Set.univ (op := opCv) (S := S11) hCv
      (V := (opC (F := F)).result ((opR1 (F := F)).result ((opT0 (F := F)).result (V0 m d))))) $$ [Hb Hheld]
  · isplitl [Hb] <;> iassumption
  iintro ⟨Hb, Hheld⟩
  rw [wp_ret]; imodintro
  iapply (wp_hlo_within 𝒱 (SparseCore.T d) none Set.univ (op := opPad) (S := S11) hPad
      (V := (opCv (F := F)).result ((opC (F := F)).result ((opR1 (F := F)).result ((opT0 (F := F)).result (V0 m d)))))) $$ [Hb Hheld]
  · isplitl [Hb] <;> iassumption
  iintro ⟨Hb, Hheld⟩
  rw [wp_ret]; imodintro
  -- the call: the flat index array, the widened table and the gathered array to the two SparseCores and back
  ihave Hh := (Entails.of_eq (held_V5 (F := F) m d)) $$ Hheld
  icases Hh with ⟨H0, H1, -, Hv1, -, -, Hv2, Hv3, Hv4, Hv5, Hv6⟩
  iapply ((K (F := F)).wp_run (D (F := F)) 𝒱 (EH := EH) (P := P m) κ d 0) $$ [Hst Hv1 Hv2 Hv3 Hb Hsems Hprng H0 H1 Hv4 Hv5 Hv6 Hk]
  isplitr; · iexact Hctx
  isplitl [Hst]; · iexact Hst
  isplitl [Hv1 Hv2 Hv3]
  · rw [st_all]
    isplitl [Hv1]; · iexact Hv1
    isplitl [Hv2]; · iexact Hv2
    iexact Hv3
  iintro ⟨Hst, Hdn⟩
  ihave Hdn' := (Entails.of_eq (dn_all m d)) $$ Hdn
  icases Hdn' with ⟨-, -, Hv3⟩
  iapply Hk
  isplitl [Hst]; · iexact Hst
  isplitl [Hb]; · iexact Hb
  isplitl [Hsems]; · iexact Hsems
  isplitl [Hprng]; · iexact Hprng
  isplitl [H0]; · iexact H0
  isplitl [H1]; · iexact H1
  isplitl [Hv3]; · iexact Hv3
  isplitl [Hv4]; · iexact Hv4
  isplitl [Hv5]; · iexact Hv5
  iexact Hv6

end Cert.Proof.KI

end
-- ==== Proof.KI.Fin.lean ====
/-
  What the program leaves, and how the final memory reads it.

  At its end the TensorCore holds the two argument arrays whole at their launch contents and the result array
  whole at the staged program's result; holding an array whole at some contents beside the machine's state says
  the memory has those contents there.
-/
import proofs.«203052_g23699629540016_cont_8to1_215_27_alg».proof.Proof.KI.Res

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

/-- The result array's final contents: the staged program's result of the two arguments as launched. -/
abbrev R6 (d : Dev nD) : Buf (Elt F) (v6Loc d) := Stages.result (F := F) (m (a0Loc d)) (m (a1Loc d))

/-- What the TensorCore holds at the program's end. -/
abbrev FIN (d : Dev nD) : sProp 𝕄 :=
  iprop((a0Loc d ↦{fullShare} m (a0Loc d)) ∗ (a1Loc d ↦{fullShare} m (a1Loc d)) ∗ (v6Loc d ↦{fullShare} R6 m d))

/-- What that says of the final memory. -/
def fq (d : Dev nD) (s' : Phys nD τ sig (Elt F)) : Prop :=
  s'.mem.mem (v6Loc d) = R6 m d ∧ s'.mem.mem (a0Loc d) = m (a0Loc d) ∧ s'.mem.mem (a1Loc d) = m (a1Loc d)

set_option maxRecDepth 16384 in
theorem hfin (d : Dev nD) (s' : Phys nD τ sig (Elt F)) : iprop(FIN m d ∗ SI s') ⊢ (⌜fq m d s'⌝ : sProp 𝕄) := by
  iintro ⟨⟨H0, H1, H6⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := v6Loc d) (I := Finset.univ) (q := fullShare) (f := R6 m d)) $$ [HSI H6]
  · isplitl [HSI] <;> iassumption
  icases H with %h6
  ipureintro
  exact ⟨funext fun i => h6 i (Finset.mem_univ i), funext fun i => h0 i (Finset.mem_univ i), funext fun i => h1 i (Finset.mem_univ i)⟩

/-- The run's post: on every device the result array holds the staged result and the arguments are unchanged. -/
def QC : PUnit × MemSt nD τ sig (Elt F) → Prop := fun r => ∀ c : Dev nD,
  r.2.mem (v6Loc c) = R6 m c ∧ r.2.mem (a0Loc c) = m (a0Loc c) ∧ r.2.mem (a1Loc c) = m (a1Loc c)

end Cert.Proof.KI

end
-- ==== Proof.KI.Storable.lean ====
/-
  Every payload of the SparseCore call's handshakes is a separating conjunction of holdings of array entries at
  fixed contents, so each can be stored in a handshake cell's invariant.
-/
import proofs.«203052_g23699629540016_cont_8to1_215_27_alg».proof.Proof.KI.Res

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

instance P_storable : (P (F := F) m).IsStorable where
  st q d c := match q with
    | 0 => (inferInstance : BI.Storable (upEmb : UEmb _ 𝕄)
        (bigSep Finset.univ fun i : Fin ((K (F := F)).nSub 0) => tileIn d (F1 m d) (F2 m d) (m (v3Loc d)) (tileOf c i)))
  dn q d c := match q with
    | 0 => (inferInstance : BI.Storable (upEmb : UEmb _ 𝕄)
        (bigSep Finset.univ fun i : Fin ((K (F := F)).nSub 0) => tileOut d (F1 m d) (F2 m d) (tileOf c i)))
  go q d c i := match q with
    | 0 => (inferInstance : BI.Storable (upEmb : UEmb _ 𝕄) (tileIn d (F1 m d) (F2 m d) (m (v3Loc d)) (tileOf c i)))
  td q d c i := match q with
    | 0 => (inferInstance : BI.Storable (upEmb : UEmb _ 𝕄) (tileOut d (F1 m d) (F2 m d) (tileOf c i)))

end Cert.Proof.KI

end
-- ==== Proof.KI.TileObl.lean ====
/-
  One tile's task, stated: from its pieces of the two read arrays, its rows of the gathered array and its own
  scratch, the task's body runs to its end and leaves those rows at the gathered rows, everything else as it was.
  The launch theorem's obligation for the call's tasks follows from this statement at every tile.
-/
import proofs.«203052_g23699629540016_cont_8to1_215_27_alg».proof.Proof.KI.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The SparseCore, the subcore and the tile number of grid coordinates `L`. -/
abbrev tcV (L : grid0.Coords) : Fin τ.nSC := (L 0).castLE hcore0
abbrev tjV (L : grid0.Coords) : Fin τ.nSub := (L 1).castLE hsub0
abbrev twL (L : grid0.Coords) : Fin 32 := tileNo ⟨(L 0).val, (L 0).isLt⟩ ⟨(L 1).val, (L 1).isLt⟩

/-- The task of the tile at coordinates `L` of device `d`, for any contents of the three arrays with the flat index words in range. -/
def TileBodyStmt [FloatOps F] : Prop :=
  ∀ (d : Dev nD) (L : grid0.Coords) (f1 : Buf (Elt F) (v1Loc d)) (f2 : Buf (Elt F) (v2Loc d)) (f3 : Buf (Elt F) (v3Loc d))
    (_ : (K (F := F)).Facts) (_ : ∀ x, (f1 x).toNat < 1000) (O : CellTallies nD τ sig (HIx 1)) (W : Waits sig (HIx 1)) (_ : ∀ g, O g none = 0),
    (iprop(levAts (K (F := F)).L (K (F := F)).lev ∗ emp ∗ tileIn d f1 f2 f3 (twL L)
        ∗ scopedBufs (V d (tcV L) (tjV L)) ∗ scopedSems0 (V d (tcV L) (tjV L)) ∗ owes (V d (tcV L) (tjV L)) O W) : sProp 𝕄)
      ⊢ wp frame (wpE (defs₀ (F := F)) 𝒱₀ (V d (tcV L) (tjV L)) none) Set.univ
          (cc0_k L (Memref.whole main_v2_scv) (Memref.isWhole_whole _) (Memref.whole main_v1_scv) (Memref.isWhole_whole _) (Memref.whole main_v3_scv) (Memref.isWhole_whole _)
            (Memref.whole cc0_scoped0) (Memref.isWhole_whole _) cc0_scoped1 (Memref.whole cc0_scoped2) (Memref.isWhole_whole _) cc0_scoped3 cc0_scoped4)
          fun _ => iprop(tileOut d f1 f2 (twL L) ∗ scopedBufs (V d (tcV L) (tjV L)) ∗ scopedSems0 (V d (tcV L) (tjV L))
            ∗ ∃ W', ⌜∀ p ∈ W', p ∈ W ∨ p.2 = none⌝ ∗ owes (V d (tcV L) (tjV L)) O W')

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0_k (coordsV c s)
          (Memref.whole main_v2_scv) (Memref.isWhole_whole _) (Memref.whole main_v1_scv) (Memref.isWhole_whole _) (Memref.whole main_v3_scv) (Memref.isWhole_whole _)
          (Memref.whole cc0_scoped0) (Memref.isWhole_whole _) cc0_scoped1 (Memref.whole cc0_scoped2) (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F] (m : (ℓ : Loc nD τ sig) → Buf (Elt F) ℓ)

set_option maxRecDepth 16384 in
set_option maxHeartbeats 4000000 in
/-- The launch theorem's obligation for the call's tasks, from the task's statement at every tile. -/
theorem tileObl_of (hbody : TileBodyStmt (F := F)) (hF : (K (F := F)).Facts) (hin : ∀ d x, (F1 m d x).toNat < 1000) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact (hbody d (coordsV ⟨_, hci.1⟩ ⟨_, hci.2⟩) (F1 m d) (F2 m d) (m (v3Loc d)) hF (hin d) O W hO).trans (wp_mono frame _ _ fun _ => obl_post)

end Cert.Proof.KI

end
-- ==== Proof.KI.Main.lean ====
/-
  The program's run, assembled: the launch theorem for programs with SparseCore kernels applied to the call's
  task obligation, the trivial split of a SparseCore's operands among its tasks, the TensorCore's program (the
  front, then the tail with the two argument arrays set aside and handed back untouched), and the reading of the
  final memory. The two parts proved elsewhere — one tile's task, and the tail with its launch element — enter as
  hypotheses stated here.
-/
import proofs.«203052_g23699629540016_cont_8to1_215_27_alg».proof.Proof.KI.FrontRun
import proofs.«203052_g23699629540016_cont_8to1_215_27_alg».proof.Proof.KI.Fin
import proofs.«203052_g23699629540016_cont_8to1_215_27_alg».proof.Proof.KI.Storable
import proofs.«203052_g23699629540016_cont_8to1_215_27_alg».proof.Proof.KI.TileObl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The tail, stated: entered with the launch's per-device holding `G d`, the TensorCore's state after the call, its
    region-boundary holdings and semaphores, the gathered array at any contents `g3` and the three later arrays as
    launched, the three statements run to their end and leave the result array at `g3` regrouped, cut, transposed
    and transposed again. -/
def TailStmt [FloatOps F] (G : Dev nD → sProp 𝕄) : Prop :=
  ∀ (m : (ℓ : Loc nD τ sig) → Buf (Elt F) ℓ) (ρ : Dev nD → PrngReg) (κ : GSem nD τ sig → ℕ) (d : Dev nD) (g3 : Buf (Elt F) (v3Loc d)),
    (iprop((K (F := F)).ctx EH (P m) κ ∗ G d ∗ (K (F := F)).tcSt EH d 1 ∗ boundary (SparseCore.T d) ∗ (K (F := F)).tcSems0 d ∗ prngReg d (ρ d)
        ∗ (v3Loc d ↦{fullShare} g3) ∗ (v4Loc d ↦{fullShare} m (v4Loc d)) ∗ (v5Loc d ↦{fullShare} m (v5Loc d)) ∗ (v6Loc d ↦{fullShare} m (v6Loc d))) : sProp 𝕄)
      ⊢ wp frame (wpE ((K (F := F)).defs (D (F := F))) 𝒱 (SparseCore.T d) none) Set.univ (tailProg d)
          fun _ => iprop((K (F := F)).tcSt EH d 1 ∗ (v6Loc d ↦{fullShare} Stages.final (Stages.slabsT (Stages.regrouped g3))))

variable [FloatOps F] (m : (ℓ : Loc nD τ sig) → Buf (Elt F) ℓ) (ρ : Dev nD → PrngReg)

/-- The program on device `d`'s TensorCore: the front, then the tail, the two arguments kept beside it. -/
theorem hmain_of (G : Dev nD → sProp 𝕄) (htail : TailStmt (F := F) G) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  iintro ⟨#Hctx, Hst, Hres, HG⟩
  iapply (front_wp m ρ κ d _) $$ [Hst Hres HG]
  isplitr; · iexact Hctx
  isplitl [Hst]; · iexact Hst
  isplitl [Hres]; · iexact Hres
  iintro ⟨Hst, Hb, Hsems, Hprng, H0, H1, Hv3, Hv4, Hv5, Hv6⟩
  iapply (wp_wand_r frame _ _) $$ [Hst Hb Hsems Hprng H0 H1 Hv3 Hv4 Hv5 Hv6 HG]
  isplitl [Hst Hb Hsems Hprng Hv3 Hv4 Hv5 Hv6 HG]
  · iapply (htail m ρ κ d (Stages.gathered (F2 m d) (F1 m d)))
    isplitr; · iexact Hctx
    isplitl [HG]; · iexact HG
    isplitl [Hst]; · iexact Hst
    isplitl [Hb]; · iexact Hb
    isplitl [Hsems]; · iexact Hsems
    isplitl [Hprng]; · iexact Hprng
    isplitl [Hv3]; · iexact Hv3
    isplitl [Hv4]; · iexact Hv4
    isplitl [Hv5]; · iexact Hv5
    iexact Hv6
  · iintro %_ ⟨Hst, Hv6⟩
    isplitl [Hst]; · iexact Hst
    isplitl [H0]; · iexact H0
    isplitl [H1]; · iexact H1
    iexact Hv6

/-- Every weakly fair execution of the program's threads ends, nothing faulting, with the result array at the staged
    result and the arguments unchanged. -/
theorem run_main_of [∀ e, Nonempty (Elt F e)] (hbody : TileBodyStmt (F := F)) (G : Dev nD → sProp 𝕄) (u₀ : UU)
    (hu₀ : (ownU u₀ : sProp 𝕄) ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr))
    (htail : TailStmt (F := F) G) (hin : ∀ d x, (F1 m d x).toNat < 1000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl_of m hbody facts hin)
    (fun q _ => match q with | 0 => SparseCore.Cfg.VecSplit.of_plain (vecSplit m))
    m ρ main G (FIN m) u₀ (sep_elim_left.trans hu₀) (hmain_of m ρ G htail) (fq m) (hfin m) (QC m) (fun _ h => h)

end Cert.Proof.KI

end
-- ==== Proof.KI.TailLaunch.lean ====
/-
  What the launch deals the TensorCore for its one pipelined kernel.

  The kernel's four staging buffers complete on four DMA semaphores; each is a cell of the rounds algebra
  whose rounds are the grid points that move a block through that buffer. At the launch the middle component
  of the ghost state is that algebra's initial element over those cells and over one duty per transfer; it
  yields, per device, the cells' states at round zero and the duty tokens, from which the cells' invariants
  are made when the kernel's region is entered.
-/
import proofs.«203052_g23699629540016_cont_8to1_215_27_alg».proof.Proof.KI.Res
import Idealize.ShloMosaic.Lib.Pipeline.Regions

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The kernel's pipeline prefetches no table: the one admissible contents. -/
abbrev adm : (p : Fin 1) → (pcfgs (F := F) p).Adm := fun p => (cfgs p).toPCfg_adm

/-- What device `d`'s TensorCore is dealt for the pipeline: its staging cells at round zero and one token per transfer. -/
def G (d : Dev nD) : sProp 𝕄 :=
  iprop(Pipeline.cellsGhost cfgs EP 0 d ∗ Pipeline.toksInit cfgs EP 0 d)

/-- The launch element: the handshakes' initial rounds, the pipeline's initial rounds, no transfer counted yet. -/
def u₀ : UU :=
  (initOf (K (F := F)).hsCells (K (F := F)).hsToks,
    (initOf (Pipeline.cells cfgs cellOf_inj) (Pipeline.launchToks cfgs cellOf_inj), (1 : Counters)))

theorem bigSep_emp'' {I : Type} (s : Finset I) : (bigSep s fun _ => iprop(emp)) = (iprop(emp) : sProp 𝕄) := bigSep_emp_const s

variable [FloatOps F] (m : (ℓ : Loc nD τ sig) → Buf (Elt F) ℓ)

/-- The launch element splits into the handshakes' part, each device's pipeline part, and nothing for the tiles. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have hG : iprop((bigSep Finset.univ fun c : Dev nD => bigSep Finset.univ fun p : Fin 1 => (Pipeline.cellsGhost cfgs EP p c : sProp 𝕄))
        ∗ (bigSep Finset.univ fun c : Dev nD => bigSep Finset.univ fun p : Fin 1 => (Pipeline.toksInit cfgs EP p c : sProp 𝕄)))
      ⊢ bigSep Finset.univ fun d : Dev nD => G (F := F) d := by
    unfold G
    rw [bigSep_sep']
    exact BI.sep_mono (Entails.of_eq (bigSep_congr fun d _ => bigSep_univ_of_subsingleton (0 : Fin 1)))
      (Entails.of_eq (bigSep_congr fun d _ => bigSep_univ_of_subsingleton (0 : Fin 1)))
  unfold u₀
  iintro Hu
  ihave H := (ownU_pair _ _) $$ Hu
  icases H with ⟨HH, HR⟩
  ihave H2 := (own_pair_emb embR _ _) $$ HR
  icases H2 with ⟨HP, -⟩
  imod (Pipeline.fund_ghost cfgs EP cellOf_inj) $$ HP with ⟨Hg, Ht⟩
  imodintro
  isplitl [HH]; · iexact HH
  isplitl [Hg Ht]
  · iapply hG
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp'']
  iempintro

end Cert.Proof.KI

end
-- ==== Proof.KI.TailData.lean ====
/-
  The pipelined kernel's proof data and its body.

  The kernel runs 200 grid points. At point t the pipeline fetches slab t of the regrouped rows (4096 rows of
  128 columns) into a staging buffer, the body loads it, keeps columns 0…63, transposes, and stores the
  64 × 4096 result whole into the output's staging buffer, which the pipeline writes back as slab t of the
  output. So after the body the input's buffer still holds the slab and the output's buffer holds the
  body's function of it; nothing else is touched, nothing is owed, and the waits the pipeline makes on its
  own four semaphores are recorded at the lowest level.
-/
import proofs.«203052_g23699629540016_cont_8to1_215_27_alg».proof.Proof.KI.Res
import Idealize.ShloMosaic.Lib.Pipeline.Regions
import Idealize.ShloMosaic.Lib.Pipeline.FrameBody
import Idealize.ShloMosaic.Lib.Ring

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (Dat Cfg Window BodyObligation cellOf)

set_option maxRecDepth 16384

variable [FloatOps F]

/-- The kernel's pipeline prefetches no table: the one admissible contents. -/
abbrev admD : (p : Fin 1) → (pcfgs (F := F) p).Adm := fun p => (cfgs p).toPCfg_adm

section Data

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two rectangles the body accesses: each staging buffer whole. -/
abbrev rIn : Rect S1x4096x128 := Rect.unit (s := S1x4096x128) ![0, 0, 0] S1x4096x128.size inb_S1x4096x128_S1x4096x128_0_0_0
abbrev rOut : Rect S1x64x4096 := Rect.unit (s := S1x64x4096) ![0, 0, 0] S1x64x4096.size inb_S1x64x4096_S1x64x4096_0_0_0

/-- What the body leaves in the output's buffer from the input slab: its one store, read back. -/
def outBlk (x0 : Vec F S1x4096x128 .f32) : Vec F S1x64x4096 .f32 :=
  View.canon [⟨rOut, k1_pay1 (View.ld x0 rIn)⟩]

/-- The one store covers the buffer. -/
theorem cover_out (p0 : Vec F S1x64x4096 .f32) (y : S1x64x4096.Idx) :
    ∃ pc ∈ ([⟨rOut, p0⟩] : List (View.Piece (Elt F) S1x64x4096 .f32)), y ∈ pc.1.set :=
  View.cover_of_tiled [⟨rOut, p0⟩] S1x64x4096.size (by rfl) y

/-- The proof data on device `c`: the arrays as the region finds them; after the body the input's buffer at its
    slab and the output's at the body's function of it; no invariant beyond that; nothing owed; every wait
    recorded so far at level at most eight (the one SparseCore call's band), the pipeline's own at level zero. -/
def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => outBlk (iblk V c 0 t)
  Φ _ := iprop(emp)
  q _ := fullShare
  owed _ := 0
  recorded _ := {p | (K (F := F)).lev ((c : Thread nD τ), p.1) p.2 ≤ 8}

theorem A_eq (c : Dev nD) (w : Fin cfg1.W) : (dats V 0 c).A w = V c (Pipeline.arrRef spec1 w) := by
  dsimp only [dats]
theorem after1_0 (c : Dev nD) (t : Fin cfg1.N) : (dats V 0 c).after 0 t = iblk V c 0 t := by dsimp only [dats]
theorem after1_1 (c : Dev nD) (t : Fin cfg1.N) : (dats V 0 c).after 1 t = outBlk (iblk V c 0 t) := by dsimp only [dats]

/-- The input's current staging buffer holds its slab at every point. -/
theorem before1_0 (c : Dev nD) (t : Fin cfg1.N) (d) : (dats V 0 c).before 0 t d = iblk V c 0 t :=
  ((dats V 0 c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)

end Data

/-! ## The body's triple -/

set_option maxHeartbeats 1000000 in
/-- The body on whole staging memrefs, the input's at contents `x0` and the output's at anything: the input's is left
    as it was and the output's holds `outBlk x0`. -/
theorem sound_kernel (c : Dev nD) (E : Set ℕ) (i : grid1.Coords) (arg1 : Memref sig .tc .vmem S1x4096x128 .f32) (harg1 : arg1.IsWhole)
    (arg2 : Memref sig .tc .vmem S1x64x4096 .f32) (harg2 : arg2.IsWhole)
    (x0 : Vec F S1x4096x128 .f32) (Kont : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlk x0)) -∗ Kont ⟨⟩))
      ⊢ wp frame (wpE (defs₀ (F := F)) Variants.none c none) E (cc1_body i arg1 harg1 arg2 harg2) Kont := by
  simp only [cc1_body_eq_skeleton]; unfold cc1_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (cover_out _)

/-! ## The body obligation -/

section Obligation

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dats V 0 c).Φ t.castSucc ∗ (dats V 0 c).owesAt none t.castSucc
    ∗ (∃ d, owns (c : Thread nD τ) (st1_0 t) fullShare ((dats V 0 c).before 0 t d))
    ∗ (∃ d, owns (c : Thread nD τ) (st1_1 t) fullShare ((dats V 0 c).before 1 t d)))

/-- and what it returns. -/
def bodyPost (c : Dev nD) (t : Fin cfg1.N) : sProp 𝕄 :=
  iprop((dats V 0 c).Φ t.succ ∗ (dats V 0 c).owesAt none t.succ
    ∗ owns (c : Thread nD τ) (st1_0 t) fullShare ((dats V 0 c).after 0 t)
    ∗ owns (c : Thread nD τ) (st1_1 t) fullShare ((dats V 0 c).after 1 t))

/-- The body at any point: the input's memref holds its slab, so the triple applies; the rest passes through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0]
  rw [show (dats V 0 c).Φ t.succ = (dats V 0 c).Φ t.castSucc from rfl,
    show (dats V 0 c).owesAt none t.succ = (dats V 0 c).owesAt none t.castSucc from rfl,
    after1_0, after1_1]
  iintro ⟨HΦ, Ho, ⟨%d0, H0⟩, ⟨%d1, H1⟩⟩
  iapply (sound_kernel c Set.univ (grid1.coords t) _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) V 0 c) (defs₀ (F := F)) Variants.none none Set.univ := fun t => by
  rw [bigSep_W1, bigSep_W1]
  exact sound_body V c t

end Obligation

end Cert.Proof.KI

end
-- ==== Proof.KI.TailValue.lean ====
/-
  From the kernel's blocks to its output array.

  At grid point t the output's buffer holds the body's function of slab t of the input: entry (0, e, b) is the
  slab's row b, column e (the two re-layouts only drop and add the unit axis, the slice keeps columns 0…63, the
  transposition swaps the two axes). The pipeline writes that buffer back as block t of the output, whose
  element (e, b) sits at (t, e, b) of the array; the input block's element (b, e) sits at (t, b, e) of the
  regrouped rows. So each written block is the restriction to slab t of ONE function of the whole input —
  entry (n, e, b) is slab n's row b, column e — and the 200 blocks cover the output, the point that covers
  entry (n, e, b) being n.
-/
import proofs.«203052_g23699629540016_cont_8to1_215_27_alg».proof.Proof.KI.TailData
import Idealize.ShloMosaic.Lib.ValueIdx
import Idealize.ShloMosaic.Lib.Pipeline.Value
import Idealize.ShloMosaic.Lib.ValueLayout

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (Dat Cfg Window BodyObligation cellOf)
open Idealize.ShloMosaic.ValueIdx

set_option maxRecDepth 16384

variable [FloatOps F]

theorem zero3 : (![0, 0, 0] : Fin 3 → Nat) = fun _ => 0 := funext fun a => by fin_cases a <;> rfl

/-- The body's payload at entry `(0, e, b)` is the loaded slab's row `b`, column `e`. -/
theorem pay_apply (x : Vec F S1x4096x128 .f32) (u : Fin 1) (e : Fin 64) (b : Fin 4096) :
    k1_pay1 x (ix3 u e b)
      = x (ix3 (⟨0, Nat.one_pos⟩ : Fin 1) b (⟨e.val, Nat.lt_of_lt_of_le e.isLt (by decide : 64 ≤ 128)⟩ : Fin 128)) := by
  show shapeCast S1x64x4096 (transpose S64x4096 [1, 0] (extractStridedSlice S4096x64 ![0, 0]
      (shapeCast S4096x128 x shapeCasts_S1x4096x128_S4096x128) slices_S4096x128_o0_0_S4096x64) transposes_S4096x64_p1_0_S64x4096)
      shapeCasts_S64x4096_S1x64x4096 (ix3 u e b) = _
  refine (shapeCast_apply _ shapeCasts_S64x4096_S1x64x4096 (ix3 u e b) (ix2 e b) ?_).trans ?_
  · rw [Shape.rowMajor_val_two, Shape.rowMajor_val_three]
    show e.val * 4096 + b.val = (u.val * 64 + e.val) * 4096 + b.val
    have := u.isLt; omega
  refine (transpose_ix2_apply _ transposes_S4096x64_p1_0_S64x4096 e b).trans ?_
  refine (extractStridedSlice_apply ![0, 0] _ slices_S4096x128_o0_0_S4096x64 (ix2 b e)
    (ix2 b (⟨e.val, Nat.lt_of_lt_of_le e.isLt (by decide : 64 ≤ 128)⟩ : Fin 128)) (fun a => ?_)).trans ?_
  · match a with
    | ⟨0, _⟩ => show b.val = 0 + b.val; omega
    | ⟨1, _⟩ => show e.val = 0 + e.val; omega
  refine shapeCast_apply x shapeCasts_S1x4096x128_S4096x128 (ix2 b (⟨e.val, Nat.lt_of_lt_of_le e.isLt (by decide : 64 ≤ 128)⟩ : Fin 128))
    (ix3 (⟨0, Nat.one_pos⟩ : Fin 1) b (⟨e.val, Nat.lt_of_lt_of_le e.isLt (by decide : 64 ≤ 128)⟩ : Fin 128)) ?_
  rw [Shape.rowMajor_val_two, Shape.rowMajor_val_three]
  show (0 * 4096 + b.val) * 128 + e.val = b.val * 128 + e.val
  omega

/-- The printed index maps, decided over the grid: both windows' blocks at point `t` are slab `t`. -/
theorem idx_facts : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

section Value

variable (V : (c : Dev nD) → (b : Ref sig .tc) → Buf (Elt F) ((c : Thread nD τ).loc b))

/-- The output array as one function of the input array: entry `(n, e, b)` is slab `n`'s row `b`, column `e`. -/
abbrev outArr (c : Dev nD) : S200x64x4096.Idx → Elt F .f32 := Stages.slabsT (V c (Pipeline.arrRef spec1 0))

/-- What point `t` writes back is block `t` of that function. -/
theorem flushed_eq (c : Dev nD) (t : Fin cfg1.N) :
    (dats V 0 c).flushed 1 t = ((cfg1.win 1).blk t).view.read (Elt F) (outArr V c) := by
  show (cfg1.win 1).cut (grid1.coords t) ((dats V 0 c).after 1 t) = _
  rw [after1_1]
  unfold outBlk
  rw [View.canon_unit_zero zero3]
  simp only [View.ld_unit_zero (S := S1x4096x128) zero3]
  obtain ⟨e0, e1, e2, e3, e4, e5⟩ := idx_facts t
  refine funext fun (j : S1x64x4096.Idx) => ?_
  show k1_pay1 (iblk V c 0 t) j = _
  refine (congrArg (k1_pay1 (iblk V c 0 t)) (eq_ix3 j)).trans ((pay_apply (iblk V c 0 t) (j 0) (j 1) (j 2)).trans ?_)
  show V c (Pipeline.arrRef spec1 0) (((cfg1.win 0).blk t).view.emb
      (ix3 (⟨0, Nat.one_pos⟩ : Fin 1) (j 2) (⟨(j 1).val, Nat.lt_of_lt_of_le (j 1).isLt (by decide : 64 ≤ 128)⟩ : Fin 128)))
    = V c (Pipeline.arrRef spec1 0) (ix3 (⟨((((cfg1.win 1).blk t).view.emb j) 0).val, ((((cfg1.win 1).blk t).view.emb j) 0).isLt⟩ : Fin 200)
        (⟨((((cfg1.win 1).blk t).view.emb j) 2).val, ((((cfg1.win 1).blk t).view.emb j) 2).isLt⟩ : Fin 4096)
        (⟨((((cfg1.win 1).blk t).view.emb j) 1).val, Nat.lt_of_lt_of_le ((((cfg1.win 1).blk t).view.emb j) 1).isLt (by decide : 64 ≤ 128)⟩ : Fin 128))
  refine congrArg _ (funext fun a => Fin.ext ?_)
  have hj0 : (j 0).val < 1 := (j 0).isLt
  match a with
  | ⟨0, _⟩ => show win1_0.index t (0 : Fin 3) * 1 + 1 * 0 = win1_1.index t (0 : Fin 3) * 1 + 1 * (j 0).val; omega
  | ⟨1, _⟩ => show win1_0.index t (1 : Fin 3) * 4096 + 1 * (j 2).val = win1_1.index t (2 : Fin 3) * 4096 + 1 * (j 2).val; omega
  | ⟨2, _⟩ => show win1_0.index t (2 : Fin 3) * 128 + 1 * (j 1).val = win1_1.index t (1 : Fin 3) * 64 + 1 * (j 1).val; omega

/-- An index of the output array is in point `t`'s block iff each coordinate is in the block's range on its axis. -/
theorem mem_blk (t : Fin cfg1.N) (i : S200x64x4096.Idx) :
    i ∈ ((cfg1.win 1).blk t).view.set ↔ ∀ a : Fin 3, win1_1.index t a * S1x64x4096.size a ≤ (i a).val ∧ (i a).val < win1_1.index t a * S1x64x4096.size a + S1x64x4096.size a := by
  show i ∈ ((View.whole main_v5).slice (win1_1.rect t)).set ↔ _
  rw [View.set_slice_whole, Rect.mem_set_unit]
  exact Iff.rfl

/-- Every entry of the output is in some point's block: entry `(n, e, b)` in point `n`'s. -/
theorem covered (i : S200x64x4096.Idx) : ∃ t : Fin cfg1.N, (cfg1.win 1).flush t = true ∧ i ∈ ((cfg1.win 1).blk t).view.set := by
  have hi0 : (i 0).val < 200 := (i 0).isLt
  have hi1 : (i 1).val < 64 := (i 1).isLt
  have hi2 : (i 2).val < 4096 := (i 2).isLt
  refine ⟨⟨(i 0).val, hi0⟩, flush1_1 _, ?_⟩
  obtain ⟨-, -, -, e3', e4, e5⟩ := idx_facts ⟨(i 0).val, hi0⟩
  have e3 : win1_1.index ⟨(i 0).val, hi0⟩ (0 : Fin 3) = (i 0).val := e3'
  rw [mem_blk]
  intro a
  match a with
  | ⟨0, _⟩ => show win1_1.index ⟨(i 0).val, hi0⟩ (0 : Fin 3) * 1 ≤ (i 0).val ∧ (i 0).val < win1_1.index ⟨(i 0).val, hi0⟩ (0 : Fin 3) * 1 + 1; rw [e3]; omega
  | ⟨1, _⟩ => show win1_1.index ⟨(i 0).val, hi0⟩ (1 : Fin 3) * 64 ≤ (i 1).val ∧ (i 1).val < win1_1.index ⟨(i 0).val, hi0⟩ (1 : Fin 3) * 64 + 64; rw [e4]; omega
  | ⟨2, _⟩ => show win1_1.index ⟨(i 0).val, hi0⟩ (2 : Fin 3) * 4096 ≤ (i 2).val ∧ (i 2).val < win1_1.index ⟨(i 0).val, hi0⟩ (2 : Fin 3) * 4096 + 4096; rw [e5]; omega

/-- The output array after the kernel: the one function of the input array. -/
theorem final_out (c : Dev nD) : (dats V 0 c).arrAt 1 cfg1.N = outArr V c :=
  (dats V 0 c).arrAt_eq_of_cover 1 (outArr V c) (fun t _ => flushed_eq V c t) covered

/-- The input array after the kernel: as the region found it. -/
theorem final_in (c : Dev nD) : (dats V 0 c).arrAt 0 cfg1.N = V c (Pipeline.arrRef spec1 0) :=
  ((dats V 0 c).arrAt_in 0 rfl _).trans (A_eq V c 0)

end Value

end Cert.Proof.KI

end
-- ==== Proof.KI.Tail.lean ====
/-
  The tail of the program on the TensorCore: the regrouping, the pipelined kernel's region, the last transposition.

  The regrouping is a host operation on the gathered array and the slabs' array. The region is entered from the
  boundary with the slabs' array and the output array whole, the TensorCore owing nothing (the one SparseCore call
  is over) and every wait recorded so far at a level of that call's band; the pipeline's staging cells are made
  from what the launch dealt for them; its own waits are recorded at the lowest level, so the recorded waits stay
  within the band. The region leaves the output array at the one function of the slabs' array that the blocks
  restrict, and the last transposition, a host operation again, reads it.
-/
import proofs.«203052_g23699629540016_cont_8to1_215_27_alg».proof.Proof.KI.Main
import proofs.«203052_g23699629540016_cont_8to1_215_27_alg».proof.Proof.KI.TailLaunch
import proofs.«203052_g23699629540016_cont_8to1_215_27_alg».proof.Proof.KI.TailValue

noncomputable section

namespace Cert.Proof.KI

open Cert.KernelIdeal Cert.KernelIdeal.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (Dat Cfg Window BodyObligation cellOf)
open Idealize.ShloMosaic.StableHlo (held held_split held_sdiff_result wp_hlo_within)

set_option maxRecDepth 16384

variable [FloatOps F] (m : (ℓ : Loc nD τ sig) → Buf (Elt F) ℓ)

/-! ## The two host operations -/

/-- The regrouping and the last transposition, as operations on the TensorCore's arrays. -/
abbrev opRs : HloOp τ sig (Elt F) := StableHlo.reshape main_v3 main_v4 rfl shapeCasts_S819200x128_S200x4096x128
abbrev opTr : HloOp τ sig (Elt F) :=
  StableHlo.unary main_v5 main_v6 ((transpose S4096x200x64 [2, 0, 1] · transposes_S200x64x4096_S4096x200x64_2_0_1) : (⟨S200x64x4096, .f32⟩ : BufTy).Contents (Elt F) → (⟨S4096x200x64, .f32⟩ : BufTy).Contents (Elt F))

abbrev S34 : Finset (DevRef τ sig) := {v3', v4'}
abbrev S56 : Finset (DevRef τ sig) := {v5', v6'}

theorem hRs : (opRs (F := F)).bufs ⊆ S34 := show ({v3', v4'} : Finset (DevRef τ sig)) ⊆ S34 by decide
theorem hTr : (opTr (F := F)).bufs ⊆ S56 := show ({v5', v6'} : Finset (DevRef τ sig)) ⊆ S56 by decide

omit [FloatOps F] in
theorem held_S34 (d : Dev nD) (W : Valuation τ sig (Elt F)) :
    (held (T d) S34 W : sProp 𝕄) = iprop((v3Loc d ↦{fullShare} W v3') ∗ (v4Loc d ↦{fullShare} W v4')) := by
  unfold held S34
  rw [SparseCore.bigSep_insert' (by decide), bigSep_singleton]

omit [FloatOps F] in
theorem held_S56 (d : Dev nD) (W : Valuation τ sig (Elt F)) :
    (held (T d) S56 W : sProp 𝕄) = iprop((v5Loc d ↦{fullShare} W v5') ∗ (v6Loc d ↦{fullShare} W v6')) := by
  unfold held S56
  rw [SparseCore.bigSep_insert' (by decide), bigSep_singleton]

section Tail

variable (d : Dev nD) (g3 : Buf (Elt F) (v3Loc d))

/-- The arrays before the regrouping: as launched, but the gathered array at `g3`; and after it. -/
def W0 : Valuation τ sig (Elt F) := Function.update (fun b => m (d, b)) v3' g3
def W1 : Valuation τ sig (Elt F) := (opRs (F := F)).result (W0 m d g3)

theorem W0_v3 : W0 m d g3 v3' = g3 := Function.update_self _ _ _
theorem W0_v4 : W0 m d g3 v4' = m (v4Loc d) := Function.update_of_ne (show v4' ≠ v3' by decide) _ _
theorem W1_v3 : W1 m d g3 v3' = g3 := by
  unfold W1
  rw [(opRs (F := F)).result_of_not_mem _ (show v3' ∉ ({v4'} : Finset (DevRef τ sig)) by decide), W0_v3]
theorem W1_v4 : W1 m d g3 v4' = Stages.regrouped g3 := by
  unfold W1
  rw [StableHlo.reshape_result, W0_v3]
  rfl

/-- The two arrays of the regrouping after it. -/
theorem held_W1 :
    (held (T d) S34 ((opRs (F := F)).result (W0 m d g3)) : sProp 𝕄) = iprop((v3Loc d ↦{fullShare} g3) ∗ (v4Loc d ↦{fullShare} Stages.regrouped g3)) := by
  show held (SparseCore.T d) S34 (W1 m d g3) = _
  rw [held_S34, W1_v3, W1_v4]

/-- The TensorCore's arrays as the region finds them (every device's the same function of the reference). -/
def Vr : (c : Dev nD) → (b : Ref sig .tc) → Buf (Elt F) ((c : Thread nD τ).loc b) := fun _ b => W1 m d g3 (Proc.devRef .tc b)

theorem Vr_in (c : Dev nD) : Vr m d g3 c (Pipeline.arrRef spec1 0) = Stages.regrouped g3 := W1_v4 m d g3

/-- The pipeline's arrays, one by one. -/
theorem arrays_two (c : Dev nD) (A : (w : Fin cfg1.W) → Buf (Elt F) ((cfg1.win w).arr.view.loc (c : Thread nD τ))) :
    ((dats (Vr m d g3) 0 c).arrays A : sProp 𝕄) = iprop((v4Loc c ↦{fullShare} A 0) ∗ (v5Loc c ↦{fullShare} A 1)) := by
  rw [Pipeline.arrays_eq cfgs (dats (Vr m d g3)) 0 c launch1.arr_whole (fun w => (dats (Vr m d g3) 0 c).share_full (fun _ => rfl) w) A, bigSep_W1]

/-! ## The region -/

-- the layout facts are stated over `cfgs p`, the record over the pipeline pinned at its one admissible contents
set_option backward.isDefEq.respectTransparency.types false in
/-- The kernel's region: entered with the two arrays and the TensorCore owing nothing, left with them at their final
    contents; nothing of the kernel's own besides. -/
def reg : Pipeline.RegionSeg (pcfgs (F := F)) adm (dats (Vr m d g3)) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation (Vr m d g3) c).loose
  hwaits := Pipeline.hwaits_of_owed_zero _ _ _ _ (K (F := F)).L (K (F := F)).lev 0 fun _ _ => rfl
  pre c := iprop((dats (Vr m d g3) 0 c).arrays ((dats (Vr m d g3) 0 c).arrAt · 0) ∗ (dats (Vr m d g3) 0 c).owesAt none 0)
  post c := iprop((dats (Vr m d g3) 0 c).arrays ((dats (Vr m d g3) 0 c).arrAt · cfg1.N) ∗ (dats (Vr m d g3) 0 c).owesAt none (Fin.last cfg1.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (dats (Vr m d g3) 0 c).Φ 0 = iprop(emp) from rfl]
    iintro -; iempintro
  hout c := by
    rw [show (dats (Vr m d g3) 0 c).Φ (Fin.last cfg1.N) = iprop(emp) from rfl, scopedRest1_eq]
    unfold Pipeline.ownSems0
    rw [Finset.univ_eq_empty, BI.bigSep_empty]
    iintro -
    isplitr; · iempintro
    isplitr <;> iempintro
  hexit c := by
    iintro ⟨Ha, HO, -, -⟩
    imodintro
    isplitl [Ha]; · iexact Ha
    iexact HO

/-- The output array before the region: as launched. -/
theorem Vr_out (c : Dev nD) : Vr m d g3 c (Pipeline.arrRef spec1 1) = m (v5Loc d) := by
  show W1 m d g3 v5' = _
  unfold W1
  rw [(opRs (F := F)).result_of_not_mem _ (show v5' ∉ ({v4'} : Finset (DevRef τ sig)) by decide)]
  exact Function.update_of_ne (show v5' ≠ v3' by decide) _ _

/-- What the region is entered with: the two arrays, and the TensorCore owing nothing with its recorded waits in the
    one call's band. -/
theorem reg_pre (W : Waits sig (HIx 1)) (hW : (K (F := F)).WBelow (SparseCore.T d) W (8 * 1)) :
    (iprop((v4Loc d ↦{fullShare} Stages.regrouped g3) ∗ (v5Loc d ↦{fullShare} m (v5Loc d)) ∗ owes (SparseCore.T d) ((K (F := F)).Otc d 1) W) : sProp 𝕄)
      ⊢ (reg m d g3).pre d := by
  show _ ⊢ iprop((dats (Vr m d g3) 0 d).arrays ((dats (Vr m d g3) 0 d).arrAt · 0) ∗ (dats (Vr m d g3) 0 d).owesAt none 0)
  rw [arrays_two, show (dats (Vr m d g3) 0 d).arrAt 0 0 = Stages.regrouped g3 from (A_eq (Vr m d g3) d 0).trans (Vr_in m d g3 d),
    show (dats (Vr m d g3) 0 d).arrAt 1 0 = m (v5Loc d) from (A_eq (Vr m d g3) d 1).trans (Vr_out m d g3 d),
    (K (F := F)).Otc_end d (le_refl 1)]
  unfold Pipeline.Dat.owesAt Pipeline.owesWithin
  iintro ⟨H4, H5, HO⟩
  isplitl [H4 H5]
  · isplitl [H4]; · iexact H4
    iexact H5
  iexists W
  isplitr
  · ipureintro
    intro p hp
    exact Or.inl (by have := hW p hp; rwa [Nat.mul_one] at this)
  iexact HO

/-- What the region leaves: the slabs' array as it was, the output array at the one function of it, and the
    TensorCore owing nothing with its recorded waits still in the band (the pipeline's own sit at level zero). -/
theorem reg_post :
    (reg m d g3).post d
      ⊢ (iprop((v4Loc d ↦{fullShare} Stages.regrouped g3) ∗ (v5Loc d ↦{fullShare} Stages.slabsT (Stages.regrouped g3))
          ∗ ∃ W, ⌜(K (F := F)).WBelow (SparseCore.T d) W (8 * 1)⌝ ∗ owes (SparseCore.T d) ((K (F := F)).Otc d 1) W) : sProp 𝕄) := by
  show iprop((dats (Vr m d g3) 0 d).arrays ((dats (Vr m d g3) 0 d).arrAt · cfg1.N) ∗ (dats (Vr m d g3) 0 d).owesAt none (Fin.last cfg1.N)) ⊢ _
  rw [arrays_two, final_in, final_out, Vr_in, (K (F := F)).Otc_end d (le_refl 1)]
  unfold Pipeline.Dat.owesAt Pipeline.owesWithin
  iintro ⟨⟨H4, H5⟩, ⟨%W, %hW, HO⟩⟩
  isplitl [H4]; · iexact H4
  isplitl [H5]; · iexact H5
  iexists W
  isplitr
  · ipureintro
    intro p hp
    rcases hW hp with h | ⟨w, s, rfl⟩
    · rw [Nat.mul_one]; exact h
    · exact Nat.zero_le _
  iexact HO

/-- The arrays before the last transposition: as launched, but the output array at the kernel's result. -/
def W2 : Valuation τ sig (Elt F) := Function.update (fun b => m (d, b)) v5' (Stages.slabsT (Stages.regrouped g3))

theorem W2_v5 : W2 m d g3 v5' = Stages.slabsT (Stages.regrouped g3) := Function.update_self _ _ _
theorem W2_v6 : W2 m d g3 v6' = m (v6Loc d) := Function.update_of_ne (show v6' ≠ v5' by decide) _ _

/-- The two arrays of the last transposition after it. -/
theorem held_W3 :
    (held (T d) S56 ((opTr (F := F)).result (W2 m d g3)) : sProp 𝕄)
      = iprop((v5Loc d ↦{fullShare} Stages.slabsT (Stages.regrouped g3)) ∗ (v6Loc d ↦{fullShare} Stages.final (Stages.slabsT (Stages.regrouped g3)))) := by
  rw [held_S56, (opTr (F := F)).result_of_not_mem _ (show v5' ∉ ({v6'} : Finset (DevRef τ sig)) by decide), W2_v5,
    StableHlo.unary_result, W2_v5]
  rfl

end Tail

/-! ## The tail -/

set_option backward.isDefEq.respectTransparency.types false in
set_option maxHeartbeats 1000000 in
/-- The three statements, from what the TensorCore holds after the SparseCore call. -/
theorem tail : TailStmt (F := F) (G (F := F)) := by
  intro m ρ κ d g3
  unfold tailProg SparseCore.Cfg.tcSt
  simp only [wp_bind, wp_pure]
  iintro ⟨#Hctx, HG, ⟨⟨%W, %hW, HO⟩, Hrest⟩, Hb, Hsems, Hprng, H3, H4, H5, H6⟩
  -- the regrouping
  iapply (wp_hlo_within 𝒱 (SparseCore.T d) none Set.univ (op := opRs) (S := S34) hRs (V := W0 m d g3)) $$ [Hb H3 H4]
  · isplitl [Hb]; · iexact Hb
    rw [held_S34, W0_v3, W0_v4]
    isplitl [H3]; · iexact H3
    iexact H4
  iintro ⟨Hb, Hheld⟩
  rw [wp_ret]; imodintro
  ihave Hh := (Entails.of_eq (held_W1 (F := F) m d g3)) $$ Hheld
  icases Hh with ⟨H3, H4⟩
  -- the kernel's region: the level facts, the arrays and the core's debt (none) in, the staging cells from the launch's deal
  ihave Hlev := ((K (F := F)).ctx_levAts (EH := EH) (P := P m) κ) $$ Hctx
  iapply ((K (F := F)).wp_liftProg (D (F := F)) 𝒱 (SparseCore.T d) Set.univ none (Prog.lift (.customCall (Pipeline.entry 0) ())) _)
  iapply (Pipeline.RegionSeg.wp (pcfgs (F := F)) adm (dats (Vr m d g3)) none cellOf_inj EP defs₀ 𝒱₀ (K (F := F)).L (K (F := F)).lev
    (reg m d g3) d none (fun _ h => by cases h) (fun r => Prog.ret r) _)
  isplitl [Hrest H6]
  · iintro ⟨Hb, Hpost⟩
    ihave Hp := (reg_post m d g3) $$ Hpost
    icases Hp with ⟨-, H5, ⟨%W', %hW', HO⟩⟩
    rw [wp_ret]; imodintro
    -- the last transposition
    iapply (wp_hlo_within 𝒱 (SparseCore.T d) none Set.univ (op := opTr) (S := S56) hTr (V := W2 m d g3)) $$ [Hb H5 H6]
    · isplitl [Hb]; · iexact Hb
      rw [held_S56, W2_v5, W2_v6]
      isplitl [H5]; · iexact H5
      iexact H6
    iintro ⟨Hb, Hheld⟩
    ihave Hh := (Entails.of_eq (held_W3 (F := F) m d g3)) $$ Hheld
    icases Hh with ⟨-, H6⟩
    rw [wp_ret]; imodintro; imodintro
    isplitl [HO Hrest]
    · isplitl [HO]
      · iexists W'
        isplitr; · ipureintro; exact hW'
        iexact HO
      iexact Hrest
    iexact H6
  isplitl [Hb]; · iexact Hb
  isplitl [HO H4 H5]
  · iapply (reg_pre m d g3 W hW)
    isplitl [H4]; · iexact H4
    isplitl [H5]; · iexact H5
    iexact HO
  isplitr; · iexact Hlev
  unfold G
  iexact HG

end Cert.Proof.KI

end
-- ==== Proof.KI.RunOf.lean ====
/-
  The program's run from one tile's task alone: the tail, its launch element and everything else are in place,
  so the run follows from the task's statement at every tile.
-/
import proofs.«203052_g23699629540016_cont_8to1_215_27_alg».proof.Proof.KI.Tail

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

theorem run_main_of_body [∀ e, Nonempty (Elt F e)] (hbody : TileBodyStmt (F := F))
    (m : (ℓ : Loc nD τ sig) → Buf (Elt F) ℓ) (ρ : Dev nD → PrngReg) (hin : ∀ d x, (F1 m d x).toNat < 1000) :
    θ_run (Cert.KernelIdeal.defs (F := F)) (Cert.KernelIdeal.threads (F := F)) ⟨m, fun _ => 0, ρ⟩ (QC m) :=
  run_main_of m ρ hbody (fun d => G (F := F) d) (u₀ (F := F)) (hu₀ m) tail hin

end Cert.Proof.KI

end
-- ==== Proof.KI.TileWords.lean ====
/-
  The counted loop's five carried words as functions of the trip, and every word-level fact the loop's run needs of
  them: which of the trip's four guarded steps are taken, that the assumed range checks hold, where each slice the trip
  addresses lies, and what the trip yields.

  A tile handles 200 consecutive chunks of 128 index words; tile (c, s) starts at chunk (s + 16 c) * 200. Before trip k:
  the first word counts the index chunks whose fetch has been started, k + 1, capped at 200; the second and third the
  chunks fetched and gathered, k; the fourth the chunks whose copy-out has been waited for, k - 1 (none before trip 1);
  the fifth is the chunk's number within the tile, k, wrapping to 0 after the last. A trip starts the next fetch when
  k < 199, always waits for its own fetch and always starts its copy-out, and waits for the previous copy-out when
  1 ≤ k. Slots alternate: everything indexed by a word goes to slot (word mod 2).

  Every statement here is closed over the 200 trips and the 32 tiles and is decided by evaluation.
-/
import proofs.«203052_g23699629540016_cont_8to1_215_27_alg».proof.KernelIdeal
import proofs.«203052_g23699629540016_cont_8to1_215_27_alg».proof.Proof.Gen.KernelIdeal
import Idealize.ShloMosaic.Lib.Decide

set_option Elab.async false

namespace Cert.Proof.KI

open Cert.KernelIdeal Cert.KernelIdeal.Gen
open Idealize.ShloMosaic

/-! ## The words -/

def W6 (k : ℕ) : BitVec 32 := BitVec.ofNat 32 (min (k + 1) 200)
def W7 (k : ℕ) : BitVec 32 := BitVec.ofNat 32 k
def W9 (k : ℕ) : BitVec 32 := BitVec.ofNat 32 (k - 1)
def W10 (k : ℕ) : BitVec 32 := BitVec.ofNat 32 (k % 200)

/-- The tile's first chunk number, as the body computes it from the grid coordinates. -/
def V4 (i : grid0.Coords) : BitVec 32 :=
  Scalar.muli (Scalar.addi (Scalar.addi 0#32 (Scalar.muli (BitVec.ofNat 32 (i 1).val) 1#32)) (Scalar.muli (BitVec.ofNat 32 (i 0).val) 16#32)) 200#32

/-- Chunk `j` of tile `i`, numbered over the whole array. -/
def chunkNo (i : grid0.Coords) (j : ℕ) : ℕ := ((i 1).val + 16 * (i 0).val) * 200 + j

theorem trips_eq : k0_t1_loop.trips = 200 := by decide +kernel

/-! ## The guarded steps -/

theorem cond1_iff : ∀ (i : grid0.Coords) (k : Fin k0_t1_loop.trips), (k0_cond1 i k (W10 k.val) = 1#1) ↔ k.val < 199 := by decide +kernel
theorem cond2_true : ∀ (i : grid0.Coords) (k : Fin k0_t1_loop.trips), k0_cond2 i k (W10 k.val) = 1#1 := by decide +kernel
theorem cond5_true : ∀ (i : grid0.Coords) (k : Fin k0_t1_loop.trips), k0_cond5 i k (W10 k.val) = 1#1 := by decide +kernel
theorem cond7_iff : ∀ (i : grid0.Coords) (k : Fin k0_t1_loop.trips), (k0_cond7 i k (W10 k.val) = 1#1) ↔ 1 ≤ k.val := by decide +kernel

/-! ## The assumed checks -/

theorem chk3_W : ∀ k : Fin k0_t1_loop.trips, k0_chk3 (W7 k.val) := by decide +kernel
theorem chk2_W : ∀ k : Fin k0_t1_loop.trips, k0_chk2 (W7 k.val) := by decide +kernel
theorem chk1_W : ∀ (i : grid0.Coords) (k : Fin k0_t1_loop.trips), k0_chk1 i k (W6 k.val) (W7 k.val) (W7 k.val) (W9 k.val) (W10 k.val) := by decide +kernel
theorem chk5_W : ∀ i : grid0.Coords, k0_chk5 i (W10 200) := by decide +kernel
theorem chk4_W : k0_chk4 (W9 200) := by decide +kernel

/-! ## Where the trip's slices lie -/

theorem off2_W : ∀ i : grid0.Coords, k0_off2 i = ![0, 128 * chunkNo i 0] := by decide +kernel
theorem off4_W : ∀ k : Fin k0_t1_loop.trips, k0_off4 (W6 k.val) = ![(k.val + 1) % 2, 0, 0] := by decide +kernel
theorem off6_W : ∀ k : Fin k0_t1_loop.trips, k0_off6 (W6 k.val) = ![(k.val + 1) % 2] := by decide +kernel
theorem off5_W : ∀ (i : grid0.Coords) (k : Fin k0_t1_loop.trips), k.val < 199 → k0_off5 i (W10 k.val) = ![0, 128 * chunkNo i (k.val + 1)] := by decide +kernel
theorem off7_W : ∀ k : Fin k0_t1_loop.trips, k0_off7 (W7 k.val) = ![k.val % 2, 0, 0] := by decide +kernel
theorem off9_W : ∀ k : Fin k0_t1_loop.trips, k0_off9 (W7 k.val) = ![k.val % 2] := by decide +kernel
theorem off8_W : ∀ (i : grid0.Coords) (k : Fin k0_t1_loop.trips), k0_off8 i (W10 k.val) = ![0, 128 * chunkNo i k.val] := by decide +kernel
theorem off10_W : ∀ k : Fin k0_t1_loop.trips, k0_off10 (W7 k.val) = ![k.val % 2, 0, 0] := by decide +kernel
theorem off11_W : ∀ k : Fin k0_t1_loop.trips, k0_off11 (W7 k.val) = ![k.val % 2, 0, 0] := by decide +kernel
theorem off12_W : ∀ k : Fin k0_t1_loop.trips, k0_off12 (W7 k.val) = ![k.val % 2, 0, 0] := by decide +kernel
theorem off14_W : ∀ k : Fin k0_t1_loop.trips, k0_off14 (W7 k.val) = ![k.val % 2] := by decide +kernel
theorem off13_W : ∀ (i : grid0.Coords) (k : Fin k0_t1_loop.trips), k0_off13 i (W10 k.val) = ![128 * chunkNo i k.val, 0] := by decide +kernel
theorem off15_W : ∀ k : Fin k0_t1_loop.trips, 1 ≤ k.val → k0_off15 (W9 k.val) = ![(k.val + 1) % 2, 0, 0] := by decide +kernel
theorem off17_W : ∀ k : Fin k0_t1_loop.trips, 1 ≤ k.val → k0_off17 (W9 k.val) = ![(k.val + 1) % 2] := by decide +kernel
theorem off16_W : ∀ (i : grid0.Coords) (k : Fin k0_t1_loop.trips), 1 ≤ k.val → k0_off16 i (W10 k.val) = ![128 * chunkNo i (k.val - 1), 0] := by decide +kernel
theorem off18_W : k0_off18 (W9 200) = ![1, 0, 0] := by decide +kernel
theorem off20_W : k0_off20 (W9 200) = ![1] := by decide +kernel
theorem off21_W : k0_off21 (W9 200) = ![1, 0, 0] := by decide +kernel
theorem off19_W : ∀ i : grid0.Coords, k0_off19 i (W10 200) = ![128 * chunkNo i 199, 0] := by decide +kernel

/-- Every chunk of every tile lies inside the arrays. -/
theorem chunk_inb : ∀ (i : grid0.Coords) (j : Fin 200), 128 * chunkNo i j.val + 128 ≤ 819200 := by decide +kernel
/-- A tile's chunks are the 200 consecutive blocks of 128 rows of its own 25,600 rows. -/
theorem chunk_row : ∀ (i : grid0.Coords) (j : Fin 200), 128 * chunkNo i j.val = 25600 * (16 * (i 0).val + (i 1).val) + 128 * j.val := by decide +kernel

/-! ## What a trip yields -/

/-- The five words a trip yields, from the five it was entered with: the region's own chain of word operations. -/
def yld (v4 : BitVec 32) (k : Fin k0_t1_loop.trips) (a6 a7 a8 a9 a10 : BitVec 32) : BitVec 32 × BitVec 32 × BitVec 32 × BitVec 32 × BitVec 32 :=
  let arg5 : BitVec 32 := Scf.iv 0#32 1#32 k
  let v64 : BitVec 1 := Scalar.cmpi .eq arg5 0#32
  let v65 : BitVec 1 := Scalar.cmpi .eq arg5 199#32
  let v66 : BitVec 32 := Scalar.addi a10 v4
  let v67 : BitVec 32 := Scalar.subi a10 1#32
  let v68 : BitVec 32 := Scalar.select 1#1 v67 a10
  let v69 : BitVec 1 := Scalar.cmpi .eq v68 4294967295#32
  let v70 : BitVec 32 := Scalar.select v69 199#32 v68
  let v71 : BitVec 32 := Scalar.addi v70 v4
  let v72 : BitVec 32 := Scalar.addi a10 1#32
  let v73 : BitVec 32 := Scalar.select 1#1 v72 a10
  let v74 : BitVec 1 := Scalar.cmpi .eq v73 200#32
  let v75 : BitVec 32 := Scalar.select v74 0#32 v73
  let v76 : BitVec 32 := Scalar.addi v75 v4
  let v82 : BitVec 1 := Scalar.cmpi .ne v66 v76
  let v83 : BitVec 1 := Scalar.cmpi .sge arg5 199#32
  let v84 : BitVec 1 := Scalar.xori v83 1#1
  let v85 : BitVec 1 := Scalar.andi v82 v84
  let v88 : BitVec 1 := Scalar.andi v85 1#1
  let v89 : BitVec 32 := Scalar.addi a6 1#32
  let v90 : BitVec 32 := Scalar.select v88 v89 a6
  let v116 : BitVec 1 := Scalar.cmpi .ne v66 v76
  let v117 : BitVec 1 := Scalar.ori v116 v65
  let v120 : BitVec 1 := Scalar.andi v117 1#1
  let v121 : BitVec 32 := Scalar.addi a8 1#32
  let v122 : BitVec 32 := Scalar.select v120 v121 a8
  let v129 : BitVec 1 := Scalar.cmpi .ne v66 v71
  let v130 : BitVec 1 := Scalar.xori v64 1#1
  let v131 : BitVec 1 := Scalar.andi v129 v130
  let v134 : BitVec 1 := Scalar.andi v131 1#1
  let v135 : BitVec 32 := Scalar.addi a9 1#32
  let v136 : BitVec 32 := Scalar.select v134 v135 a9
  let v137 : BitVec 1 := Scalar.cmpi .ne v66 v76
  let v138 : BitVec 1 := Scalar.ori v137 v65
  let v139 : BitVec 32 := Scalar.addi a7 1#32
  let v140 : BitVec 32 := Scalar.select v138 v139 a7
  let v141 : BitVec 32 := Scalar.addi a10 1#32
  let v142 : BitVec 32 := Scalar.select 1#1 v141 a10
  let v143 : BitVec 1 := Scalar.cmpi .eq v142 200#32
  let v144 : BitVec 32 := Scalar.select v143 0#32 v142
  (v90, v140, v122, v136, v144)

/-- A trip entered with the words of trip `k` yields the words of trip `k + 1`. -/
theorem yld_W : ∀ (i : grid0.Coords) (k : Fin k0_t1_loop.trips),
    yld (V4 i) k (W6 k.val) (W7 k.val) (W7 k.val) (W9 k.val) (W10 k.val)
      = (W6 (k.val + 1), W7 (k.val + 1), W7 (k.val + 1), W9 (k.val + 1), W10 (k.val + 1)) := by decide +kernel

/-- The loop is entered with the words of trip 0. -/
theorem W_zero : (Scalar.addi 0#32 1#32, (0#32 : BitVec 32), (0#32 : BitVec 32), (0#32 : BitVec 32), (0#32 : BitVec 32)) = (W6 0, W7 0, W7 0, W9 0, W10 0) := by decide +kernel

end Cert.Proof.KI
-- ==== Proof.KI.TileOff.lean ====
/-
  The closed forms of the trip's slices, one per offsets chain of the counted loop's region: each chain, at the words the loop carries before trip k, names slot k mod 2 or (k + 1) mod 2 of a scratch,
  or the chunk of trip k, k + 1 or k - 1. The forms that hold only when the step they belong to is taken (the next
  fetch when k < 199, the wait for the previous copy-out when 1 ≤ k) take that fact as a hypothesis.
-/
import proofs.«203052_g23699629540016_cont_8to1_215_27_alg».proof.Proof.KI.TileWords
import Idealize.ShloMosaic.Lib.Exec

namespace Cert.Proof.KI

open Cert.KernelIdeal Cert.KernelIdeal.Gen
open Idealize.ShloMosaic

theorem klt (k : Fin k0_t1_loop.trips) : k.val < 200 := trips_eq ▸ k.isLt

instance closedOff4 (k : Fin k0_t1_loop.trips) : ClosedOff (k0_off4 (W6 k.val)) := ⟨![(k.val + 1) % 2, 0, 0], off4_W k⟩
instance closedOff6 (k : Fin k0_t1_loop.trips) : ClosedOff (k0_off6 (W6 k.val)) := ⟨![(k.val + 1) % 2], off6_W k⟩
instance closedOff5 (i : grid0.Coords) (k : Fin k0_t1_loop.trips) [h : Fact (k.val < 199)] : ClosedOff (k0_off5 i (W10 k.val)) :=
  ⟨![0, 128 * chunkNo i (k.val + 1)], off5_W i k h.out⟩
instance closedOff7 (k : Fin k0_t1_loop.trips) : ClosedOff (k0_off7 (W7 k.val)) := ⟨![k.val % 2, 0, 0], off7_W k⟩
instance closedOff9 (k : Fin k0_t1_loop.trips) : ClosedOff (k0_off9 (W7 k.val)) := ⟨![k.val % 2], off9_W k⟩
instance closedOff8 (i : grid0.Coords) (k : Fin k0_t1_loop.trips) : ClosedOff (k0_off8 i (W10 k.val)) := ⟨![0, 128 * chunkNo i k.val], off8_W i k⟩
instance closedOff10 (k : Fin k0_t1_loop.trips) : ClosedOff (k0_off10 (W7 k.val)) := ⟨![k.val % 2, 0, 0], off10_W k⟩
instance closedOff11 (k : Fin k0_t1_loop.trips) : ClosedOff (k0_off11 (W7 k.val)) := ⟨![k.val % 2, 0, 0], off11_W k⟩
instance closedOff12 (k : Fin k0_t1_loop.trips) : ClosedOff (k0_off12 (W7 k.val)) := ⟨![k.val % 2, 0, 0], off12_W k⟩
instance closedOff14 (k : Fin k0_t1_loop.trips) : ClosedOff (k0_off14 (W7 k.val)) := ⟨![k.val % 2], off14_W k⟩
instance closedOff13 (i : grid0.Coords) (k : Fin k0_t1_loop.trips) : ClosedOff (k0_off13 i (W10 k.val)) := ⟨![128 * chunkNo i k.val, 0], off13_W i k⟩
instance closedOff15 (k : Fin k0_t1_loop.trips) [h : Fact (1 ≤ k.val)] : ClosedOff (k0_off15 (W9 k.val)) := ⟨![(k.val + 1) % 2, 0, 0], off15_W k h.out⟩
instance closedOff17 (k : Fin k0_t1_loop.trips) [h : Fact (1 ≤ k.val)] : ClosedOff (k0_off17 (W9 k.val)) := ⟨![(k.val + 1) % 2], off17_W k h.out⟩
instance closedOff16 (i : grid0.Coords) (k : Fin k0_t1_loop.trips) [h : Fact (1 ≤ k.val)] : ClosedOff (k0_off16 i (W10 k.val)) :=
  ⟨![128 * chunkNo i (k.val - 1), 0], off16_W i k h.out⟩
instance closedOff18 : ClosedOff (k0_off18 (W9 200)) := ⟨![1, 0, 0], off18_W⟩
instance closedOff20 : ClosedOff (k0_off20 (W9 200)) := ⟨![1], off20_W⟩
instance closedOff21 : ClosedOff (k0_off21 (W9 200)) := ⟨![1, 0, 0], off21_W⟩
instance closedOff19 (i : grid0.Coords) : ClosedOff (k0_off19 i (W10 200)) := ⟨![128 * chunkNo i 199, 0], off19_W i⟩

end Cert.Proof.KI
-- ==== Proof.KI.TileRes.lean ====
/-
  The slices the tile's task addresses, each spelt once: the two slots of the index scratch (as the [1,128] list a copy
  lands in and as the [128] list the indexed copy reads), the two slots of the row scratch, a chunk's 128 words of the
  flat index array and its 128 rows of the gathered array, the whole table as the indexed copy names it, and the five
  semaphores. A slot is number 0 or 1; a chunk is numbered over the whole array, chunk c being words (rows)
  128 c … 128 c + 127. The rows a tile has still to write and those it has finished are unions of chunk sets.
-/
import proofs.«203052_g23699629540016_cont_8to1_215_27_alg».proof.Proof.KI.Res
import proofs.«203052_g23699629540016_cont_8to1_215_27_alg».proof.Proof.KI.TileWords

noncomputable section

namespace Cert.Proof.KI

open Cert.KernelIdeal Cert.KernelIdeal.Gen
open Idealize.ShloMosaic
open Idealize.ShloMosaic.SparseCore (S V T)

/-! ## In range -/

theorem inbI : ∀ b : ℕ, b < 2 → ∀ a, (![b, 0, 0] : Fin 3 → ℕ) a + S1x1x128.size a ≤ S2x1x128.size a := by
  intro b hb; interval_cases b <;> decide
theorem inbR : ∀ b : ℕ, b < 2 → ∀ a, (![b, 0, 0] : Fin 3 → ℕ) a + S1x128x128.size a ≤ S2x128x128.size a := by
  intro b hb; interval_cases b <;> decide
theorem inbS : ∀ b : ℕ, b < 2 → ∀ a, (![b] : Fin 1 → ℕ) a + S1.size a ≤ S2.size a := by
  intro b hb; interval_cases b <;> decide
theorem inbIC (c : ℕ) (hc : 128 * c + 128 ≤ 819200) : ∀ a, (![0, 128 * c] : Fin 2 → ℕ) a + S1x128.size a ≤ S1x819200.size a :=
  Rect.inb₂ (by show (0 : ℕ) + 1 ≤ 1; omega) (by show 128 * c + 128 ≤ 819200; exact hc)
theorem inbOC (c : ℕ) (hc : 128 * c + 128 ≤ 819200) : ∀ a, (![128 * c, 0] : Fin 2 → ℕ) a + S128x128.size a ≤ S819200x128.size a :=
  Rect.inb₂ (by show 128 * c + 128 ≤ 819200; exact hc) (by show (0 : ℕ) + 128 ≤ 128; omega)

/-! ## The slices -/

/-- Slot `b` of the index scratch, as the list of one row a copy lands in. -/
abbrev iSl (b : ℕ) (hb : b < 2) : Memref sig .scVector .vmem S1x128 .i32 :=
  ((Memref.whole cc0_scoped0 : Memref sig .scVector .vmem S2x1x128 .i32).slice
    (Rect.unit (s := S2x1x128) ![b, 0, 0] S1x1x128.size (inbI b hb)) (fun _ => rfl)).squeeze S1x128 squeezes_S1x1x128_S1x128
/-- The same slot as the flat list of 128 words the indexed copy reads. -/
abbrev lSl (b : ℕ) (hb : b < 2) : Memref sig .scVector .vmem S128 .i32 :=
  ((iSl b hb).slice (Rect.unit (s := S1x128) ![0, 0] S1x128.size inb_S1x128_S1x128_0_0) (fun _ => rfl)).squeeze S128 squeezes_S1x128_S128
/-- Slot `b` of the row scratch. -/
abbrev rSl (b : ℕ) (hb : b < 2) : Memref sig .scVector .vmem S128x128 .f32 :=
  ((Memref.whole cc0_scoped2 : Memref sig .scVector .vmem S2x128x128 .f32).slice
    (Rect.unit (s := S2x128x128) ![b, 0, 0] S1x128x128.size (inbR b hb)) (fun _ => rfl)).squeeze S128x128 squeezes_S1x128x128_S128x128
/-- Chunk `c`'s words of the flat index array. -/
abbrev iCh (c : ℕ) (hc : 128 * c + 128 ≤ 819200) : Memref sig .scVector .hbm S1x128 .i32 :=
  (Memref.whole main_v1_scv : Memref sig .scVector .hbm S1x819200 .i32).slice
    (Rect.unit (s := S1x819200) ![0, 128 * c] S1x128.size (inbIC c hc)) (fun _ => rfl)
/-- Chunk `c`'s rows of the gathered array. -/
abbrev oCh (c : ℕ) (hc : 128 * c + 128 ≤ 819200) : Memref sig .scVector .hbm S128x128 .f32 :=
  (Memref.whole main_v3_scv : Memref sig .scVector .hbm S819200x128 .f32).slice
    (Rect.unit (s := S819200x128) ![128 * c, 0] S128x128.size (inbOC c hc)) (fun _ => rfl)
/-- The whole table, as the indexed copy names it. -/
abbrev tabV : Memref sig .scVector .hbm S1000x128 .f32 :=
  (Memref.whole main_v2_scv : Memref sig .scVector .hbm S1000x128 .f32).slice
    (Rect.unit (s := S1000x128) ![0, 0] S1000x128.size inb_S1000x128_S1000x128_0_0) (fun _ => rfl)

/-- The semaphore of index slot `b`, of row slot `b`, and the indexed copy's. -/
abbrev semI (b : ℕ) (hb : b < 2) : DmaSem sig := ((cc0_scoped1.slice (Rect.unit (s := S2) ![b] S1.size (inbS b hb))).squeeze S_ squeezes_S1_S_).sem
abbrev semO (b : ℕ) (hb : b < 2) : DmaSem sig := ((cc0_scoped3.slice (Rect.unit (s := S2) ![b] S1.size (inbS b hb))).squeeze S_ squeezes_S1_S_).sem
abbrev semG : DmaSem sig := cc0_scoped4.sem

/-! ## Rows still to write, rows finished -/

/-- The entries of chunk `c`'s rows of the gathered array. -/
def oChS (c : ℕ) : Finset S819200x128.Idx := Finset.univ.filter fun x => 128 * c ≤ (x 0).val ∧ (x 0).val < 128 * c + 128
/-- Before trip `k` the tile has still to write chunks `k … 199` and has finished chunks `0 … k - 2`
    (chunk `k - 1` is on its way out). -/
def todoS (L : grid0.Coords) (k : ℕ) : Finset S819200x128.Idx := (Finset.Ico k 200).biUnion fun j => oChS (chunkNo L j)
def doneS (L : grid0.Coords) (k : ℕ) : Finset S819200x128.Idx := (Finset.range (k - 1)).biUnion fun j => oChS (chunkNo L j)

end Cert.Proof.KI

end
-- ==== Proof.KI.TileSpell.lean ====
/-
  The task's slices at ANY offsets, and the passage between two spellings of one slice: the program names a slot or a
  chunk by the chain of word operations that computes its offsets, the proof by the slot's or the chunk's number; once
  the two offset vectors are known equal, what is held of the one slice is held of the other, whatever the evidence
  that the offsets are in range.
-/
import proofs.«203052_g23699629540016_cont_8to1_215_27_alg».proof.Proof.KI.TileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The slices at given offsets -/

abbrev iSlAt (off : Fin 3 → ℕ) (p : ∀ a, off a + S1x1x128.size a ≤ S2x1x128.size a) : Memref sig .scVector .vmem S1x128 .i32 :=
  ((Memref.whole cc0_scoped0 : Memref sig .scVector .vmem S2x1x128 .i32).slice (Rect.unit (s := S2x1x128) off S1x1x128.size p) (fun _ => rfl)).squeeze S1x128 squeezes_S1x1x128_S1x128
abbrev lSlAt (off : Fin 3 → ℕ) (p : ∀ a, off a + S1x1x128.size a ≤ S2x1x128.size a) : Memref sig .scVector .vmem S128 .i32 :=
  ((iSlAt off p).slice (Rect.unit (s := S1x128) ![0, 0] S1x128.size inb_S1x128_S1x128_0_0) (fun _ => rfl)).squeeze S128 squeezes_S1x128_S128
abbrev rSlAt (off : Fin 3 → ℕ) (p : ∀ a, off a + S1x128x128.size a ≤ S2x128x128.size a) : Memref sig .scVector .vmem S128x128 .f32 :=
  ((Memref.whole cc0_scoped2 : Memref sig .scVector .vmem S2x128x128 .f32).slice (Rect.unit (s := S2x128x128) off S1x128x128.size p) (fun _ => rfl)).squeeze S128x128 squeezes_S1x128x128_S128x128
abbrev iChAt (off : Fin 2 → ℕ) (p : ∀ a, off a + S1x128.size a ≤ S1x819200.size a) : Memref sig .scVector .hbm S1x128 .i32 :=
  (Memref.whole main_v1_scv : Memref sig .scVector .hbm S1x819200 .i32).slice (Rect.unit (s := S1x819200) off S1x128.size p) (fun _ => rfl)
abbrev oChAt (off : Fin 2 → ℕ) (p : ∀ a, off a + S128x128.size a ≤ S819200x128.size a) : Memref sig .scVector .hbm S128x128 .f32 :=
  (Memref.whole main_v3_scv : Memref sig .scVector .hbm S819200x128 .f32).slice (Rect.unit (s := S819200x128) off S128x128.size p) (fun _ => rfl)
abbrev semIAt (off : Fin 1 → ℕ) (p : ∀ a, off a + S1.size a ≤ S2.size a) : DmaSem sig :=
  ((cc0_scoped1.slice (Rect.unit (s := S2) off S1.size p)).squeeze S_ squeezes_S1_S_).sem
abbrev semOAt (off : Fin 1 → ℕ) (p : ∀ a, off a + S1.size a ≤ S2.size a) : DmaSem sig :=
  ((cc0_scoped3.slice (Rect.unit (s := S2) off S1.size p)).squeeze S_ squeezes_S1_S_).sem

/-! ## One slice, two spellings -/

section Spell
variable (d : Dev nD) (c : Fin τ.nSC) (j : Fin τ.nSub)

theorem pts_iSlAt {off off' : Fin 3 → ℕ} (h : off = off') (p p') (q : PosShare TreeShare) (f : Buf (Elt F) ((V d c j).loc cc0_scoped0)) :
    ((iSlAt off p).view.loc (V d c j) ↦[(iSlAt off p).view.set]{q} f : sProp 𝕄) = ((iSlAt off' p').view.loc (V d c j) ↦[(iSlAt off' p').view.set]{q} f) := by
  subst h; rfl
theorem pts_lSlAt {off off' : Fin 3 → ℕ} (h : off = off') (p p') (q : PosShare TreeShare) (f : Buf (Elt F) ((V d c j).loc cc0_scoped0)) :
    ((lSlAt off p).view.loc (V d c j) ↦[(lSlAt off p).view.set]{q} f : sProp 𝕄) = ((lSlAt off' p').view.loc (V d c j) ↦[(lSlAt off' p').view.set]{q} f) := by
  subst h; rfl
theorem pts_rSlAt {off off' : Fin 3 → ℕ} (h : off = off') (p p') (q : PosShare TreeShare) (f : Buf (Elt F) ((V d c j).loc cc0_scoped2)) :
    ((rSlAt off p).view.loc (V d c j) ↦[(rSlAt off p).view.set]{q} f : sProp 𝕄) = ((rSlAt off' p').view.loc (V d c j) ↦[(rSlAt off' p').view.set]{q} f) := by
  subst h; rfl
theorem pts_iChAt {off off' : Fin 2 → ℕ} (h : off = off') (p p') (q : PosShare TreeShare) (f : Buf (Elt F) (v1Loc d)) :
    ((iChAt off p).view.loc (V d c j) ↦[(iChAt off p).view.set]{q} f : sProp 𝕄) = ((iChAt off' p').view.loc (V d c j) ↦[(iChAt off' p').view.set]{q} f) := by
  subst h; rfl
theorem pts_oChAt {off off' : Fin 2 → ℕ} (h : off = off') (p p') (q : PosShare TreeShare) (f : Buf (Elt F) (v3Loc d)) :
    ((oChAt off p).view.loc (V d c j) ↦[(oChAt off p).view.set]{q} f : sProp 𝕄) = ((oChAt off' p').view.loc (V d c j) ↦[(oChAt off' p').view.set]{q} f) := by
  subst h; rfl
theorem semIAt_congr {off off' : Fin 1 → ℕ} (h : off = off') (p p') : semIAt off p = semIAt off' p' := by subst h; rfl
theorem semOAt_congr {off off' : Fin 1 → ℕ} (h : off = off') (p p') : semOAt off p = semOAt off' p' := by subst h; rfl

end Spell

end Cert.Proof.KI

end
-- ==== Proof.KI.TileValue.lean ====
/-
  What a tile's copies deliver, read entry by entry.

  Chunk c's 128 words of the flat index array, copied into a slot of the index scratch and read back as a flat
  list, are the words 128 c … 128 c + 127 in order: entry u of the list is word 128 c + u. The indexed copy then
  brings, for each entry u, the table row that word names into row u of a slot of the row scratch, and the copy out
  puts row u of the slot at row 128 c + u of the gathered array. So row k of the gathered array, for k in the chunk,
  is the table row named by flat word k: the gathered rows.
-/
import proofs.«203052_g23699629540016_cont_8to1_215_27_alg».proof.Proof.KI.TileRes
import proofs.«203052_g23699629540016_cont_8to1_215_27_alg».proof.Proof.KI.Stages

noncomputable section

namespace Cert.Proof.KI

open Cert.KernelIdeal Cert.KernelIdeal.Gen
open Idealize.ShloMosaic Idealize.ShloMosaic.ValueIdx
open Idealize.ShloMosaic.SparseCore (S V T)

variable {F : FTy → Type}

section

variable (b : ℕ) (hb : b < 2) (c : ℕ) (hc : 128 * c + 128 ≤ 819200)
  (f1 : (iCh c hc).view.ty.Contents (Elt F)) (fs : (iSl b hb).view.ty.Contents (Elt F))

/-- The flat list after chunk `c`'s words have landed in slot `b`. -/
abbrev lst : S128.Idx → Elt F .i32 :=
  (lSl b hb).view.read (Elt F) ((iSl b hb).view.write (Elt F) fs ((iCh c hc).view.read (Elt F) f1) Finset.univ)

/-- Entry `u` of the list is flat word `128 c + u`. -/
theorem lst_apply (u : S128.Idx) :
    lst b hb c hc f1 fs u
      = f1 (ix2 (⟨0, Nat.one_pos⟩ : Fin 1) (⟨128 * c + (u 0).val, by have := (u 0).isLt; have : (u 0).val < 128 := this; omega⟩ : Fin 819200)) := by
  unfold lst
  rw [View.read_apply]
  have hemb : (lSl b hb).view.emb u
      = (iSl b hb).view.emb ((Rect.unit (s := S1x128) ![0, 0] S1x128.size inb_S1x128_S1x128_0_0).emb
          (Shape.reshapeEquiv squeezes_S1x128_S128.numel_eq u)) := rfl
  rw [hemb, View.write_emb_of_mem _ _ (Finset.mem_univ _), View.read_apply]
  simp only [cast_cast, cast_eq]
  have hz := Shape.rowMajor_reshapeEquiv squeezes_S1x128_S128.numel_eq u
  rw [Shape.rowMajor_val_two, Shape.rowMajor_val_one] at hz
  obtain ⟨z, hzdef⟩ : ∃ z : S1x128.Idx, z = Shape.reshapeEquiv squeezes_S1x128_S128.numel_eq u := ⟨_, rfl⟩
  rw [← hzdef] at hz ⊢
  have hz0 : (z 0).val < 1 := (z 0).isLt
  have hz' : (z 0).val * 128 + (z 1).val = (u 0).val := hz
  refine congrArg f1 (funext fun a => Fin.ext ?_)
  match a with
  | ⟨0, _⟩ => show 0 + 1 * (0 + 1 * (z 0).val) = 0; omega
  | ⟨1, _⟩ => show 128 * c + 1 * (0 + 1 * (z 1).val) = 128 * c + (u 0).val; omega

/-- The list's words are in the table's range when the flat index array's are. -/
theorem list_in_range (hf1 : ∀ x, (f1 x).toNat < 1000) :
    ∀ x, (lst b hb c hc f1 fs x).toNat < S1000x128.size gathers_S1000x128_S128x128.axis := by
  intro x
  rw [lst_apply]
  exact hf1 _

end

section Landed

variable (b : ℕ) (hb : b < 2) (c : ℕ) (hc : 128 * c + 128 ≤ 819200)
  (f1 : (iCh c hc).view.ty.Contents (Elt F)) (f2 : tabV.view.ty.Contents (Elt F)) (f3 : (oCh c hc).view.ty.Contents (Elt F))
  (fs : (iSl b hb).view.ty.Contents (Elt F)) (fr : (rSl b hb).view.ty.Contents (Elt F))

/-- After the indexed copy and the copy out, entry `y` of chunk `c`'s rows of the gathered array is the gathered
    rows' entry there. -/
theorem landed_at (hn : S128.numel = S128x128.size gathers_S1000x128_S128x128.axis')
    (hin : ∀ x, (lst b hb c hc f1 fs x).toNat < S1000x128.size gathers_S1000x128_S128x128.axis) (y : S128x128.Idx) :
    (oCh c hc).view.write (Elt F) f3 ((rSl b hb).view.read (Elt F) ((rSl b hb).view.write (Elt F) fr
        (SparseCore.gatherPayload gathers_S1000x128_S128x128 (tabV.view.read (Elt F) f2) (SparseCore.rows (lst b hb c hc f1 fs) hn hin)) Finset.univ)) Finset.univ
      ((oCh c hc).view.emb y)
      = Stages.gathered f2 f1 ((oCh c hc).view.emb y) := by
  rw [View.read_write_univ, View.write_emb_of_mem _ _ (Finset.mem_univ _)]
  unfold SparseCore.gatherPayload
  rw [View.read_apply]
  simp only [cast_cast, cast_eq]
  unfold Stages.gathered
  -- the list entry the row `y 0` of the slot is named by, and the flat word it is
  obtain ⟨u, hudef⟩ : ∃ u : S128.Idx, u = S128.rowMajor.symm ((y 0).cast hn.symm) := ⟨_, rfl⟩
  have hu : (u 0).val = (y 0).val := by
    have h1 := Shape.rowMajor_val_one u
    rw [hudef, Equiv.apply_symm_apply] at h1
    rw [hudef]; exact h1.symm
  have hrow : (SparseCore.rows (lst b hb c hc f1 fs) hn hin (y 0)).val = (lst b hb c hc f1 fs u).toNat := by
    rw [hudef]; rfl
  have hx0 : (((oCh c hc).view.emb y) 0).val = 128 * c + (y 0).val := by
    show 128 * c + 1 * (y 0).val = _; omega
  have hw : lst b hb c hc f1 fs u
      = f1 (ix2 (⟨0, Nat.one_pos⟩ : Fin 1) (⟨(((oCh c hc).view.emb y) 0).val, (((oCh c hc).view.emb y) 0).isLt⟩ : Fin 819200)) :=
    (lst_apply b hb c hc f1 fs u).trans (congrArg f1 (congrArg (ix2 (⟨0, Nat.one_pos⟩ : Fin 1)) (Fin.ext (by show 128 * c + (u 0).val = (((oCh c hc).view.emb y) 0).val; omega))))
  have hlt : (f1 (ix2 (⟨0, Nat.one_pos⟩ : Fin 1) (⟨(((oCh c hc).view.emb y) 0).val, (((oCh c hc).view.emb y) 0).isLt⟩ : Fin 819200))).toNat < 1000 :=
    hw ▸ hin u
  refine congrArg f2 (funext fun a => Fin.ext ?_)
  match a with
  | ⟨0, _⟩ =>
    show 0 + 1 * (gathers_S1000x128_S128x128.idx (SparseCore.rows (lst b hb c hc f1 fs) hn hin) y gathers_S1000x128_S128x128.axis).val = (Spec.rowOfWord _).val
    rw [Spec.rowOfWord_val hlt, Shape.Gathers.idx_axis, ← hw]
    show 0 + 1 * (SparseCore.rows (lst b hb c hc f1 fs) hn hin (y 0)).val = _
    rw [hrow]; omega
  | ⟨1, _⟩ =>
    have h1 := Shape.Gathers.idx_of_ne gathers_S1000x128_S128x128 (SparseCore.rows (lst b hb c hc f1 fs) hn hin) y
      (⟨1, by decide⟩ : Fin S1000x128.rank) (by decide)
    exact congrArg (fun n : ℕ => 0 + 1 * n) h1

/-- The same at every entry of the chunk's rows. -/
theorem landed_value (hn : S128.numel = S128x128.size gathers_S1000x128_S128x128.axis')
    (hin : ∀ x, (lst b hb c hc f1 fs x).toNat < S1000x128.size gathers_S1000x128_S128x128.axis) :
    ∀ x ∈ (oCh c hc).view.set,
      (oCh c hc).view.write (Elt F) f3 ((rSl b hb).view.read (Elt F) ((rSl b hb).view.write (Elt F) fr
        (SparseCore.gatherPayload gathers_S1000x128_S128x128 (tabV.view.read (Elt F) f2) (SparseCore.rows (lst b hb c hc f1 fs) hn hin)) Finset.univ)) Finset.univ x
        = Stages.gathered f2 f1 x := by
  intro x hx
  obtain ⟨y, -, rfl⟩ := Finset.mem_map.mp hx
  exact landed_at b hb c hc f1 f2 f3 fs fr hn hin y

end Landed

end Cert.Proof.KI

end
-- ==== Proof.KI.TileChunks.lean ====
/-
  A tile's rows of the gathered array, chunk by chunk.

  Chunk `c` is rows `128·c … 128·c + 127`; tile `w`'s rows are `25600·w … 25600·w + 25599`; and the tile's
  chunk `j` is chunk `200·w + j` of the array, rows `25600·w + 128·j …`. So a run of consecutive chunks
  `a … b − 1` of the tile is the interval of rows `25600·w + 128·a … 25600·w + 128·b − 1`, and everything said
  here about the rows still to write and the rows finished is arithmetic on that interval's ends.
-/
import proofs.«203052_g23699629540016_cont_8to1_215_27_alg».proof.Proof.KI.TileRes
import proofs.«203052_g23699629540016_cont_8to1_215_27_alg».proof.Proof.KI.Split

noncomputable section

namespace Cert.Proof.KI

open Cert.KernelIdeal Cert.KernelIdeal.Gen
open Idealize.ShloMosaic

/-- The tile number of grid coordinates `L`. -/
abbrev tw (L : grid0.Coords) : Fin 32 := tileNo ⟨(L 0).val, (L 0).isLt⟩ ⟨(L 1).val, (L 1).isLt⟩

theorem tw_val (L : grid0.Coords) : (tw L).val = 16 * (L 0).val + (L 1).val := rfl

/-- The first row of the tile's chunk `j`. -/
theorem chunkNo_row (L : grid0.Coords) (j : ℕ) : 128 * chunkNo L j = 25600 * (tw L).val + 128 * j := by
  rw [tw_val]; unfold chunkNo; omega

theorem mem_oChS (c : ℕ) (x : S819200x128.Idx) : x ∈ oChS c ↔ 128 * c ≤ (x 0).val ∧ (x 0).val < 128 * c + 128 := by
  unfold oChS; rw [Finset.mem_filter]; exact ⟨fun h => h.2, fun h => ⟨Finset.mem_univ _, h⟩⟩

/-- Rows of tile `w`. -/
theorem mem_oSet (w : Fin 32) (x : S819200x128.Idx) : x ∈ oSet w ↔ 25600 * w.val ≤ (x 0).val ∧ (x 0).val < 25600 * w.val + 25600 := by
  have p0 : Shape.partIx S819200x128 0 w.val 0 * Shape.partSize S819200x128 0 32 0 = 25600 * w.val := by
    show w.val * 25600 = 25600 * w.val; omega
  have s0 : Shape.partSize S819200x128 0 32 0 = 25600 := rfl
  have p1 : Shape.partIx S819200x128 0 w.val 1 * Shape.partSize S819200x128 0 32 1 = 0 := by
    show 0 * 128 = 0; rfl
  have s1 : Shape.partSize S819200x128 0 32 1 = 128 := rfl
  rw [oSet_eq, Rect.mem_set_unit]
  constructor
  · intro h
    have h0 : Shape.partIx S819200x128 0 w.val 0 * Shape.partSize S819200x128 0 32 0 ≤ (x 0).val
        ∧ (x 0).val < Shape.partIx S819200x128 0 w.val 0 * Shape.partSize S819200x128 0 32 0 + Shape.partSize S819200x128 0 32 0 := h 0
    rw [p0, s0] at h0; exact h0
  · intro h a
    match a with
    | ⟨0, _⟩ =>
      show Shape.partIx S819200x128 0 w.val 0 * Shape.partSize S819200x128 0 32 0 ≤ (x 0).val
        ∧ (x 0).val < Shape.partIx S819200x128 0 w.val 0 * Shape.partSize S819200x128 0 32 0 + Shape.partSize S819200x128 0 32 0
      rw [p0, s0]; exact h
    | ⟨1, _⟩ =>
      show Shape.partIx S819200x128 0 w.val 1 * Shape.partSize S819200x128 0 32 1 ≤ (x 1).val
        ∧ (x 1).val < Shape.partIx S819200x128 0 w.val 1 * Shape.partSize S819200x128 0 32 1 + Shape.partSize S819200x128 0 32 1
      rw [p1, s1]
      have hx : (x 1).val < 128 := (x 1).isLt
      exact ⟨Nat.zero_le _, by omega⟩

/-- A run of the tile's consecutive chunks is an interval of rows. -/
theorem mem_chunks (L : grid0.Coords) (a b : ℕ) (x : S819200x128.Idx) :
    x ∈ (Finset.Ico a b).biUnion (fun j => oChS (chunkNo L j))
      ↔ 25600 * (tw L).val + 128 * a ≤ (x 0).val ∧ (x 0).val < 25600 * (tw L).val + 128 * b := by
  simp only [Finset.mem_biUnion, Finset.mem_Ico, mem_oChS, chunkNo_row]
  constructor
  · rintro ⟨j, ⟨hja, hjb⟩, h1, h2⟩
    constructor <;> omega
  · rintro ⟨h1, h2⟩
    refine ⟨((x 0).val - 25600 * (tw L).val) / 128, ⟨?_, ?_⟩, ?_, ?_⟩ <;> omega

/-- A chunk's slice of the gathered array is the chunk's rows. -/
theorem oCh_set (c : ℕ) (hc : 128 * c + 128 ≤ 819200) : (oCh c hc).view.set = oChS c := by
  have e : (oCh c hc).view.set = (Rect.unit (s := S819200x128) ![128 * c, 0] S128x128.size (inbOC c hc)).set := by
    show ((View.whole (main_v3_scv : Ref sig .scVector)).slice (Rect.unit (s := S819200x128) ![128 * c, 0] S128x128.size (inbOC c hc))).set = _
    rw [View.set_slice]; exact Finset.map_refl
  ext x
  rw [e, mem_oChS, Rect.mem_set_unit]
  constructor
  · intro h
    have h0 : 128 * c ≤ (x 0).val ∧ (x 0).val < 128 * c + 128 := h 0
    exact h0
  · intro h a
    match a with
    | ⟨0, _⟩ => exact h
    | ⟨1, _⟩ =>
      have hx : (x 1).val < 128 := (x 1).isLt
      exact ⟨Nat.zero_le _, by show (x 1).val < 0 + 128; omega⟩

theorem todo_zero (L : grid0.Coords) : todoS L 0 = oSet (tw L) := by
  ext x; unfold todoS; rw [mem_chunks, mem_oSet]; omega

theorem todo_step (L : grid0.Coords) {k : ℕ} (hk : k < 200) :
    todoS L k = oChS (chunkNo L k) ∪ todoS L (k + 1) ∧ Disjoint (oChS (chunkNo L k)) (todoS L (k + 1)) := by
  constructor
  · ext x; unfold todoS; rw [Finset.mem_union, mem_chunks, mem_chunks, mem_oChS, chunkNo_row]; omega
  · rw [Finset.disjoint_left]; intro x h1 h2
    unfold todoS at h2; rw [mem_chunks] at h2; rw [mem_oChS, chunkNo_row] at h1; omega

theorem todo_end (L : grid0.Coords) : todoS L 200 = ∅ := by
  simp only [todoS, Finset.Ico_self, Finset.biUnion_empty]

theorem done_small (L : grid0.Coords) {k : ℕ} (hk : k ≤ 1) : doneS L k = ∅ := by
  simp only [doneS, Nat.sub_eq_zero_of_le hk, Finset.range_zero, Finset.biUnion_empty]

theorem mem_doneS (L : grid0.Coords) (k : ℕ) (x : S819200x128.Idx) :
    x ∈ doneS L k ↔ 25600 * (tw L).val ≤ (x 0).val ∧ (x 0).val < 25600 * (tw L).val + 128 * (k - 1) := by
  unfold doneS; rw [Finset.range_eq_Ico, mem_chunks]; omega

theorem done_step (L : grid0.Coords) {k : ℕ} (h1 : 1 ≤ k) (hk : k ≤ 200) :
    doneS L (k + 1) = doneS L k ∪ oChS (chunkNo L (k - 1)) ∧ Disjoint (doneS L k) (oChS (chunkNo L (k - 1))) := by
  constructor
  · ext x; rw [Finset.mem_union, mem_doneS, mem_doneS, mem_oChS, chunkNo_row]; omega
  · rw [Finset.disjoint_left]; intro x h2 h3
    rw [mem_doneS] at h2; rw [mem_oChS, chunkNo_row] at h3; omega

theorem done_end (L : grid0.Coords) : doneS L 201 = oSet (tw L) := by
  ext x; rw [mem_doneS, mem_oSet]; try omega

end Cert.Proof.KI

end
-- ==== Proof.KI.TileSlots.lean ====
/-
  The two scratch buffers as their two slots.

  The index scratch is two lists of 128 words and the row scratch two blocks of 128 rows of 128 columns; in each,
  slot b is the part b of the buffer cut in two along its first axis. The two parts are disjoint and cover the
  buffer, so holding the buffer whole is holding its two slots, each on its own elements, and two slots held at
  any contents join to the buffer held whole at some contents. A slot read as a flat list has the same elements;
  and the five semaphores the task names are the first five DMA semaphores, in the order: the two index slots',
  the two row slots', the indexed copy's.
-/
import proofs.«203052_g23699629540016_cont_8to1_215_27_alg».proof.Proof.KI.TileRes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A slot is a part -/

theorem idiv2 : 2 ∣ S2x1x128.size 0 := ⟨1, rfl⟩
theorem rdiv2 : 2 ∣ S2x128x128.size 0 := ⟨1, rfl⟩

/-- Slot `b` of the index scratch is part `b` of two along the first axis; -/
theorem iSlot_rect (b : ℕ) (hb : b < 2) :
    Rect.unit (s := S2x1x128) ![b, 0, 0] S1x1x128.size (inbI b hb) = Rect.part (s := S2x1x128) (a₀ := 0) idiv2 ⟨b, hb⟩ := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-- and so is slot `b` of the row scratch. -/
theorem rSlot_rect (b : ℕ) (hb : b < 2) :
    Rect.unit (s := S2x128x128) ![b, 0, 0] S1x128x128.size (inbR b hb) = Rect.part (s := S2x128x128) (a₀ := 0) rdiv2 ⟨b, hb⟩ := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-- The elements of slot `b`: the part's. -/
theorem iSl_set (b : ℕ) (hb : b < 2) : (iSl b hb).view.set = (Rect.part (s := S2x1x128) (a₀ := 0) idiv2 ⟨b, hb⟩).set := by
  show (((View.whole (cc0_scoped0 : Ref sig .scVector)).slice (Rect.unit (s := S2x1x128) ![b, 0, 0] S1x1x128.size (inbI b hb))).reshape S1x128
    squeezes_S1x1x128_S1x128.numel_eq).set = _
  rw [View.set_reshape, View.set_slice_whole]
  exact iSlot_rect b hb ▸ rfl
theorem rSl_set (b : ℕ) (hb : b < 2) : (rSl b hb).view.set = (Rect.part (s := S2x128x128) (a₀ := 0) rdiv2 ⟨b, hb⟩).set := by
  show (((View.whole (cc0_scoped2 : Ref sig .scVector)).slice (Rect.unit (s := S2x128x128) ![b, 0, 0] S1x128x128.size (inbR b hb))).reshape S128x128
    squeezes_S1x128x128_S128x128.numel_eq).set = _
  rw [View.set_reshape, View.set_slice_whole]
  exact rSlot_rect b hb ▸ rfl

/-! ## The buffers as their slots -/

theorem two_parts {s : Shape} {a₀ : Fin s.rank} (h : 2 ∣ s.size a₀) :
    (Rect.part (s := s) h (⟨0, by decide⟩ : Fin 2)).set ∪ (Rect.part (s := s) h (⟨1, by decide⟩ : Fin 2)).set = Finset.univ := by
  have := Rect.biUnion_part (s := s) h
  rwa [show (Finset.univ : Finset (Fin 2)) = {0, 1} by decide, Finset.biUnion_insert, Finset.singleton_biUnion] at this

theorem h02 : (0 : ℕ) < 2 := by decide
theorem h12 : (1 : ℕ) < 2 := by decide

section Slots

variable (d : Dev nD) (c : Fin τ.nSC) (j : Fin τ.nSub)

/-- The index scratch held whole is its two slots held, each on its own elements. -/
theorem iSlots_eq (fs : Buf (Elt F) ((V d c j).loc cc0_scoped0)) :
    ((V d c j).loc cc0_scoped0 ↦{fullShare} fs : sProp 𝕄)
      = iprop(((iSl 0 h02).view.loc (V d c j) ↦[(iSl 0 h02).view.set]{fullShare} fs)
          ∗ ((iSl 1 h12).view.loc (V d c j) ↦[(iSl 1 h12).view.set]{fullShare} fs)) := by
  rw [iSl_set, iSl_set]
  have hu : ((V d c j).loc cc0_scoped0 ↦[(Rect.part (s := S2x1x128) (a₀ := 0) idiv2 (⟨0, h02⟩ : Fin 2)).set ∪ (Rect.part (s := S2x1x128) (a₀ := 0) idiv2 (⟨1, h12⟩ : Fin 2)).set]{fullShare} fs : sProp 𝕄)
      ⊣⊢ iprop(((V d c j).loc cc0_scoped0 ↦[(Rect.part (s := S2x1x128) (a₀ := 0) idiv2 (⟨0, h02⟩ : Fin 2)).set]{fullShare} fs)
          ∗ ((V d c j).loc cc0_scoped0 ↦[(Rect.part (s := S2x1x128) (a₀ := 0) idiv2 (⟨1, h12⟩ : Fin 2)).set]{fullShare} fs)) :=
    pointsTo_union (Rect.part_disjoint (s := S2x1x128) (a₀ := 0) idiv2 (by decide))
  have h := equiv_iff.mp ⟨hu.1, hu.2⟩
  rw [two_parts (s := S2x1x128) (a₀ := 0) idiv2] at h
  exact h

/-- The row scratch held whole is its two slots held, each on its own elements. -/
theorem rSlots_eq (fr : Buf (Elt F) ((V d c j).loc cc0_scoped2)) :
    ((V d c j).loc cc0_scoped2 ↦{fullShare} fr : sProp 𝕄)
      = iprop(((rSl 0 h02).view.loc (V d c j) ↦[(rSl 0 h02).view.set]{fullShare} fr)
          ∗ ((rSl 1 h12).view.loc (V d c j) ↦[(rSl 1 h12).view.set]{fullShare} fr)) := by
  rw [rSl_set, rSl_set]
  have hu : ((V d c j).loc cc0_scoped2 ↦[(Rect.part (s := S2x128x128) (a₀ := 0) rdiv2 (⟨0, h02⟩ : Fin 2)).set ∪ (Rect.part (s := S2x128x128) (a₀ := 0) rdiv2 (⟨1, h12⟩ : Fin 2)).set]{fullShare} fr : sProp 𝕄)
      ⊣⊢ iprop(((V d c j).loc cc0_scoped2 ↦[(Rect.part (s := S2x128x128) (a₀ := 0) rdiv2 (⟨0, h02⟩ : Fin 2)).set]{fullShare} fr)
          ∗ ((V d c j).loc cc0_scoped2 ↦[(Rect.part (s := S2x128x128) (a₀ := 0) rdiv2 (⟨1, h12⟩ : Fin 2)).set]{fullShare} fr)) :=
    pointsTo_union (Rect.part_disjoint (s := S2x128x128) (a₀ := 0) rdiv2 (by decide))
  have h := equiv_iff.mp ⟨hu.1, hu.2⟩
  rw [two_parts (s := S2x128x128) (a₀ := 0) rdiv2] at h
  exact h

/-- Two index slots held at any contents are the index scratch held whole at some contents. -/
theorem iSlots_join (g0 g1 : Buf (Elt F) ((V d c j).loc cc0_scoped0)) :
    iprop(((iSl 0 h02).view.loc (V d c j) ↦[(iSl 0 h02).view.set]{fullShare} g0)
        ∗ ((iSl 1 h12).view.loc (V d c j) ↦[(iSl 1 h12).view.set]{fullShare} g1))
      ⊢ (iprop(∃ f, (V d c j).loc cc0_scoped0 ↦{fullShare} f) : sProp 𝕄) := by
  rw [iSl_set, iSl_set]
  have h : iprop(((V d c j).loc cc0_scoped0 ↦[(Rect.part (s := S2x1x128) (a₀ := 0) idiv2 (⟨0, h02⟩ : Fin 2)).set]{fullShare} g0)
        ∗ ((V d c j).loc cc0_scoped0 ↦[(Rect.part (s := S2x1x128) (a₀ := 0) idiv2 (⟨1, h12⟩ : Fin 2)).set]{fullShare} g1))
      ⊢ ((V d c j).loc cc0_scoped0 ↦[(Rect.part (s := S2x1x128) (a₀ := 0) idiv2 (⟨0, h02⟩ : Fin 2)).set ∪ (Rect.part (s := S2x1x128) (a₀ := 0) idiv2 (⟨1, h12⟩ : Fin 2)).set]{fullShare}
          ((Rect.part (s := S2x1x128) (a₀ := 0) idiv2 (⟨1, h12⟩ : Fin 2)).set.piecewise g1 g0) : sProp 𝕄) :=
    pointsTo_join (Rect.part_disjoint (s := S2x1x128) (a₀ := 0) idiv2 (by decide))
  rw [two_parts (s := S2x1x128) (a₀ := 0) idiv2] at h
  refine h.trans ?_
  iintro H; iexists _; iexact H

/-- Two row slots held at any contents are the row scratch held whole at some contents. -/
theorem rSlots_join (g0 g1 : Buf (Elt F) ((V d c j).loc cc0_scoped2)) :
    iprop(((rSl 0 h02).view.loc (V d c j) ↦[(rSl 0 h02).view.set]{fullShare} g0)
        ∗ ((rSl 1 h12).view.loc (V d c j) ↦[(rSl 1 h12).view.set]{fullShare} g1))
      ⊢ (iprop(∃ f, (V d c j).loc cc0_scoped2 ↦{fullShare} f) : sProp 𝕄) := by
  rw [rSl_set, rSl_set]
  have h : iprop(((V d c j).loc cc0_scoped2 ↦[(Rect.part (s := S2x128x128) (a₀ := 0) rdiv2 (⟨0, h02⟩ : Fin 2)).set]{fullShare} g0)
        ∗ ((V d c j).loc cc0_scoped2 ↦[(Rect.part (s := S2x128x128) (a₀ := 0) rdiv2 (⟨1, h12⟩ : Fin 2)).set]{fullShare} g1))
      ⊢ ((V d c j).loc cc0_scoped2 ↦[(Rect.part (s := S2x128x128) (a₀ := 0) rdiv2 (⟨0, h02⟩ : Fin 2)).set ∪ (Rect.part (s := S2x128x128) (a₀ := 0) rdiv2 (⟨1, h12⟩ : Fin 2)).set]{fullShare}
          ((Rect.part (s := S2x128x128) (a₀ := 0) rdiv2 (⟨1, h12⟩ : Fin 2)).set.piecewise g1 g0) : sProp 𝕄) :=
    pointsTo_join (Rect.part_disjoint (s := S2x128x128) (a₀ := 0) rdiv2 (by decide))
  rw [two_parts (s := S2x128x128) (a₀ := 0) rdiv2] at h
  refine h.trans ?_
  iintro H; iexists _; iexact H

end Slots

/-! ## A slot as a flat list; the semaphores -/

theorem zero2 : (![0, 0] : Fin 2 → Nat) = fun _ => 0 := funext fun a => by fin_cases a <;> rfl

/-- A slot read as a flat list has the slot's elements. -/
theorem lSl_set (b : ℕ) (hb : b < 2) : (lSl b hb).view.set = (iSl b hb).view.set := by
  show (((iSl b hb).view.slice (Rect.unit (s := S1x128) ![0, 0] S1x128.size inb_S1x128_S1x128_0_0)).reshape S128 squeezes_S1x128_S128.numel_eq).set = _
  rw [View.set_reshape, View.set_slice,
    show (Rect.unit (s := S1x128) ![0, 0] S1x128.size inb_S1x128_S1x128_0_0).set = Finset.univ from
      Finset.eq_univ_iff_forall.mpr fun y => View.mem_set_unit_zero zero2 _ y]
  rfl

theorem semI_val : ∀ (b : ℕ) (hb : b < 2), semI b hb = (⟨b, by omega⟩ : Fin 9) := by
  intro b hb
  match b, hb with
  | 0, _ => exact (by decide +kernel : semI 0 h02 = (⟨0, by decide⟩ : Fin 9))
  | 1, _ => exact (by decide +kernel : semI 1 h12 = (⟨1, by decide⟩ : Fin 9))
theorem semO_val : ∀ (b : ℕ) (hb : b < 2), semO b hb = (⟨2 + b, by omega⟩ : Fin 9) := by
  intro b hb
  match b, hb with
  | 0, _ => exact (by decide +kernel : semO 0 h02 = (⟨2, by decide⟩ : Fin 9))
  | 1, _ => exact (by decide +kernel : semO 1 h12 = (⟨3, by decide⟩ : Fin 9))
theorem semG_val : semG = (⟨4, by decide⟩ : Fin 9) := by decide +kernel

end Cert.Proof.KI

end
-- ==== Proof.KI.TileInv.lean ====
/-
  The counted loop's invariant: what the tile holds before trip k.

  The five carried words are those of trip k. Index slot k mod 2 is being filled with chunk k's words (while k < 200):
  the fetch is in flight on the slot's semaphore, lent the chunk's words of the slot's half-share of the flat index
  array, whose other words the tile keeps. The other index slot is at rest: some contents, its semaphore at zero, its
  half-share of the index array whole. Row slot k mod 2 is at rest. The other row slot is being copied out to chunk
  k - 1's rows of the gathered array (when 1 ≤ k), which the copy delivers at the gathered rows; before trip 0 it is at
  rest. Chunks 0 … k - 2's rows hold the gathered rows, chunks k … 199's are as the task found them. The table share,
  the indexed copy's semaphore at zero, and what the thread owes, with every wait recorded since at the kernels' index.
-/
import proofs.«203052_g23699629540016_cont_8to1_215_27_alg».proof.Proof.KI.TileOff
import proofs.«203052_g23699629540016_cont_8to1_215_27_alg».proof.Proof.KI.TileSpell
import proofs.«203052_g23699629540016_cont_8to1_215_27_alg».proof.Proof.KI.TileValue
import proofs.«203052_g23699629540016_cont_8to1_215_27_alg».proof.Proof.KI.TileChunks
import proofs.«203052_g23699629540016_cont_8to1_215_27_alg».proof.Proof.KI.TileSlots

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's thread, its semaphore cells and its two scratch buffers -/

abbrev cV (L : grid0.Coords) : Fin τ.nSC := (L 0).castLE hcore0
abbrev jV (L : grid0.Coords) : Fin τ.nSub := (L 1).castLE hsub0
abbrev wL (L : grid0.Coords) : Fin 32 := tileNo ⟨(L 0).val, (L 0).isLt⟩ ⟨(L 1).val, (L 1).isLt⟩

/-- The tile's DMA semaphore `n`, as a cell. -/
abbrev dcell (d : Dev nD) (L : grid0.Coords) (n : DmaSem sig) : GSem nD τ sig := (V d (cV L) (jV L), SemLoc.dma n)

theorem dcell_ne (d : Dev nD) (L : grid0.Coords) {n m : DmaSem sig} (h : n ≠ m) : dcell d L n ≠ dcell d L m :=
  fun e => h (SemLoc.dma.inj (congrArg Prod.snd e))

theorem dcell_mem (d : Dev nD) (L : grid0.Coords) (n : DmaSem sig) : dcell d L n ∈ ownCells (V d (cV L) (jV L)) :=
  (mem_ownCells (g := dcell d L n)).mpr ⟨rfl, rfl⟩

theorem sems_ne : semI 1 h12 ≠ semI 0 h02 ∧ semO 0 h02 ≠ semI 0 h02 ∧ semO 0 h02 ≠ semI 1 h12 ∧ semO 1 h12 ≠ semI 0 h02 ∧ semO 1 h12 ≠ semI 1 h12
    ∧ semO 1 h12 ≠ semO 0 h02 ∧ semG ≠ semI 0 h02 ∧ semG ≠ semI 1 h12 ∧ semG ≠ semO 0 h02 ∧ semG ≠ semO 1 h12 := by decide +kernel

/-- The five semaphores the task uses are among the tile's own: they, each at zero, and the rest. -/
theorem ownSems0_V5 (d : Dev nD) (L : grid0.Coords) :
    (ownSems0 (V d (cV L) (jV L)) : sProp 𝕄)
      = iprop(semVal (dcell d L (semI 0 h02)) 0 ∗ semVal (dcell d L (semI 1 h12)) 0 ∗ semVal (dcell d L (semO 0 h02)) 0 ∗ semVal (dcell d L (semO 1 h12)) 0
          ∗ semVal (dcell d L semG) 0
          ∗ bigSep ((((((ownCells (V d (cV L) (jV L))).erase (dcell d L (semI 0 h02))).erase (dcell d L (semI 1 h12))).erase (dcell d L (semO 0 h02))).erase
              (dcell d L (semO 1 h12))).erase (dcell d L semG))
              fun g => semVal g 0) := by
  obtain ⟨n10, n20, n21, n30, n31, n32, n40, n41, n42, n43⟩ := sems_ne
  unfold SparseCore.Cfg.ownSems0
  rw [SparseCore.bigSep_erase' (dcell_mem d L _),
    SparseCore.bigSep_erase' (Finset.mem_erase.mpr ⟨dcell_ne d L n10, dcell_mem d L _⟩),
    SparseCore.bigSep_erase' (Finset.mem_erase.mpr ⟨dcell_ne d L n21, Finset.mem_erase.mpr ⟨dcell_ne d L n20, dcell_mem d L _⟩⟩),
    SparseCore.bigSep_erase' (Finset.mem_erase.mpr ⟨dcell_ne d L n32, Finset.mem_erase.mpr ⟨dcell_ne d L n31,
      Finset.mem_erase.mpr ⟨dcell_ne d L n30, dcell_mem d L _⟩⟩⟩),
    SparseCore.bigSep_erase' (Finset.mem_erase.mpr ⟨dcell_ne d L n43, Finset.mem_erase.mpr ⟨dcell_ne d L n42,
      Finset.mem_erase.mpr ⟨dcell_ne d L n41, Finset.mem_erase.mpr ⟨dcell_ne d L n40, dcell_mem d L _⟩⟩⟩⟩)]

/-- The two scratch buffers are among the tile's own: they, each at some contents, and the rest. -/
theorem ownBufs_V2 (d : Dev nD) (L : grid0.Coords) :
    (ownBufs (V d (cV L) (jV L)) : sProp 𝕄)
      = iprop((∃ f, (V d (cV L) (jV L)).loc cc0_scoped0 ↦{fullShare} f) ∗ (∃ f, (V d (cV L) (jV L)).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

theorem Flight_sem_congr {thr : Thread nD τ} {s s' : DmaSem sig} (h : s = s') (N : ℕ) (D : sProp 𝕄) :
    (Transfers.Flight countersEmb thr (SemLoc.dma s) (default : HIx 1) N D : sProp 𝕄) = Transfers.Flight countersEmb thr (SemLoc.dma s') (default : HIx 1) N D := by
  subst h; rfl
theorem semVal_sem_congr {thr : Thread nD τ} {s s' : DmaSem sig} (h : s = s') :
    (semVal (thr, SemLoc.dma s) 0 : sProp 𝕄) = semVal (thr, SemLoc.dma s') 0 := by
  subst h; rfl

theorem lSlAt_set (off : Fin 3 → ℕ) (p : ∀ a, off a + S1x1x128.size a ≤ S2x1x128.size a) : (lSlAt off p).view.set = (iSlAt off p).view.set := by
  show (((iSlAt off p).view.slice (Rect.unit (s := S1x128) ![0, 0] S1x128.size inb_S1x128_S1x128_0_0)).reshape S128 squeezes_S1x128_S128.numel_eq).set = _
  rw [View.set_reshape, View.set_slice, Rect.set_eq_univ_of_whole _ (fun a => ⟨by fin_cases a <;> rfl, rfl, rfl⟩)]
  rfl

theorem pts_list (d : Dev nD) (c : Fin τ.nSC) (j : Fin τ.nSub) (off : Fin 3 → ℕ) (p : ∀ a, off a + S1x1x128.size a ≤ S2x1x128.size a)
    (q : PosShare TreeShare) (f : Buf (Elt F) ((V d c j).loc cc0_scoped0)) :
    ((iSlAt off p).view.loc (V d c j) ↦[(iSlAt off p).view.set]{q} f : sProp 𝕄) = ((lSlAt off p).view.loc (V d c j) ↦[(lSlAt off p).view.set]{q} f) := by
  rw [lSlAt_set]

theorem hin_at {off : Fin 3 → ℕ} {b : ℕ} (hb : b < 2) (h : off = ![b, 0, 0]) (p : ∀ a, off a + S1x1x128.size a ≤ S2x1x128.size a)
    (X : (iSl b hb).view.ty.Contents (Elt F)) (n : ℕ)
    (hX : ∀ x, ((lSl b hb).view.read (Elt F) X x).toNat < n) : ∀ x, ((lSlAt off p).view.read (Elt F) X x).toNat < n := by
  subst h; exact hX

/-! ## Parities, chunks, half-shares -/

theorem par_lt (k : ℕ) : k % 2 < 2 := Nat.mod_lt _ (by decide)
theorem cinb (L : grid0.Coords) (j : ℕ) (hj : j < 200) : 128 * chunkNo L j + 128 ≤ 819200 := chunk_inb L ⟨j, hj⟩

/-- The half of the tile's share of the flat index array that index slot `b`'s fetches read through. -/
def qI (L : grid0.Coords) (b : ℕ) : PosShare TreeShare := if b = 0 then (tsh (wL L)).left else (tsh (wL L)).right

/-! ## The pieces -/

section Inv

variable (d : Dev nD) (L : grid0.Coords) (f1 : Buf (Elt F) (v1Loc d)) (f2 : Buf (Elt F) (v2Loc d)) (f3 : Buf (Elt F) (v3Loc d))
  (O : CellTallies nD τ sig (HIx 1)) (W : Waits sig (HIx 1))

/-- Index slot `b` at rest. -/
def IdxRest (b : ℕ) (hb : b < 2) : sProp 𝕄 :=
  iprop((∃ fs, (iSl b hb).view.loc (V d (cV L) (jV L)) ↦[(iSl b hb).view.set]{fullShare} fs)
    ∗ semVal (V d (cV L) (jV L), SemLoc.dma (semI b hb)) 0
    ∗ ((Memref.whole main_v1_scv : Memref sig .scVector .hbm S1x819200 .i32).view.loc (V d (cV L) (jV L)) ↦{qI L b} f1))

/-- Chunk `j`'s words on their way into index slot `b`. -/
def IdxFly (j : ℕ) (hc : 128 * chunkNo L j + 128 ≤ 819200) (b : ℕ) (hb : b < 2) : sProp 𝕄 :=
  iprop((∃ fs, Transfers.Flight countersEmb (V d (cV L) (jV L)) (SemLoc.dma (semI b hb)) (default : HIx 1) 4096
        iprop(((iSl b hb).view.loc (V d (cV L) (jV L)) ↦[(iSl b hb).view.set]{fullShare}
                (iSl b hb).view.writes (Elt F) fs [⟨Rect.whole S1x128, (iCh (chunkNo L j) hc).view.read (Elt F) f1⟩])
          ∗ ((iCh (chunkNo L j) hc).view.loc (V d (cV L) (jV L)) ↦[(iCh (chunkNo L j) hc).view.set]{qI L b} f1)))
    ∗ (v1Loc d ↦[Finset.univ \ (iCh (chunkNo L j) hc).view.set]{qI L b} f1))

/-- Row slot `b` at rest. -/
def RowRest (b : ℕ) (hb : b < 2) : sProp 𝕄 :=
  iprop((∃ fr, (rSl b hb).view.loc (V d (cV L) (jV L)) ↦[(rSl b hb).view.set]{fullShare} fr)
    ∗ semVal (V d (cV L) (jV L), SemLoc.dma (semO b hb)) 0)

/-- Row slot `b` on its way out to chunk `j`'s rows, which land at the gathered rows. -/
def OutFly (j : ℕ) (hc : 128 * chunkNo L j + 128 ≤ 819200) (b : ℕ) (hb : b < 2) : sProp 𝕄 :=
  Transfers.Flight countersEmb (V d (cV L) (jV L)) (SemLoc.dma (semO b hb)) (default : HIx 1) 524288
    iprop(((oCh (chunkNo L j) hc).view.loc (V d (cV L) (jV L)) ↦[(oCh (chunkNo L j) hc).view.set]{fullShare} Stages.gathered f2 f1)
      ∗ (∃ fr, (rSl b hb).view.loc (V d (cV L) (jV L)) ↦[(rSl b hb).view.set]{fullShare} fr))

theorem IdxRest_congr {b b' : ℕ} (h : b = b') (hb : b < 2) (hb' : b' < 2) : IdxRest d L f1 b hb = IdxRest d L f1 b' hb' := by subst h; rfl
theorem RowRest_congr {b b' : ℕ} (h : b = b') (hb : b < 2) (hb' : b' < 2) : RowRest (F := F) d L b hb = RowRest d L b' hb' := by subst h; rfl
theorem IdxFly_congr {j j' b b' : ℕ} (hj : j = j') (h : b = b') (hc hc') (hb : b < 2) (hb' : b' < 2) :
    IdxFly d L f1 j hc b hb = IdxFly d L f1 j' hc' b' hb' := by subst hj; subst h; rfl
theorem OutFly_congr {j j' b b' : ℕ} (hj : j = j') (h : b = b') (hc hc') (hb : b < 2) (hb' : b' < 2) :
    OutFly d L f1 f2 j hc b hb = OutFly d L f1 f2 j' hc' b' hb' := by subst hj; subst h; rfl

/-- What the tile holds before trip `k`, the carried words being `acc`. -/
def Inv (k : ℕ) (acc : BitVec 32 × BitVec 32 × BitVec 32 × BitVec 32 × BitVec 32) : sProp 𝕄 :=
  iprop(⌜acc = (W6 k, W7 k, W7 k, W9 k, W10 k)⌝
    ∗ Transfers.MayWaits (V d (cV L) (jV L)) (default : HIx 1) O
    ∗ ((Memref.whole main_v2_scv : Memref sig .scVector .hbm S1000x128 .f32).view.loc (V d (cV L) (jV L)) ↦{tsh (wL L)} f2)
    ∗ semVal (V d (cV L) (jV L), SemLoc.dma semG) 0
    ∗ (if h : k < 200 then IdxFly d L f1 k (cinb L k h) (k % 2) (par_lt k) else IdxRest d L f1 (k % 2) (par_lt k))
    ∗ IdxRest d L f1 ((k + 1) % 2) (par_lt (k + 1))
    ∗ RowRest d L (k % 2) (par_lt k)
    ∗ (if h : 1 ≤ k ∧ k ≤ 200 then OutFly d L f1 f2 (k - 1) (cinb L (k - 1) (by omega)) ((k + 1) % 2) (par_lt (k + 1))
        else RowRest d L ((k + 1) % 2) (par_lt (k + 1)))
    ∗ (v3Loc d ↦[doneS L k]{fullShare} Stages.gathered f2 f1)
    ∗ (v3Loc d ↦[todoS L k]{fullShare} f3)
    ∗ ∃ W', ⌜∀ p ∈ W', p ∈ W ∨ p.2 = none⌝ ∗ owes (V d (cV L) (jV L)) O W')

/-! ## What a fetch and a copy-out leave, in the slices' own names -/

/-- What the fetch of a chunk delivers, named by the program's offsets, is what it delivers named by slot and chunk. -/
theorem idxLanded_eq {o4 : Fin 3 → ℕ} {o5 : Fin 2 → ℕ} {b c : ℕ} (hb : b < 2) (hc : 128 * c + 128 ≤ 819200) (h4 : o4 = ![b, 0, 0]) (h5 : o5 = ![0, 128 * c])
    (p4 : ∀ a, o4 a + S1x1x128.size a ≤ S2x1x128.size a) (p5 : ∀ a, o5 a + S1x128.size a ≤ S1x819200.size a)
    (q : PosShare TreeShare) (fs : Buf (Elt F) ((V d (cV L) (jV L)).loc cc0_scoped0)) :
    (iprop(((iSlAt o4 p4).view.loc (V d (cV L) (jV L)) ↦[(iSlAt o4 p4).view.set]{fullShare}
            (iSlAt o4 p4).view.writes (Elt F) fs [⟨Rect.whole S1x128, (iChAt o5 p5).view.read (Elt F) f1⟩])
        ∗ ((iChAt o5 p5).view.loc (V d (cV L) (jV L)) ↦[(iChAt o5 p5).view.set]{q} f1)) : sProp 𝕄)
      = iprop(((iSl b hb).view.loc (V d (cV L) (jV L)) ↦[(iSl b hb).view.set]{fullShare}
            (iSl b hb).view.writes (Elt F) fs [⟨Rect.whole S1x128, (iCh c hc).view.read (Elt F) f1⟩])
        ∗ ((iCh c hc).view.loc (V d (cV L) (jV L)) ↦[(iCh c hc).view.set]{q} f1)) := by
  subst h4; subst h5; rfl

/-- What the copy-out of a row slot delivers to its chunk's rows, named by the program's offsets: the gathered rows. -/
theorem outLanded_eq {o10 o11 o12 : Fin 3 → ℕ} {o13 : Fin 2 → ℕ} {b c : ℕ} (hb : b < 2) (hc : 128 * c + 128 ≤ 819200)
    (h10 : o10 = ![b, 0, 0]) (h11 : o11 = ![b, 0, 0]) (h12 : o12 = ![b, 0, 0]) (h13 : o13 = ![128 * c, 0])
    (p10 : ∀ a, o10 a + S1x128x128.size a ≤ S2x128x128.size a) (p11 : ∀ a, o11 a + S1x1x128.size a ≤ S2x1x128.size a)
    (p12 : ∀ a, o12 a + S1x128x128.size a ≤ S2x128x128.size a) (p13 : ∀ a, o13 a + S128x128.size a ≤ S819200x128.size a)
    (fs : Buf (Elt F) ((V d (cV L) (jV L)).loc cc0_scoped0)) (fr : Buf (Elt F) ((V d (cV L) (jV L)).loc cc0_scoped2))
    (hn : S128.numel = S128x128.size gathers_S1000x128_S128x128.axis')
    (HIN : ∀ x, ((lSlAt o11 p11).view.read (Elt F) ((iSl b hb).view.write (Elt F) fs ((iCh c hc).view.read (Elt F) f1) Finset.univ) x).toNat
      < S1000x128.size gathers_S1000x128_S128x128.axis) :
    ((oChAt o13 p13).view.loc (V d (cV L) (jV L)) ↦[(oChAt o13 p13).view.set]{fullShare}
        (oChAt o13 p13).view.writes (Elt F) f3 [⟨Rect.whole S128x128, (rSlAt o12 p12).view.read (Elt F)
          ((rSlAt o10 p10).view.write (Elt F) fr (SparseCore.gatherPayload gathers_S1000x128_S128x128 (tabV.view.read (Elt F) f2)
            (SparseCore.rows ((lSlAt o11 p11).view.read (Elt F) ((iSl b hb).view.write (Elt F) fs ((iCh c hc).view.read (Elt F) f1) Finset.univ)) hn HIN))
            Finset.univ)⟩] : sProp 𝕄)
      = ((oCh c hc).view.loc (V d (cV L) (jV L)) ↦[(oCh c hc).view.set]{fullShare} Stages.gathered f2 f1) := by
  subst h10; subst h11; subst h12; subst h13
  have e := View.write_univ_eq_writes_whole (Val := Elt F) (oCh c hc).view f3 []
    ((rSl b hb).view.read (Elt F) ((rSl b hb).view.write (Elt F) fr (SparseCore.gatherPayload gathers_S1000x128_S128x128 (tabV.view.read (Elt F) f2)
      (SparseCore.rows (lst b hb c hc f1 fs) hn HIN)) Finset.univ))
  exact (congrArg (fun g => ((oCh c hc).view.loc (V d (cV L) (jV L)) ↦[(oCh c hc).view.set]{fullShare} g : sProp 𝕄)) e.symm).trans
    (pointsTo_congr (landed_value b hb c hc f1 f2 f3 fs fr hn HIN))

/-- A fetch in flight named by the program's offsets is the invariant's fetch in flight, the offsets being the slot's and
    the chunk's. -/
theorem idxFly_of {o4 : Fin 3 → ℕ} {o5 : Fin 2 → ℕ} {o6 : Fin 1 → ℕ} {b j : ℕ} (hb : b < 2) (hc : 128 * chunkNo L j + 128 ≤ 819200)
    (h4 : o4 = ![b, 0, 0]) (h5 : o5 = ![0, 128 * chunkNo L j]) (h6 : o6 = ![b])
    (p4 : ∀ a, o4 a + S1x1x128.size a ≤ S2x1x128.size a) (p5 : ∀ a, o5 a + S1x128.size a ≤ S1x819200.size a) (p6 : ∀ a, o6 a + S1.size a ≤ S2.size a)
    (fs : Buf (Elt F) ((V d (cV L) (jV L)).loc cc0_scoped0)) :
    (iprop(Transfers.Flight countersEmb (V d (cV L) (jV L)) (SemLoc.dma (semIAt o6 p6)) (default : HIx 1) 4096
        iprop(((iSlAt o4 p4).view.loc (V d (cV L) (jV L)) ↦[(iSlAt o4 p4).view.set]{fullShare}
                (iSlAt o4 p4).view.writes (Elt F) fs [⟨Rect.whole S1x128, (iChAt o5 p5).view.read (Elt F) f1⟩])
          ∗ ((iChAt o5 p5).view.loc (V d (cV L) (jV L)) ↦[(iChAt o5 p5).view.set]{qI L b} f1))
      ∗ (v1Loc d ↦[Finset.univ \ (iCh (chunkNo L j) hc).view.set]{qI L b} f1)) : sProp 𝕄)
    ⊢ IdxFly d L f1 j hc b hb := by
  subst h4; subst h5; subst h6
  unfold IdxFly
  iintro ⟨H, Hr⟩
  isplitl [H]
  · iexists fs; iexact H
  · iexact Hr

/-- A copy-out in flight named by the program's offsets is the invariant's copy-out in flight, the offsets being the
    slot's and the chunk's: what it delivers to the chunk's rows is the gathered rows. -/
theorem outFly_of {o10 o11 o12 : Fin 3 → ℕ} {o13 : Fin 2 → ℕ} {o14 : Fin 1 → ℕ} {b j : ℕ} (hb : b < 2) (hc : 128 * chunkNo L j + 128 ≤ 819200)
    (h10 : o10 = ![b, 0, 0]) (h11 : o11 = ![b, 0, 0]) (h12 : o12 = ![b, 0, 0]) (h13 : o13 = ![128 * chunkNo L j, 0]) (h14 : o14 = ![b])
    (p10 : ∀ a, o10 a + S1x128x128.size a ≤ S2x128x128.size a) (p11 : ∀ a, o11 a + S1x1x128.size a ≤ S2x1x128.size a)
    (p12 : ∀ a, o12 a + S1x128x128.size a ≤ S2x128x128.size a) (p13 : ∀ a, o13 a + S128x128.size a ≤ S819200x128.size a)
    (p14 : ∀ a, o14 a + S1.size a ≤ S2.size a)
    (fs : Buf (Elt F) ((V d (cV L) (jV L)).loc cc0_scoped0)) (fr : Buf (Elt F) ((V d (cV L) (jV L)).loc cc0_scoped2))
    (hn : S128.numel = S128x128.size gathers_S1000x128_S128x128.axis')
    (HIN : ∀ x, ((lSlAt o11 p11).view.read (Elt F) ((iSl b hb).view.write (Elt F) fs ((iCh (chunkNo L j) hc).view.read (Elt F) f1) Finset.univ) x).toNat
      < S1000x128.size gathers_S1000x128_S128x128.axis) :
    (Transfers.Flight countersEmb (V d (cV L) (jV L)) (SemLoc.dma (semOAt o14 p14)) (default : HIx 1) 524288
      iprop(((oChAt o13 p13).view.loc (V d (cV L) (jV L)) ↦[(oChAt o13 p13).view.set]{fullShare}
              (oChAt o13 p13).view.writes (Elt F) f3 [⟨Rect.whole S128x128, (rSlAt o12 p12).view.read (Elt F)
                ((rSlAt o10 p10).view.write (Elt F) fr (SparseCore.gatherPayload gathers_S1000x128_S128x128 (tabV.view.read (Elt F) f2)
                  (SparseCore.rows ((lSlAt o11 p11).view.read (Elt F) ((iSl b hb).view.write (Elt F) fs ((iCh (chunkNo L j) hc).view.read (Elt F) f1) Finset.univ)) hn HIN))
                  Finset.univ)⟩])
        ∗ ((rSlAt o12 p12).view.loc (V d (cV L) (jV L)) ↦[(rSlAt o12 p12).view.set]{fullShare}
            (rSlAt o10 p10).view.write (Elt F) fr (SparseCore.gatherPayload gathers_S1000x128_S128x128 (tabV.view.read (Elt F) f2)
              (SparseCore.rows ((lSlAt o11 p11).view.read (Elt F) ((iSl b hb).view.write (Elt F) fs ((iCh (chunkNo L j) hc).view.read (Elt F) f1) Finset.univ)) hn HIN))
              Finset.univ)) : sProp 𝕄)
    ⊢ OutFly d L f1 f2 j hc b hb := by
  subst h14
  unfold OutFly
  refine Transfers.Flight_mono (EC := countersEmb) (c := V d (cV L) (jV L)) ?_
  iintro ⟨Hd, Hs⟩
  isplitl [Hd]
  · iapply (Entails.of_eq (outLanded_eq (F := F) d L f1 f2 f3 hb hc h10 h11 h12 h13 p10 p11 p12 p13 fs fr hn HIN)); iexact Hd
  · iexists _
    iapply (Entails.of_eq (pts_rSlAt (F := F) d (cV L) (jV L) h12 p12 (inbR _ hb) fullShare _)); iexact Hs

end Inv

end Cert.Proof.KI

end
-- ==== Proof.KI.TileTripA.lean ====
import proofs.«203052_g23699629540016_cont_8to1_215_27_alg».proof.Proof.KI.TileInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

set_option maxHeartbeats 8000000 in
/-- The first trip, `k = 0`: no copy-out is pending yet, so the wait for one is skipped. -/
theorem trip_first [FloatOps F] (d : Dev nD) (L : grid0.Coords) (f1 : Buf (Elt F) (v1Loc d)) (f2 : Buf (Elt F) (v2Loc d)) (f3 : Buf (Elt F) (v3Loc d))
    (hin : ∀ x, (f1 x).toNat < 1000) (O : CellTallies nD τ sig (HIx 1)) (W : Waits sig (HIx 1))
    (k : Fin k0_t1_loop.trips) (hk0 : k.val = 0) (acc : BitVec 32 × BitVec 32 × BitVec 32 × BitVec 32 × BitVec 32) :
    Inv d L f1 f2 f3 O W k.val acc
      ⊢ wp frame (wpE (defs₀ (F := F)) 𝒱₀ (V d (cV L) (jV L)) none) Set.univ
          (k0_t1_body L (Memref.whole main_v2_scv) (Memref.isWhole_whole _) (Memref.whole main_v1_scv) (Memref.isWhole_whole _) (Memref.whole main_v3_scv) (Memref.isWhole_whole _)
            (Memref.whole cc0_scoped0) (Memref.isWhole_whole _) cc0_scoped1 (Memref.whole cc0_scoped2) (Memref.isWhole_whole _) cc0_scoped3 cc0_scoped4 (V4 L) k acc)
          (Inv d L f1 f2 f3 O W (k.val + 1)) := by
  have hk200 : k.val < 200 := klt k
  have hk2 : k.val < 199 := by omega
  have hnk1 : ¬ 1 ≤ k.val := by omega
  have hb : k.val % 2 < 2 := par_lt _
  have hb' : (k.val + 1) % 2 < 2 := par_lt _
  have hc := cinb L k.val hk200
  have hc1 := cinb L (k.val + 1) (by omega)
  generalize hQ : Inv d L f1 f2 f3 O W (k.val + 1) = Q
  unfold Inv
  rw [dif_pos hk200]
  rw [dif_neg (by omega : ¬ (1 ≤ k.val ∧ k.val ≤ 200))]
  unfold IdxFly IdxRest RowRest
  iintro ⟨%hacc, #Hmw, Ht, HcG, ⟨⟨%fsA, HflI⟩, Hirest⟩, ⟨⟨%fsB, HsB⟩, HcB, HiB⟩, ⟨⟨%frA, HrA⟩, HcOA⟩, ⟨⟨%frB, HrB⟩, HcOB⟩, Hdone, Htodo, %W', %hW', HO⟩
  subst hacc
  have hw3 := chk3_W k
  have hw2 := chk2_W k
  have hw1 := chk1_W L k
  have h2 := cond2_true L k
  have h5 := cond5_true L k
  have h1 : k0_cond1 L k (W10 k.val) = 1#1 := (cond1_iff L k).2 hk2
  have h7 : ¬ k0_cond7 L k (W10 k.val) = 1#1 := fun h => hnk1 ((cond7_iff L k).1 h)
  have p4 := k0_off4_inb L k _ _ _ _ _ hw1 h1
  have p5 := k0_off5_inb L k _ _ _ _ _ hw1 h1
  have p6 := k0_off6_inb L k _ _ _ _ _ hw1 h1
  have p7 := k0_off7_inb L k _ _ _ _ _ hw1 h2
  have p8 := k0_off8_inb L k _ _ _ _ _ hw1 h2
  have p9 := k0_off9_inb L k _ _ _ _ _ hw1 h2
  have p10 := k0_off10_inb _ hw2
  have p11 := k0_off11_inb _ hw3
  have p12 := k0_off12_inb L k _ _ _ _ _ hw1 h5
  have p13 := k0_off13_inb L k _ _ _ _ _ hw1 h5
  have p14 := k0_off14_inb L k _ _ _ _ _ hw1 h5
  -- chunk k + 1's words out of the other slot's half-share
  have hsubI : ((iCh (chunkNo L (k.val + 1)) hc1).view.set : Finset (Idx (v1Loc d))) ⊆ Finset.univ := Finset.subset_univ _
  ihave HiB2 := (pointsTo_split_subset (q := qI L ((k.val + 1) % 2)) (f := f1) hsubI).1 $$ HiB
  icases HiB2 with ⟨Hi1, HiBrest⟩
  -- chunk k's rows out of the rows still to write
  obtain ⟨etodo, dtodo⟩ := todo_step L hk200
  ihave Htodo1 := (Entails.of_eq (congrArg (fun S => (v3Loc d ↦[S]{fullShare} f3 : sProp 𝕄)) etodo)) $$ Htodo
  ihave Htodo2 := (pointsTo_union (q := fullShare) (f := f3) dtodo).1 $$ Htodo1
  icases Htodo2 with ⟨Ho0, Htodo'⟩
  ihave Ho := (Entails.of_eq (congrArg (fun S => (v3Loc d ↦[S]{fullShare} f3 : sProp 𝕄)) (oCh_set (chunkNo L k.val) hc).symm)) $$ Ho0
  -- segment 1: the next fetch, the wait for this trip's fetch
  ihave HsB' := (Entails.of_eq (pts_iSlAt (F := F) d (cV L) (jV L) (off4_W k).symm (inbI _ hb') p4 fullShare fsB)) $$ HsB
  ihave Hi1' := (Entails.of_eq (pts_iChAt (F := F) d (cV L) (jV L) (off5_W L k hk2).symm (inbIC _ hc1) p5 (qI L ((k.val + 1) % 2)) f1)) $$ Hi1
  ihave HcB' := (Entails.of_eq (semVal_sem_congr (F := F) (thr := V d (cV L) (jV L)) (semIAt_congr (off6_W k).symm (inbS _ hb') p6))) $$ HcB
  ihave HflI' := (Entails.of_eq (Flight_sem_congr (F := F) (thr := V d (cV L) (jV L)) (semIAt_congr (off9_W k).symm (inbS _ hb) p9) _ _)) $$ HflI
  sl_exec

  -- segment 2: the indexed copy of the table rows slot b's list names into row slot b, and its wait
  have hX : (iSl (k.val % 2) hb).view.writes (Elt F) fsA [⟨Rect.whole S1x128, (iCh (chunkNo L k.val) hc).view.read (Elt F) f1⟩]
      = (iSl (k.val % 2) hb).view.write (Elt F) fsA ((iCh (chunkNo L k.val) hc).view.read (Elt F) f1) Finset.univ :=
    (View.write_univ_eq_writes_whole (Val := Elt F) (iSl (k.val % 2) hb).view fsA [] ((iCh (chunkNo L k.val) hc).view.read (Elt F) f1)).symm
  ihave Hl0 := (Entails.of_eq (congrArg (fun g => ((iSl (k.val % 2) hb).view.loc (V d (cV L) (jV L)) ↦[(iSl (k.val % 2) hb).view.set]{fullShare} g : sProp 𝕄)) hX)) $$ HflI'_dst
  ihave Hl1 := (Entails.of_eq (pts_iSlAt (F := F) d (cV L) (jV L) (off11_W k).symm (inbI _ hb) p11 fullShare _)) $$ Hl0
  ihave Hl2 := (Entails.of_eq (pts_list (F := F) d (cV L) (jV L) _ p11 fullShare _)) $$ Hl1
  ihave HrA' := (Entails.of_eq (pts_rSlAt (F := F) d (cV L) (jV L) (off10_W k).symm (inbR _ hb) p10 fullShare frA)) $$ HrA
  have hsubT : (tabV.view.set : Finset (Idx (v2Loc d))) ⊆ Finset.univ := Finset.subset_univ _
  ihave Hts := (pointsTo_split_subset (q := tsh (wL L)) (f := f2) hsubT).1 $$ Ht
  icases Hts with ⟨Hts, Htr⟩
  have HIN := hin_at (F := F) hb (off11_W k) p11 _ _ (list_in_range (k.val % 2) hb (chunkNo L k.val) hc f1 fsA hin)
  iapply (SparseCore.wp_indirectGatherLocal countersEmb 𝒱₀ (V d (cV L) (jV L)) none (hg := gathers_S1000x128_S128x128) (default : HIx 1)
      (rSlAt (k0_off10 (W7 k.val)) p10).view.dmaCredit (SparseCore.sum_rowCredit_eq_dmaCredit _ _ (fun _ => rfl)) (by decide) HIN) $$ [Hts HrA' Hl2 HcG]
  · isplitl [Hts]; · iexact Hts
    isplitl [HrA']; · iexact HrA'
    isplitl [Hl2]; · iexact Hl2
    iexact HcG
  iintro Hfl
  sl_exec
  iapply (Transfers.wp_waitLocalO countersEmb 𝒱₀ (V d (cV L) (jV L)) none (default : HIx 1) (rfl : (rSlAt (k0_off10 (W7 k.val)) p10).view.dmaCredit = _)) $$ [Hfl HO]
  · isplitl [Hfl]; · iexact Hfl
    isplitl [HO]; · iexact HO
    iapply (Transfers.MayWaits.elim (SemLoc.dma semG)) $$ Hmw
  iintro ⟨⟨Hrw, Hts, Hlw⟩, HcG, HO⟩

  -- segment 3: the copy-out of row slot b to chunk k's rows, the wait for chunk k - 1's copy-out
  ihave Hrw' := (Entails.of_eq (pts_rSlAt (F := F) d (cV L) (jV L) ((off10_W k).trans (off12_W k).symm) p10 p12 fullShare _)) $$ Hrw
  ihave Ho' := (Entails.of_eq (pts_oChAt (F := F) d (cV L) (jV L) (off13_W L k).symm (inbOC _ hc) p13 fullShare f3)) $$ Ho
  ihave HcOA' := (Entails.of_eq (semVal_sem_congr (F := F) (thr := V d (cV L) (jV L)) (semOAt_congr (off14_W k).symm (inbS _ hb) p14))) $$ HcOA
  sl_exec
  -- the trip returns: the invariant at k + 1
  sl_step
  subst hQ
  unfold Inv
  rw [dif_pos (by omega : k.val + 1 < 200)]
  rw [dif_pos (⟨by omega, by omega⟩ : 1 ≤ k.val + 1 ∧ k.val + 1 ≤ 200)]
  rw [IdxRest_congr (F := F) d L f1 (show (k.val + 1 + 1) % 2 = k.val % 2 by omega) _ hb,
    OutFly_congr (F := F) d L f1 f2 (show k.val + 1 - 1 = k.val by omega) (show (k.val + 1 + 1) % 2 = k.val % 2 by omega) _ hc _ hb]
  unfold IdxRest RowRest
  have hsubIk : ((iCh (chunkNo L k.val) hc).view.set : Finset (Idx (v1Loc d))) ⊆ Finset.univ := Finset.subset_univ _
  -- the words
  isplitr
  · ipureintro; exact yld_W L k
  isplitr
  · iexact Hmw
  -- the table share, whole again
  isplitl [Hts Htr]
  · iapply (pointsTo_split_subset (q := tsh (wL L)) (f := f2) hsubT).2
    isplitl [Hts] <;> iassumption
  isplitl [HcG]
  · iexact HcG
  -- the next chunk's fetch, in flight into the other slot
  isplitl [HcB' HiBrest]
  · iapply (idxFly_of (F := F) d L f1 hb' hc1 (off4_W k) (off5_W L k hk2) (off6_W k) p4 p5 p6 fsB)
    isplitl [HcB']
    · iexact HcB'
    · iexact HiBrest
  -- this trip's index slot, at rest again, its half-share whole again
  isplitl [Hlw HflI' Hirest]
  · isplitl [Hlw]
    · iexists _
      iapply (Entails.of_eq (pts_iSlAt (F := F) d (cV L) (jV L) (off11_W k) p11 (inbI _ hb) fullShare _))
      iapply (Entails.of_eq (pts_list (F := F) d (cV L) (jV L) _ p11 fullShare _).symm)
      iexact Hlw
    isplitl [HflI']
    · iapply (Entails.of_eq (semVal_sem_congr (F := F) (thr := V d (cV L) (jV L)) (semIAt_congr (off9_W k) p9 (inbS _ hb))))
      iexact HflI'
    · iexact Hirest
  -- the other row slot, still at rest
  isplitl [HrB HcOB]
  · isplitl [HrB]
    · iexists _; iexact HrB
    · iexact HcOB
  -- this trip's rows, on their way out
  isplitl [HcOA']
  · iapply (outFly_of (F := F) d L f1 f2 f3 hb hc (off10_W k) (off11_W k) (off12_W k) (off13_W L k) (off14_W k) p10 p11 p12 p13 p14 fsA frA _ HIN)
    iexact HcOA'
  -- nothing finished yet
  isplitl [Hdone]
  · iapply (Entails.of_eq (congrArg (fun S => (v3Loc d ↦[S]{fullShare} Stages.gathered f2 f1 : sProp 𝕄))
      ((done_small L (by omega : k.val ≤ 1)).trans (done_small L (by omega : k.val + 1 ≤ 1)).symm)))
    iexact Hdone
  isplitl [Htodo']
  · iexact Htodo'
  -- the waits recorded
  iexists _; isplitr
  swap; · iexact HO
  ipureintro; intro p hp
  repeat (rcases Finset.mem_insert.mp hp with hp | hp; · exact .inr (hp ▸ rfl))
  exact hW' p hp

end Cert.Proof.KI

end
-- ==== Proof.KI.TileTripB.lean ====
import proofs.«203052_g23699629540016_cont_8to1_215_27_alg».proof.Proof.KI.TileInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

set_option maxHeartbeats 8000000 in
/-- A middle trip, `1 ≤ k < 199`: all four guarded steps are taken. -/
theorem trip_mid [FloatOps F] (d : Dev nD) (L : grid0.Coords) (f1 : Buf (Elt F) (v1Loc d)) (f2 : Buf (Elt F) (v2Loc d)) (f3 : Buf (Elt F) (v3Loc d))
    (hin : ∀ x, (f1 x).toNat < 1000) (O : CellTallies nD τ sig (HIx 1)) (W : Waits sig (HIx 1))
    (k : Fin k0_t1_loop.trips) (hk1 : 1 ≤ k.val) (hk2 : k.val < 199) (acc : BitVec 32 × BitVec 32 × BitVec 32 × BitVec 32 × BitVec 32) :
    Inv d L f1 f2 f3 O W k.val acc
      ⊢ wp frame (wpE (defs₀ (F := F)) 𝒱₀ (V d (cV L) (jV L)) none) Set.univ
          (k0_t1_body L (Memref.whole main_v2_scv) (Memref.isWhole_whole _) (Memref.whole main_v1_scv) (Memref.isWhole_whole _) (Memref.whole main_v3_scv) (Memref.isWhole_whole _)
            (Memref.whole cc0_scoped0) (Memref.isWhole_whole _) cc0_scoped1 (Memref.whole cc0_scoped2) (Memref.isWhole_whole _) cc0_scoped3 cc0_scoped4 (V4 L) k acc)
          (Inv d L f1 f2 f3 O W (k.val + 1)) := by
  have hk200 : k.val < 200 := klt k
  have hb : k.val % 2 < 2 := par_lt _
  have hb' : (k.val + 1) % 2 < 2 := par_lt _
  have hc := cinb L k.val hk200
  have hc1 := cinb L (k.val + 1) (by omega)
  have hcm := cinb L (k.val - 1) (by omega)
  generalize hQ : Inv d L f1 f2 f3 O W (k.val + 1) = Q
  unfold Inv
  rw [dif_pos hk200]
  rw [dif_pos (⟨hk1, by omega⟩ : 1 ≤ k.val ∧ k.val ≤ 200)]
  unfold IdxFly IdxRest RowRest OutFly
  iintro ⟨%hacc, #Hmw, Ht, HcG, ⟨⟨%fsA, HflI⟩, Hirest⟩, ⟨⟨%fsB, HsB⟩, HcB, HiB⟩, ⟨⟨%frA, HrA⟩, HcOA⟩, HflO, Hdone, Htodo, %W', %hW', HO⟩
  subst hacc
  have hw3 := chk3_W k
  have hw2 := chk2_W k
  have hw1 := chk1_W L k
  have h2 := cond2_true L k
  have h5 := cond5_true L k
  have h1 : k0_cond1 L k (W10 k.val) = 1#1 := (cond1_iff L k).2 hk2
  have h7 : k0_cond7 L k (W10 k.val) = 1#1 := (cond7_iff L k).2 hk1
  have p4 := k0_off4_inb L k _ _ _ _ _ hw1 h1
  have p5 := k0_off5_inb L k _ _ _ _ _ hw1 h1
  have p6 := k0_off6_inb L k _ _ _ _ _ hw1 h1
  have p7 := k0_off7_inb L k _ _ _ _ _ hw1 h2
  have p8 := k0_off8_inb L k _ _ _ _ _ hw1 h2
  have p9 := k0_off9_inb L k _ _ _ _ _ hw1 h2
  have p10 := k0_off10_inb _ hw2
  have p11 := k0_off11_inb _ hw3
  have p12 := k0_off12_inb L k _ _ _ _ _ hw1 h5
  have p13 := k0_off13_inb L k _ _ _ _ _ hw1 h5
  have p14 := k0_off14_inb L k _ _ _ _ _ hw1 h5
  have p15 := k0_off15_inb L k _ _ _ _ _ hw1 h7
  have p16 := k0_off16_inb L k _ _ _ _ _ hw1 h7
  have p17 := k0_off17_inb L k _ _ _ _ _ hw1 h7
  -- chunk k + 1's words out of the other slot's half-share
  have hsubI : ((iCh (chunkNo L (k.val + 1)) hc1).view.set : Finset (Idx (v1Loc d))) ⊆ Finset.univ := Finset.subset_univ _
  ihave HiB2 := (pointsTo_split_subset (q := qI L ((k.val + 1) % 2)) (f := f1) hsubI).1 $$ HiB
  icases HiB2 with ⟨Hi1, HiBrest⟩
  -- chunk k's rows out of the rows still to write
  obtain ⟨etodo, dtodo⟩ := todo_step L hk200
  ihave Htodo1 := (Entails.of_eq (congrArg (fun S => (v3Loc d ↦[S]{fullShare} f3 : sProp 𝕄)) etodo)) $$ Htodo
  ihave Htodo2 := (pointsTo_union (q := fullShare) (f := f3) dtodo).1 $$ Htodo1
  icases Htodo2 with ⟨Ho0, Htodo'⟩
  ihave Ho := (Entails.of_eq (congrArg (fun S => (v3Loc d ↦[S]{fullShare} f3 : sProp 𝕄)) (oCh_set (chunkNo L k.val) hc).symm)) $$ Ho0
  -- segment 1: the next fetch, the wait for this trip's fetch
  ihave HsB' := (Entails.of_eq (pts_iSlAt (F := F) d (cV L) (jV L) (off4_W k).symm (inbI _ hb') p4 fullShare fsB)) $$ HsB
  ihave Hi1' := (Entails.of_eq (pts_iChAt (F := F) d (cV L) (jV L) (off5_W L k hk2).symm (inbIC _ hc1) p5 (qI L ((k.val + 1) % 2)) f1)) $$ Hi1
  ihave HcB' := (Entails.of_eq (semVal_sem_congr (F := F) (thr := V d (cV L) (jV L)) (semIAt_congr (off6_W k).symm (inbS _ hb') p6))) $$ HcB
  ihave HflI' := (Entails.of_eq (Flight_sem_congr (F := F) (thr := V d (cV L) (jV L)) (semIAt_congr (off9_W k).symm (inbS _ hb) p9) _ _)) $$ HflI
  sl_exec

  -- segment 2: the indexed copy of the table rows slot b's list names into row slot b, and its wait
  have hX : (iSl (k.val % 2) hb).view.writes (Elt F) fsA [⟨Rect.whole S1x128, (iCh (chunkNo L k.val) hc).view.read (Elt F) f1⟩]
      = (iSl (k.val % 2) hb).view.write (Elt F) fsA ((iCh (chunkNo L k.val) hc).view.read (Elt F) f1) Finset.univ :=
    (View.write_univ_eq_writes_whole (Val := Elt F) (iSl (k.val % 2) hb).view fsA [] ((iCh (chunkNo L k.val) hc).view.read (Elt F) f1)).symm
  ihave Hl0 := (Entails.of_eq (congrArg (fun g => ((iSl (k.val % 2) hb).view.loc (V d (cV L) (jV L)) ↦[(iSl (k.val % 2) hb).view.set]{fullShare} g : sProp 𝕄)) hX)) $$ HflI'_dst
  ihave Hl1 := (Entails.of_eq (pts_iSlAt (F := F) d (cV L) (jV L) (off11_W k).symm (inbI _ hb) p11 fullShare _)) $$ Hl0
  ihave Hl2 := (Entails.of_eq (pts_list (F := F) d (cV L) (jV L) _ p11 fullShare _)) $$ Hl1
  ihave HrA' := (Entails.of_eq (pts_rSlAt (F := F) d (cV L) (jV L) (off10_W k).symm (inbR _ hb) p10 fullShare frA)) $$ HrA
  have hsubT : (tabV.view.set : Finset (Idx (v2Loc d))) ⊆ Finset.univ := Finset.subset_univ _
  ihave Hts := (pointsTo_split_subset (q := tsh (wL L)) (f := f2) hsubT).1 $$ Ht
  icases Hts with ⟨Hts, Htr⟩
  have HIN := hin_at (F := F) hb (off11_W k) p11 _ _ (list_in_range (k.val % 2) hb (chunkNo L k.val) hc f1 fsA hin)
  iapply (SparseCore.wp_indirectGatherLocal countersEmb 𝒱₀ (V d (cV L) (jV L)) none (hg := gathers_S1000x128_S128x128) (default : HIx 1)
      (rSlAt (k0_off10 (W7 k.val)) p10).view.dmaCredit (SparseCore.sum_rowCredit_eq_dmaCredit _ _ (fun _ => rfl)) (by decide) HIN) $$ [Hts HrA' Hl2 HcG]
  · isplitl [Hts]; · iexact Hts
    isplitl [HrA']; · iexact HrA'
    isplitl [Hl2]; · iexact Hl2
    iexact HcG
  iintro Hfl
  sl_exec
  iapply (Transfers.wp_waitLocalO countersEmb 𝒱₀ (V d (cV L) (jV L)) none (default : HIx 1) (rfl : (rSlAt (k0_off10 (W7 k.val)) p10).view.dmaCredit = _)) $$ [Hfl HO]
  · isplitl [Hfl]; · iexact Hfl
    isplitl [HO]; · iexact HO
    iapply (Transfers.MayWaits.elim (SemLoc.dma semG)) $$ Hmw
  iintro ⟨⟨Hrw, Hts, Hlw⟩, HcG, HO⟩

  -- segment 3: the copy-out of row slot b to chunk k's rows, the wait for chunk k - 1's copy-out
  ihave Hrw' := (Entails.of_eq (pts_rSlAt (F := F) d (cV L) (jV L) ((off10_W k).trans (off12_W k).symm) p10 p12 fullShare _)) $$ Hrw
  ihave Ho' := (Entails.of_eq (pts_oChAt (F := F) d (cV L) (jV L) (off13_W L k).symm (inbOC _ hc) p13 fullShare f3)) $$ Ho
  ihave HcOA' := (Entails.of_eq (semVal_sem_congr (F := F) (thr := V d (cV L) (jV L)) (semOAt_congr (off14_W k).symm (inbS _ hb) p14))) $$ HcOA
  ihave HflO' := (Entails.of_eq (Flight_sem_congr (F := F) (thr := V d (cV L) (jV L)) (semOAt_congr (off17_W k hk1).symm (inbS _ hb') p17) _ _)) $$ HflO
  sl_exec
  iapply (Transfers.wp_waitLocalO countersEmb 𝒱₀ (V d (cV L) (jV L)) none (default : HIx 1) (N := 524288) (by rfl)) $$ [HflO' HO]
  · isplitl [HflO']; · iexact HflO'
    isplitl [HO]; · iexact HO
    iapply (Transfers.MayWaits.elim (SemLoc.dma (semOAt (k0_off17 (W9 k.val)) p17))) $$ Hmw
  iintro ⟨⟨HflO'_dst, HflO'_src⟩, HflO', HO⟩
  sl_exec
  -- the trip returns: the invariant at k + 1
  sl_step
  subst hQ
  unfold Inv
  rw [dif_pos (by omega : k.val + 1 < 200)]
  rw [dif_pos (⟨by omega, by omega⟩ : 1 ≤ k.val + 1 ∧ k.val + 1 ≤ 200)]
  rw [IdxRest_congr (F := F) d L f1 (show (k.val + 1 + 1) % 2 = k.val % 2 by omega) _ hb,
    OutFly_congr (F := F) d L f1 f2 (show k.val + 1 - 1 = k.val by omega) (show (k.val + 1 + 1) % 2 = k.val % 2 by omega) _ hc _ hb]
  unfold IdxRest RowRest
  have hsubIk : ((iCh (chunkNo L k.val) hc).view.set : Finset (Idx (v1Loc d))) ⊆ Finset.univ := Finset.subset_univ _
  -- the words
  isplitr
  · ipureintro; exact yld_W L k
  isplitr
  · iexact Hmw
  -- the table share, whole again
  isplitl [Hts Htr]
  · iapply (pointsTo_split_subset (q := tsh (wL L)) (f := f2) hsubT).2
    isplitl [Hts] <;> iassumption
  isplitl [HcG]
  · iexact HcG
  -- the next chunk's fetch, in flight into the other slot
  isplitl [HcB' HiBrest]
  · iapply (idxFly_of (F := F) d L f1 hb' hc1 (off4_W k) (off5_W L k hk2) (off6_W k) p4 p5 p6 fsB)
    isplitl [HcB']
    · iexact HcB'
    · iexact HiBrest
  -- this trip's index slot, at rest again, its half-share whole again
  isplitl [Hlw HflI' Hirest]
  · isplitl [Hlw]
    · iexists _
      iapply (Entails.of_eq (pts_iSlAt (F := F) d (cV L) (jV L) (off11_W k) p11 (inbI _ hb) fullShare _))
      iapply (Entails.of_eq (pts_list (F := F) d (cV L) (jV L) _ p11 fullShare _).symm)
      iexact Hlw
    isplitl [HflI']
    · iapply (Entails.of_eq (semVal_sem_congr (F := F) (thr := V d (cV L) (jV L)) (semIAt_congr (off9_W k) p9 (inbS _ hb))))
      iexact HflI'
    · iexact Hirest
  -- the other row slot, back from its copy-out
  isplitl [HflO'_src HflO']
  · isplitl [HflO'_src]
    · iexact HflO'_src
    · iapply (Entails.of_eq (semVal_sem_congr (F := F) (thr := V d (cV L) (jV L)) (semOAt_congr (off17_W k hk1) p17 (inbS _ hb'))))
      iexact HflO'
  -- this trip's rows, on their way out
  isplitl [HcOA']
  · iapply (outFly_of (F := F) d L f1 f2 f3 hb hc (off10_W k) (off11_W k) (off12_W k) (off13_W L k) (off14_W k) p10 p11 p12 p13 p14 fsA frA _ HIN)
    iexact HcOA'
  -- the previous chunk's rows join the finished ones
  obtain ⟨edone, ddone⟩ := done_step L hk1 (by omega : k.val ≤ 200)
  isplitl [Hdone HflO'_dst]
  · iapply (Entails.of_eq (congrArg (fun S => (v3Loc d ↦[S]{fullShare} Stages.gathered f2 f1 : sProp 𝕄)) edone.symm))
    iapply (pointsTo_union (q := fullShare) (f := Stages.gathered f2 f1) ddone).2
    isplitl [Hdone]
    · iexact Hdone
    · iapply (Entails.of_eq (congrArg (fun S => (v3Loc d ↦[S]{fullShare} Stages.gathered f2 f1 : sProp 𝕄)) (oCh_set (chunkNo L (k.val - 1)) hcm)))
      iexact HflO'_dst
  isplitl [Htodo']
  · iexact Htodo'
  -- the waits recorded
  iexists _; isplitr
  swap; · iexact HO
  ipureintro; intro p hp
  repeat (rcases Finset.mem_insert.mp hp with hp | hp; · exact .inr (hp ▸ rfl))
  exact hW' p hp

end Cert.Proof.KI

end
-- ==== Proof.KI.TileTripC.lean ====
import proofs.«203052_g23699629540016_cont_8to1_215_27_alg».proof.Proof.KI.TileInv

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

set_option maxHeartbeats 8000000 in
/-- The last trip, `k = 199`: there is no next chunk, so no fetch is started. -/
theorem trip_last [FloatOps F] (d : Dev nD) (L : grid0.Coords) (f1 : Buf (Elt F) (v1Loc d)) (f2 : Buf (Elt F) (v2Loc d)) (f3 : Buf (Elt F) (v3Loc d))
    (hin : ∀ x, (f1 x).toNat < 1000) (O : CellTallies nD τ sig (HIx 1)) (W : Waits sig (HIx 1))
    (k : Fin k0_t1_loop.trips) (hk199 : k.val = 199) (acc : BitVec 32 × BitVec 32 × BitVec 32 × BitVec 32 × BitVec 32) :
    Inv d L f1 f2 f3 O W k.val acc
      ⊢ wp frame (wpE (defs₀ (F := F)) 𝒱₀ (V d (cV L) (jV L)) none) Set.univ
          (k0_t1_body L (Memref.whole main_v2_scv) (Memref.isWhole_whole _) (Memref.whole main_v1_scv) (Memref.isWhole_whole _) (Memref.whole main_v3_scv) (Memref.isWhole_whole _)
            (Memref.whole cc0_scoped0) (Memref.isWhole_whole _) cc0_scoped1 (Memref.whole cc0_scoped2) (Memref.isWhole_whole _) cc0_scoped3 cc0_scoped4 (V4 L) k acc)
          (Inv d L f1 f2 f3 O W (k.val + 1)) := by
  have hk200 : k.val < 200 := klt k
  have hnk2 : ¬ k.val < 199 := by omega
  have hk1 : 1 ≤ k.val := by omega
  have hb : k.val % 2 < 2 := par_lt _
  have hb' : (k.val + 1) % 2 < 2 := par_lt _
  have hc := cinb L k.val hk200
  have hcm := cinb L (k.val - 1) (by omega)
  generalize hQ : Inv d L f1 f2 f3 O W (k.val + 1) = Q
  unfold Inv
  rw [dif_pos hk200]
  rw [dif_pos (⟨hk1, by omega⟩ : 1 ≤ k.val ∧ k.val ≤ 200)]
  unfold IdxFly IdxRest RowRest OutFly
  iintro ⟨%hacc, #Hmw, Ht, HcG, ⟨⟨%fsA, HflI⟩, Hirest⟩, ⟨⟨%fsB, HsB⟩, HcB, HiB⟩, ⟨⟨%frA, HrA⟩, HcOA⟩, HflO, Hdone, Htodo, %W', %hW', HO⟩
  subst hacc
  have hw3 := chk3_W k
  have hw2 := chk2_W k
  have hw1 := chk1_W L k
  have h2 := cond2_true L k
  have h5 := cond5_true L k
  have h1 : ¬ k0_cond1 L k (W10 k.val) = 1#1 := fun h => hnk2 ((cond1_iff L k).1 h)
  have h7 : k0_cond7 L k (W10 k.val) = 1#1 := (cond7_iff L k).2 hk1
  have p7 := k0_off7_inb L k _ _ _ _ _ hw1 h2
  have p8 := k0_off8_inb L k _ _ _ _ _ hw1 h2
  have p9 := k0_off9_inb L k _ _ _ _ _ hw1 h2
  have p10 := k0_off10_inb _ hw2
  have p11 := k0_off11_inb _ hw3
  have p12 := k0_off12_inb L k _ _ _ _ _ hw1 h5
  have p13 := k0_off13_inb L k _ _ _ _ _ hw1 h5
  have p14 := k0_off14_inb L k _ _ _ _ _ hw1 h5
  have p15 := k0_off15_inb L k _ _ _ _ _ hw1 h7
  have p16 := k0_off16_inb L k _ _ _ _ _ hw1 h7
  have p17 := k0_off17_inb L k _ _ _ _ _ hw1 h7
  -- chunk k's rows out of the rows still to write
  obtain ⟨etodo, dtodo⟩ := todo_step L hk200
  ihave Htodo1 := (Entails.of_eq (congrArg (fun S => (v3Loc d ↦[S]{fullShare} f3 : sProp 𝕄)) etodo)) $$ Htodo
  ihave Htodo2 := (pointsTo_union (q := fullShare) (f := f3) dtodo).1 $$ Htodo1
  icases Htodo2 with ⟨Ho0, Htodo'⟩
  ihave Ho := (Entails.of_eq (congrArg (fun S => (v3Loc d ↦[S]{fullShare} f3 : sProp 𝕄)) (oCh_set (chunkNo L k.val) hc).symm)) $$ Ho0
  -- segment 1: the next fetch, the wait for this trip's fetch
  ihave HflI' := (Entails.of_eq (Flight_sem_congr (F := F) (thr := V d (cV L) (jV L)) (semIAt_congr (off9_W k).symm (inbS _ hb) p9) _ _)) $$ HflI
  sl_exec

  -- segment 2: the indexed copy of the table rows slot b's list names into row slot b, and its wait
  have hX : (iSl (k.val % 2) hb).view.writes (Elt F) fsA [⟨Rect.whole S1x128, (iCh (chunkNo L k.val) hc).view.read (Elt F) f1⟩]
      = (iSl (k.val % 2) hb).view.write (Elt F) fsA ((iCh (chunkNo L k.val) hc).view.read (Elt F) f1) Finset.univ :=
    (View.write_univ_eq_writes_whole (Val := Elt F) (iSl (k.val % 2) hb).view fsA [] ((iCh (chunkNo L k.val) hc).view.read (Elt F) f1)).symm
  ihave Hl0 := (Entails.of_eq (congrArg (fun g => ((iSl (k.val % 2) hb).view.loc (V d (cV L) (jV L)) ↦[(iSl (k.val % 2) hb).view.set]{fullShare} g : sProp 𝕄)) hX)) $$ HflI'_dst
  ihave Hl1 := (Entails.of_eq (pts_iSlAt (F := F) d (cV L) (jV L) (off11_W k).symm (inbI _ hb) p11 fullShare _)) $$ Hl0
  ihave Hl2 := (Entails.of_eq (pts_list (F := F) d (cV L) (jV L) _ p11 fullShare _)) $$ Hl1
  ihave HrA' := (Entails.of_eq (pts_rSlAt (F := F) d (cV L) (jV L) (off10_W k).symm (inbR _ hb) p10 fullShare frA)) $$ HrA
  have hsubT : (tabV.view.set : Finset (Idx (v2Loc d))) ⊆ Finset.univ := Finset.subset_univ _
  ihave Hts := (pointsTo_split_subset (q := tsh (wL L)) (f := f2) hsubT).1 $$ Ht
  icases Hts with ⟨Hts, Htr⟩
  have HIN := hin_at (F := F) hb (off11_W k) p11 _ _ (list_in_range (k.val % 2) hb (chunkNo L k.val) hc f1 fsA hin)
  iapply (SparseCore.wp_indirectGatherLocal countersEmb 𝒱₀ (V d (cV L) (jV L)) none (hg := gathers_S1000x128_S128x128) (default : HIx 1)
      (rSlAt (k0_off10 (W7 k.val)) p10).view.dmaCredit (SparseCore.sum_rowCredit_eq_dmaCredit _ _ (fun _ => rfl)) (by decide) HIN) $$ [Hts HrA' Hl2 HcG]
  · isplitl [Hts]; · iexact Hts
    isplitl [HrA']; · iexact HrA'
    isplitl [Hl2]; · iexact Hl2
    iexact HcG
  iintro Hfl
  sl_exec
  iapply (Transfers.wp_waitLocalO countersEmb 𝒱₀ (V d (cV L) (jV L)) none (default : HIx 1) (rfl : (rSlAt (k0_off10 (W7 k.val)) p10).view.dmaCredit = _)) $$ [Hfl HO]
  · isplitl [Hfl]; · iexact Hfl
    isplitl [HO]; · iexact HO
    iapply (Transfers.MayWaits.elim (SemLoc.dma semG)) $$ Hmw
  iintro ⟨⟨Hrw, Hts, Hlw⟩, HcG, HO⟩

  -- segment 3: the copy-out of row slot b to chunk k's rows, the wait for chunk k - 1's copy-out
  ihave Hrw' := (Entails.of_eq (pts_rSlAt (F := F) d (cV L) (jV L) ((off10_W k).trans (off12_W k).symm) p10 p12 fullShare _)) $$ Hrw
  ihave Ho' := (Entails.of_eq (pts_oChAt (F := F) d (cV L) (jV L) (off13_W L k).symm (inbOC _ hc) p13 fullShare f3)) $$ Ho
  ihave HcOA' := (Entails.of_eq (semVal_sem_congr (F := F) (thr := V d (cV L) (jV L)) (semOAt_congr (off14_W k).symm (inbS _ hb) p14))) $$ HcOA
  ihave HflO' := (Entails.of_eq (Flight_sem_congr (F := F) (thr := V d (cV L) (jV L)) (semOAt_congr (off17_W k hk1).symm (inbS _ hb') p17) _ _)) $$ HflO
  sl_exec
  iapply (Transfers.wp_waitLocalO countersEmb 𝒱₀ (V d (cV L) (jV L)) none (default : HIx 1) (N := 524288) (by rfl)) $$ [HflO' HO]
  · isplitl [HflO']; · iexact HflO'
    isplitl [HO]; · iexact HO
    iapply (Transfers.MayWaits.elim (SemLoc.dma (semOAt (k0_off17 (W9 k.val)) p17))) $$ Hmw
  iintro ⟨⟨HflO'_dst, HflO'_src⟩, HflO', HO⟩
  sl_exec
  -- the trip returns: the invariant at k + 1
  sl_step
  subst hQ
  unfold Inv
  rw [dif_neg (by omega : ¬ k.val + 1 < 200)]
  rw [dif_pos (⟨by omega, by omega⟩ : 1 ≤ k.val + 1 ∧ k.val + 1 ≤ 200)]
  rw [IdxRest_congr (F := F) d L f1 (show (k.val + 1 + 1) % 2 = k.val % 2 by omega) _ hb,
    OutFly_congr (F := F) d L f1 f2 (show k.val + 1 - 1 = k.val by omega) (show (k.val + 1 + 1) % 2 = k.val % 2 by omega) _ hc _ hb]
  unfold IdxRest RowRest
  have hsubIk : ((iCh (chunkNo L k.val) hc).view.set : Finset (Idx (v1Loc d))) ⊆ Finset.univ := Finset.subset_univ _
  -- the words
  isplitr
  · ipureintro; exact yld_W L k
  isplitr
  · iexact Hmw
  -- the table share, whole again
  isplitl [Hts Htr]
  · iapply (pointsTo_split_subset (q := tsh (wL L)) (f := f2) hsubT).2
    isplitl [Hts] <;> iassumption
  isplitl [HcG]
  · iexact HcG
  -- no next chunk: the other slot stays at rest
  isplitl [HsB HcB HiB]
  · isplitl [HsB]
    · iexists _; iexact HsB
    isplitl [HcB] <;> iassumption
  -- this trip's index slot, at rest again, its half-share whole again
  isplitl [Hlw HflI' Hirest]
  · isplitl [Hlw]
    · iexists _
      iapply (Entails.of_eq (pts_iSlAt (F := F) d (cV L) (jV L) (off11_W k) p11 (inbI _ hb) fullShare _))
      iapply (Entails.of_eq (pts_list (F := F) d (cV L) (jV L) _ p11 fullShare _).symm)
      iexact Hlw
    isplitl [HflI']
    · iapply (Entails.of_eq (semVal_sem_congr (F := F) (thr := V d (cV L) (jV L)) (semIAt_congr (off9_W k) p9 (inbS _ hb))))
      iexact HflI'
    · iexact Hirest
  -- the other row slot, back from its copy-out
  isplitl [HflO'_src HflO']
  · isplitl [HflO'_src]
    · iexact HflO'_src
    · iapply (Entails.of_eq (semVal_sem_congr (F := F) (thr := V d (cV L) (jV L)) (semOAt_congr (off17_W k hk1) p17 (inbS _ hb'))))
      iexact HflO'
  -- this trip's rows, on their way out
  isplitl [HcOA']
  · iapply (outFly_of (F := F) d L f1 f2 f3 hb hc (off10_W k) (off11_W k) (off12_W k) (off13_W L k) (off14_W k) p10 p11 p12 p13 p14 fsA frA _ HIN)
    iexact HcOA'
  -- the previous chunk's rows join the finished ones
  obtain ⟨edone, ddone⟩ := done_step L hk1 (by omega : k.val ≤ 200)
  isplitl [Hdone HflO'_dst]
  · iapply (Entails.of_eq (congrArg (fun S => (v3Loc d ↦[S]{fullShare} Stages.gathered f2 f1 : sProp 𝕄)) edone.symm))
    iapply (pointsTo_union (q := fullShare) (f := Stages.gathered f2 f1) ddone).2
    isplitl [Hdone]
    · iexact Hdone
    · iapply (Entails.of_eq (congrArg (fun S => (v3Loc d ↦[S]{fullShare} Stages.gathered f2 f1 : sProp 𝕄)) (oCh_set (chunkNo L (k.val - 1)) hcm)))
      iexact HflO'_dst
  isplitl [Htodo']
  · iexact Htodo'
  -- the waits recorded
  iexists _; isplitr
  swap; · iexact HO
  ipureintro; intro p hp
  repeat (rcases Finset.mem_insert.mp hp with hp | hp; · exact .inr (hp ▸ rfl))
  exact hW' p hp

end Cert.Proof.KI

end
-- ==== Proof.KI.TileBody.lean ====
/-
  One tile's task, proved: the first index chunk's fetch is started; the counted loop is taken through by its invariant,
  one trip obligation for the first trip, one for the middle trips, one for the last; after it the last chunk's
  copy-out is waited for, and what the tile holds is put back together: the two halves of its share of the flat index
  array, the table share, its 200 chunks of rows (all at the gathered rows), the two scratch buffers from their slots,
  the five semaphores at zero.
-/
import proofs.«203052_g23699629540016_cont_8to1_215_27_alg».proof.Proof.KI.TileInv
import proofs.«203052_g23699629540016_cont_8to1_215_27_alg».proof.Proof.KI.TileTripA
import proofs.«203052_g23699629540016_cont_8to1_215_27_alg».proof.Proof.KI.TileTripB
import proofs.«203052_g23699629540016_cont_8to1_215_27_alg».proof.Proof.KI.TileTripC

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The task's body: the first fetch, the loop by its invariant, the last wait -/

theorem rest_iChAt (d : Dev nD) {off off' : Fin 2 → ℕ} (h : off = off') (p p') (q : PosShare TreeShare) (f : Buf (Elt F) (v1Loc d)) :
    (v1Loc d ↦[Finset.univ \ (iChAt off p).view.set]{q} f : sProp 𝕄) = (v1Loc d ↦[Finset.univ \ (iChAt off' p').view.set]{q} f) := by
  subst h; rfl

set_option maxHeartbeats 8000000 in
/-- One tile's task: from its pieces of the two read arrays, its rows of the gathered array and its own scratch, the
    body runs to its end and leaves those rows at the gathered rows, everything else as it was. -/
theorem tile_body [FloatOps F] (d : Dev nD) (L : grid0.Coords) (f1 : Buf (Elt F) (v1Loc d)) (f2 : Buf (Elt F) (v2Loc d)) (f3 : Buf (Elt F) (v3Loc d))
    (hF : (K (F := F)).Facts) (hin : ∀ x, (f1 x).toNat < 1000) (O : CellTallies nD τ sig (HIx 1)) (W : Waits sig (HIx 1)) (hO : ∀ g, O g none = 0) :
    iprop(levAts (K (F := F)).L (K (F := F)).lev ∗ emp ∗ tileIn d f1 f2 f3 (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L (Memref.whole main_v2_scv) (Memref.isWhole_whole _) (Memref.whole main_v1_scv) (Memref.isWhole_whole _) (Memref.whole main_v3_scv) (Memref.isWhole_whole _)
            (Memref.whole cc0_scoped0) (Memref.isWhole_whole _) cc0_scoped1 (Memref.whole cc0_scoped2) (Memref.isWhole_whole _) cc0_scoped3 cc0_scoped4)
          fun _ => iprop(tileOut d f1 f2 (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  simp only [k0_part4_eq_skeleton]
  rw [(K (F := F)).scopedBufs_V hF d (cV L) (jV L), SparseCore.Cfg.scopedSems0_V (Val := Elt F) d (cV L) (jV L), ownSems0_V5, ownBufs_V2]
  iintro ⟨#Hlv, -, ⟨Hi, Ht, Ho⟩, ⟨⟨%fs, Hs⟩, ⟨%fr, Hr⟩, Hbufs⟩, ⟨Hc0, Hc1, Hc2, Hc3, Hc4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the index array's share in two halves, one per index slot; the two scratch buffers in their two slots
  ihave Hi2 := (pointsTo_share (q := tsh (wL L)) (f := f1) (I := Finset.univ) (ℓ := v1Loc d) (PosShare.mem_left_op_right (tsh (wL L)))).1 $$ Hi
  icases Hi2 with ⟨HiL, HiR⟩
  ihave Hs2 := (Entails.of_eq (iSlots_eq (F := F) d (cV L) (jV L) fs)) $$ Hs
  icases Hs2 with ⟨Hs0, Hs1⟩
  ihave Hr2 := (Entails.of_eq (rSlots_eq (F := F) d (cV L) (jV L) fr)) $$ Hr
  icases Hr2 with ⟨Hr0, Hr1⟩
  ihave HiL' := (Entails.of_eq (show (v1Loc d ↦{(tsh (wL L)).left} f1 : sProp 𝕄)
      = ((Memref.whole main_v1_scv : Memref sig .scVector .hbm S1x819200 .i32).view.loc (V d (cV L) (jV L)) ↦{(tsh (wL L)).left} f1) from rfl)) $$ HiL
  -- the first fetch
  sl_exec
  -- the loop
  sl_for (Inv d L f1 f2 f3 O W) $$ [Ht Hc4 Hc0 HiL' Hs1 Hc1 HiR Hr0 Hc2 Hr1 Hc3 Ho HO]
  case region =>
    intro k acc
    rcases Nat.eq_zero_or_pos k.val with h0 | h1
    · exact trip_first d L f1 f2 f3 hin O W k h0 acc
    · rcases Nat.lt_or_ge k.val 199 with h2 | h2
      · exact trip_mid d L f1 f2 f3 hin O W k h1 h2 acc
      · exact trip_last d L f1 f2 f3 hin O W k (by have := klt k; omega) acc
  · -- the invariant before trip 0
    unfold Inv
    rw [dif_pos (by decide : (0 : ℕ) < 200), dif_neg (by decide : ¬ (1 ≤ (0 : ℕ) ∧ (0 : ℕ) ≤ 200))]
    isplitr
    · ipureintro; exact W_zero
    isplitr
    · iexact Hmw
    isplitl [Ht]
    · iexact Ht
    isplitl [Hc4]
    · iexact Hc4
    isplitl [Hc0 HiL']
    · ihave H1 := (Entails.of_eq (Flight_sem_congr (F := F) (thr := V d (cV L) (jV L)) (semI_val 0 h02).symm _ _)) $$ Hc0
      ihave H2 := (Entails.of_eq (rest_iChAt (F := F) d (off2_W L) (k0_off2_inb L) (inbIC _ (cinb L 0 (by decide))) _ f1)) $$ HiL'
      iapply (idxFly_of (F := F) d L f1 (b := 0) (j := 0) h02 (cinb L 0 (by decide)) rfl (off2_W L) rfl (inbI 0 h02) (k0_off2_inb L) (inbS 0 h02) fs)
      isplitl [H1]
      · iexact H1
      · iexact H2
    isplitl [Hs1 Hc1 HiR]
    · unfold IdxRest
      isplitl [Hs1]
      · iexists _; iexact Hs1
      isplitl [Hc1]
      · iexact Hc1
      · iexact HiR
    isplitl [Hr0 Hc2]
    · unfold RowRest
      isplitl [Hr0]
      · iexists _; iexact Hr0
      · iexact Hc2
    isplitl [Hr1 Hc3]
    · unfold RowRest
      isplitl [Hr1]
      · iexists _; iexact Hr1
      · iexact Hc3
    isplitl []
    · rw [done_small L (Nat.zero_le 1), pointsTo_empty]; iempintro
    isplitl [Ho]
    · iapply (Entails.of_eq (congrArg (fun S => (v3Loc d ↦[S]{fullShare} f3 : sProp 𝕄)) (todo_zero L).symm)); iexact Ho
    iexists W; isplitr
    swap; · iexact HO
    ipureintro; exact fun p hp => .inl hp
  -- after the loop: the last copy-out's wait
  iintro %acc HI
  have e200 : Scf.trips k0_t1_loop.lb k0_t1_loop.ub k0_t1_loop.st = 200 := trips_eq
  ihave HI' := (Entails.of_eq (congrArg (fun n => (Inv d L f1 f2 f3 O W n acc : sProp 𝕄)) e200)) $$ HI
  unfold Inv
  rw [dif_neg (by decide : ¬ (200 : ℕ) < 200), dif_pos (by decide : 1 ≤ (200 : ℕ) ∧ (200 : ℕ) ≤ 200)]
  unfold IdxRest RowRest OutFly
  icases HI' with ⟨%hacc, -, Ht, HcG, ⟨⟨%fsA, HsA⟩, HcA, HiA⟩, ⟨⟨%fsB, HsB⟩, HcB, HiB⟩, ⟨⟨%frA, HrA⟩, HcOA⟩, HflO, Hdone, Htodo, %W', %hW', HO⟩
  subst hacc
  have hw5 := chk5_W L
  have hw4 := chk4_W
  have p20 := k0_off20_inb _ hw4
  ihave HflO' := (Entails.of_eq (Flight_sem_congr (F := F) (thr := V d (cV L) (jV L)) (semOAt_congr off20_W.symm (inbS _ (par_lt 201)) p20) _ _)) $$ HflO
  sl_exec
  iapply (Transfers.wp_waitLocalO countersEmb 𝒱₀ (V d (cV L) (jV L)) none (default : HIx 1) (N := 524288) (by rfl)) $$ [HflO' HO]
  · isplitl [HflO']; · iexact HflO'
    isplitl [HO]; · iexact HO
    iapply (Transfers.MayWaits.elim (SemLoc.dma (semOAt (k0_off20 (W9 200)) p20))) $$ Hmw
  iintro ⟨⟨Hod, Hos⟩, HcOB, HO⟩
  sl_exec
  sl_step
  -- what the task ends with
  isplitl [HiA HiB Ht Hdone Hod Htodo]
  · isplitl [HiA HiB]
    · iapply (pointsTo_share (q := tsh (wL L)) (f := f1) (I := Finset.univ) (ℓ := v1Loc d) (PosShare.mem_left_op_right (tsh (wL L)))).2
      isplitl [HiA]
      · iexact HiA
      · iexact HiB
    isplitl [Ht]
    · iexact Ht
    · obtain ⟨edone, ddone⟩ := done_step L (k := 200) (by decide) (by decide)
      ihave Htd := (Entails.of_eq (show (v3Loc d ↦[todoS L 200]{fullShare} f3 : sProp 𝕄) = (iprop(emp) : sProp 𝕄) by rw [todo_end L, pointsTo_empty])) $$ Htodo
      icases Htd with -
      iapply (Entails.of_eq (congrArg (fun S => (v3Loc d ↦[S]{fullShare} Stages.gathered f2 f1 : sProp 𝕄)) (edone.symm.trans (done_end L))))
      iapply (pointsTo_union (q := fullShare) (f := Stages.gathered f2 f1) ddone).2
      isplitl [Hdone]
      · iexact Hdone
      · iapply (Entails.of_eq (congrArg (fun S => (v3Loc d ↦[S]{fullShare} Stages.gathered f2 f1 : sProp 𝕄)) (oCh_set (chunkNo L (200 - 1)) (cinb L (200 - 1) (by decide)))))
        iexact Hod
  isplitl [HsA HsB HrA Hos Hbufs]
  · isplitl [HsA HsB]
    · iapply (iSlots_join (F := F) d (cV L) (jV L) _ _)
      isplitl [HsA]
      · iexact HsA
      · iexact HsB
    isplitl [HrA Hos]
    · icases Hos with ⟨%frB, Hos⟩
      iapply (rSlots_join (F := F) d (cV L) (jV L) _ _)
      isplitl [HrA]
      · iexact HrA
      · iexact Hos
    iexact Hbufs
  isplitl [HcA HcB HcOA HcOB HcG Hsems]
  · isplitl [HcA]
    · iexact HcA
    isplitl [HcB]
    · iexact HcB
    isplitl [HcOA]
    · iexact HcOA
    isplitl [HcOB]
    · iapply (Entails.of_eq (semVal_sem_congr (F := F) (thr := V d (cV L) (jV L)) (semOAt_congr off20_W p20 (inbS 1 h12))))
      iexact HcOB
    isplitl [HcG]
    · iexact HcG
    iexact Hsems
  iexists _; isplitr
  swap; · iexact HO
  ipureintro; intro p hp
  repeat (rcases Finset.mem_insert.mp hp with hp | hp; · exact .inr (hp ▸ rfl))
  exact hW' p hp

end Cert.Proof.KI

end
-- ==== Proof.KI.TileBodyFinal.lean ====
/-
  The tile's task in the words the launch's obligation is stated in.
-/
import proofs.«203052_g23699629540016_cont_8to1_215_27_alg».proof.Proof.KI.TileObl
import proofs.«203052_g23699629540016_cont_8to1_215_27_alg».proof.Proof.KI.TileBody

noncomputable section

namespace Cert.Proof.KI

open Cert.KernelIdeal Cert.KernelIdeal.Gen
open Idealize.ShloMosaic

variable {F : FTy → Type}

theorem tileBody [FloatOps F] : TileBodyStmt (F := F) :=
  fun d L f1 f2 f3 hF hin O W hO => tile_body d L f1 f2 f3 hF hin O W hO

end Cert.Proof.KI

end
-- ==== Proof.KI.Run.lean ====
/-
  The program's run: every weakly fair execution of the TensorCore's program and the thirty-two tiles' tasks ends,
  nothing faulting, with the result array at the staged program's result and the two arguments unchanged.
-/
import proofs.«203052_g23699629540016_cont_8to1_215_27_alg».proof.Proof.KI.RunOf
import proofs.«203052_g23699629540016_cont_8to1_215_27_alg».proof.Proof.KI.TileBodyFinal

noncomputable section

namespace Cert.Proof.KI

open Cert.KernelIdeal Cert.KernelIdeal.Gen
open Idealize.ShloMosaic Idealize.SL.Sem

variable {F : FTy → Type} [FloatOps F]

theorem run_main [∀ e, Nonempty (Elt F e)] (m : (ℓ : Loc nD τ sig) → Buf (Elt F) ℓ) (ρ : Dev nD → PrngReg)
    (hin : ∀ d x, (F1 m d x).toNat < 1000) :
    θ_run (Cert.KernelIdeal.defs (F := F)) (Cert.KernelIdeal.threads (F := F)) ⟨m, fun _ => 0, ρ⟩ (QC m) :=
  run_main_of_body tileBody m ρ hin

end Cert.Proof.KI

end
-- ==== Proof.KB.Common.lean ====
/-
  What every part of the kernel's proof shares: the program as the launch theorem for programs with
  SparseCore kernels sees it, the ghost state, and the arrays' locations.

  The program runs on one device: the TensorCore runs the host operations and starts ONE SparseCore call,
  whose thirty-two vector subcores (two SparseCores, sixteen each) each gather 200 chunks of 128 table rows;
  then one pipelined TensorCore kernel transposes the gathered rows, 200 grid points of one [4096, 128] block each.
  The ghost state has three parts side by side: the rounds of the four launch handshakes, the rounds of the
  TensorCore pipeline's staging cells, and the counters of the copies the subcores make and wait for themselves.
-/
import proofs.«203052_g23699629540016_cont_8to1_215_27_alg».proof.Kernel
import proofs.«203052_g23699629540016_cont_8to1_215_27_alg».proof.Proof.Gen.Kernel
import proofs.«203052_g23699629540016_cont_8to1_215_27_alg».proof.Proof.Gen.Kernel.Skeleton
import proofs.«203052_g23699629540016_cont_8to1_215_27_alg».proof.Proof.Gen.Kernel.Launch
import proofs.«203052_g23699629540016_cont_8to1_215_27_alg».proof.Proof.Gen.Kernel.Points
import proofs.«203052_g23699629540016_cont_8to1_215_27_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: handshake rounds, pipeline rounds, transfer counters -/

abbrev UH : Type := URounds (GSem nD τ sig) ℕ
abbrev UP : Type := UR sig nD τ
abbrev UU : Type := UH × (UP × Counters)

abbrev MM (F : FTy → Type) : Type := MT nD τ sig (HIx 1) (Elt F) ℕ UU ℕ

abbrev EH : Emb UH (MM F) := embL
abbrev EP : Emb UP (MM F) := (Emb.inl : Emb UP (UP × Counters)).trans embR

/-! ## The arrays, as the TensorCore names them -/

abbrev a0Loc (d : Dev nD) : Loc nD τ sig := (SparseCore.T d).loc main_arg0
abbrev a1Loc (d : Dev nD) : Loc nD τ sig := (SparseCore.T d).loc main_arg1
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5
abbrev v6Loc (d : Dev nD) : Loc nD τ sig := (SparseCore.T d).loc main_v6

end Cert.Proof.KB

end
-- ==== Proof.KB.Stages.lean ====
/-
  The arrays the kernel's program passes through, each as one pure function of the one before.

  From the index array (4096 × 200 words) and the table (1000 × 64 numbers):
    the index array transposed and laid out flat, word number n·4096 + b being `atom_types[b, n]`;
    the table widened to 128 columns, the new columns zero;
    the gathered rows, row k of which is the widened table's row named by flat index word k;
    those rows regrouped as 200 slabs of 4096 rows;
    each slab cut back to its first 64 columns and transposed, entry (n, d, b) being slab n's row b, column d;
    and the last transposition, which moves b to the front: entry (b, n, d).
  Read index by index the composite is the lookup `table[atom_types[b, n], d]`: the widening's new columns
  are never read, and the three re-layouts undo one another.
-/
import proofs.«203052_g23699629540016_cont_8to1_215_27_alg».proof.Kernel
import proofs.«203052_g23699629540016_cont_8to1_215_27_alg».proof.Proof.Gen.Kernel
import proofs.«203052_g23699629540016_cont_8to1_215_27_alg».proof.Proof.Spec
import Idealize.ShloMosaic.Lib.ValueIdx
import Idealize.ShloMosaic.Lib.Pipeline.Value
import Idealize.ShloMosaic.Lib.ValueLayout

noncomputable section

namespace Cert.Proof.KB.Stages

open Cert.Kernel Cert.Kernel.Gen
open Idealize.ShloMosaic Idealize.ShloMosaic.ValueIdx

variable {F : FTy → Type} [FloatOps F]

/-- The index array transposed, then flat: what the two host operations before the gather compute. -/
def idxFlat (a0 : IVec S4096x200 32) : IVec S1x819200 32 :=
  shapeCast S1x819200 (transpose S200x4096 [1, 0] a0 transposes_S4096x200_S200x4096_1_0) shapeCasts_S200x4096_S1x819200

/-- The table widened to 128 columns with zeros (the zero is the integer 0 converted). -/
def tabPad (a1 : FVec F S1000x64 .f32) : FVec F S1000x128 .f32 :=
  pad S1000x128 ![0, 0] ![0, 64] ![0, 0] a1 (sitofp .f32 (constantI S_ 32 0#32)) pads_S1000x64_S1000x128_000_0640 h_S_

/-- The gathered rows: row `k` is the row of `f2` that flat index word `k` names. -/
def gathered {α : Type} (f2 : S1000x128.Idx → α) (f1 : S1x819200.Idx → BitVec 32) : S819200x128.Idx → α :=
  fun j => f2 (ix2 (Cert.Spec.rowOfWord (f1 (ix2 (⟨0, Nat.one_pos⟩ : Fin 1) (⟨(j 0).val, (j 0).isLt⟩ : Fin 819200))))
    (⟨(j 1).val, (j 1).isLt⟩ : Fin 128))

/-- The gathered rows regrouped as 200 slabs of 4096 rows. -/
def regrouped (f3 : FVec F S819200x128 .f32) : FVec F S200x4096x128 .f32 :=
  shapeCast S200x4096x128 f3 shapeCasts_S819200x128_S200x4096x128

/-- Each slab cut to its first 64 columns and transposed: entry `(n, d, b)` is slab `n`'s row `b`, column `d`. -/
def slabsT {α : Type} (f4 : S200x4096x128.Idx → α) : S200x64x4096.Idx → α :=
  fun j => f4 (ix3 (⟨(j 0).val, (j 0).isLt⟩ : Fin 200) (⟨(j 2).val, (j 2).isLt⟩ : Fin 4096)
    (⟨(j 1).val, Nat.lt_of_lt_of_le (j 1).isLt (by decide : 64 ≤ 128)⟩ : Fin 128))

/-- The last host operation: the axes permuted so that `b` comes first. -/
def final (f5 : FVec F S200x64x4096 .f32) : FVec F S4096x200x64 .f32 :=
  transpose S4096x200x64 [2, 0, 1] f5 transposes_S200x64x4096_S4096x200x64_2_0_1

/-- The whole program's result as a function of its two arguments. -/
def result (a0 : IVec S4096x200 32) (a1 : FVec F S1000x64 .f32) : FVec F S4096x200x64 .f32 :=
  final (slabsT (regrouped (gathered (tabPad a1) (idxFlat a0))))

end Cert.Proof.KB.Stages

end
-- ==== Proof.KB.Res.lean ====
/-
  What the one SparseCore call takes and gives back, tile by tile.

  The thirty-two tiles are numbered `16·c + i` (SparseCore `c`, subcore `i`). Tile `w` only READS the flat index
  array and the widened table, so it holds one of thirty-two pieces of a share of each, whole; and it WRITES rows
  `25600·w … 25600·w + 25599` of the gathered array, nobody else's, so it holds exactly those rows outright.
  The call takes the three arrays whole and hands each tile its pieces; it gives the two read arrays back as they
  were and the gathered array with every row at the table row its flat index word names.
-/
import proofs.«203052_g23699629540016_cont_8to1_215_27_alg».proof.Proof.KB.Common
import proofs.«203052_g23699629540016_cont_8to1_215_27_alg».proof.Proof.KB.Stages

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Tiles, their pieces of the read arrays, their rows of the written one -/

/-- Tile number of subcore `i` of SparseCore `c`. -/
def tileNo (c : Fin 2) (i : Fin 16) : Fin 32 := ⟨16 * c.val + i.val, by omega⟩

/-- Tile `w`'s piece of a full share cut in thirty-two. -/
abbrev tsh (w : Fin 32) : PosShare TreeShare := pieceOf fullShare 32 (by decide) w

theorem odiv : 32 ∣ S819200x128.size 0 := ⟨25600, rfl⟩
/-- Tile `w`'s rows of the gathered array, as a rectangle, and as the set of its entries. -/
abbrev oRect (w : Fin 32) : Rect S819200x128 := Rect.part (s := S819200x128) (a₀ := 0) odiv w
abbrev oSet (w : Fin 32) : Finset S819200x128.Idx := ((Memref.whole main_v3_scv : Memref sig .scVector .hbm S819200x128 .f32).view.slice (oRect w)).set

section Res

variable (d : Dev nD) (f1 : Buf (Elt F) (v1Loc d)) (f2 : Buf (Elt F) (v2Loc d))

/-- Tile `w`'s hold on the flat index array, on the widened table, and on its rows of the gathered array at contents `f`. -/
abbrev idxSh (w : Fin 32) : sProp 𝕄 := v1Loc d ↦{tsh w} f1
abbrev tabSh (w : Fin 32) : sProp 𝕄 := v2Loc d ↦{tsh w} f2
abbrev outPart (w : Fin 32) (f : Buf (Elt F) (v3Loc d)) : sProp 𝕄 := v3Loc d ↦[oSet w]{fullShare} f

/-- What tile `w` starts from (its rows of the gathered array still at `f3`) and what it ends with (they hold the gathered rows). -/
abbrev tileIn (f3 : Buf (Elt F) (v3Loc d)) (w : Fin 32) : sProp 𝕄 := iprop(idxSh d f1 w ∗ tabSh d f2 w ∗ outPart d w f3)
abbrev tileOut (w : Fin 32) : sProp 𝕄 := iprop(idxSh d f1 w ∗ tabSh d f2 w ∗ outPart d w (Stages.gathered f2 f1))

end Res

/-! ## What the handshakes carry -/

variable [FloatOps F] (m : (ℓ : Loc nD τ sig) → Buf (Elt F) ℓ)

/-- The flat index array and the widened table as the host operations before the call leave them. -/
abbrev F1 (d : Dev nD) : Buf (Elt F) (v1Loc d) := Stages.idxFlat (m (a0Loc d))
abbrev F2 (d : Dev nD) : Buf (Elt F) (v2Loc d) := Stages.tabPad (F := F) (m (a1Loc d))

/-- The call's tile `(c, i)`, as a tile number. -/
abbrev tileOf (c : Fin ((K (F := F)).nCore 0)) (i : Fin ((K (F := F)).nSub 0)) : Fin 32 := tileNo (Fin.cast nCore_zero c) (Fin.cast nSub_zero i)

/-- Each SparseCore is handed its sixteen tiles' holdings and hands them back, the written rows gathered. -/
def P : (K (F := F)).Pay (nD := nD) (Val := Elt F) (Name := ℕ) (U := UU) where
  st := fun q d c => match q with
    | 0 => bigSep Finset.univ fun i : Fin ((K (F := F)).nSub 0) => tileIn d (F1 m d) (F2 m d) (m (v3Loc d)) (tileOf c i)
  dn := fun q d c => match q with
    | 0 => bigSep Finset.univ fun i : Fin ((K (F := F)).nSub 0) => tileOut d (F1 m d) (F2 m d) (tileOf c i)
  go := fun q d c i => match q with
    | 0 => tileIn d (F1 m d) (F2 m d) (m (v3Loc d)) (tileOf c i)
  td := fun q d c i => match q with
    | 0 => tileOut d (F1 m d) (F2 m d) (tileOf c i)
  x := fun _ _ => iprop(emp)

end Cert.Proof.KB

end
-- ==== Proof.KB.Split.lean ====
/-
  The three arrays of the SparseCore call, whole, are the thirty-two tiles' holdings side by side.

  The gathered array's rows fall into thirty-two consecutive runs of 25,600, pairwise disjoint and together
  everything, so holding the array whole at one contents is holding every run at it; a full share of a read
  array is its thirty-two pieces; and the tiles, numbered 16·c + i, are the pairs (SparseCore c, subcore i).
  Hence what the call hands its two SparseCores is exactly the three arrays whole, and what it gets back is
  the two read arrays as they were with the gathered array at the gathered rows.
-/
import proofs.«203052_g23699629540016_cont_8to1_215_27_alg».proof.Proof.KB.Res

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The rows' thirty-two runs -/

theorem oSet_eq (w : Fin 32) : oSet w = (oRect w).set := by
  show ((View.whole (main_v3_scv : Ref sig .scVector)).slice (oRect w)).set = _
  rw [View.set_slice]; exact Finset.map_refl

theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h

theorem oSets_cover : (Finset.univ : Finset (Fin 32)).biUnion oSet = Finset.univ :=
  (Finset.biUnion_congr rfl fun i _ => oSet_eq i).trans (Rect.biUnion_part odiv)

section Arrays

variable (d : Dev nD)

theorem out_parts (f : Buf (Elt F) (v3Loc d)) :
    (v3Loc d ↦{fullShare} f : sProp 𝕄) = bigSep Finset.univ fun w : Fin 32 => outPart d w f := by
  rw [← pointsTo_biUnion Finset.univ (ℓ := v3Loc d) oSet oSets_disjoint, oSets_cover]; try rfl

theorem idx_shares (f1 : Buf (Elt F) (v1Loc d)) :
    (v1Loc d ↦{fullShare} f1 : sProp 𝕄) = bigSep Finset.univ fun w : Fin 32 => idxSh d f1 w :=
  pointsTo_piecesOf Finset.univ f1 (by decide) fullShare

theorem tab_shares (f2 : Buf (Elt F) (v2Loc d)) :
    (v2Loc d ↦{fullShare} f2 : sProp 𝕄) = bigSep Finset.univ fun w : Fin 32 => tabSh d f2 w :=
  pointsTo_piecesOf Finset.univ f2 (by decide) fullShare

/-- The three arrays whole are the tiles' starting holdings. -/
theorem tiles_in (f1 : Buf (Elt F) (v1Loc d)) (f2 : Buf (Elt F) (v2Loc d)) (f3 : Buf (Elt F) (v3Loc d)) :
    (bigSep Finset.univ fun w : Fin 32 => tileIn d f1 f2 f3 w)
      = (iprop((v1Loc d ↦{fullShare} f1) ∗ (v2Loc d ↦{fullShare} f2) ∗ (v3Loc d ↦{fullShare} f3)) : sProp 𝕄) := by
  rw [idx_shares, tab_shares, out_parts, bigSep_sep', bigSep_sep']

/-- The tiles' final holdings are the read arrays whole and the gathered array at the gathered rows. -/
theorem tiles_out (f1 : Buf (Elt F) (v1Loc d)) (f2 : Buf (Elt F) (v2Loc d)) :
    (bigSep Finset.univ fun w : Fin 32 => tileOut d f1 f2 w)
      = (iprop((v1Loc d ↦{fullShare} f1) ∗ (v2Loc d ↦{fullShare} f2) ∗ (v3Loc d ↦{fullShare} Stages.gathered f2 f1)) : sProp 𝕄) := by
  rw [idx_shares, tab_shares, out_parts, bigSep_sep', bigSep_sep']

end Arrays

/-! ## Tiles as pairs (SparseCore, subcore) -/

def tileEquiv : Fin 2 × Fin 16 ≃ Fin 32 := finProdFinEquiv

theorem tileEquiv_apply (c : Fin 2) (i : Fin 16) : tileEquiv (c, i) = tileNo c i :=
  Fin.ext (by simp [tileEquiv, tileNo, finProdFinEquiv]; omega)

theorem bigSep_tiles (Φ : Fin 32 → sProp 𝕄) :
    bigSep Finset.univ Φ = bigSep Finset.univ fun c : Fin 2 => bigSep Finset.univ fun i : Fin 16 => Φ (tileNo c i) := by
  rw [bigSep_univ_equiv tileEquiv Φ, bigSep_univ_prod]
  simp only [tileEquiv_apply]

theorem bigSep_call (Φ : Fin 2 → Fin 16 → sProp 𝕄) :
    (bigSep Finset.univ fun c : Fin ((K (F := F)).nCore 0) => bigSep Finset.univ fun i : Fin ((K (F := F)).nSub 0) =>
        Φ (Fin.cast nCore_zero c) (Fin.cast nSub_zero i))
      = bigSep Finset.univ fun c : Fin 2 => bigSep Finset.univ fun i : Fin 16 => Φ c i :=
  bigSep_congr fun _ _ => bigSep_congr fun _ _ => rfl

/-! ## What the call takes and returns, over both SparseCores -/

variable [FloatOps F] (m : (ℓ : Loc nD τ sig) → Buf (Elt F) ℓ)

theorem st_all (d : Dev nD) :
    (bigSep Finset.univ fun c : Fin ((K (F := F)).nCore 0) => (P m).st 0 d c)
      = (iprop((v1Loc d ↦{fullShare} F1 m d) ∗ (v2Loc d ↦{fullShare} F2 m d) ∗ (v3Loc d ↦{fullShare} m (v3Loc d))) : sProp 𝕄) := by
  rw [← tiles_in, bigSep_tiles]
  exact bigSep_call (F := F) fun c i => tileIn d (F1 m d) (F2 m d) (m (v3Loc d)) (tileNo c i)

theorem dn_all (d : Dev nD) :
    (bigSep Finset.univ fun c : Fin ((K (F := F)).nCore 0) => (P m).dn 0 d c)
      = (iprop((v1Loc d ↦{fullShare} F1 m d) ∗ (v2Loc d ↦{fullShare} F2 m d) ∗ (v3Loc d ↦{fullShare} Stages.gathered (F2 m d) (F1 m d))) : sProp 𝕄) := by
  rw [← tiles_out, bigSep_tiles]
  exact bigSep_call (F := F) fun c i => tileOut d (F1 m d) (F2 m d) (tileNo c i)

/-- Within one SparseCore nothing is regrouped: the operands are the tasks' holdings, the results the tasks' results. -/
theorem vecSplit : (K (F := F)).VecSplit' (P m) 0 := by
  intro d c
  show (bigSep Finset.univ fun i : Fin ((K (F := F)).nSub 0) => tileIn d (F1 m d) (F2 m d) (m (v3Loc d)) (tileOf c i))
    ⊢ |={Set.univ}=> iprop((bigSep Finset.univ fun i : Fin ((K (F := F)).nSub 0) => tileIn d (F1 m d) (F2 m d) (m (v3Loc d)) (tileOf c i))
      ∗ ((bigSep Finset.univ fun i : Fin ((K (F := F)).nSub 0) => tileOut d (F1 m d) (F2 m d) (tileOf c i))
          -∗ bigSep Finset.univ fun i : Fin ((K (F := F)).nSub 0) => tileOut d (F1 m d) (F2 m d) (tileOf c i)))
  iintro H; imodintro
  isplitl [H]; · iexact H
  iintro H; iexact H

end Cert.Proof.KB

end
-- ==== Proof.KB.Front.lean ====
/-
  The front of the program on the TensorCore: five host operations, then the one SparseCore call.

  The host operations write the transposed index array, its flat re-layout, the integer zero, its conversion
  and the widened table into their own arrays and touch nothing else, so after them the flat index array holds
  `Stages.idxFlat` of the first argument, the widened table `Stages.tabPad` of the second, and the arguments
  and the not-yet-written result arrays are as launched. The call takes the flat index array, the widened table
  and the gathered array whole and returns them with the gathered array at the gathered rows. What is left of
  the program is three statements, `tailProg`.
-/
import proofs.«203052_g23699629540016_cont_8to1_215_27_alg».proof.Proof.KB.Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

/-! ## The TensorCore's eleven arrays -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev c' : DevRef τ sig := Proc.devRef .tc (main_c : Ref sig .tc)
abbrev cv' : DevRef τ sig := Proc.devRef .tc (main_call0_v0 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

abbrev S11 : Finset (DevRef τ sig) := {a0', a1', v0', v1', c', cv', v2', v3', v4', v5', v6'}

abbrev tcLoc (d : Dev nD) (r : Ref sig .tc) : Loc nD τ sig := (SparseCore.T d).loc r

theorem held_S11 (d : Dev nD) (W : Valuation τ sig (Elt F)) :
    (held (T d) S11 W : sProp 𝕄)
      = iprop((a0Loc d ↦{fullShare} W a0') ∗ (a1Loc d ↦{fullShare} W a1') ∗ (tcLoc d main_v0 ↦{fullShare} W v0') ∗ (v1Loc d ↦{fullShare} W v1')
          ∗ (tcLoc d main_c ↦{fullShare} W c') ∗ (tcLoc d main_call0_v0 ↦{fullShare} W cv') ∗ (v2Loc d ↦{fullShare} W v2') ∗ (v3Loc d ↦{fullShare} W v3')
          ∗ (v4Loc d ↦{fullShare} W v4') ∗ (v5Loc d ↦{fullShare} W v5') ∗ (v6Loc d ↦{fullShare} W v6')) := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (tcLoc d main_v0 ↦{fullShare} W main_v0) ∗ (v1Loc d ↦{fullShare} W main_v1)
          ∗ (tcLoc d main_c ↦{fullShare} W main_c) ∗ (tcLoc d main_call0_v0 ↦{fullShare} W main_call0_v0) ∗ (v2Loc d ↦{fullShare} W main_v2) ∗ (v3Loc d ↦{fullShare} W main_v3)
          ∗ (v4Loc d ↦{fullShare} W main_v4) ∗ (v5Loc d ↦{fullShare} W main_v5) ∗ (v6Loc d ↦{fullShare} W main_v6)) := by
  unfold unscopedBufs
  rw [show (Finset.univ.filter fun b : Ref sig .tc => ¬ b.isScoped)
      = {main_arg0, main_arg1, main_v0, main_v1, main_c, main_call0_v0, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The five host operations and what they leave -/

variable [FloatOps F]

abbrev opT0 : HloOp τ sig (Elt F) :=
  StableHlo.unary main_arg0 main_v0 ((transpose S200x4096 [1, 0] · transposes_S4096x200_S200x4096_1_0) : (⟨S4096x200, .i32⟩ : BufTy).Contents (Elt F) → (⟨S200x4096, .i32⟩ : BufTy).Contents (Elt F))
abbrev opR1 : HloOp τ sig (Elt F) := StableHlo.reshape main_v0 main_v1 rfl shapeCasts_S200x4096_S1x819200
abbrev opC : HloOp τ sig (Elt F) := StableHlo.nullary main_c (constantI S_ 32 0#32)
abbrev opCv : HloOp τ sig (Elt F) := StableHlo.TRef.unary (.of main_c : StableHlo.TRef sig ⟨S_, .i32⟩) main_call0.v0 (sitofp .f32)
abbrev opPad : HloOp τ sig (Elt F) :=
  StableHlo.TRef.binary (.of main_arg1 : StableHlo.TRef sig ⟨S1000x64, .f32⟩) main_call0.v0 main_call0.v1 (fun x v => pad S1000x128 ![0, 0] ![0, 64] ![0, 0] x v pads_S1000x64_S1000x128_000_0640 h_S_)

theorem hT0 : (opT0 (F := F)).bufs ⊆ S11 := show ({a0', v0'} : Finset (DevRef τ sig)) ⊆ S11 by decide
theorem hR1 : (opR1 (F := F)).bufs ⊆ S11 := show ({v0', v1'} : Finset (DevRef τ sig)) ⊆ S11 by decide
theorem hC : (opC (F := F)).bufs ⊆ S11 := show ({c'} : Finset (DevRef τ sig)) ⊆ S11 by decide
theorem hCv : (opCv (F := F)).bufs ⊆ S11 := show ({c', cv'} : Finset (DevRef τ sig)) ⊆ S11 by decide
theorem hPad : (opPad (F := F)).bufs ⊆ S11 := show ({a1', cv', v2'} : Finset (DevRef τ sig)) ⊆ S11 by decide

variable (m : (ℓ : Loc nD τ sig) → Buf (Elt F) ℓ) (ρ : Dev nD → PrngReg)

/-- The launch valuation and the valuation after the five operations. -/
def V0 (d : Dev nD) : Valuation τ sig (Elt F) := fun b => m (d, b)
def V5 (d : Dev nD) : Valuation τ sig (Elt F) :=
  (opPad (F := F)).result ((opCv (F := F)).result ((opC (F := F)).result ((opR1 (F := F)).result ((opT0 (F := F)).result (V0 m d)))))

theorem unscoped_held (d : Dev nD) : (unscopedBufs d (fun b => m ((SparseCore.T d).loc b)) : sProp 𝕄) = held (T d) S11 (V0 m d) := by
  rw [unscopedBufs_eq, held_S11]; rfl

/-- An array none of the five operations writes is as launched. -/
theorem V5_kept (d : Dev nD) (b : DevRef τ sig) (h0 : b ≠ v0') (h1 : b ≠ v1') (hc : b ≠ c') (hcv : b ≠ cv') (h2 : b ≠ v2') : V5 m d b = m (d, b) := by
  unfold V5
  rw [(opPad (F := F)).result_of_not_mem _ (show b ∉ ({v2'} : Finset (DevRef τ sig)) by simpa using h2),
    (opCv (F := F)).result_of_not_mem _ (show b ∉ ({cv'} : Finset (DevRef τ sig)) by simpa using hcv),
    (opC (F := F)).result_of_not_mem _ (show b ∉ ({c'} : Finset (DevRef τ sig)) by simpa using hc),
    (opR1 (F := F)).result_of_not_mem _ (show b ∉ ({v1'} : Finset (DevRef τ sig)) by simpa using h1),
    (opT0 (F := F)).result_of_not_mem _ (show b ∉ ({v0'} : Finset (DevRef τ sig)) by simpa using h0)]
  rfl

end Cert.Proof.KB

end
-- ==== Proof.KB.TailProg.lean ====
/-
  The last three statements of the program on the TensorCore: the gathered rows regrouped into 200 slabs, the
  pipelined kernel that cuts each slab to 64 columns and transposes it, and the final transposition.
-/
import proofs.«203052_g23699629540016_cont_8to1_215_27_alg».proof.Proof.KB.Common

noncomputable section

namespace Cert.Proof.KB

open Cert.Kernel Cert.Kernel.Gen
open Idealize.ShloMosaic Idealize.SL.Sem

variable {F : FTy → Type} [FloatOps F]

/-- What is left of the program after the SparseCore call. -/
def tailProg (d : Dev nD) : Prog (TpuEff nD τ sig (Elt F) (SparseCore.Sig (Pipeline.Sig Λ₀ (Fin 1) fun p => (pcfgs (F := F) p).Adm) 1) .tc) PUnit := do
  hlo rfl (StableHlo.reshape main_v3 main_v4 rfl shapeCasts_S819200x128_S200x4096x128) (fun _ => .ret ⟨⟩)
  Prog.lift (.customCall (SparseCore.inner (Pipeline.entry 0)) ())
  hlo rfl (StableHlo.unary main_v5 main_v6 ((transpose S4096x200x64 [2, 0, 1] · transposes_S200x64x4096_S4096x200x64_2_0_1) : (⟨S200x64x4096, .f32⟩ : BufTy).Contents (Elt F) → (⟨S4096x200x64, .f32⟩ : BufTy).Contents (Elt F))) (fun _ => .ret ⟨⟩)
  pure ⟨⟩

/-- The program is its first five host operations, the SparseCore call, and that tail. -/
theorem main_eq (d : Dev nD) : main (F := F) d = (do
    hlo rfl (StableHlo.unary main_arg0 main_v0 ((transpose S200x4096 [1, 0] · transposes_S4096x200_S200x4096_1_0) : (⟨S4096x200, .i32⟩ : BufTy).Contents (Elt F) → (⟨S200x4096, .i32⟩ : BufTy).Contents (Elt F))) (fun _ => .ret ⟨⟩)
    hlo rfl (StableHlo.reshape main_v0 main_v1 rfl shapeCasts_S200x4096_S1x819200) (fun _ => .ret ⟨⟩)
    hlo rfl (StableHlo.nullary main_c (constantI S_ 32 0#32)) (fun _ => .ret ⟨⟩)
    fn_pad.body (.of main_arg1) (.of main_c) main_call0
    sc.run d 0
    tailProg d) := rfl

end Cert.Proof.KB

end
-- ==== Proof.KB.FrontRun.lean ====
/-
  The front of the program run: from the launch to the tail.

  After the five host operations the flat index array holds `Stages.idxFlat` of the first argument and the
  widened table `Stages.tabPad` of the second (the fill value is the integer zero converted), and nothing else
  that matters has changed; the SparseCore call then takes those two and the gathered array whole and returns the
  gathered array at the gathered rows. What remains is the tail, entered with the arguments as launched, the
  gathered rows in place and the three later arrays still as launched.
-/
import proofs.«203052_g23699629540016_cont_8to1_215_27_alg».proof.Proof.KB.Front
import proofs.«203052_g23699629540016_cont_8to1_215_27_alg».proof.Proof.KB.TailProg

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable [FloatOps F] (m : (ℓ : Loc nD τ sig) → Buf (Elt F) ℓ) (ρ : Dev nD → PrngReg)

/-- After the five operations the flat index array is the first argument transposed and laid out flat. -/
theorem V5_v1 (d : Dev nD) : V5 m d v1' = F1 m d := by
  unfold V5
  rw [(opPad (F := F)).result_of_not_mem _ (show v1' ∉ ({v2'} : Finset (DevRef τ sig)) by decide),
    (opCv (F := F)).result_of_not_mem _ (show v1' ∉ ({cv'} : Finset (DevRef τ sig)) by decide),
    (opC (F := F)).result_of_not_mem _ (show v1' ∉ ({c'} : Finset (DevRef τ sig)) by decide)]
  rw [StableHlo.reshape_result, StableHlo.unary_result]
  rfl

/-- and the widened table is the second argument padded with the converted zero. -/
theorem V5_v2 (d : Dev nD) : V5 m d v2' = F2 m d := by
  unfold V5
  rw [StableHlo.binary_result, StableHlo.unary_result, StableHlo.nullary_result,
    (opCv (F := F)).result_of_not_mem _ (show a1' ∉ ({cv'} : Finset (DevRef τ sig)) by decide),
    (opC (F := F)).result_of_not_mem _ (show a1' ∉ ({c'} : Finset (DevRef τ sig)) by decide),
    (opR1 (F := F)).result_of_not_mem _ (show a1' ∉ ({v1'} : Finset (DevRef τ sig)) by decide),
    (opT0 (F := F)).result_of_not_mem _ (show a1' ∉ ({v0'} : Finset (DevRef τ sig)) by decide)]
  rfl

/-- The eleven arrays after the five operations. -/
theorem held_V5 (d : Dev nD) :
    (held (T d) S11 ((opPad (F := F)).result ((opCv (F := F)).result ((opC (F := F)).result ((opR1 (F := F)).result ((opT0 (F := F)).result (V0 m d)))))) : sProp 𝕄)
      = iprop((a0Loc d ↦{fullShare} m (a0Loc d)) ∗ (a1Loc d ↦{fullShare} m (a1Loc d)) ∗ (tcLoc d main_v0 ↦{fullShare} V5 m d v0') ∗ (v1Loc d ↦{fullShare} F1 m d)
          ∗ (tcLoc d main_c ↦{fullShare} V5 m d c') ∗ (tcLoc d main_call0_v0 ↦{fullShare} V5 m d cv') ∗ (v2Loc d ↦{fullShare} F2 m d) ∗ (v3Loc d ↦{fullShare} m (v3Loc d))
          ∗ (v4Loc d ↦{fullShare} m (v4Loc d)) ∗ (v5Loc d ↦{fullShare} m (v5Loc d)) ∗ (v6Loc d ↦{fullShare} m (v6Loc d))) := by
  show held (SparseCore.T d) S11 (V5 m d) = _
  rw [held_S11, V5_v1, V5_v2,
    V5_kept m d a0' (by decide) (by decide) (by decide) (by decide) (by decide),
    V5_kept m d a1' (by decide) (by decide) (by decide) (by decide) (by decide),
    V5_kept m d v3' (by decide) (by decide) (by decide) (by decide) (by decide),
    V5_kept m d v4' (by decide) (by decide) (by decide) (by decide) (by decide),
    V5_kept m d v5' (by decide) (by decide) (by decide) (by decide) (by decide),
    V5_kept m d v6' (by decide) (by decide) (by decide) (by decide) (by decide)]

/-- What the tail is entered with. -/
abbrev TailPre (d : Dev nD) : sProp 𝕄 :=
  iprop((K (F := F)).tcSt EH d 1 ∗ boundary (SparseCore.T d) ∗ (K (F := F)).tcSems0 d ∗ prngReg d (ρ d)
    ∗ (a0Loc d ↦{fullShare} m (a0Loc d)) ∗ (a1Loc d ↦{fullShare} m (a1Loc d))
    ∗ (v3Loc d ↦{fullShare} Stages.gathered (F2 m d) (F1 m d))
    ∗ (v4Loc d ↦{fullShare} m (v4Loc d)) ∗ (v5Loc d ↦{fullShare} m (v5Loc d)) ∗ (v6Loc d ↦{fullShare} m (v6Loc d)))

/-- The program on device `d`'s TensorCore down to its tail: the five host operations over the eleven arrays held
    whole, then the call from the flat index array, the widened table and the gathered array. -/
theorem front_wp (κ : GSem nD τ sig → ℕ) (d : Dev nD) (Ψ : PUnit → sProp 𝕄) :
    iprop((K (F := F)).ctx EH (P m) κ ∗ (K (F := F)).tcSt EH d 0 ∗ (K (F := F)).tcRes m ρ d
        ∗ (TailPre m ρ d -∗ wp frame (wpE ((K (F := F)).defs (D (F := F))) 𝒱 (SparseCore.T d) none) Set.univ (tailProg d) Ψ))
      ⊢ wp frame (wpE ((K (F := F)).defs (D (F := F))) 𝒱 (SparseCore.T d) none) Set.univ (main d) Ψ := by
  unfold SparseCore.Cfg.tcRes
  rw [unscoped_held, main_eq]
  simp only [fn_pad.body, wp_bind, wp_pure]
  iintro ⟨#Hctx, Hst, ⟨Hb, Hheld, Hsems, Hprng⟩, Hk⟩
  iapply (wp_hlo_within 𝒱 (SparseCore.T d) none Set.univ (op := opT0) (S := S11) hT0 (V := V0 m d)) $$ [Hb Hheld]
  · isplitl [Hb] <;> iassumption
  iintro ⟨Hb, Hheld⟩
  rw [wp_ret]; imodintro
  iapply (wp_hlo_within 𝒱 (SparseCore.T d) none Set.univ (op := opR1) (S := S11) hR1 (V := (opT0 (F := F)).result (V0 m d))) $$ [Hb Hheld]
  · isplitl [Hb] <;> iassumption
  iintro ⟨Hb, Hheld⟩
  rw [wp_ret]; imodintro
  iapply (wp_hlo_within 𝒱 (SparseCore.T d) none Set.univ (op := opC) (S := S11) hC (V := (opR1 (F := F)).result ((opT0 (F := F)).result (V0 m d)))) $$ [Hb Hheld]
  · isplitl [Hb] <;> iassumption
  iintro ⟨Hb, Hheld⟩
  rw [wp_ret]; imodintro
  iapply (wp_hlo_within 𝒱 (SparseCore.T d) none Set.univ (op := opCv) (S := S11) hCv
      (V := (opC (F := F)).result ((opR1 (F := F)).result ((opT0 (F := F)).result (V0 m d))))) $$ [Hb Hheld]
  · isplitl [Hb] <;> iassumption
  iintro ⟨Hb, Hheld⟩
  rw [wp_ret]; imodintro
  iapply (wp_hlo_within 𝒱 (SparseCore.T d) none Set.univ (op := opPad) (S := S11) hPad
      (V := (opCv (F := F)).result ((opC (F := F)).result ((opR1 (F := F)).result ((opT0 (F := F)).result (V0 m d)))))) $$ [Hb Hheld]
  · isplitl [Hb] <;> iassumption
  iintro ⟨Hb, Hheld⟩
  rw [wp_ret]; imodintro
  -- the call: the flat index array, the widened table and the gathered array to the two SparseCores and back
  ihave Hh := (Entails.of_eq (held_V5 (F := F) m d)) $$ Hheld
  icases Hh with ⟨H0, H1, -, Hv1, -, -, Hv2, Hv3, Hv4, Hv5, Hv6⟩
  iapply ((K (F := F)).wp_run (D (F := F)) 𝒱 (EH := EH) (P := P m) κ d 0) $$ [Hst Hv1 Hv2 Hv3 Hb Hsems Hprng H0 H1 Hv4 Hv5 Hv6 Hk]
  isplitr; · iexact Hctx
  isplitl [Hst]; · iexact Hst
  isplitl [Hv1 Hv2 Hv3]
  · rw [st_all]
    isplitl [Hv1]; · iexact Hv1
    isplitl [Hv2]; · iexact Hv2
    iexact Hv3
  iintro ⟨Hst, Hdn⟩
  ihave Hdn' := (Entails.of_eq (dn_all m d)) $$ Hdn
  icases Hdn' with ⟨-, -, Hv3⟩
  iapply Hk
  isplitl [Hst]; · iexact Hst
  isplitl [Hb]; · iexact Hb
  isplitl [Hsems]; · iexact Hsems
  isplitl [Hprng]; · iexact Hprng
  isplitl [H0]; · iexact H0
  isplitl [H1]; · iexact H1
  isplitl [Hv3]; · iexact Hv3
  isplitl [Hv4]; · iexact Hv4
  isplitl [Hv5]; · iexact Hv5
  iexact Hv6

end Cert.Proof.KB

end
-- ==== Proof.KB.Fin.lean ====
/-
  What the program leaves, and how the final memory reads it.

  At its end the TensorCore holds the two argument arrays whole at their launch contents and the result array
  whole at the staged program's result; holding an array whole at some contents beside the machine's state says
  the memory has those contents there.
-/
import proofs.«203052_g23699629540016_cont_8to1_215_27_alg».proof.Proof.KB.Res

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

/-- The result array's final contents: the staged program's result of the two arguments as launched. -/
abbrev R6 (d : Dev nD) : Buf (Elt F) (v6Loc d) := Stages.result (F := F) (m (a0Loc d)) (m (a1Loc d))

/-- What the TensorCore holds at the program's end. -/
abbrev FIN (d : Dev nD) : sProp 𝕄 :=
  iprop((a0Loc d ↦{fullShare} m (a0Loc d)) ∗ (a1Loc d ↦{fullShare} m (a1Loc d)) ∗ (v6Loc d ↦{fullShare} R6 m d))

/-- What that says of the final memory. -/
def fq (d : Dev nD) (s' : Phys nD τ sig (Elt F)) : Prop :=
  s'.mem.mem (v6Loc d) = R6 m d ∧ s'.mem.mem (a0Loc d) = m (a0Loc d) ∧ s'.mem.mem (a1Loc d) = m (a1Loc d)

set_option maxRecDepth 16384 in
theorem hfin (d : Dev nD) (s' : Phys nD τ sig (Elt F)) : iprop(FIN m d ∗ SI s') ⊢ (⌜fq m d s'⌝ : sProp 𝕄) := by
  iintro ⟨⟨H0, H1, H6⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := v6Loc d) (I := Finset.univ) (q := fullShare) (f := R6 m d)) $$ [HSI H6]
  · isplitl [HSI] <;> iassumption
  icases H with %h6
  ipureintro
  exact ⟨funext fun i => h6 i (Finset.mem_univ i), funext fun i => h0 i (Finset.mem_univ i), funext fun i => h1 i (Finset.mem_univ i)⟩

/-- The run's post: on every device the result array holds the staged result and the arguments are unchanged. -/
def QC : PUnit × MemSt nD τ sig (Elt F) → Prop := fun r => ∀ c : Dev nD,
  r.2.mem (v6Loc c) = R6 m c ∧ r.2.mem (a0Loc c) = m (a0Loc c) ∧ r.2.mem (a1Loc c) = m (a1Loc c)

end Cert.Proof.KB

end
-- ==== Proof.KB.Storable.lean ====
/-
  Every payload of the SparseCore call's handshakes is a separating conjunction of holdings of array entries at
  fixed contents, so each can be stored in a handshake cell's invariant.
-/
import proofs.«203052_g23699629540016_cont_8to1_215_27_alg».proof.Proof.KB.Res

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ)

instance P_storable : (P (F := F) m).IsStorable where
  st q d c := match q with
    | 0 => (inferInstance : BI.Storable (upEmb : UEmb _ 𝕄)
        (bigSep Finset.univ fun i : Fin ((K (F := F)).nSub 0) => tileIn d (F1 m d) (F2 m d) (m (v3Loc d)) (tileOf c i)))
  dn q d c := match q with
    | 0 => (inferInstance : BI.Storable (upEmb : UEmb _ 𝕄)
        (bigSep Finset.univ fun i : Fin ((K (F := F)).nSub 0) => tileOut d (F1 m d) (F2 m d) (tileOf c i)))
  go q d c i := match q with
    | 0 => (inferInstance : BI.Storable (upEmb : UEmb _ 𝕄) (tileIn d (F1 m d) (F2 m d) (m (v3Loc d)) (tileOf c i)))
  td q d c i := match q with
    | 0 => (inferInstance : BI.Storable (upEmb : UEmb _ 𝕄) (tileOut d (F1 m d) (F2 m d) (tileOf c i)))

end Cert.Proof.KB

end
-- ==== Proof.KB.TileObl.lean ====
/-
  One tile's task, stated: from its pieces of the two read arrays, its rows of the gathered array and its own
  scratch, the task's body runs to its end and leaves those rows at the gathered rows, everything else as it was.
  The launch theorem's obligation for the call's tasks follows from this statement at every tile.
-/
import proofs.«203052_g23699629540016_cont_8to1_215_27_alg».proof.Proof.KB.Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The SparseCore, the subcore and the tile number of grid coordinates `L`. -/
abbrev tcV (L : grid0.Coords) : Fin τ.nSC := (L 0).castLE hcore0
abbrev tjV (L : grid0.Coords) : Fin τ.nSub := (L 1).castLE hsub0
abbrev twL (L : grid0.Coords) : Fin 32 := tileNo ⟨(L 0).val, (L 0).isLt⟩ ⟨(L 1).val, (L 1).isLt⟩

/-- The task of the tile at coordinates `L` of device `d`, for any contents of the three arrays with the flat index words in range. -/
def TileBodyStmt [FloatOps F] : Prop :=
  ∀ (d : Dev nD) (L : grid0.Coords) (f1 : Buf (Elt F) (v1Loc d)) (f2 : Buf (Elt F) (v2Loc d)) (f3 : Buf (Elt F) (v3Loc d))
    (_ : (K (F := F)).Facts) (_ : ∀ x, (f1 x).toNat < 1000) (O : CellTallies nD τ sig (HIx 1)) (W : Waits sig (HIx 1)) (_ : ∀ g, O g none = 0),
    (iprop(levAts (K (F := F)).L (K (F := F)).lev ∗ emp ∗ tileIn d f1 f2 f3 (twL L)
        ∗ scopedBufs (V d (tcV L) (tjV L)) ∗ scopedSems0 (V d (tcV L) (tjV L)) ∗ owes (V d (tcV L) (tjV L)) O W) : sProp 𝕄)
      ⊢ wp frame (wpE (defs₀ (F := F)) 𝒱₀ (V d (tcV L) (tjV L)) none) Set.univ
          (cc0_k L (Memref.whole main_v2_scv) (Memref.isWhole_whole _) (Memref.whole main_v1_scv) (Memref.isWhole_whole _) (Memref.whole main_v3_scv) (Memref.isWhole_whole _)
            (Memref.whole cc0_scoped0) (Memref.isWhole_whole _) cc0_scoped1 (Memref.whole cc0_scoped2) (Memref.isWhole_whole _) cc0_scoped3 cc0_scoped4)
          fun _ => iprop(tileOut d f1 f2 (twL L) ∗ scopedBufs (V d (tcV L) (tjV L)) ∗ scopedSems0 (V d (tcV L) (tjV L))
            ∗ ∃ W', ⌜∀ p ∈ W', p ∈ W ∨ p.2 = none⌝ ∗ owes (V d (tcV L) (tjV L)) O W')

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0_k (coordsV c s)
          (Memref.whole main_v2_scv) (Memref.isWhole_whole _) (Memref.whole main_v1_scv) (Memref.isWhole_whole _) (Memref.whole main_v3_scv) (Memref.isWhole_whole _)
          (Memref.whole cc0_scoped0) (Memref.isWhole_whole _) cc0_scoped1 (Memref.whole cc0_scoped2) (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F] (m : (ℓ : Loc nD τ sig) → Buf (Elt F) ℓ)

set_option maxRecDepth 16384 in
set_option maxHeartbeats 4000000 in
/-- The launch theorem's obligation for the call's tasks, from the task's statement at every tile. -/
theorem tileObl_of (hbody : TileBodyStmt (F := F)) (hF : (K (F := F)).Facts) (hin : ∀ d x, (F1 m d x).toNat < 1000) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact (hbody d (coordsV ⟨_, hci.1⟩ ⟨_, hci.2⟩) (F1 m d) (F2 m d) (m (v3Loc d)) hF (hin d) O W hO).trans (wp_mono frame _ _ fun _ => obl_post)

end Cert.Proof.KB

end
-- ==== Proof.KB.Main.lean ====
/-
  The program's run, assembled: the launch theorem for programs with SparseCore kernels applied to the call's
  task obligation, the trivial split of a SparseCore's operands among its tasks, the TensorCore's program (the
  front, then the tail with the two argument arrays set aside and handed back untouched), and the reading of the
  final memory. The two parts proved elsewhere — one tile's task, and the tail with its launch element — enter as
  hypotheses stated here.
-/
import proofs.«203052_g23699629540016_cont_8to1_215_27_alg».proof.Proof.KB.FrontRun
import proofs.«203052_g23699629540016_cont_8to1_215_27_alg».proof.Proof.KB.Fin
import proofs.«203052_g23699629540016_cont_8to1_215_27_alg».proof.Proof.KB.Storable
import proofs.«203052_g23699629540016_cont_8to1_215_27_alg».proof.Proof.KB.TileObl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The tail, stated: entered with the launch's per-device holding `G d`, the TensorCore's state after the call, its
    region-boundary holdings and semaphores, the gathered array at any contents `g3` and the three later arrays as
    launched, the three statements run to their end and leave the result array at `g3` regrouped, cut, transposed
    and transposed again. -/
def TailStmt [FloatOps F] (G : Dev nD → sProp 𝕄) : Prop :=
  ∀ (m : (ℓ : Loc nD τ sig) → Buf (Elt F) ℓ) (ρ : Dev nD → PrngReg) (κ : GSem nD τ sig → ℕ) (d : Dev nD) (g3 : Buf (Elt F) (v3Loc d)),
    (iprop((K (F := F)).ctx EH (P m) κ ∗ G d ∗ (K (F := F)).tcSt EH d 1 ∗ boundary (SparseCore.T d) ∗ (K (F := F)).tcSems0 d ∗ prngReg d (ρ d)
        ∗ (v3Loc d ↦{fullShare} g3) ∗ (v4Loc d ↦{fullShare} m (v4Loc d)) ∗ (v5Loc d ↦{fullShare} m (v5Loc d)) ∗ (v6Loc d ↦{fullShare} m (v6Loc d))) : sProp 𝕄)
      ⊢ wp frame (wpE ((K (F := F)).defs (D (F := F))) 𝒱 (SparseCore.T d) none) Set.univ (tailProg d)
          fun _ => iprop((K (F := F)).tcSt EH d 1 ∗ (v6Loc d ↦{fullShare} Stages.final (Stages.slabsT (Stages.regrouped g3))))

variable [FloatOps F] (m : (ℓ : Loc nD τ sig) → Buf (Elt F) ℓ) (ρ : Dev nD → PrngReg)

/-- The program on device `d`'s TensorCore: the front, then the tail, the two arguments kept beside it. -/
theorem hmain_of (G : Dev nD → sProp 𝕄) (htail : TailStmt (F := F) G) (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d) := by
  iintro ⟨#Hctx, Hst, Hres, HG⟩
  iapply (front_wp m ρ κ d _) $$ [Hst Hres HG]
  isplitr; · iexact Hctx
  isplitl [Hst]; · iexact Hst
  isplitl [Hres]; · iexact Hres
  iintro ⟨Hst, Hb, Hsems, Hprng, H0, H1, Hv3, Hv4, Hv5, Hv6⟩
  iapply (wp_wand_r frame _ _) $$ [Hst Hb Hsems Hprng H0 H1 Hv3 Hv4 Hv5 Hv6 HG]
  isplitl [Hst Hb Hsems Hprng Hv3 Hv4 Hv5 Hv6 HG]
  · iapply (htail m ρ κ d (Stages.gathered (F2 m d) (F1 m d)))
    isplitr; · iexact Hctx
    isplitl [HG]; · iexact HG
    isplitl [Hst]; · iexact Hst
    isplitl [Hb]; · iexact Hb
    isplitl [Hsems]; · iexact Hsems
    isplitl [Hprng]; · iexact Hprng
    isplitl [Hv3]; · iexact Hv3
    isplitl [Hv4]; · iexact Hv4
    isplitl [Hv5]; · iexact Hv5
    iexact Hv6
  · iintro %_ ⟨Hst, Hv6⟩
    isplitl [Hst]; · iexact Hst
    isplitl [H0]; · iexact H0
    isplitl [H1]; · iexact H1
    iexact Hv6

/-- Every weakly fair execution of the program's threads ends, nothing faulting, with the result array at the staged
    result and the arguments unchanged. -/
theorem run_main_of [∀ e, Nonempty (Elt F e)] (hbody : TileBodyStmt (F := F)) (G : Dev nD → sProp 𝕄) (u₀ : UU)
    (hu₀ : (ownU u₀ : sProp 𝕄) ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr))
    (htail : TailStmt (F := F) G) (hin : ∀ d x, (F1 m d x).toNat < 1000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl_of m hbody facts hin)
    (fun q _ => match q with | 0 => SparseCore.Cfg.VecSplit.of_plain (vecSplit m))
    m ρ main G (FIN m) u₀ (sep_elim_left.trans hu₀) (hmain_of m ρ G htail) (fq m) (hfin m) (QC m) (fun _ h => h)

end Cert.Proof.KB

end
-- ==== Proof.KB.TailLaunch.lean ====
/-
  What the launch deals the TensorCore for its one pipelined kernel.

  The kernel's four staging buffers complete on four DMA semaphores; each is a cell of the rounds algebra
  whose rounds are the grid points that move a block through that buffer. At the launch the middle component
  of the ghost state is that algebra's initial element over those cells and over one duty per transfer; it
  yields, per device, the cells' states at round zero and the duty tokens, from which the cells' invariants
  are made when the kernel's region is entered.
-/
import proofs.«203052_g23699629540016_cont_8to1_215_27_alg».proof.Proof.KB.Res
import Idealize.ShloMosaic.Lib.Pipeline.Regions

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The kernel's pipeline prefetches no table: the one admissible contents. -/
abbrev adm : (p : Fin 1) → (pcfgs (F := F) p).Adm := fun p => (cfgs p).toPCfg_adm

/-- What device `d`'s TensorCore is dealt for the pipeline: its staging cells at round zero and one token per transfer. -/
def G (d : Dev nD) : sProp 𝕄 :=
  iprop(Pipeline.cellsGhost cfgs EP 0 d ∗ Pipeline.toksInit cfgs EP 0 d)

/-- The launch element: the handshakes' initial rounds, the pipeline's initial rounds, no transfer counted yet. -/
def u₀ : UU :=
  (initOf (K (F := F)).hsCells (K (F := F)).hsToks,
    (initOf (Pipeline.cells cfgs cellOf_inj) (Pipeline.launchToks cfgs cellOf_inj), (1 : Counters)))

theorem bigSep_emp'' {I : Type} (s : Finset I) : (bigSep s fun _ => iprop(emp)) = (iprop(emp) : sProp 𝕄) := bigSep_emp_const s

variable [FloatOps F] (m : (ℓ : Loc nD τ sig) → Buf (Elt F) ℓ)

/-- The launch element splits into the handshakes' part, each device's pipeline part, and nothing for the tiles. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have hG : iprop((bigSep Finset.univ fun c : Dev nD => bigSep Finset.univ fun p : Fin 1 => (Pipeline.cellsGhost cfgs EP p c : sProp 𝕄))
        ∗ (bigSep Finset.univ fun c : Dev nD => bigSep Finset.univ fun p : Fin 1 => (Pipeline.toksInit cfgs EP p c : sProp 𝕄)))
      ⊢ bigSep Finset.univ fun d : Dev nD => G (F := F) d := by
    unfold G
    rw [bigSep_sep']
    exact BI.sep_mono (Entails.of_eq (bigSep_congr fun d _ => bigSep_univ_of_subsingleton (0 : Fin 1)))
      (Entails.of_eq (bigSep_congr fun d _ => bigSep_univ_of_subsingleton (0 : Fin 1)))
  unfold u₀
  iintro Hu
  ihave H := (ownU_pair _ _) $$ Hu
  icases H with ⟨HH, HR⟩
  ihave H2 := (own_pair_emb embR _ _) $$ HR
  icases H2 with ⟨HP, -⟩
  imod (Pipeline.fund_ghost cfgs EP cellOf_inj) $$ HP with ⟨Hg, Ht⟩
  imodintro
  isplitl [HH]; · iexact HH
  isplitl [Hg Ht]
  · iapply hG
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp'']
  iempintro

end Cert.Proof.KB

end
-- ==== Proof.KB.TailData.lean ====
/-
  The pipelined kernel's proof data and its body.

  The kernel runs 200 grid points. At point t the pipeline fetches slab t of the regrouped rows (4096 rows of
  128 columns) into a staging buffer, the body loads it, keeps columns 0…63, transposes, and stores the
  64 × 4096 result whole into the output's staging buffer, which the pipeline writes back as slab t of the
  output. So after the body the input's buffer still holds the slab and the output's buffer holds the
  body's function of it; nothing else is touched, nothing is owed, and the waits the pipeline makes on its
  own four semaphores are recorded at the lowest level.
-/
import proofs.«203052_g23699629540016_cont_8to1_215_27_alg».proof.Proof.KB.Res
import Idealize.ShloMosaic.Lib.Pipeline.Regions
import Idealize.ShloMosaic.Lib.Pipeline.FrameBody
import Idealize.ShloMosaic.Lib.Ring

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (Dat Cfg Window BodyObligation cellOf)

set_option maxRecDepth 16384

variable [FloatOps F]

/-- The kernel's pipeline prefetches no table: the one admissible contents. -/
abbrev admD : (p : Fin 1) → (pcfgs (F := F) p).Adm := fun p => (cfgs p).toPCfg_adm

section Data

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two rectangles the body accesses: each staging buffer whole. -/
abbrev rIn : Rect S1x4096x128 := Rect.unit (s := S1x4096x128) ![0, 0, 0] S1x4096x128.size inb_S1x4096x128_S1x4096x128_0_0_0
abbrev rOut : Rect S1x64x4096 := Rect.unit (s := S1x64x4096) ![0, 0, 0] S1x64x4096.size inb_S1x64x4096_S1x64x4096_0_0_0

/-- What the body leaves in the output's buffer from the input slab: its one store, read back. -/
def outBlk (x0 : Vec F S1x4096x128 .f32) : Vec F S1x64x4096 .f32 :=
  View.canon [⟨rOut, k1_pay1 (View.ld x0 rIn)⟩]

/-- The one store covers the buffer. -/
theorem cover_out (p0 : Vec F S1x64x4096 .f32) (y : S1x64x4096.Idx) :
    ∃ pc ∈ ([⟨rOut, p0⟩] : List (View.Piece (Elt F) S1x64x4096 .f32)), y ∈ pc.1.set :=
  View.cover_of_tiled [⟨rOut, p0⟩] S1x64x4096.size (by rfl) y

/-- The proof data on device `c`: the arrays as the region finds them; after the body the input's buffer at its
    slab and the output's at the body's function of it; no invariant beyond that; nothing owed; every wait
    recorded so far at level at most eight (the one SparseCore call's band), the pipeline's own at level zero. -/
def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => outBlk (iblk V c 0 t)
  Φ _ := iprop(emp)
  q _ := fullShare
  owed _ := 0
  recorded _ := {p | (K (F := F)).lev ((c : Thread nD τ), p.1) p.2 ≤ 8}

theorem A_eq (c : Dev nD) (w : Fin cfg1.W) : (dats V 0 c).A w = V c (Pipeline.arrRef spec1 w) := by
  dsimp only [dats]
theorem after1_0 (c : Dev nD) (t : Fin cfg1.N) : (dats V 0 c).after 0 t = iblk V c 0 t := by dsimp only [dats]
theorem after1_1 (c : Dev nD) (t : Fin cfg1.N) : (dats V 0 c).after 1 t = outBlk (iblk V c 0 t) := by dsimp only [dats]

/-- The input's current staging buffer holds its slab at every point. -/
theorem before1_0 (c : Dev nD) (t : Fin cfg1.N) (d) : (dats V 0 c).before 0 t d = iblk V c 0 t :=
  ((dats V 0 c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)

end Data

/-! ## The body's triple -/

set_option maxHeartbeats 1000000 in
/-- The body on whole staging memrefs, the input's at contents `x0` and the output's at anything: the input's is left
    as it was and the output's holds `outBlk x0`. -/
theorem sound_kernel (c : Dev nD) (E : Set ℕ) (i : grid1.Coords) (arg1 : Memref sig .tc .vmem S1x4096x128 .f32) (harg1 : arg1.IsWhole)
    (arg2 : Memref sig .tc .vmem S1x64x4096 .f32) (harg2 : arg2.IsWhole)
    (x0 : Vec F S1x4096x128 .f32) (Kont : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlk x0)) -∗ Kont ⟨⟩))
      ⊢ wp frame (wpE (defs₀ (F := F)) Variants.none c none) E (cc1_body i arg1 harg1 arg2 harg2) Kont := by
  simp only [cc1_body_eq_skeleton]; unfold cc1_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (cover_out _)

/-! ## The body obligation -/

section Obligation

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dats V 0 c).Φ t.castSucc ∗ (dats V 0 c).owesAt none t.castSucc
    ∗ (∃ d, owns (c : Thread nD τ) (st1_0 t) fullShare ((dats V 0 c).before 0 t d))
    ∗ (∃ d, owns (c : Thread nD τ) (st1_1 t) fullShare ((dats V 0 c).before 1 t d)))

/-- and what it returns. -/
def bodyPost (c : Dev nD) (t : Fin cfg1.N) : sProp 𝕄 :=
  iprop((dats V 0 c).Φ t.succ ∗ (dats V 0 c).owesAt none t.succ
    ∗ owns (c : Thread nD τ) (st1_0 t) fullShare ((dats V 0 c).after 0 t)
    ∗ owns (c : Thread nD τ) (st1_1 t) fullShare ((dats V 0 c).after 1 t))

/-- The body at any point: the input's memref holds its slab, so the triple applies; the rest passes through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0]
  rw [show (dats V 0 c).Φ t.succ = (dats V 0 c).Φ t.castSucc from rfl,
    show (dats V 0 c).owesAt none t.succ = (dats V 0 c).owesAt none t.castSucc from rfl,
    after1_0, after1_1]
  iintro ⟨HΦ, Ho, ⟨%d0, H0⟩, ⟨%d1, H1⟩⟩
  iapply (sound_kernel c Set.univ (grid1.coords t) _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) V 0 c) (defs₀ (F := F)) Variants.none none Set.univ := fun t => by
  rw [bigSep_W1, bigSep_W1]
  exact sound_body V c t

end Obligation

end Cert.Proof.KB

end
-- ==== Proof.KB.TailValue.lean ====
/-
  From the kernel's blocks to its output array.

  At grid point t the output's buffer holds the body's function of slab t of the input: entry (0, e, b) is the
  slab's row b, column e (the two re-layouts only drop and add the unit axis, the slice keeps columns 0…63, the
  transposition swaps the two axes). The pipeline writes that buffer back as block t of the output, whose
  element (e, b) sits at (t, e, b) of the array; the input block's element (b, e) sits at (t, b, e) of the
  regrouped rows. So each written block is the restriction to slab t of ONE function of the whole input —
  entry (n, e, b) is slab n's row b, column e — and the 200 blocks cover the output, the point that covers
  entry (n, e, b) being n.
-/
import proofs.«203052_g23699629540016_cont_8to1_215_27_alg».proof.Proof.KB.TailData
import Idealize.ShloMosaic.Lib.ValueIdx
import Idealize.ShloMosaic.Lib.Pipeline.Value
import Idealize.ShloMosaic.Lib.ValueLayout

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (Dat Cfg Window BodyObligation cellOf)
open Idealize.ShloMosaic.ValueIdx

set_option maxRecDepth 16384

variable [FloatOps F]

theorem zero3 : (![0, 0, 0] : Fin 3 → Nat) = fun _ => 0 := funext fun a => by fin_cases a <;> rfl

/-- The body's payload at entry `(0, e, b)` is the loaded slab's row `b`, column `e`. -/
theorem pay_apply (x : Vec F S1x4096x128 .f32) (u : Fin 1) (e : Fin 64) (b : Fin 4096) :
    k1_pay1 x (ix3 u e b)
      = x (ix3 (⟨0, Nat.one_pos⟩ : Fin 1) b (⟨e.val, Nat.lt_of_lt_of_le e.isLt (by decide : 64 ≤ 128)⟩ : Fin 128)) := by
  show shapeCast S1x64x4096 (transpose S64x4096 [1, 0] (extractStridedSlice S4096x64 ![0, 0]
      (shapeCast S4096x128 x shapeCasts_S1x4096x128_S4096x128) slices_S4096x128_o0_0_S4096x64) transposes_S4096x64_p1_0_S64x4096)
      shapeCasts_S64x4096_S1x64x4096 (ix3 u e b) = _
  refine (shapeCast_apply _ shapeCasts_S64x4096_S1x64x4096 (ix3 u e b) (ix2 e b) ?_).trans ?_
  · rw [Shape.rowMajor_val_two, Shape.rowMajor_val_three]
    show e.val * 4096 + b.val = (u.val * 64 + e.val) * 4096 + b.val
    have := u.isLt; omega
  refine (transpose_ix2_apply _ transposes_S4096x64_p1_0_S64x4096 e b).trans ?_
  refine (extractStridedSlice_apply ![0, 0] _ slices_S4096x128_o0_0_S4096x64 (ix2 b e)
    (ix2 b (⟨e.val, Nat.lt_of_lt_of_le e.isLt (by decide : 64 ≤ 128)⟩ : Fin 128)) (fun a => ?_)).trans ?_
  · match a with
    | ⟨0, _⟩ => show b.val = 0 + b.val; omega
    | ⟨1, _⟩ => show e.val = 0 + e.val; omega
  refine shapeCast_apply x shapeCasts_S1x4096x128_S4096x128 (ix2 b (⟨e.val, Nat.lt_of_lt_of_le e.isLt (by decide : 64 ≤ 128)⟩ : Fin 128))
    (ix3 (⟨0, Nat.one_pos⟩ : Fin 1) b (⟨e.val, Nat.lt_of_lt_of_le e.isLt (by decide : 64 ≤ 128)⟩ : Fin 128)) ?_
  rw [Shape.rowMajor_val_two, Shape.rowMajor_val_three]
  show (0 * 4096 + b.val) * 128 + e.val = b.val * 128 + e.val
  omega

/-- The printed index maps, decided over the grid: both windows' blocks at point `t` are slab `t`. -/
theorem idx_facts : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

section Value

variable (V : (c : Dev nD) → (b : Ref sig .tc) → Buf (Elt F) ((c : Thread nD τ).loc b))

/-- The output array as one function of the input array: entry `(n, e, b)` is slab `n`'s row `b`, column `e`. -/
abbrev outArr (c : Dev nD) : S200x64x4096.Idx → Elt F .f32 := Stages.slabsT (V c (Pipeline.arrRef spec1 0))

/-- What point `t` writes back is block `t` of that function. -/
theorem flushed_eq (c : Dev nD) (t : Fin cfg1.N) :
    (dats V 0 c).flushed 1 t = ((cfg1.win 1).blk t).view.read (Elt F) (outArr V c) := by
  show (cfg1.win 1).cut (grid1.coords t) ((dats V 0 c).after 1 t) = _
  rw [after1_1]
  unfold outBlk
  rw [View.canon_unit_zero zero3]
  simp only [View.ld_unit_zero (S := S1x4096x128) zero3]
  obtain ⟨e0, e1, e2, e3, e4, e5⟩ := idx_facts t
  refine funext fun (j : S1x64x4096.Idx) => ?_
  show k1_pay1 (iblk V c 0 t) j = _
  refine (congrArg (k1_pay1 (iblk V c 0 t)) (eq_ix3 j)).trans ((pay_apply (iblk V c 0 t) (j 0) (j 1) (j 2)).trans ?_)
  show V c (Pipeline.arrRef spec1 0) (((cfg1.win 0).blk t).view.emb
      (ix3 (⟨0, Nat.one_pos⟩ : Fin 1) (j 2) (⟨(j 1).val, Nat.lt_of_lt_of_le (j 1).isLt (by decide : 64 ≤ 128)⟩ : Fin 128)))
    = V c (Pipeline.arrRef spec1 0) (ix3 (⟨((((cfg1.win 1).blk t).view.emb j) 0).val, ((((cfg1.win 1).blk t).view.emb j) 0).isLt⟩ : Fin 200)
        (⟨((((cfg1.win 1).blk t).view.emb j) 2).val, ((((cfg1.win 1).blk t).view.emb j) 2).isLt⟩ : Fin 4096)
        (⟨((((cfg1.win 1).blk t).view.emb j) 1).val, Nat.lt_of_lt_of_le ((((cfg1.win 1).blk t).view.emb j) 1).isLt (by decide : 64 ≤ 128)⟩ : Fin 128))
  refine congrArg _ (funext fun a => Fin.ext ?_)
  have hj0 : (j 0).val < 1 := (j 0).isLt
  match a with
  | ⟨0, _⟩ => show win1_0.index t (0 : Fin 3) * 1 + 1 * 0 = win1_1.index t (0 : Fin 3) * 1 + 1 * (j 0).val; omega
  | ⟨1, _⟩ => show win1_0.index t (1 : Fin 3) * 4096 + 1 * (j 2).val = win1_1.index t (2 : Fin 3) * 4096 + 1 * (j 2).val; omega
  | ⟨2, _⟩ => show win1_0.index t (2 : Fin 3) * 128 + 1 * (j 1).val = win1_1.index t (1 : Fin 3) * 64 + 1 * (j 1).val; omega

/-- An index of the output array is in point `t`'s block iff each coordinate is in the block's range on its axis. -/
theorem mem_blk (t : Fin cfg1.N) (i : S200x64x4096.Idx) :
    i ∈ ((cfg1.win 1).blk t).view.set ↔ ∀ a : Fin 3, win1_1.index t a * S1x64x4096.size a ≤ (i a).val ∧ (i a).val < win1_1.index t a * S1x64x4096.size a + S1x64x4096.size a := by
  show i ∈ ((View.whole main_v5).slice (win1_1.rect t)).set ↔ _
  rw [View.set_slice_whole, Rect.mem_set_unit]
  exact Iff.rfl

/-- Every entry of the output is in some point's block: entry `(n, e, b)` in point `n`'s. -/
theorem covered (i : S200x64x4096.Idx) : ∃ t : Fin cfg1.N, (cfg1.win 1).flush t = true ∧ i ∈ ((cfg1.win 1).blk t).view.set := by
  have hi0 : (i 0).val < 200 := (i 0).isLt
  have hi1 : (i 1).val < 64 := (i 1).isLt
  have hi2 : (i 2).val < 4096 := (i 2).isLt
  refine ⟨⟨(i 0).val, hi0⟩, flush1_1 _, ?_⟩
  obtain ⟨-, -, -, e3', e4, e5⟩ := idx_facts ⟨(i 0).val, hi0⟩
  have e3 : win1_1.index ⟨(i 0).val, hi0⟩ (0 : Fin 3) = (i 0).val := e3'
  rw [mem_blk]
  intro a
  match a with
  | ⟨0, _⟩ => show win1_1.index ⟨(i 0).val, hi0⟩ (0 : Fin 3) * 1 ≤ (i 0).val ∧ (i 0).val < win1_1.index ⟨(i 0).val, hi0⟩ (0 : Fin 3) * 1 + 1; rw [e3]; omega
  | ⟨1, _⟩ => show win1_1.index ⟨(i 0).val, hi0⟩ (1 : Fin 3) * 64 ≤ (i 1).val ∧ (i 1).val < win1_1.index ⟨(i 0).val, hi0⟩ (1 : Fin 3) * 64 + 64; rw [e4]; omega
  | ⟨2, _⟩ => show win1_1.index ⟨(i 0).val, hi0⟩ (2 : Fin 3) * 4096 ≤ (i 2).val ∧ (i 2).val < win1_1.index ⟨(i 0).val, hi0⟩ (2 : Fin 3) * 4096 + 4096; rw [e5]; omega

/-- The output array after the kernel: the one function of the input array. -/
theorem final_out (c : Dev nD) : (dats V 0 c).arrAt 1 cfg1.N = outArr V c :=
  (dats V 0 c).arrAt_eq_of_cover 1 (outArr V c) (fun t _ => flushed_eq V c t) covered

/-- The input array after the kernel: as the region found it. -/
theorem final_in (c : Dev nD) : (dats V 0 c).arrAt 0 cfg1.N = V c (Pipeline.arrRef spec1 0) :=
  ((dats V 0 c).arrAt_in 0 rfl _).trans (A_eq V c 0)

end Value

end Cert.Proof.KB

end
-- ==== Proof.KB.Tail.lean ====
/-
  The tail of the program on the TensorCore: the regrouping, the pipelined kernel's region, the last transposition.

  The regrouping is a host operation on the gathered array and the slabs' array. The region is entered from the
  boundary with the slabs' array and the output array whole, the TensorCore owing nothing (the one SparseCore call
  is over) and every wait recorded so far at a level of that call's band; the pipeline's staging cells are made
  from what the launch dealt for them; its own waits are recorded at the lowest level, so the recorded waits stay
  within the band. The region leaves the output array at the one function of the slabs' array that the blocks
  restrict, and the last transposition, a host operation again, reads it.
-/
import proofs.«203052_g23699629540016_cont_8to1_215_27_alg».proof.Proof.KB.Main
import proofs.«203052_g23699629540016_cont_8to1_215_27_alg».proof.Proof.KB.TailLaunch
import proofs.«203052_g23699629540016_cont_8to1_215_27_alg».proof.Proof.KB.TailValue

noncomputable section

namespace Cert.Proof.KB

open Cert.Kernel Cert.Kernel.Gen

open Idealize.ShloMosaic
open Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (Dat Cfg Window BodyObligation cellOf)
open Idealize.ShloMosaic.StableHlo (held held_split held_sdiff_result wp_hlo_within)

set_option maxRecDepth 16384

variable [FloatOps F] (m : (ℓ : Loc nD τ sig) → Buf (Elt F) ℓ)

/-! ## The two host operations -/

/-- The regrouping and the last transposition, as operations on the TensorCore's arrays. -/
abbrev opRs : HloOp τ sig (Elt F) := StableHlo.reshape main_v3 main_v4 rfl shapeCasts_S819200x128_S200x4096x128
abbrev opTr : HloOp τ sig (Elt F) :=
  StableHlo.unary main_v5 main_v6 ((transpose S4096x200x64 [2, 0, 1] · transposes_S200x64x4096_S4096x200x64_2_0_1) : (⟨S200x64x4096, .f32⟩ : BufTy).Contents (Elt F) → (⟨S4096x200x64, .f32⟩ : BufTy).Contents (Elt F))

abbrev S34 : Finset (DevRef τ sig) := {v3', v4'}
abbrev S56 : Finset (DevRef τ sig) := {v5', v6'}

theorem hRs : (opRs (F := F)).bufs ⊆ S34 := show ({v3', v4'} : Finset (DevRef τ sig)) ⊆ S34 by decide
theorem hTr : (opTr (F := F)).bufs ⊆ S56 := show ({v5', v6'} : Finset (DevRef τ sig)) ⊆ S56 by decide

omit [FloatOps F] in
theorem held_S34 (d : Dev nD) (W : Valuation τ sig (Elt F)) :
    (held (T d) S34 W : sProp 𝕄) = iprop((v3Loc d ↦{fullShare} W v3') ∗ (v4Loc d ↦{fullShare} W v4')) := by
  unfold held S34
  rw [SparseCore.bigSep_insert' (by decide), bigSep_singleton]

omit [FloatOps F] in
theorem held_S56 (d : Dev nD) (W : Valuation τ sig (Elt F)) :
    (held (T d) S56 W : sProp 𝕄) = iprop((v5Loc d ↦{fullShare} W v5') ∗ (v6Loc d ↦{fullShare} W v6')) := by
  unfold held S56
  rw [SparseCore.bigSep_insert' (by decide), bigSep_singleton]

section Tail

variable (d : Dev nD) (g3 : Buf (Elt F) (v3Loc d))

/-- The arrays before the regrouping: as launched, but the gathered array at `g3`; and after it. -/
def W0 : Valuation τ sig (Elt F) := Function.update (fun b => m (d, b)) v3' g3
def W1 : Valuation τ sig (Elt F) := (opRs (F := F)).result (W0 m d g3)

theorem W0_v3 : W0 m d g3 v3' = g3 := Function.update_self _ _ _
theorem W0_v4 : W0 m d g3 v4' = m (v4Loc d) := Function.update_of_ne (show v4' ≠ v3' by decide) _ _
theorem W1_v3 : W1 m d g3 v3' = g3 := by
  unfold W1
  rw [(opRs (F := F)).result_of_not_mem _ (show v3' ∉ ({v4'} : Finset (DevRef τ sig)) by decide), W0_v3]
theorem W1_v4 : W1 m d g3 v4' = Stages.regrouped g3 := by
  unfold W1
  rw [StableHlo.reshape_result, W0_v3]
  rfl

/-- The two arrays of the regrouping after it. -/
theorem held_W1 :
    (held (T d) S34 ((opRs (F := F)).result (W0 m d g3)) : sProp 𝕄) = iprop((v3Loc d ↦{fullShare} g3) ∗ (v4Loc d ↦{fullShare} Stages.regrouped g3)) := by
  show held (SparseCore.T d) S34 (W1 m d g3) = _
  rw [held_S34, W1_v3, W1_v4]

/-- The TensorCore's arrays as the region finds them (every device's the same function of the reference). -/
def Vr : (c : Dev nD) → (b : Ref sig .tc) → Buf (Elt F) ((c : Thread nD τ).loc b) := fun _ b => W1 m d g3 (Proc.devRef .tc b)

theorem Vr_in (c : Dev nD) : Vr m d g3 c (Pipeline.arrRef spec1 0) = Stages.regrouped g3 := W1_v4 m d g3

/-- The pipeline's arrays, one by one. -/
theorem arrays_two (c : Dev nD) (A : (w : Fin cfg1.W) → Buf (Elt F) ((cfg1.win w).arr.view.loc (c : Thread nD τ))) :
    ((dats (Vr m d g3) 0 c).arrays A : sProp 𝕄) = iprop((v4Loc c ↦{fullShare} A 0) ∗ (v5Loc c ↦{fullShare} A 1)) := by
  rw [Pipeline.arrays_eq cfgs (dats (Vr m d g3)) 0 c launch1.arr_whole (fun w => (dats (Vr m d g3) 0 c).share_full (fun _ => rfl) w) A, bigSep_W1]

/-! ## The region -/

-- the layout facts are stated over `cfgs p`, the record over the pipeline pinned at its one admissible contents
set_option backward.isDefEq.respectTransparency.types false in
/-- The kernel's region: entered with the two arrays and the TensorCore owing nothing, left with them at their final
    contents; nothing of the kernel's own besides. -/
def reg : Pipeline.RegionSeg (pcfgs (F := F)) adm (dats (Vr m d g3)) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation (Vr m d g3) c).loose
  hwaits := Pipeline.hwaits_of_owed_zero _ _ _ _ (K (F := F)).L (K (F := F)).lev 0 fun _ _ => rfl
  pre c := iprop((dats (Vr m d g3) 0 c).arrays ((dats (Vr m d g3) 0 c).arrAt · 0) ∗ (dats (Vr m d g3) 0 c).owesAt none 0)
  post c := iprop((dats (Vr m d g3) 0 c).arrays ((dats (Vr m d g3) 0 c).arrAt · cfg1.N) ∗ (dats (Vr m d g3) 0 c).owesAt none (Fin.last cfg1.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    rw [show (dats (Vr m d g3) 0 c).Φ 0 = iprop(emp) from rfl]
    iintro -; iempintro
  hout c := by
    rw [show (dats (Vr m d g3) 0 c).Φ (Fin.last cfg1.N) = iprop(emp) from rfl, scopedRest1_eq]
    unfold Pipeline.ownSems0
    rw [Finset.univ_eq_empty, BI.bigSep_empty]
    iintro -
    isplitr; · iempintro
    isplitr <;> iempintro
  hexit c := by
    iintro ⟨Ha, HO, -, -⟩
    imodintro
    isplitl [Ha]; · iexact Ha
    iexact HO

/-- The output array before the region: as launched. -/
theorem Vr_out (c : Dev nD) : Vr m d g3 c (Pipeline.arrRef spec1 1) = m (v5Loc d) := by
  show W1 m d g3 v5' = _
  unfold W1
  rw [(opRs (F := F)).result_of_not_mem _ (show v5' ∉ ({v4'} : Finset (DevRef τ sig)) by decide)]
  exact Function.update_of_ne (show v5' ≠ v3' by decide) _ _

/-- What the region is entered with: the two arrays, and the TensorCore owing nothing with its recorded waits in the
    one call's band. -/
theorem reg_pre (W : Waits sig (HIx 1)) (hW : (K (F := F)).WBelow (SparseCore.T d) W (8 * 1)) :
    (iprop((v4Loc d ↦{fullShare} Stages.regrouped g3) ∗ (v5Loc d ↦{fullShare} m (v5Loc d)) ∗ owes (SparseCore.T d) ((K (F := F)).Otc d 1) W) : sProp 𝕄)
      ⊢ (reg m d g3).pre d := by
  show _ ⊢ iprop((dats (Vr m d g3) 0 d).arrays ((dats (Vr m d g3) 0 d).arrAt · 0) ∗ (dats (Vr m d g3) 0 d).owesAt none 0)
  rw [arrays_two, show (dats (Vr m d g3) 0 d).arrAt 0 0 = Stages.regrouped g3 from (A_eq (Vr m d g3) d 0).trans (Vr_in m d g3 d),
    show (dats (Vr m d g3) 0 d).arrAt 1 0 = m (v5Loc d) from (A_eq (Vr m d g3) d 1).trans (Vr_out m d g3 d),
    (K (F := F)).Otc_end d (le_refl 1)]
  unfold Pipeline.Dat.owesAt Pipeline.owesWithin
  iintro ⟨H4, H5, HO⟩
  isplitl [H4 H5]
  · isplitl [H4]; · iexact H4
    iexact H5
  iexists W
  isplitr
  · ipureintro
    intro p hp
    exact Or.inl (by have := hW p hp; rwa [Nat.mul_one] at this)
  iexact HO

/-- What the region leaves: the slabs' array as it was, the output array at the one function of it, and the
    TensorCore owing nothing with its recorded waits still in the band (the pipeline's own sit at level zero). -/
theorem reg_post :
    (reg m d g3).post d
      ⊢ (iprop((v4Loc d ↦{fullShare} Stages.regrouped g3) ∗ (v5Loc d ↦{fullShare} Stages.slabsT (Stages.regrouped g3))
          ∗ ∃ W, ⌜(K (F := F)).WBelow (SparseCore.T d) W (8 * 1)⌝ ∗ owes (SparseCore.T d) ((K (F := F)).Otc d 1) W) : sProp 𝕄) := by
  show iprop((dats (Vr m d g3) 0 d).arrays ((dats (Vr m d g3) 0 d).arrAt · cfg1.N) ∗ (dats (Vr m d g3) 0 d).owesAt none (Fin.last cfg1.N)) ⊢ _
  rw [arrays_two, final_in, final_out, Vr_in, (K (F := F)).Otc_end d (le_refl 1)]
  unfold Pipeline.Dat.owesAt Pipeline.owesWithin
  iintro ⟨⟨H4, H5⟩, ⟨%W, %hW, HO⟩⟩
  isplitl [H4]; · iexact H4
  isplitl [H5]; · iexact H5
  iexists W
  isplitr
  · ipureintro
    intro p hp
    rcases hW hp with h | ⟨w, s, rfl⟩
    · rw [Nat.mul_one]; exact h
    · exact Nat.zero_le _
  iexact HO

/-- The arrays before the last transposition: as launched, but the output array at the kernel's result. -/
def W2 : Valuation τ sig (Elt F) := Function.update (fun b => m (d, b)) v5' (Stages.slabsT (Stages.regrouped g3))

theorem W2_v5 : W2 m d g3 v5' = Stages.slabsT (Stages.regrouped g3) := Function.update_self _ _ _
theorem W2_v6 : W2 m d g3 v6' = m (v6Loc d) := Function.update_of_ne (show v6' ≠ v5' by decide) _ _

/-- The two arrays of the last transposition after it. -/
theorem held_W3 :
    (held (T d) S56 ((opTr (F := F)).result (W2 m d g3)) : sProp 𝕄)
      = iprop((v5Loc d ↦{fullShare} Stages.slabsT (Stages.regrouped g3)) ∗ (v6Loc d ↦{fullShare} Stages.final (Stages.slabsT (Stages.regrouped g3)))) := by
  rw [held_S56, (opTr (F := F)).result_of_not_mem _ (show v5' ∉ ({v6'} : Finset (DevRef τ sig)) by decide), W2_v5,
    StableHlo.unary_result, W2_v5]
  rfl

end Tail

/-! ## The tail -/

set_option backward.isDefEq.respectTransparency.types false in
set_option maxHeartbeats 1000000 in
/-- The three statements, from what the TensorCore holds after the SparseCore call. -/
theorem tail : TailStmt (F := F) (G (F := F)) := by
  intro m ρ κ d g3
  unfold tailProg SparseCore.Cfg.tcSt
  simp only [wp_bind, wp_pure]
  iintro ⟨#Hctx, HG, ⟨⟨%W, %hW, HO⟩, Hrest⟩, Hb, Hsems, Hprng, H3, H4, H5, H6⟩
  -- the regrouping
  iapply (wp_hlo_within 𝒱 (SparseCore.T d) none Set.univ (op := opRs) (S := S34) hRs (V := W0 m d g3)) $$ [Hb H3 H4]
  · isplitl [Hb]; · iexact Hb
    rw [held_S34, W0_v3, W0_v4]
    isplitl [H3]; · iexact H3
    iexact H4
  iintro ⟨Hb, Hheld⟩
  rw [wp_ret]; imodintro
  ihave Hh := (Entails.of_eq (held_W1 (F := F) m d g3)) $$ Hheld
  icases Hh with ⟨H3, H4⟩
  -- the kernel's region: the level facts, the arrays and the core's debt (none) in, the staging cells from the launch's deal
  ihave Hlev := ((K (F := F)).ctx_levAts (EH := EH) (P := P m) κ) $$ Hctx
  iapply ((K (F := F)).wp_liftProg (D (F := F)) 𝒱 (SparseCore.T d) Set.univ none (Prog.lift (.customCall (Pipeline.entry 0) ())) _)
  iapply (Pipeline.RegionSeg.wp (pcfgs (F := F)) adm (dats (Vr m d g3)) none cellOf_inj EP defs₀ 𝒱₀ (K (F := F)).L (K (F := F)).lev
    (reg m d g3) d none (fun _ h => by cases h) (fun r => Prog.ret r) _)
  isplitl [Hrest H6]
  · iintro ⟨Hb, Hpost⟩
    ihave Hp := (reg_post m d g3) $$ Hpost
    icases Hp with ⟨-, H5, ⟨%W', %hW', HO⟩⟩
    rw [wp_ret]; imodintro
    -- the last transposition
    iapply (wp_hlo_within 𝒱 (SparseCore.T d) none Set.univ (op := opTr) (S := S56) hTr (V := W2 m d g3)) $$ [Hb H5 H6]
    · isplitl [Hb]; · iexact Hb
      rw [held_S56, W2_v5, W2_v6]
      isplitl [H5]; · iexact H5
      iexact H6
    iintro ⟨Hb, Hheld⟩
    ihave Hh := (Entails.of_eq (held_W3 (F := F) m d g3)) $$ Hheld
    icases Hh with ⟨-, H6⟩
    rw [wp_ret]; imodintro; imodintro
    isplitl [HO Hrest]
    · isplitl [HO]
      · iexists W'
        isplitr; · ipureintro; exact hW'
        iexact HO
      iexact Hrest
    iexact H6
  isplitl [Hb]; · iexact Hb
  isplitl [HO H4 H5]
  · iapply (reg_pre m d g3 W hW)
    isplitl [H4]; · iexact H4
    isplitl [H5]; · iexact H5
    iexact HO
  isplitr; · iexact Hlev
  unfold G
  iexact HG

end Cert.Proof.KB

end
-- ==== Proof.KB.RunOf.lean ====
/-
  The program's run from one tile's task alone: the tail, its launch element and everything else are in place,
  so the run follows from the task's statement at every tile.
-/
import proofs.«203052_g23699629540016_cont_8to1_215_27_alg».proof.Proof.KB.Tail

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

theorem run_main_of_body [∀ e, Nonempty (Elt F e)] (hbody : TileBodyStmt (F := F))
    (m : (ℓ : Loc nD τ sig) → Buf (Elt F) ℓ) (ρ : Dev nD → PrngReg) (hin : ∀ d x, (F1 m d x).toNat < 1000) :
    θ_run (Cert.Kernel.defs (F := F)) (Cert.Kernel.threads (F := F)) ⟨m, fun _ => 0, ρ⟩ (QC m) :=
  run_main_of m ρ hbody (fun d => G (F := F) d) (u₀ (F := F)) (hu₀ m) tail hin

end Cert.Proof.KB

end
-- ==== Proof.KB.TileWords.lean ====
/-
  The counted loop's five carried words as functions of the trip, and every word-level fact the loop's run needs of
  them: which of the trip's four guarded steps are taken, that the assumed range checks hold, where each slice the trip
  addresses lies, and what the trip yields.

  A tile handles 200 consecutive chunks of 128 index words; tile (c, s) starts at chunk (s + 16 c) * 200. Before trip k:
  the first word counts the index chunks whose fetch has been started, k + 1, capped at 200; the second and third the
  chunks fetched and gathered, k; the fourth the chunks whose copy-out has been waited for, k - 1 (none before trip 1);
  the fifth is the chunk's number within the tile, k, wrapping to 0 after the last. A trip starts the next fetch when
  k < 199, always waits for its own fetch and always starts its copy-out, and waits for the previous copy-out when
  1 ≤ k. Slots alternate: everything indexed by a word goes to slot (word mod 2).

  Every statement here is closed over the 200 trips and the 32 tiles and is decided by evaluation.
-/
import proofs.«203052_g23699629540016_cont_8to1_215_27_alg».proof.Kernel
import proofs.«203052_g23699629540016_cont_8to1_215_27_alg».proof.Proof.Gen.Kernel
import Idealize.ShloMosaic.Lib.Decide

set_option Elab.async false

namespace Cert.Proof.KB

open Cert.Kernel Cert.Kernel.Gen
open Idealize.ShloMosaic

/-! ## The words -/

def W6 (k : ℕ) : BitVec 32 := BitVec.ofNat 32 (min (k + 1) 200)
def W7 (k : ℕ) : BitVec 32 := BitVec.ofNat 32 k
def W9 (k : ℕ) : BitVec 32 := BitVec.ofNat 32 (k - 1)
def W10 (k : ℕ) : BitVec 32 := BitVec.ofNat 32 (k % 200)

/-- The tile's first chunk number, as the body computes it from the grid coordinates. -/
def V4 (i : grid0.Coords) : BitVec 32 :=
  Scalar.muli (Scalar.addi (Scalar.addi 0#32 (Scalar.muli (BitVec.ofNat 32 (i 1).val) 1#32)) (Scalar.muli (BitVec.ofNat 32 (i 0).val) 16#32)) 200#32

/-- Chunk `j` of tile `i`, numbered over the whole array. -/
def chunkNo (i : grid0.Coords) (j : ℕ) : ℕ := ((i 1).val + 16 * (i 0).val) * 200 + j

theorem trips_eq : k0_t1_loop.trips = 200 := by decide +kernel

/-! ## The guarded steps -/

theorem cond1_iff : ∀ (i : grid0.Coords) (k : Fin k0_t1_loop.trips), (k0_cond1 i k (W10 k.val) = 1#1) ↔ k.val < 199 := by decide +kernel
theorem cond2_true : ∀ (i : grid0.Coords) (k : Fin k0_t1_loop.trips), k0_cond2 i k (W10 k.val) = 1#1 := by decide +kernel
theorem cond5_true : ∀ (i : grid0.Coords) (k : Fin k0_t1_loop.trips), k0_cond5 i k (W10 k.val) = 1#1 := by decide +kernel
theorem cond7_iff : ∀ (i : grid0.Coords) (k : Fin k0_t1_loop.trips), (k0_cond7 i k (W10 k.val) = 1#1) ↔ 1 ≤ k.val := by decide +kernel

/-! ## The assumed checks -/

theorem chk3_W : ∀ k : Fin k0_t1_loop.trips, k0_chk3 (W7 k.val) := by decide +kernel
theorem chk2_W : ∀ k : Fin k0_t1_loop.trips, k0_chk2 (W7 k.val) := by decide +kernel
theorem chk1_W : ∀ (i : grid0.Coords) (k : Fin k0_t1_loop.trips), k0_chk1 i k (W6 k.val) (W7 k.val) (W7 k.val) (W9 k.val) (W10 k.val) := by decide +kernel
theorem chk5_W : ∀ i : grid0.Coords, k0_chk5 i (W10 200) := by decide +kernel
theorem chk4_W : k0_chk4 (W9 200) := by decide +kernel

/-! ## Where the trip's slices lie -/

theorem off2_W : ∀ i : grid0.Coords, k0_off2 i = ![0, 128 * chunkNo i 0] := by decide +kernel
theorem off4_W : ∀ k : Fin k0_t1_loop.trips, k0_off4 (W6 k.val) = ![(k.val + 1) % 2, 0, 0] := by decide +kernel
theorem off6_W : ∀ k : Fin k0_t1_loop.trips, k0_off6 (W6 k.val) = ![(k.val + 1) % 2] := by decide +kernel
theorem off5_W : ∀ (i : grid0.Coords) (k : Fin k0_t1_loop.trips), k.val < 199 → k0_off5 i (W10 k.val) = ![0, 128 * chunkNo i (k.val + 1)] := by decide +kernel
theorem off7_W : ∀ k : Fin k0_t1_loop.trips, k0_off7 (W7 k.val) = ![k.val % 2, 0, 0] := by decide +kernel
theorem off9_W : ∀ k : Fin k0_t1_loop.trips, k0_off9 (W7 k.val) = ![k.val % 2] := by decide +kernel
theorem off8_W : ∀ (i : grid0.Coords) (k : Fin k0_t1_loop.trips), k0_off8 i (W10 k.val) = ![0, 128 * chunkNo i k.val] := by decide +kernel
theorem off10_W : ∀ k : Fin k0_t1_loop.trips, k0_off10 (W7 k.val) = ![k.val % 2, 0, 0] := by decide +kernel
theorem off11_W : ∀ k : Fin k0_t1_loop.trips, k0_off11 (W7 k.val) = ![k.val % 2, 0, 0] := by decide +kernel
theorem off12_W : ∀ k : Fin k0_t1_loop.trips, k0_off12 (W7 k.val) = ![k.val % 2, 0, 0] := by decide +kernel
theorem off14_W : ∀ k : Fin k0_t1_loop.trips, k0_off14 (W7 k.val) = ![k.val % 2] := by decide +kernel
theorem off13_W : ∀ (i : grid0.Coords) (k : Fin k0_t1_loop.trips), k0_off13 i (W10 k.val) = ![128 * chunkNo i k.val, 0] := by decide +kernel
theorem off15_W : ∀ k : Fin k0_t1_loop.trips, 1 ≤ k.val → k0_off15 (W9 k.val) = ![(k.val + 1) % 2, 0, 0] := by decide +kernel
theorem off17_W : ∀ k : Fin k0_t1_loop.trips, 1 ≤ k.val → k0_off17 (W9 k.val) = ![(k.val + 1) % 2] := by decide +kernel
theorem off16_W : ∀ (i : grid0.Coords) (k : Fin k0_t1_loop.trips), 1 ≤ k.val → k0_off16 i (W10 k.val) = ![128 * chunkNo i (k.val - 1), 0] := by decide +kernel
theorem off18_W : k0_off18 (W9 200) = ![1, 0, 0] := by decide +kernel
theorem off20_W : k0_off20 (W9 200) = ![1] := by decide +kernel
theorem off21_W : k0_off21 (W9 200) = ![1, 0, 0] := by decide +kernel
theorem off19_W : ∀ i : grid0.Coords, k0_off19 i (W10 200) = ![128 * chunkNo i 199, 0] := by decide +kernel

/-- Every chunk of every tile lies inside the arrays. -/
theorem chunk_inb : ∀ (i : grid0.Coords) (j : Fin 200), 128 * chunkNo i j.val + 128 ≤ 819200 := by decide +kernel
/-- A tile's chunks are the 200 consecutive blocks of 128 rows of its own 25,600 rows. -/
theorem chunk_row : ∀ (i : grid0.Coords) (j : Fin 200), 128 * chunkNo i j.val = 25600 * (16 * (i 0).val + (i 1).val) + 128 * j.val := by decide +kernel

/-! ## What a trip yields -/

/-- The five words a trip yields, from the five it was entered with: the region's own chain of word operations. -/
def yld (v4 : BitVec 32) (k : Fin k0_t1_loop.trips) (a6 a7 a8 a9 a10 : BitVec 32) : BitVec 32 × BitVec 32 × BitVec 32 × BitVec 32 × BitVec 32 :=
  let arg5 : BitVec 32 := Scf.iv 0#32 1#32 k
  let v64 : BitVec 1 := Scalar.cmpi .eq arg5 0#32
  let v65 : BitVec 1 := Scalar.cmpi .eq arg5 199#32
  let v66 : BitVec 32 := Scalar.addi a10 v4
  let v67 : BitVec 32 := Scalar.subi a10 1#32
  let v68 : BitVec 32 := Scalar.select 1#1 v67 a10
  let v69 : BitVec 1 := Scalar.cmpi .eq v68 4294967295#32
  let v70 : BitVec 32 := Scalar.select v69 199#32 v68
  let v71 : BitVec 32 := Scalar.addi v70 v4
  let v72 : BitVec 32 := Scalar.addi a10 1#32
  let v73 : BitVec 32 := Scalar.select 1#1 v72 a10
  let v74 : BitVec 1 := Scalar.cmpi .eq v73 200#32
  let v75 : BitVec 32 := Scalar.select v74 0#32 v73
  let v76 : BitVec 32 := Scalar.addi v75 v4
  let v82 : BitVec 1 := Scalar.cmpi .ne v66 v76
  let v83 : BitVec 1 := Scalar.cmpi .sge arg5 199#32
  let v84 : BitVec 1 := Scalar.xori v83 1#1
  let v85 : BitVec 1 := Scalar.andi v82 v84
  let v88 : BitVec 1 := Scalar.andi v85 1#1
  let v89 : BitVec 32 := Scalar.addi a6 1#32
  let v90 : BitVec 32 := Scalar.select v88 v89 a6
  let v116 : BitVec 1 := Scalar.cmpi .ne v66 v76
  let v117 : BitVec 1 := Scalar.ori v116 v65
  let v120 : BitVec 1 := Scalar.andi v117 1#1
  let v121 : BitVec 32 := Scalar.addi a8 1#32
  let v122 : BitVec 32 := Scalar.select v120 v121 a8
  let v129 : BitVec 1 := Scalar.cmpi .ne v66 v71
  let v130 : BitVec 1 := Scalar.xori v64 1#1
  let v131 : BitVec 1 := Scalar.andi v129 v130
  let v134 : BitVec 1 := Scalar.andi v131 1#1
  let v135 : BitVec 32 := Scalar.addi a9 1#32
  let v136 : BitVec 32 := Scalar.select v134 v135 a9
  let v137 : BitVec 1 := Scalar.cmpi .ne v66 v76
  let v138 : BitVec 1 := Scalar.ori v137 v65
  let v139 : BitVec 32 := Scalar.addi a7 1#32
  let v140 : BitVec 32 := Scalar.select v138 v139 a7
  let v141 : BitVec 32 := Scalar.addi a10 1#32
  let v142 : BitVec 32 := Scalar.select 1#1 v141 a10
  let v143 : BitVec 1 := Scalar.cmpi .eq v142 200#32
  let v144 : BitVec 32 := Scalar.select v143 0#32 v142
  (v90, v140, v122, v136, v144)

/-- A trip entered with the words of trip `k` yields the words of trip `k + 1`. -/
theorem yld_W : ∀ (i : grid0.Coords) (k : Fin k0_t1_loop.trips),
    yld (V4 i) k (W6 k.val) (W7 k.val) (W7 k.val) (W9 k.val) (W10 k.val)
      = (W6 (k.val + 1), W7 (k.val + 1), W7 (k.val + 1), W9 (k.val + 1), W10 (k.val + 1)) := by decide +kernel

/-- The loop is entered with the words of trip 0. -/
theorem W_zero : (Scalar.addi 0#32 1#32, (0#32 : BitVec 32), (0#32 : BitVec 32), (0#32 : BitVec 32), (0#32 : BitVec 32)) = (W6 0, W7 0, W7 0, W9 0, W10 0) := by decide +kernel

end Cert.Proof.KB
-- ==== Proof.KB.TileOff.lean ====
/-
  The closed forms of the trip's slices, one per offsets chain of the counted loop's region: each chain, at the words the loop carries before trip k, names slot k mod 2 or (k + 1) mod 2 of a scratch,
  or the chunk of trip k, k + 1 or k - 1. The forms that hold only when the step they belong to is taken (the next
  fetch when k < 199, the wait for the previous copy-out when 1 ≤ k) take that fact as a hypothesis.
-/
import proofs.«203052_g23699629540016_cont_8to1_215_27_alg».proof.Proof.KB.TileWords
import Idealize.ShloMosaic.Lib.Exec

namespace Cert.Proof.KB

open Cert.Kernel Cert.Kernel.Gen
open Idealize.ShloMosaic

theorem klt (k : Fin k0_t1_loop.trips) : k.val < 200 := trips_eq ▸ k.isLt

instance closedOff4 (k : Fin k0_t1_loop.trips) : ClosedOff (k0_off4 (W6 k.val)) := ⟨![(k.val + 1) % 2, 0, 0], off4_W k⟩
instance closedOff6 (k : Fin k0_t1_loop.trips) : ClosedOff (k0_off6 (W6 k.val)) := ⟨![(k.val + 1) % 2], off6_W k⟩
instance closedOff5 (i : grid0.Coords) (k : Fin k0_t1_loop.trips) [h : Fact (k.val < 199)] : ClosedOff (k0_off5 i (W10 k.val)) :=
  ⟨![0, 128 * chunkNo i (k.val + 1)], off5_W i k h.out⟩
instance closedOff7 (k : Fin k0_t1_loop.trips) : ClosedOff (k0_off7 (W7 k.val)) := ⟨![k.val % 2, 0, 0], off7_W k⟩
instance closedOff9 (k : Fin k0_t1_loop.trips) : ClosedOff (k0_off9 (W7 k.val)) := ⟨![k.val % 2], off9_W k⟩
instance closedOff8 (i : grid0.Coords) (k : Fin k0_t1_loop.trips) : ClosedOff (k0_off8 i (W10 k.val)) := ⟨![0, 128 * chunkNo i k.val], off8_W i k⟩
instance closedOff10 (k : Fin k0_t1_loop.trips) : ClosedOff (k0_off10 (W7 k.val)) := ⟨![k.val % 2, 0, 0], off10_W k⟩
instance closedOff11 (k : Fin k0_t1_loop.trips) : ClosedOff (k0_off11 (W7 k.val)) := ⟨![k.val % 2, 0, 0], off11_W k⟩
instance closedOff12 (k : Fin k0_t1_loop.trips) : ClosedOff (k0_off12 (W7 k.val)) := ⟨![k.val % 2, 0, 0], off12_W k⟩
instance closedOff14 (k : Fin k0_t1_loop.trips) : ClosedOff (k0_off14 (W7 k.val)) := ⟨![k.val % 2], off14_W k⟩
instance closedOff13 (i : grid0.Coords) (k : Fin k0_t1_loop.trips) : ClosedOff (k0_off13 i (W10 k.val)) := ⟨![128 * chunkNo i k.val, 0], off13_W i k⟩
instance closedOff15 (k : Fin k0_t1_loop.trips) [h : Fact (1 ≤ k.val)] : ClosedOff (k0_off15 (W9 k.val)) := ⟨![(k.val + 1) % 2, 0, 0], off15_W k h.out⟩
instance closedOff17 (k : Fin k0_t1_loop.trips) [h : Fact (1 ≤ k.val)] : ClosedOff (k0_off17 (W9 k.val)) := ⟨![(k.val + 1) % 2], off17_W k h.out⟩
instance closedOff16 (i : grid0.Coords) (k : Fin k0_t1_loop.trips) [h : Fact (1 ≤ k.val)] : ClosedOff (k0_off16 i (W10 k.val)) :=
  ⟨![128 * chunkNo i (k.val - 1), 0], off16_W i k h.out⟩
instance closedOff18 : ClosedOff (k0_off18 (W9 200)) := ⟨![1, 0, 0], off18_W⟩
instance closedOff20 : ClosedOff (k0_off20 (W9 200)) := ⟨![1], off20_W⟩
instance closedOff21 : ClosedOff (k0_off21 (W9 200)) := ⟨![1, 0, 0], off21_W⟩
instance closedOff19 (i : grid0.Coords) : ClosedOff (k0_off19 i (W10 200)) := ⟨![128 * chunkNo i 199, 0], off19_W i⟩

end Cert.Proof.KB
-- ==== Proof.KB.TileRes.lean ====
/-
  The slices the tile's task addresses, each spelt once: the two slots of the index scratch (as the [1,128] list a copy
  lands in and as the [128] list the indexed copy reads), the two slots of the row scratch, a chunk's 128 words of the
  flat index array and its 128 rows of the gathered array, the whole table as the indexed copy names it, and the five
  semaphores. A slot is number 0 or 1; a chunk is numbered over the whole array, chunk c being words (rows)
  128 c … 128 c + 127. The rows a tile has still to write and those it has finished are unions of chunk sets.
-/
import proofs.«203052_g23699629540016_cont_8to1_215_27_alg».proof.Proof.KB.Res
import proofs.«203052_g23699629540016_cont_8to1_215_27_alg».proof.Proof.KB.TileWords

noncomputable section

namespace Cert.Proof.KB

open Cert.Kernel Cert.Kernel.Gen
open Idealize.ShloMosaic
open Idealize.ShloMosaic.SparseCore (S V T)

/-! ## In range -/

theorem inbI : ∀ b : ℕ, b < 2 → ∀ a, (![b, 0, 0] : Fin 3 → ℕ) a + S1x1x128.size a ≤ S2x1x128.size a := by
  intro b hb; interval_cases b <;> decide
theorem inbR : ∀ b : ℕ, b < 2 → ∀ a, (![b, 0, 0] : Fin 3 → ℕ) a + S1x128x128.size a ≤ S2x128x128.size a := by
  intro b hb; interval_cases b <;> decide
theorem inbS : ∀ b : ℕ, b < 2 → ∀ a, (![b] : Fin 1 → ℕ) a + S1.size a ≤ S2.size a := by
  intro b hb; interval_cases b <;> decide
theorem inbIC (c : ℕ) (hc : 128 * c + 128 ≤ 819200) : ∀ a, (![0, 128 * c] : Fin 2 → ℕ) a + S1x128.size a ≤ S1x819200.size a :=
  Rect.inb₂ (by show (0 : ℕ) + 1 ≤ 1; omega) (by show 128 * c + 128 ≤ 819200; exact hc)
theorem inbOC (c : ℕ) (hc : 128 * c + 128 ≤ 819200) : ∀ a, (![128 * c, 0] : Fin 2 → ℕ) a + S128x128.size a ≤ S819200x128.size a :=
  Rect.inb₂ (by show 128 * c + 128 ≤ 819200; exact hc) (by show (0 : ℕ) + 128 ≤ 128; omega)

/-! ## The slices -/

/-- Slot `b` of the index scratch, as the list of one row a copy lands in. -/
abbrev iSl (b : ℕ) (hb : b < 2) : Memref sig .scVector .vmem S1x128 .i32 :=
  ((Memref.whole cc0_scoped0 : Memref sig .scVector .vmem S2x1x128 .i32).slice
    (Rect.unit (s := S2x1x128) ![b, 0, 0] S1x1x128.size (inbI b hb)) (fun _ => rfl)).squeeze S1x128 squeezes_S1x1x128_S1x128
/-- The same slot as the flat list of 128 words the indexed copy reads. -/
abbrev lSl (b : ℕ) (hb : b < 2) : Memref sig .scVector .vmem S128 .i32 :=
  ((iSl b hb).slice (Rect.unit (s := S1x128) ![0, 0] S1x128.size inb_S1x128_S1x128_0_0) (fun _ => rfl)).squeeze S128 squeezes_S1x128_S128
/-- Slot `b` of the row scratch. -/
abbrev rSl (b : ℕ) (hb : b < 2) : Memref sig .scVector .vmem S128x128 .f32 :=
  ((Memref.whole cc0_scoped2 : Memref sig .scVector .vmem S2x128x128 .f32).slice
    (Rect.unit (s := S2x128x128) ![b, 0, 0] S1x128x128.size (inbR b hb)) (fun _ => rfl)).squeeze S128x128 squeezes_S1x128x128_S128x128
/-- Chunk `c`'s words of the flat index array. -/
abbrev iCh (c : ℕ) (hc : 128 * c + 128 ≤ 819200) : Memref sig .scVector .hbm S1x128 .i32 :=
  (Memref.whole main_v1_scv : Memref sig .scVector .hbm S1x819200 .i32).slice
    (Rect.unit (s := S1x819200) ![0, 128 * c] S1x128.size (inbIC c hc)) (fun _ => rfl)
/-- Chunk `c`'s rows of the gathered array. -/
abbrev oCh (c : ℕ) (hc : 128 * c + 128 ≤ 819200) : Memref sig .scVector .hbm S128x128 .f32 :=
  (Memref.whole main_v3_scv : Memref sig .scVector .hbm S819200x128 .f32).slice
    (Rect.unit (s := S819200x128) ![128 * c, 0] S128x128.size (inbOC c hc)) (fun _ => rfl)
/-- The whole table, as the indexed copy names it. -/
abbrev tabV : Memref sig .scVector .hbm S1000x128 .f32 :=
  (Memref.whole main_v2_scv : Memref sig .scVector .hbm S1000x128 .f32).slice
    (Rect.unit (s := S1000x128) ![0, 0] S1000x128.size inb_S1000x128_S1000x128_0_0) (fun _ => rfl)

/-- The semaphore of index slot `b`, of row slot `b`, and the indexed copy's. -/
abbrev semI (b : ℕ) (hb : b < 2) : DmaSem sig := ((cc0_scoped1.slice (Rect.unit (s := S2) ![b] S1.size (inbS b hb))).squeeze S_ squeezes_S1_S_).sem
abbrev semO (b : ℕ) (hb : b < 2) : DmaSem sig := ((cc0_scoped3.slice (Rect.unit (s := S2) ![b] S1.size (inbS b hb))).squeeze S_ squeezes_S1_S_).sem
abbrev semG : DmaSem sig := cc0_scoped4.sem

/-! ## Rows still to write, rows finished -/

/-- The entries of chunk `c`'s rows of the gathered array. -/
def oChS (c : ℕ) : Finset S819200x128.Idx := Finset.univ.filter fun x => 128 * c ≤ (x 0).val ∧ (x 0).val < 128 * c + 128
/-- Before trip `k` the tile has still to write chunks `k … 199` and has finished chunks `0 … k - 2`
    (chunk `k - 1` is on its way out). -/
def todoS (L : grid0.Coords) (k : ℕ) : Finset S819200x128.Idx := (Finset.Ico k 200).biUnion fun j => oChS (chunkNo L j)
def doneS (L : grid0.Coords) (k : ℕ) : Finset S819200x128.Idx := (Finset.range (k - 1)).biUnion fun j => oChS (chunkNo L j)

end Cert.Proof.KB

end
-- ==== Proof.KB.TileSpell.lean ====
/-
  The task's slices at ANY offsets, and the passage between two spellings of one slice: the program names a slot or a
  chunk by the chain of word operations that computes its offsets, the proof by the slot's or the chunk's number; once
  the two offset vectors are known equal, what is held of the one slice is held of the other, whatever the evidence
  that the offsets are in range.
-/
import proofs.«203052_g23699629540016_cont_8to1_215_27_alg».proof.Proof.KB.TileRes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The slices at given offsets -/

abbrev iSlAt (off : Fin 3 → ℕ) (p : ∀ a, off a + S1x1x128.size a ≤ S2x1x128.size a) : Memref sig .scVector .vmem S1x128 .i32 :=
  ((Memref.whole cc0_scoped0 : Memref sig .scVector .vmem S2x1x128 .i32).slice (Rect.unit (s := S2x1x128) off S1x1x128.size p) (fun _ => rfl)).squeeze S1x128 squeezes_S1x1x128_S1x128
abbrev lSlAt (off : Fin 3 → ℕ) (p : ∀ a, off a + S1x1x128.size a ≤ S2x1x128.size a) : Memref sig .scVector .vmem S128 .i32 :=
  ((iSlAt off p).slice (Rect.unit (s := S1x128) ![0, 0] S1x128.size inb_S1x128_S1x128_0_0) (fun _ => rfl)).squeeze S128 squeezes_S1x128_S128
abbrev rSlAt (off : Fin 3 → ℕ) (p : ∀ a, off a + S1x128x128.size a ≤ S2x128x128.size a) : Memref sig .scVector .vmem S128x128 .f32 :=
  ((Memref.whole cc0_scoped2 : Memref sig .scVector .vmem S2x128x128 .f32).slice (Rect.unit (s := S2x128x128) off S1x128x128.size p) (fun _ => rfl)).squeeze S128x128 squeezes_S1x128x128_S128x128
abbrev iChAt (off : Fin 2 → ℕ) (p : ∀ a, off a + S1x128.size a ≤ S1x819200.size a) : Memref sig .scVector .hbm S1x128 .i32 :=
  (Memref.whole main_v1_scv : Memref sig .scVector .hbm S1x819200 .i32).slice (Rect.unit (s := S1x819200) off S1x128.size p) (fun _ => rfl)
abbrev oChAt (off : Fin 2 → ℕ) (p : ∀ a, off a + S128x128.size a ≤ S819200x128.size a) : Memref sig .scVector .hbm S128x128 .f32 :=
  (Memref.whole main_v3_scv : Memref sig .scVector .hbm S819200x128 .f32).slice (Rect.unit (s := S819200x128) off S128x128.size p) (fun _ => rfl)
abbrev semIAt (off : Fin 1 → ℕ) (p : ∀ a, off a + S1.size a ≤ S2.size a) : DmaSem sig :=
  ((cc0_scoped1.slice (Rect.unit (s := S2) off S1.size p)).squeeze S_ squeezes_S1_S_).sem
abbrev semOAt (off : Fin 1 → ℕ) (p : ∀ a, off a + S1.size a ≤ S2.size a) : DmaSem sig :=
  ((cc0_scoped3.slice (Rect.unit (s := S2) off S1.size p)).squeeze S_ squeezes_S1_S_).sem

/-! ## One slice, two spellings -/

section Spell
variable (d : Dev nD) (c : Fin τ.nSC) (j : Fin τ.nSub)

theorem pts_iSlAt {off off' : Fin 3 → ℕ} (h : off = off') (p p') (q : PosShare TreeShare) (f : Buf (Elt F) ((V d c j).loc cc0_scoped0)) :
    ((iSlAt off p).view.loc (V d c j) ↦[(iSlAt off p).view.set]{q} f : sProp 𝕄) = ((iSlAt off' p').view.loc (V d c j) ↦[(iSlAt off' p').view.set]{q} f) := by
  subst h; rfl
theorem pts_lSlAt {off off' : Fin 3 → ℕ} (h : off = off') (p p') (q : PosShare TreeShare) (f : Buf (Elt F) ((V d c j).loc cc0_scoped0)) :
    ((lSlAt off p).view.loc (V d c j) ↦[(lSlAt off p).view.set]{q} f : sProp 𝕄) = ((lSlAt off' p').view.loc (V d c j) ↦[(lSlAt off' p').view.set]{q} f) := by
  subst h; rfl
theorem pts_rSlAt {off off' : Fin 3 → ℕ} (h : off = off') (p p') (q : PosShare TreeShare) (f : Buf (Elt F) ((V d c j).loc cc0_scoped2)) :
    ((rSlAt off p).view.loc (V d c j) ↦[(rSlAt off p).view.set]{q} f : sProp 𝕄) = ((rSlAt off' p').view.loc (V d c j) ↦[(rSlAt off' p').view.set]{q} f) := by
  subst h; rfl
theorem pts_iChAt {off off' : Fin 2 → ℕ} (h : off = off') (p p') (q : PosShare TreeShare) (f : Buf (Elt F) (v1Loc d)) :
    ((iChAt off p).view.loc (V d c j) ↦[(iChAt off p).view.set]{q} f : sProp 𝕄) = ((iChAt off' p').view.loc (V d c j) ↦[(iChAt off' p').view.set]{q} f) := by
  subst h; rfl
theorem pts_oChAt {off off' : Fin 2 → ℕ} (h : off = off') (p p') (q : PosShare TreeShare) (f : Buf (Elt F) (v3Loc d)) :
    ((oChAt off p).view.loc (V d c j) ↦[(oChAt off p).view.set]{q} f : sProp 𝕄) = ((oChAt off' p').view.loc (V d c j) ↦[(oChAt off' p').view.set]{q} f) := by
  subst h; rfl
theorem semIAt_congr {off off' : Fin 1 → ℕ} (h : off = off') (p p') : semIAt off p = semIAt off' p' := by subst h; rfl
theorem semOAt_congr {off off' : Fin 1 → ℕ} (h : off = off') (p p') : semOAt off p = semOAt off' p' := by subst h; rfl

end Spell

end Cert.Proof.KB

end
-- ==== Proof.KB.TileValue.lean ====
/-
  What a tile's copies deliver, read entry by entry.

  Chunk c's 128 words of the flat index array, copied into a slot of the index scratch and read back as a flat
  list, are the words 128 c … 128 c + 127 in order: entry u of the list is word 128 c + u. The indexed copy then
  brings, for each entry u, the table row that word names into row u of a slot of the row scratch, and the copy out
  puts row u of the slot at row 128 c + u of the gathered array. So row k of the gathered array, for k in the chunk,
  is the table row named by flat word k: the gathered rows.
-/
import proofs.«203052_g23699629540016_cont_8to1_215_27_alg».proof.Proof.KB.TileRes
import proofs.«203052_g23699629540016_cont_8to1_215_27_alg».proof.Proof.KB.Stages

noncomputable section

namespace Cert.Proof.KB

open Cert.Kernel Cert.Kernel.Gen
open Idealize.ShloMosaic Idealize.ShloMosaic.ValueIdx
open Idealize.ShloMosaic.SparseCore (S V T)

variable {F : FTy → Type}

section

variable (b : ℕ) (hb : b < 2) (c : ℕ) (hc : 128 * c + 128 ≤ 819200)
  (f1 : (iCh c hc).view.ty.Contents (Elt F)) (fs : (iSl b hb).view.ty.Contents (Elt F))

/-- The flat list after chunk `c`'s words have landed in slot `b`. -/
abbrev lst : S128.Idx → Elt F .i32 :=
  (lSl b hb).view.read (Elt F) ((iSl b hb).view.write (Elt F) fs ((iCh c hc).view.read (Elt F) f1) Finset.univ)

/-- Entry `u` of the list is flat word `128 c + u`. -/
theorem lst_apply (u : S128.Idx) :
    lst b hb c hc f1 fs u
      = f1 (ix2 (⟨0, Nat.one_pos⟩ : Fin 1) (⟨128 * c + (u 0).val, by have := (u 0).isLt; have : (u 0).val < 128 := this; omega⟩ : Fin 819200)) := by
  unfold lst
  rw [View.read_apply]
  have hemb : (lSl b hb).view.emb u
      = (iSl b hb).view.emb ((Rect.unit (s := S1x128) ![0, 0] S1x128.size inb_S1x128_S1x128_0_0).emb
          (Shape.reshapeEquiv squeezes_S1x128_S128.numel_eq u)) := rfl
  rw [hemb, View.write_emb_of_mem _ _ (Finset.mem_univ _), View.read_apply]
  simp only [cast_cast, cast_eq]
  have hz := Shape.rowMajor_reshapeEquiv squeezes_S1x128_S128.numel_eq u
  rw [Shape.rowMajor_val_two, Shape.rowMajor_val_one] at hz
  obtain ⟨z, hzdef⟩ : ∃ z : S1x128.Idx, z = Shape.reshapeEquiv squeezes_S1x128_S128.numel_eq u := ⟨_, rfl⟩
  rw [← hzdef] at hz ⊢
  have hz0 : (z 0).val < 1 := (z 0).isLt
  have hz' : (z 0).val * 128 + (z 1).val = (u 0).val := hz
  refine congrArg f1 (funext fun a => Fin.ext ?_)
  match a with
  | ⟨0, _⟩ => show 0 + 1 * (0 + 1 * (z 0).val) = 0; omega
  | ⟨1, _⟩ => show 128 * c + 1 * (0 + 1 * (z 1).val) = 128 * c + (u 0).val; omega

/-- The list's words are in the table's range when the flat index array's are. -/
theorem list_in_range (hf1 : ∀ x, (f1 x).toNat < 1000) :
    ∀ x, (lst b hb c hc f1 fs x).toNat < S1000x128.size gathers_S1000x128_S128x128.axis := by
  intro x
  rw [lst_apply]
  exact hf1 _

end

section Landed

variable (b : ℕ) (hb : b < 2) (c : ℕ) (hc : 128 * c + 128 ≤ 819200)
  (f1 : (iCh c hc).view.ty.Contents (Elt F)) (f2 : tabV.view.ty.Contents (Elt F)) (f3 : (oCh c hc).view.ty.Contents (Elt F))
  (fs : (iSl b hb).view.ty.Contents (Elt F)) (fr : (rSl b hb).view.ty.Contents (Elt F))

/-- After the indexed copy and the copy out, entry `y` of chunk `c`'s rows of the gathered array is the gathered
    rows' entry there. -/
theorem landed_at (hn : S128.numel = S128x128.size gathers_S1000x128_S128x128.axis')
    (hin : ∀ x, (lst b hb c hc f1 fs x).toNat < S1000x128.size gathers_S1000x128_S128x128.axis) (y : S128x128.Idx) :
    (oCh c hc).view.write (Elt F) f3 ((rSl b hb).view.read (Elt F) ((rSl b hb).view.write (Elt F) fr
        (SparseCore.gatherPayload gathers_S1000x128_S128x128 (tabV.view.read (Elt F) f2) (SparseCore.rows (lst b hb c hc f1 fs) hn hin)) Finset.univ)) Finset.univ
      ((oCh c hc).view.emb y)
      = Stages.gathered f2 f1 ((oCh c hc).view.emb y) := by
  rw [View.read_write_univ, View.write_emb_of_mem _ _ (Finset.mem_univ _)]
  unfold SparseCore.gatherPayload
  rw [View.read_apply]
  simp only [cast_cast, cast_eq]
  unfold Stages.gathered
  -- the list entry the row `y 0` of the slot is named by, and the flat word it is
  obtain ⟨u, hudef⟩ : ∃ u : S128.Idx, u = S128.rowMajor.symm ((y 0).cast hn.symm) := ⟨_, rfl⟩
  have hu : (u 0).val = (y 0).val := by
    have h1 := Shape.rowMajor_val_one u
    rw [hudef, Equiv.apply_symm_apply] at h1
    rw [hudef]; exact h1.symm
  have hrow : (SparseCore.rows (lst b hb c hc f1 fs) hn hin (y 0)).val = (lst b hb c hc f1 fs u).toNat := by
    rw [hudef]; rfl
  have hx0 : (((oCh c hc).view.emb y) 0).val = 128 * c + (y 0).val := by
    show 128 * c + 1 * (y 0).val = _; omega
  have hw : lst b hb c hc f1 fs u
      = f1 (ix2 (⟨0, Nat.one_pos⟩ : Fin 1) (⟨(((oCh c hc).view.emb y) 0).val, (((oCh c hc).view.emb y) 0).isLt⟩ : Fin 819200)) :=
    (lst_apply b hb c hc f1 fs u).trans (congrArg f1 (congrArg (ix2 (⟨0, Nat.one_pos⟩ : Fin 1)) (Fin.ext (by show 128 * c + (u 0).val = (((oCh c hc).view.emb y) 0).val; omega))))
  have hlt : (f1 (ix2 (⟨0, Nat.one_pos⟩ : Fin 1) (⟨(((oCh c hc).view.emb y) 0).val, (((oCh c hc).view.emb y) 0).isLt⟩ : Fin 819200))).toNat < 1000 :=
    hw ▸ hin u
  refine congrArg f2 (funext fun a => Fin.ext ?_)
  match a with
  | ⟨0, _⟩ =>
    show 0 + 1 * (gathers_S1000x128_S128x128.idx (SparseCore.rows (lst b hb c hc f1 fs) hn hin) y gathers_S1000x128_S128x128.axis).val = (Spec.rowOfWord _).val
    rw [Spec.rowOfWord_val hlt, Shape.Gathers.idx_axis, ← hw]
    show 0 + 1 * (SparseCore.rows (lst b hb c hc f1 fs) hn hin (y 0)).val = _
    rw [hrow]; omega
  | ⟨1, _⟩ =>
    have h1 := Shape.Gathers.idx_of_ne gathers_S1000x128_S128x128 (SparseCore.rows (lst b hb c hc f1 fs) hn hin) y
      (⟨1, by decide⟩ : Fin S1000x128.rank) (by decide)
    exact congrArg (fun n : ℕ => 0 + 1 * n) h1

/-- The same at every entry of the chunk's rows. -/
theorem landed_value (hn : S128.numel = S128x128.size gathers_S1000x128_S128x128.axis')
    (hin : ∀ x, (lst b hb c hc f1 fs x).toNat < S1000x128.size gathers_S1000x128_S128x128.axis) :
    ∀ x ∈ (oCh c hc).view.set,
      (oCh c hc).view.write (Elt F) f3 ((rSl b hb).view.read (Elt F) ((rSl b hb).view.write (Elt F) fr
        (SparseCore.gatherPayload gathers_S1000x128_S128x128 (tabV.view.read (Elt F) f2) (SparseCore.rows (lst b hb c hc f1 fs) hn hin)) Finset.univ)) Finset.univ x
        = Stages.gathered f2 f1 x := by
  intro x hx
  obtain ⟨y, -, rfl⟩ := Finset.mem_map.mp hx
  exact landed_at b hb c hc f1 f2 f3 fs fr hn hin y

end Landed

end Cert.Proof.KB

end
-- ==== Proof.KB.TileChunks.lean ====
/-
  A tile's rows of the gathered array, chunk by chunk.

  Chunk `c` is rows `128·c … 128·c + 127`; tile `w`'s rows are `25600·w … 25600·w + 25599`; and the tile's
  chunk `j` is chunk `200·w + j` of the array, rows `25600·w + 128·j …`. So a run of consecutive chunks
  `a … b − 1` of the tile is the interval of rows `25600·w + 128·a … 25600·w + 128·b − 1`, and everything said
  here about the rows still to write and the rows finished is arithmetic on that interval's ends.
-/
import proofs.«203052_g23699629540016_cont_8to1_215_27_alg».proof.Proof.KB.TileRes
import proofs.«203052_g23699629540016_cont_8to1_215_27_alg».proof.Proof.KB.Split

noncomputable section

namespace Cert.Proof.KB

open Cert.Kernel Cert.Kernel.Gen
open Idealize.ShloMosaic

/-- The tile number of grid coordinates `L`. -/
abbrev tw (L : grid0.Coords) : Fin 32 := tileNo ⟨(L 0).val, (L 0).isLt⟩ ⟨(L 1).val, (L 1).isLt⟩

theorem tw_val (L : grid0.Coords) : (tw L).val = 16 * (L 0).val + (L 1).val := rfl

/-- The first row of the tile's chunk `j`. -/
theorem chunkNo_row (L : grid0.Coords) (j : ℕ) : 128 * chunkNo L j = 25600 * (tw L).val + 128 * j := by
  rw [tw_val]; unfold chunkNo; omega

theorem mem_oChS (c : ℕ) (x : S819200x128.Idx) : x ∈ oChS c ↔ 128 * c ≤ (x 0).val ∧ (x 0).val < 128 * c + 128 := by
  unfold oChS; rw [Finset.mem_filter]; exact ⟨fun h => h.2, fun h => ⟨Finset.mem_univ _, h⟩⟩

/-- Rows of tile `w`. -/
theorem mem_oSet (w : Fin 32) (x : S819200x128.Idx) : x ∈ oSet w ↔ 25600 * w.val ≤ (x 0).val ∧ (x 0).val < 25600 * w.val + 25600 := by
  have p0 : Shape.partIx S819200x128 0 w.val 0 * Shape.partSize S819200x128 0 32 0 = 25600 * w.val := by
    show w.val * 25600 = 25600 * w.val; omega
  have s0 : Shape.partSize S819200x128 0 32 0 = 25600 := rfl
  have p1 : Shape.partIx S819200x128 0 w.val 1 * Shape.partSize S819200x128 0 32 1 = 0 := by
    show 0 * 128 = 0; rfl
  have s1 : Shape.partSize S819200x128 0 32 1 = 128 := rfl
  rw [oSet_eq, Rect.mem_set_unit]
  constructor
  · intro h
    have h0 : Shape.partIx S819200x128 0 w.val 0 * Shape.partSize S819200x128 0 32 0 ≤ (x 0).val
        ∧ (x 0).val < Shape.partIx S819200x128 0 w.val 0 * Shape.partSize S819200x128 0 32 0 + Shape.partSize S819200x128 0 32 0 := h 0
    rw [p0, s0] at h0; exact h0
  · intro h a
    match a with
    | ⟨0, _⟩ =>
      show Shape.partIx S819200x128 0 w.val 0 * Shape.partSize S819200x128 0 32 0 ≤ (x 0).val
        ∧ (x 0).val < Shape.partIx S819200x128 0 w.val 0 * Shape.partSize S819200x128 0 32 0 + Shape.partSize S819200x128 0 32 0
      rw [p0, s0]; exact h
    | ⟨1, _⟩ =>
      show Shape.partIx S819200x128 0 w.val 1 * Shape.partSize S819200x128 0 32 1 ≤ (x 1).val
        ∧ (x 1).val < Shape.partIx S819200x128 0 w.val 1 * Shape.partSize S819200x128 0 32 1 + Shape.partSize S819200x128 0 32 1
      rw [p1, s1]
      have hx : (x 1).val < 128 := (x 1).isLt
      exact ⟨Nat.zero_le _, by omega⟩

/-- A run of the tile's consecutive chunks is an interval of rows. -/
theorem mem_chunks (L : grid0.Coords) (a b : ℕ) (x : S819200x128.Idx) :
    x ∈ (Finset.Ico a b).biUnion (fun j => oChS (chunkNo L j))
      ↔ 25600 * (tw L).val + 128 * a ≤ (x 0).val ∧ (x 0).val < 25600 * (tw L).val + 128 * b := by
  simp only [Finset.mem_biUnion, Finset.mem_Ico, mem_oChS, chunkNo_row]
  constructor
  · rintro ⟨j, ⟨hja, hjb⟩, h1, h2⟩
    constructor <;> omega
  · rintro ⟨h1, h2⟩
    refine ⟨((x 0).val - 25600 * (tw L).val) / 128, ⟨?_, ?_⟩, ?_, ?_⟩ <;> omega

/-- A chunk's slice of the gathered array is the chunk's rows. -/
theorem oCh_set (c : ℕ) (hc : 128 * c + 128 ≤ 819200) : (oCh c hc).view.set = oChS c := by
  have e : (oCh c hc).view.set = (Rect.unit (s := S819200x128) ![128 * c, 0] S128x128.size (inbOC c hc)).set := by
    show ((View.whole (main_v3_scv : Ref sig .scVector)).slice (Rect.unit (s := S819200x128) ![128 * c, 0] S128x128.size (inbOC c hc))).set = _
    rw [View.set_slice]; exact Finset.map_refl
  ext x
  rw [e, mem_oChS, Rect.mem_set_unit]
  constructor
  · intro h
    have h0 : 128 * c ≤ (x 0).val ∧ (x 0).val < 128 * c + 128 := h 0
    exact h0
  · intro h a
    match a with
    | ⟨0, _⟩ => exact h
    | ⟨1, _⟩ =>
      have hx : (x 1).val < 128 := (x 1).isLt
      exact ⟨Nat.zero_le _, by show (x 1).val < 0 + 128; omega⟩

theorem todo_zero (L : grid0.Coords) : todoS L 0 = oSet (tw L) := by
  ext x; unfold todoS; rw [mem_chunks, mem_oSet]; omega

theorem todo_step (L : grid0.Coords) {k : ℕ} (hk : k < 200) :
    todoS L k = oChS (chunkNo L k) ∪ todoS L (k + 1) ∧ Disjoint (oChS (chunkNo L k)) (todoS L (k + 1)) := by
  constructor
  · ext x; unfold todoS; rw [Finset.mem_union, mem_chunks, mem_chunks, mem_oChS, chunkNo_row]; omega
  · rw [Finset.disjoint_left]; intro x h1 h2
    unfold todoS at h2; rw [mem_chunks] at h2; rw [mem_oChS, chunkNo_row] at h1; omega

theorem todo_end (L : grid0.Coords) : todoS L 200 = ∅ := by
  simp only [todoS, Finset.Ico_self, Finset.biUnion_empty]

theorem done_small (L : grid0.Coords) {k : ℕ} (hk : k ≤ 1) : doneS L k = ∅ := by
  simp only [doneS, Nat.sub_eq_zero_of_le hk, Finset.range_zero, Finset.biUnion_empty]

theorem mem_doneS (L : grid0.Coords) (k : ℕ) (x : S819200x128.Idx) :
    x ∈ doneS L k ↔ 25600 * (tw L).val ≤ (x 0).val ∧ (x 0).val < 25600 * (tw L).val + 128 * (k - 1) := by
  unfold doneS; rw [Finset.range_eq_Ico, mem_chunks]; omega

theorem done_step (L : grid0.Coords) {k : ℕ} (h1 : 1 ≤ k) (hk : k ≤ 200) :
    doneS L (k + 1) = doneS L k ∪ oChS (chunkNo L (k - 1)) ∧ Disjoint (doneS L k) (oChS (chunkNo L (k - 1))) := by
  constructor
  · ext x; rw [Finset.mem_union, mem_doneS, mem_doneS, mem_oChS, chunkNo_row]; omega
  · rw [Finset.disjoint_left]; intro x h2 h3
    rw [mem_doneS] at h2; rw [mem_oChS, chunkNo_row] at h3; omega

theorem done_end (L : grid0.Coords) : doneS L 201 = oSet (tw L) := by
  ext x; rw [mem_doneS, mem_oSet]; try omega

end Cert.Proof.KB

end
-- ==== Proof.KB.TileSlots.lean ====
/-
  The two scratch buffers as their two slots.

  The index scratch is two lists of 128 words and the row scratch two blocks of 128 rows of 128 columns; in each,
  slot b is the part b of the buffer cut in two along its first axis. The two parts are disjoint and cover the
  buffer, so holding the buffer whole is holding its two slots, each on its own elements, and two slots held at
  any contents join to the buffer held whole at some contents. A slot read as a flat list has the same elements;
  and the five semaphores the task names are the first five DMA semaphores, in the order: the two index slots',
  the two row slots', the indexed copy's.
-/
import proofs.«203052_g23699629540016_cont_8to1_215_27_alg».proof.Proof.KB.TileRes
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A slot is a part -/

theorem idiv2 : 2 ∣ S2x1x128.size 0 := ⟨1, rfl⟩
theorem rdiv2 : 2 ∣ S2x128x128.size 0 := ⟨1, rfl⟩

/-- Slot `b` of the index scratch is part `b` of two along the first axis; -/
theorem iSlot_rect (b : ℕ) (hb : b < 2) :
    Rect.unit (s := S2x1x128) ![b, 0, 0] S1x1x128.size (inbI b hb) = Rect.part (s := S2x1x128) (a₀ := 0) idiv2 ⟨b, hb⟩ := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-- and so is slot `b` of the row scratch. -/
theorem rSlot_rect (b : ℕ) (hb : b < 2) :
    Rect.unit (s := S2x128x128) ![b, 0, 0] S1x128x128.size (inbR b hb) = Rect.part (s := S2x128x128) (a₀ := 0) rdiv2 ⟨b, hb⟩ := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

/-- The elements of slot `b`: the part's. -/
theorem iSl_set (b : ℕ) (hb : b < 2) : (iSl b hb).view.set = (Rect.part (s := S2x1x128) (a₀ := 0) idiv2 ⟨b, hb⟩).set := by
  show (((View.whole (cc0_scoped0 : Ref sig .scVector)).slice (Rect.unit (s := S2x1x128) ![b, 0, 0] S1x1x128.size (inbI b hb))).reshape S1x128
    squeezes_S1x1x128_S1x128.numel_eq).set = _
  rw [View.set_reshape, View.set_slice_whole]
  exact iSlot_rect b hb ▸ rfl
theorem rSl_set (b : ℕ) (hb : b < 2) : (rSl b hb).view.set = (Rect.part (s := S2x128x128) (a₀ := 0) rdiv2 ⟨b, hb⟩).set := by
  show (((View.whole (cc0_scoped2 : Ref sig .scVector)).slice (Rect.unit (s := S2x128x128) ![b, 0, 0] S1x128x128.size (inbR b hb))).reshape S128x128
    squeezes_S1x128x128_S128x128.numel_eq).set = _
  rw [View.set_reshape, View.set_slice_whole]
  exact rSlot_rect b hb ▸ rfl

/-! ## The buffers as their slots -/

theorem two_parts {s : Shape} {a₀ : Fin s.rank} (h : 2 ∣ s.size a₀) :
    (Rect.part (s := s) h (⟨0, by decide⟩ : Fin 2)).set ∪ (Rect.part (s := s) h (⟨1, by decide⟩ : Fin 2)).set = Finset.univ := by
  have := Rect.biUnion_part (s := s) h
  rwa [show (Finset.univ : Finset (Fin 2)) = {0, 1} by decide, Finset.biUnion_insert, Finset.singleton_biUnion] at this

theorem h02 : (0 : ℕ) < 2 := by decide
theorem h12 : (1 : ℕ) < 2 := by decide

section Slots

variable (d : Dev nD) (c : Fin τ.nSC) (j : Fin τ.nSub)

/-- The index scratch held whole is its two slots held, each on its own elements. -/
theorem iSlots_eq (fs : Buf (Elt F) ((V d c j).loc cc0_scoped0)) :
    ((V d c j).loc cc0_scoped0 ↦{fullShare} fs : sProp 𝕄)
      = iprop(((iSl 0 h02).view.loc (V d c j) ↦[(iSl 0 h02).view.set]{fullShare} fs)
          ∗ ((iSl 1 h12).view.loc (V d c j) ↦[(iSl 1 h12).view.set]{fullShare} fs)) := by
  rw [iSl_set, iSl_set]
  have hu : ((V d c j).loc cc0_scoped0 ↦[(Rect.part (s := S2x1x128) (a₀ := 0) idiv2 (⟨0, h02⟩ : Fin 2)).set ∪ (Rect.part (s := S2x1x128) (a₀ := 0) idiv2 (⟨1, h12⟩ : Fin 2)).set]{fullShare} fs : sProp 𝕄)
      ⊣⊢ iprop(((V d c j).loc cc0_scoped0 ↦[(Rect.part (s := S2x1x128) (a₀ := 0) idiv2 (⟨0, h02⟩ : Fin 2)).set]{fullShare} fs)
          ∗ ((V d c j).loc cc0_scoped0 ↦[(Rect.part (s := S2x1x128) (a₀ := 0) idiv2 (⟨1, h12⟩ : Fin 2)).set]{fullShare} fs)) :=
    pointsTo_union (Rect.part_disjoint (s := S2x1x128) (a₀ := 0) idiv2 (by decide))
  have h := equiv_iff.mp ⟨hu.1, hu.2⟩
  rw [two_parts (s := S2x1x128) (a₀ := 0) idiv2] at h
  exact h

/-- The row scratch held whole is its two slots held, each on its own elements. -/
theorem rSlots_eq (fr : Buf (Elt F) ((V d c j).loc cc0_scoped2)) :
    ((V d c j).loc cc0_scoped2 ↦{fullShare} fr : sProp 𝕄)
      = iprop(((rSl 0 h02).view.loc (V d c j) ↦[(rSl 0 h02).view.set]{fullShare} fr)
          ∗ ((rSl 1 h12).view.loc (V d c j) ↦[(rSl 1 h12).view.set]{fullShare} fr)) := by
  rw [rSl_set, rSl_set]
  have hu : ((V d c j).loc cc0_scoped2 ↦[(Rect.part (s := S2x128x128) (a₀ := 0) rdiv2 (⟨0, h02⟩ : Fin 2)).set ∪ (Rect.part (s := S2x128x128) (a₀ := 0) rdiv2 (⟨1, h12⟩ : Fin 2)).set]{fullShare} fr : sProp 𝕄)
      ⊣⊢ iprop(((V d c j).loc cc0_scoped2 ↦[(Rect.part (s := S2x128x128) (a₀ := 0) rdiv2 (⟨0, h02⟩ : Fin 2)).set]{fullShare} fr)
          ∗ ((V d c j).loc cc0_scoped2 ↦[(Rect.part (s := S2x128x128) (a₀ := 0) rdiv2 (⟨1, h12⟩ : Fin 2)).set]{fullShare} fr)) :=
    pointsTo_union (Rect.part_disjoint (s := S2x128x128) (a₀ := 0) rdiv2 (by decide))
  have h := equiv_iff.mp ⟨hu.1, hu.2⟩
  rw [two_parts (s := S2x128x128) (a₀ := 0) rdiv2] at h
  exact h

/-- Two index slots held at any contents are the index scratch held whole at some contents. -/
theorem iSlots_join (g0 g1 : Buf (Elt F) ((V d c j).loc cc0_scoped0)) :
    iprop(((iSl 0 h02).view.loc (V d c j) ↦[(iSl 0 h02).view.set]{fullShare} g0)
        ∗ ((iSl 1 h12).view.loc (V d c j) ↦[(iSl 1 h12).view.set]{fullShare} g1))
      ⊢ (iprop(∃ f, (V d c j).loc cc0_scoped0 ↦{fullShare} f) : sProp 𝕄) := by
  rw [iSl_set, iSl_set]
  have h : iprop(((V d c j).loc cc0_scoped0 ↦[(Rect.part (s := S2x1x128) (a₀ := 0) idiv2 (⟨0, h02⟩ : Fin 2)).set]{fullShare} g0)
        ∗ ((V d c j).loc cc0_scoped0 ↦[(Rect.part (s := S2x1x128) (a₀ := 0) idiv2 (⟨1, h12⟩ : Fin 2)).set]{fullShare} g1))
      ⊢ ((V d c j).loc cc0_scoped0 ↦[(Rect.part (s := S2x1x128) (a₀ := 0) idiv2 (⟨0, h02⟩ : Fin 2)).set ∪ (Rect.part (s := S2x1x128) (a₀ := 0) idiv2 (⟨1, h12⟩ : Fin 2)).set]{fullShare}
          ((Rect.part (s := S2x1x128) (a₀ := 0) idiv2 (⟨1, h12⟩ : Fin 2)).set.piecewise g1 g0) : sProp 𝕄) :=
    pointsTo_join (Rect.part_disjoint (s := S2x1x128) (a₀ := 0) idiv2 (by decide))
  rw [two_parts (s := S2x1x128) (a₀ := 0) idiv2] at h
  refine h.trans ?_
  iintro H; iexists _; iexact H

/-- Two row slots held at any contents are the row scratch held whole at some contents. -/
theorem rSlots_join (g0 g1 : Buf (Elt F) ((V d c j).loc cc0_scoped2)) :
    iprop(((rSl 0 h02).view.loc (V d c j) ↦[(rSl 0 h02).view.set]{fullShare} g0)
        ∗ ((rSl 1 h12).view.loc (V d c j) ↦[(rSl 1 h12).view.set]{fullShare} g1))
      ⊢ (iprop(∃ f, (V d c j).loc cc0_scoped2 ↦{fullShare} f) : sProp 𝕄) := by
  rw [rSl_set, rSl_set]
  have h : iprop(((V d c j).loc cc0_scoped2 ↦[(Rect.part (s := S2x128x128) (a₀ := 0) rdiv2 (⟨0, h02⟩ : Fin 2)).set]{fullShare} g0)
        ∗ ((V d c j).loc cc0_scoped2 ↦[(Rect.part (s := S2x128x128) (a₀ := 0) rdiv2 (⟨1, h12⟩ : Fin 2)).set]{fullShare} g1))
      ⊢ ((V d c j).loc cc0_scoped2 ↦[(Rect.part (s := S2x128x128) (a₀ := 0) rdiv2 (⟨0, h02⟩ : Fin 2)).set ∪ (Rect.part (s := S2x128x128) (a₀ := 0) rdiv2 (⟨1, h12⟩ : Fin 2)).set]{fullShare}
          ((Rect.part (s := S2x128x128) (a₀ := 0) rdiv2 (⟨1, h12⟩ : Fin 2)).set.piecewise g1 g0) : sProp 𝕄) :=
    pointsTo_join (Rect.part_disjoint (s := S2x128x128) (a₀ := 0) rdiv2 (by decide))
  rw [two_parts (s := S2x128x128) (a₀ := 0) rdiv2] at h
  refine h.trans ?_
  iintro H; iexists _; iexact H

end Slots

/-! ## A slot as a flat list; the semaphores -/

theorem zero2 : (![0, 0] : Fin 2 → Nat) = fun _ => 0 := funext fun a => by fin_cases a <;> rfl

/-- A slot read as a flat list has the slot's elements. -/
theorem lSl_set (b : ℕ) (hb : b < 2) : (lSl b hb).view.set = (iSl b hb).view.set := by
  show (((iSl b hb).view.slice (Rect.unit (s := S1x128) ![0, 0] S1x128.size inb_S1x128_S1x128_0_0)).reshape S128 squeezes_S1x128_S128.numel_eq).set = _
  rw [View.set_reshape, View.set_slice,
    show (Rect.unit (s := S1x128) ![0, 0] S1x128.size inb_S1x128_S1x128_0_0).set = Finset.univ from
      Finset.eq_univ_iff_forall.mpr fun y => View.mem_set_unit_zero zero2 _ y]
  rfl

theorem semI_val : ∀ (b : ℕ) (hb : b < 2), semI b hb = (⟨b, by omega⟩ : Fin 9) := by
  intro b hb
  match b, hb with
  | 0, _ => exact (by decide +kernel : semI 0 h02 = (⟨0, by decide⟩ : Fin 9))
  | 1, _ => exact (by decide +kernel : semI 1 h12 = (⟨1, by decide⟩ : Fin 9))
theorem semO_val : ∀ (b : ℕ) (hb : b < 2), semO b hb = (⟨2 + b, by omega⟩ : Fin 9) := by
  intro b hb
  match b, hb with
  | 0, _ => exact (by decide +kernel : semO 0 h02 = (⟨2, by decide⟩ : Fin 9))
  | 1, _ => exact (by decide +kernel : semO 1 h12 = (⟨3, by decide⟩ : Fin 9))
theorem semG_val : semG = (⟨4, by decide⟩ : Fin 9) := by decide +kernel

end Cert.Proof.KB

end
-- ==== Proof.KB.TileInv.lean ====
/-
  The counted loop's invariant: what the tile holds before trip k.

  The five carried words are those of trip k. Index slot k mod 2 is being filled with chunk k's words (while k < 200):
  the fetch is in flight on the slot's semaphore, lent the chunk's words of the slot's half-share of the flat index
  array, whose other words the tile keeps. The other index slot is at rest: some contents, its semaphore at zero, its
  half-share of the index array whole. Row slot k mod 2 is at rest. The other row slot is being copied out to chunk
  k - 1's rows of the gathered array (when 1 ≤ k), which the copy delivers at the gathered rows; before trip 0 it is at
  rest. Chunks 0 … k - 2's rows hold the gathered rows, chunks k … 199's are as the task found them. The table share,
  the indexed copy's semaphore at zero, and what the thread owes, with every wait recorded since at the kernels' index.
-/
import proofs.«203052_g23699629540016_cont_8to1_215_27_alg».proof.Proof.KB.TileOff
import proofs.«203052_g23699629540016_cont_8to1_215_27_alg».proof.Proof.KB.TileSpell
import proofs.«203052_g23699629540016_cont_8to1_215_27_alg».proof.Proof.KB.TileValue
import proofs.«203052_g23699629540016_cont_8to1_215_27_alg».proof.Proof.KB.TileChunks
import proofs.«203052_g23699629540016_cont_8to1_215_27_alg».proof.Proof.KB.TileSlots

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's thread, its semaphore cells and its two scratch buffers -/

abbrev cV (L : grid0.Coords) : Fin τ.nSC := (L 0).castLE hcore0
abbrev jV (L : grid0.Coords) : Fin τ.nSub := (L 1).castLE hsub0
abbrev wL (L : grid0.Coords) : Fin 32 := tileNo ⟨(L 0).val, (L 0).isLt⟩ ⟨(L 1).val, (L 1).isLt⟩

/-- The tile's DMA semaphore `n`, as a cell. -/
abbrev dcell (d : Dev nD) (L : grid0.Coords) (n : DmaSem sig) : GSem nD τ sig := (V d (cV L) (jV L), SemLoc.dma n)

theorem dcell_ne (d : Dev nD) (L : grid0.Coords) {n m : DmaSem sig} (h : n ≠ m) : dcell d L n ≠ dcell d L m :=
  fun e => h (SemLoc.dma.inj (congrArg Prod.snd e))

theorem dcell_mem (d : Dev nD) (L : grid0.Coords) (n : DmaSem sig) : dcell d L n ∈ ownCells (V d (cV L) (jV L)) :=
  (mem_ownCells (g := dcell d L n)).mpr ⟨rfl, rfl⟩

theorem sems_ne : semI 1 h12 ≠ semI 0 h02 ∧ semO 0 h02 ≠ semI 0 h02 ∧ semO 0 h02 ≠ semI 1 h12 ∧ semO 1 h12 ≠ semI 0 h02 ∧ semO 1 h12 ≠ semI 1 h12
    ∧ semO 1 h12 ≠ semO 0 h02 ∧ semG ≠ semI 0 h02 ∧ semG ≠ semI 1 h12 ∧ semG ≠ semO 0 h02 ∧ semG ≠ semO 1 h12 := by decide +kernel

/-- The five semaphores the task uses are among the tile's own: they, each at zero, and the rest. -/
theorem ownSems0_V5 (d : Dev nD) (L : grid0.Coords) :
    (ownSems0 (V d (cV L) (jV L)) : sProp 𝕄)
      = iprop(semVal (dcell d L (semI 0 h02)) 0 ∗ semVal (dcell d L (semI 1 h12)) 0 ∗ semVal (dcell d L (semO 0 h02)) 0 ∗ semVal (dcell d L (semO 1 h12)) 0
          ∗ semVal (dcell d L semG) 0
          ∗ bigSep ((((((ownCells (V d (cV L) (jV L))).erase (dcell d L (semI 0 h02))).erase (dcell d L (semI 1 h12))).erase (dcell d L (semO 0 h02))).erase
              (dcell d L (semO 1 h12))).erase (dcell d L semG))
              fun g => semVal g 0) := by
  obtain ⟨n10, n20, n21, n30, n31, n32, n40, n41, n42, n43⟩ := sems_ne
  unfold SparseCore.Cfg.ownSems0
  rw [SparseCore.bigSep_erase' (dcell_mem d L _),
    SparseCore.bigSep_erase' (Finset.mem_erase.mpr ⟨dcell_ne d L n10, dcell_mem d L _⟩),
    SparseCore.bigSep_erase' (Finset.mem_erase.mpr ⟨dcell_ne d L n21, Finset.mem_erase.mpr ⟨dcell_ne d L n20, dcell_mem d L _⟩⟩),
    SparseCore.bigSep_erase' (Finset.mem_erase.mpr ⟨dcell_ne d L n32, Finset.mem_erase.mpr ⟨dcell_ne d L n31,
      Finset.mem_erase.mpr ⟨dcell_ne d L n30, dcell_mem d L _⟩⟩⟩),
    SparseCore.bigSep_erase' (Finset.mem_erase.mpr ⟨dcell_ne d L n43, Finset.mem_erase.mpr ⟨dcell_ne d L n42,
      Finset.mem_erase.mpr ⟨dcell_ne d L n41, Finset.mem_erase.mpr ⟨dcell_ne d L n40, dcell_mem d L _⟩⟩⟩⟩)]

/-- The two scratch buffers are among the tile's own: they, each at some contents, and the rest. -/
theorem ownBufs_V2 (d : Dev nD) (L : grid0.Coords) :
    (ownBufs (V d (cV L) (jV L)) : sProp 𝕄)
      = iprop((∃ f, (V d (cV L) (jV L)).loc cc0_scoped0 ↦{fullShare} f) ∗ (∃ f, (V d (cV L) (jV L)).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

theorem Flight_sem_congr {thr : Thread nD τ} {s s' : DmaSem sig} (h : s = s') (N : ℕ) (D : sProp 𝕄) :
    (Transfers.Flight countersEmb thr (SemLoc.dma s) (default : HIx 1) N D : sProp 𝕄) = Transfers.Flight countersEmb thr (SemLoc.dma s') (default : HIx 1) N D := by
  subst h; rfl
theorem semVal_sem_congr {thr : Thread nD τ} {s s' : DmaSem sig} (h : s = s') :
    (semVal (thr, SemLoc.dma s) 0 : sProp 𝕄) = semVal (thr, SemLoc.dma s') 0 := by
  subst h; rfl

theorem lSlAt_set (off : Fin 3 → ℕ) (p : ∀ a, off a + S1x1x128.size a ≤ S2x1x128.size a) : (lSlAt off p).view.set = (iSlAt off p).view.set := by
  show (((iSlAt off p).view.slice (Rect.unit (s := S1x128) ![0, 0] S1x128.size inb_S1x128_S1x128_0_0)).reshape S128 squeezes_S1x128_S128.numel_eq).set = _
  rw [View.set_reshape, View.set_slice, Rect.set_eq_univ_of_whole _ (fun a => ⟨by fin_cases a <;> rfl, rfl, rfl⟩)]
  rfl

theorem pts_list (d : Dev nD) (c : Fin τ.nSC) (j : Fin τ.nSub) (off : Fin 3 → ℕ) (p : ∀ a, off a + S1x1x128.size a ≤ S2x1x128.size a)
    (q : PosShare TreeShare) (f : Buf (Elt F) ((V d c j).loc cc0_scoped0)) :
    ((iSlAt off p).view.loc (V d c j) ↦[(iSlAt off p).view.set]{q} f : sProp 𝕄) = ((lSlAt off p).view.loc (V d c j) ↦[(lSlAt off p).view.set]{q} f) := by
  rw [lSlAt_set]

theorem hin_at {off : Fin 3 → ℕ} {b : ℕ} (hb : b < 2) (h : off = ![b, 0, 0]) (p : ∀ a, off a + S1x1x128.size a ≤ S2x1x128.size a)
    (X : (iSl b hb).view.ty.Contents (Elt F)) (n : ℕ)
    (hX : ∀ x, ((lSl b hb).view.read (Elt F) X x).toNat < n) : ∀ x, ((lSlAt off p).view.read (Elt F) X x).toNat < n := by
  subst h; exact hX

/-! ## Parities, chunks, half-shares -/

theorem par_lt (k : ℕ) : k % 2 < 2 := Nat.mod_lt _ (by decide)
theorem cinb (L : grid0.Coords) (j : ℕ) (hj : j < 200) : 128 * chunkNo L j + 128 ≤ 819200 := chunk_inb L ⟨j, hj⟩

/-- The half of the tile's share of the flat index array that index slot `b`'s fetches read through. -/
def qI (L : grid0.Coords) (b : ℕ) : PosShare TreeShare := if b = 0 then (tsh (wL L)).left else (tsh (wL L)).right

/-! ## The pieces -/

section Inv

variable (d : Dev nD) (L : grid0.Coords) (f1 : Buf (Elt F) (v1Loc d)) (f2 : Buf (Elt F) (v2Loc d)) (f3 : Buf (Elt F) (v3Loc d))
  (O : CellTallies nD τ sig (HIx 1)) (W : Waits sig (HIx 1))

/-- Index slot `b` at rest. -/
def IdxRest (b : ℕ) (hb : b < 2) : sProp 𝕄 :=
  iprop((∃ fs, (iSl b hb).view.loc (V d (cV L) (jV L)) ↦[(iSl b hb).view.set]{fullShare} fs)
    ∗ semVal (V d (cV L) (jV L), SemLoc.dma (semI b hb)) 0
    ∗ ((Memref.whole main_v1_scv : Memref sig .scVector .hbm S1x819200 .i32).view.loc (V d (cV L) (jV L)) ↦{qI L b} f1))

/-- Chunk `j`'s words on their way into index slot `b`. -/
def IdxFly (j : ℕ) (hc : 128 * chunkNo L j + 128 ≤ 819200) (b : ℕ) (hb : b < 2) : sProp 𝕄 :=
  iprop((∃ fs, Transfers.Flight countersEmb (V d (cV L) (jV L)) (SemLoc.dma (semI b hb)) (default : HIx 1) 4096
        iprop(((iSl b hb).view.loc (V d (cV L) (jV L)) ↦[(iSl b hb).view.set]{fullShare}
                (iSl b hb).view.writes (Elt F) fs [⟨Rect.whole S1x128, (iCh (chunkNo L j) hc).view.read (Elt F) f1⟩])
          ∗ ((iCh (chunkNo L j) hc).view.loc (V d (cV L) (jV L)) ↦[(iCh (chunkNo L j) hc).view.set]{qI L b} f1)))
    ∗ (v1Loc d ↦[Finset.univ \ (iCh (chunkNo L j) hc).view.set]{qI L b} f1))

/-- Row slot `b` at rest. -/
def RowRest (b : ℕ) (hb : b < 2) : sProp 𝕄 :=
  iprop((∃ fr, (rSl b hb).view.loc (V d (cV L) (jV L)) ↦[(rSl b hb).view.set]{fullShare} fr)
    ∗ semVal (V d (cV L) (jV L), SemLoc.dma (semO b hb)) 0)

/-- Row slot `b` on its way out to chunk `j`'s rows, which land at the gathered rows. -/
def OutFly (j : ℕ) (hc : 128 * chunkNo L j + 128 ≤ 819200) (b : ℕ) (hb : b < 2) : sProp 𝕄 :=
  Transfers.Flight countersEmb (V d (cV L) (jV L)) (SemLoc.dma (semO b hb)) (default : HIx 1) 524288
    iprop(((oCh (chunkNo L j) hc).view.loc (V d (cV L) (jV L)) ↦[(oCh (chunkNo L j) hc).view.set]{fullShare} Stages.gathered f2 f1)
      ∗ (∃ fr, (rSl b hb).view.loc (V d (cV L) (jV L)) ↦[(rSl b hb).view.set]{fullShare} fr))

theorem IdxRest_congr {b b' : ℕ} (h : b = b') (hb : b < 2) (hb' : b' < 2) : IdxRest d L f1 b hb = IdxRest d L f1 b' hb' := by subst h; rfl
theorem RowRest_congr {b b' : ℕ} (h : b = b') (hb : b < 2) (hb' : b' < 2) : RowRest (F := F) d L b hb = RowRest d L b' hb' := by subst h; rfl
theorem IdxFly_congr {j j' b b' : ℕ} (hj : j = j') (h : b = b') (hc hc') (hb : b < 2) (hb' : b' < 2) :
    IdxFly d L f1 j hc b hb = IdxFly d L f1 j' hc' b' hb' := by subst hj; subst h; rfl
theorem OutFly_congr {j j' b b' : ℕ} (hj : j = j') (h : b = b') (hc hc') (hb : b < 2) (hb' : b' < 2) :
    OutFly d L f1 f2 j hc b hb = OutFly d L f1 f2 j' hc' b' hb' := by subst hj; subst h; rfl

/-- What the tile holds before trip `k`, the carried words being `acc`. -/
def Inv (k : ℕ) (acc : BitVec 32 × BitVec 32 × BitVec 32 × BitVec 32 × BitVec 32) : sProp 𝕄 :=
  iprop(⌜acc = (W6 k, W7 k, W7 k, W9 k, W10 k)⌝
    ∗ Transfers.MayWaits (V d (cV L) (jV L)) (default : HIx 1) O
    ∗ ((Memref.whole main_v2_scv : Memref sig .scVector .hbm S1000x128 .f32).view.loc (V d (cV L) (jV L)) ↦{tsh (wL L)} f2)
    ∗ semVal (V d (cV L) (jV L), SemLoc.dma semG) 0
    ∗ (if h : k < 200 then IdxFly d L f1 k (cinb L k h) (k % 2) (par_lt k) else IdxRest d L f1 (k % 2) (par_lt k))
    ∗ IdxRest d L f1 ((k + 1) % 2) (par_lt (k + 1))
    ∗ RowRest d L (k % 2) (par_lt k)
    ∗ (if h : 1 ≤ k ∧ k ≤ 200 then OutFly d L f1 f2 (k - 1) (cinb L (k - 1) (by omega)) ((k + 1) % 2) (par_lt (k + 1))
        else RowRest d L ((k + 1) % 2) (par_lt (k + 1)))
    ∗ (v3Loc d ↦[doneS L k]{fullShare} Stages.gathered f2 f1)
    ∗ (v3Loc d ↦[todoS L k]{fullShare} f3)
    ∗ ∃ W', ⌜∀ p ∈ W', p ∈ W ∨ p.2 = none⌝ ∗ owes (V d (cV L) (jV L)) O W')

/-! ## What a fetch and a copy-out leave, in the slices' own names -/

/-- What the fetch of a chunk delivers, named by the program's offsets, is what it delivers named by slot and chunk. -/
theorem idxLanded_eq {o4 : Fin 3 → ℕ} {o5 : Fin 2 → ℕ} {b c : ℕ} (hb : b < 2) (hc : 128 * c + 128 ≤ 819200) (h4 : o4 = ![b, 0, 0]) (h5 : o5 = ![0, 128 * c])
    (p4 : ∀ a, o4 a + S1x1x128.size a ≤ S2x1x128.size a) (p5 : ∀ a, o5 a + S1x128.size a ≤ S1x819200.size a)
    (q : PosShare TreeShare) (fs : Buf (Elt F) ((V d (cV L) (jV L)).loc cc0_scoped0)) :
    (iprop(((iSlAt o4 p4).view.loc (V d (cV L) (jV L)) ↦[(iSlAt o4 p4).view.set]{fullShare}
            (iSlAt o4 p4).view.writes (Elt F) fs [⟨Rect.whole S1x128, (iChAt o5 p5).view.read (Elt F) f1⟩])
        ∗ ((iChAt o5 p5).view.loc (V d (cV L) (jV L)) ↦[(iChAt o5 p5).view.set]{q} f1)) : sProp 𝕄)
      = iprop(((iSl b hb).view.loc (V d (cV L) (jV L)) ↦[(iSl b hb).view.set]{fullShare}
            (iSl b hb).view.writes (Elt F) fs [⟨Rect.whole S1x128, (iCh c hc).view.read (Elt F) f1⟩])
        ∗ ((iCh c hc).view.loc (V d (cV L) (jV L)) ↦[(iCh c hc).view.set]{q} f1)) := by
  subst h4; subst h5; rfl

/-- What the copy-out of a row slot delivers to its chunk's rows, named by the program's offsets: the gathered rows. -/
theorem outLanded_eq {o10 o11 o12 : Fin 3 → ℕ} {o13 : Fin 2 → ℕ} {b c : ℕ} (hb : b < 2) (hc : 128 * c + 128 ≤ 819200)
    (h10 : o10 = ![b, 0, 0]) (h11 : o11 = ![b, 0, 0]) (h12 : o12 = ![b, 0, 0]) (h13 : o13 = ![128 * c, 0])
    (p10 : ∀ a, o10 a + S1x128x128.size a ≤ S2x128x128.size a) (p11 : ∀ a, o11 a + S1x1x128.size a ≤ S2x1x128.size a)
    (p12 : ∀ a, o12 a + S1x128x128.size a ≤ S2x128x128.size a) (p13 : ∀ a, o13 a + S128x128.size a ≤ S819200x128.size a)
    (fs : Buf (Elt F) ((V d (cV L) (jV L)).loc cc0_scoped0)) (fr : Buf (Elt F) ((V d (cV L) (jV L)).loc cc0_scoped2))
    (hn : S128.numel = S128x128.size gathers_S1000x128_S128x128.axis')
    (HIN : ∀ x, ((lSlAt o11 p11).view.read (Elt F) ((iSl b hb).view.write (Elt F) fs ((iCh c hc).view.read (Elt F) f1) Finset.univ) x).toNat
      < S1000x128.size gathers_S1000x128_S128x128.axis) :
    ((oChAt o13 p13).view.loc (V d (cV L) (jV L)) ↦[(oChAt o13 p13).view.set]{fullShare}
        (oChAt o13 p13).view.writes (Elt F) f3 [⟨Rect.whole S128x128, (rSlAt o12 p12).view.read (Elt F)
          ((rSlAt o10 p10).view.write (Elt F) fr (SparseCore.gatherPayload gathers_S1000x128_S128x128 (tabV.view.read (Elt F) f2)
            (SparseCore.rows ((lSlAt o11 p11).view.read (Elt F) ((iSl b hb).view.write (Elt F) fs ((iCh c hc).view.read (Elt F) f1) Finset.univ)) hn HIN))
            Finset.univ)⟩] : sProp 𝕄)
      = ((oCh c hc).view.loc (V d (cV L) (jV L)) ↦[(oCh c hc).view.set]{fullShare} Stages.gathered f2 f1) := by
  subst h10; subst h11; subst h12; subst h13
  have e := View.write_univ_eq_writes_whole (Val := Elt F) (oCh c hc).view f3 []
    ((rSl b hb).view.read (Elt F) ((rSl b hb).view.write (Elt F) fr (SparseCore.gatherPayload gathers_S1000x128_S128x128 (tabV.view.read (Elt F) f2)
      (SparseCore.rows (lst b hb c hc f1 fs) hn HIN)) Finset.univ))
  exact (congrArg (fun g => ((oCh c hc).view.loc (V d (cV L) (jV L)) ↦[(oCh c hc).view.set]{fullShare} g : sProp 𝕄)) e.symm).trans
    (pointsTo_congr (landed_value b hb c hc f1 f2 f3 fs fr hn HIN))

/-- A fetch in flight named by the program's offsets is the invariant's fetch in flight, the offsets being the slot's and
    the chunk's. -/
theorem idxFly_of {o4 : Fin 3 → ℕ} {o5 : Fin 2 → ℕ} {o6 : Fin 1 → ℕ} {b j : ℕ} (hb : b < 2) (hc : 128 * chunkNo L j + 128 ≤ 819200)
    (h4 : o4 = ![b, 0, 0]) (h5 : o5 = ![0, 128 * chunkNo L j]) (h6 : o6 = ![b])
    (p4 : ∀ a, o4 a + S1x1x128.size a ≤ S2x1x128.size a) (p5 : ∀ a, o5 a + S1x128.size a ≤ S1x819200.size a) (p6 : ∀ a, o6 a + S1.size a ≤ S2.size a)
    (fs : Buf (Elt F) ((V d (cV L) (jV L)).loc cc0_scoped0)) :
    (iprop(Transfers.Flight countersEmb (V d (cV L) (jV L)) (SemLoc.dma (semIAt o6 p6)) (default : HIx 1) 4096
        iprop(((iSlAt o4 p4).view.loc (V d (cV L) (jV L)) ↦[(iSlAt o4 p4).view.set]{fullShare}
                (iSlAt o4 p4).view.writes (Elt F) fs [⟨Rect.whole S1x128, (iChAt o5 p5).view.read (Elt F) f1⟩])
          ∗ ((iChAt o5 p5).view.loc (V d (cV L) (jV L)) ↦[(iChAt o5 p5).view.set]{qI L b} f1))
      ∗ (v1Loc d ↦[Finset.univ \ (iCh (chunkNo L j) hc).view.set]{qI L b} f1)) : sProp 𝕄)
    ⊢ IdxFly d L f1 j hc b hb := by
  subst h4; subst h5; subst h6
  unfold IdxFly
  iintro ⟨H, Hr⟩
  isplitl [H]
  · iexists fs; iexact H
  · iexact Hr

/-- A copy-out in flight named by the program's offsets is the invariant's copy-out in flight, the offsets being the
    slot's and the chunk's: what it delivers to the chunk's rows is the gathered rows. -/
theorem outFly_of {o10 o11 o12 : Fin 3 → ℕ} {o13 : Fin 2 → ℕ} {o14 : Fin 1 → ℕ} {b j : ℕ} (hb : b < 2) (hc : 128 * chunkNo L j + 128 ≤ 819200)
    (h10 : o10 = ![b, 0, 0]) (h11 : o11 = ![b, 0, 0]) (h12 : o12 = ![b, 0, 0]) (h13 : o13 = ![128 * chunkNo L j, 0]) (h14 : o14 = ![b])
    (p10 : ∀ a, o10 a + S1x128x128.size a ≤ S2x128x128.size a) (p11 : ∀ a, o11 a + S1x1x128.size a ≤ S2x1x128.size a)
    (p12 : ∀ a, o12 a + S1x128x128.size a ≤ S2x128x128.size a) (p13 : ∀ a, o13 a + S128x128.size a ≤ S819200x128.size a)
    (p14 : ∀ a, o14 a + S1.size a ≤ S2.size a)
    (fs : Buf (Elt F) ((V d (cV L) (jV L)).loc cc0_scoped0)) (fr : Buf (Elt F) ((V d (cV L) (jV L)).loc cc0_scoped2))
    (hn : S128.numel = S128x128.size gathers_S1000x128_S128x128.axis')
    (HIN : ∀ x, ((lSlAt o11 p11).view.read (Elt F) ((iSl b hb).view.write (Elt F) fs ((iCh (chunkNo L j) hc).view.read (Elt F) f1) Finset.univ) x).toNat
      < S1000x128.size gathers_S1000x128_S128x128.axis) :
    (Transfers.Flight countersEmb (V d (cV L) (jV L)) (SemLoc.dma (semOAt o14 p14)) (default : HIx 1) 524288
      iprop(((oChAt o13 p13).view.loc (V d (cV L) (jV L)) ↦[(oChAt o13 p13).view.set]{fullShare}
              (oChAt o13 p13).view.writes (Elt F) f3 [⟨Rect.whole S128x128, (rSlAt o12 p12).view.read (Elt F)
                ((rSlAt o10 p10).view.write (Elt F) fr (SparseCore.gatherPayload gathers_S1000x128_S128x128 (tabV.view.read (Elt F) f2)
                  (SparseCore.rows ((lSlAt o11 p11).view.read (Elt F) ((iSl b hb).view.write (Elt F) fs ((iCh (chunkNo L j) hc).view.read (Elt F) f1) Finset.univ)) hn HIN))
                  Finset.univ)⟩])
        ∗ ((rSlAt o12 p12).view.loc (V d (cV L) (jV L)) ↦[(rSlAt o12 p12).view.set]{fullShare}
            (rSlAt o10 p10).view.write (Elt F) fr (SparseCore.gatherPayload gathers_S1000x128_S128x128 (tabV.view.read (Elt F) f2)
              (SparseCore.rows ((lSlAt o11 p11).view.read (Elt F) ((iSl b hb).view.write (Elt F) fs ((iCh (chunkNo L j) hc).view.read (Elt F) f1) Finset.univ)) hn HIN))
              Finset.univ)) : sProp 𝕄)
    ⊢ OutFly d L f1 f2 j hc b hb := by
  subst h14
  unfold OutFly
  refine Transfers.Flight_mono (EC := countersEmb) (c := V d (cV L) (jV L)) ?_
  iintro ⟨Hd, Hs⟩
  isplitl [Hd]
  · iapply (Entails.of_eq (outLanded_eq (F := F) d L f1 f2 f3 hb hc h10 h11 h12 h13 p10 p11 p12 p13 fs fr hn HIN)); iexact Hd
  · iexists _
    iapply (Entails.of_eq (pts_rSlAt (F := F) d (cV L) (jV L) h12 p12 (inbR _ hb) fullShare _)); iexact Hs

end Inv

end Cert.Proof.KB

end
-- ==== Proof.KB.TileTripA.lean ====
import proofs.«203052_g23699629540016_cont_8to1_215_27_alg».proof.Proof.KB.TileInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

set_option maxHeartbeats 8000000 in
/-- The first trip, `k = 0`: no copy-out is pending yet, so the wait for one is skipped. -/
theorem trip_first [FloatOps F] (d : Dev nD) (L : grid0.Coords) (f1 : Buf (Elt F) (v1Loc d)) (f2 : Buf (Elt F) (v2Loc d)) (f3 : Buf (Elt F) (v3Loc d))
    (hin : ∀ x, (f1 x).toNat < 1000) (O : CellTallies nD τ sig (HIx 1)) (W : Waits sig (HIx 1))
    (k : Fin k0_t1_loop.trips) (hk0 : k.val = 0) (acc : BitVec 32 × BitVec 32 × BitVec 32 × BitVec 32 × BitVec 32) :
    Inv d L f1 f2 f3 O W k.val acc
      ⊢ wp frame (wpE (defs₀ (F := F)) 𝒱₀ (V d (cV L) (jV L)) none) Set.univ
          (k0_t1_body L (Memref.whole main_v2_scv) (Memref.isWhole_whole _) (Memref.whole main_v1_scv) (Memref.isWhole_whole _) (Memref.whole main_v3_scv) (Memref.isWhole_whole _)
            (Memref.whole cc0_scoped0) (Memref.isWhole_whole _) cc0_scoped1 (Memref.whole cc0_scoped2) (Memref.isWhole_whole _) cc0_scoped3 cc0_scoped4 (V4 L) k acc)
          (Inv d L f1 f2 f3 O W (k.val + 1)) := by
  have hk200 : k.val < 200 := klt k
  have hk2 : k.val < 199 := by omega
  have hnk1 : ¬ 1 ≤ k.val := by omega
  have hb : k.val % 2 < 2 := par_lt _
  have hb' : (k.val + 1) % 2 < 2 := par_lt _
  have hc := cinb L k.val hk200
  have hc1 := cinb L (k.val + 1) (by omega)
  generalize hQ : Inv d L f1 f2 f3 O W (k.val + 1) = Q
  unfold Inv
  rw [dif_pos hk200]
  rw [dif_neg (by omega : ¬ (1 ≤ k.val ∧ k.val ≤ 200))]
  unfold IdxFly IdxRest RowRest
  iintro ⟨%hacc, #Hmw, Ht, HcG, ⟨⟨%fsA, HflI⟩, Hirest⟩, ⟨⟨%fsB, HsB⟩, HcB, HiB⟩, ⟨⟨%frA, HrA⟩, HcOA⟩, ⟨⟨%frB, HrB⟩, HcOB⟩, Hdone, Htodo, %W', %hW', HO⟩
  subst hacc
  have hw3 := chk3_W k
  have hw2 := chk2_W k
  have hw1 := chk1_W L k
  have h2 := cond2_true L k
  have h5 := cond5_true L k
  have h1 : k0_cond1 L k (W10 k.val) = 1#1 := (cond1_iff L k).2 hk2
  have h7 : ¬ k0_cond7 L k (W10 k.val) = 1#1 := fun h => hnk1 ((cond7_iff L k).1 h)
  have p4 := k0_off4_inb L k _ _ _ _ _ hw1 h1
  have p5 := k0_off5_inb L k _ _ _ _ _ hw1 h1
  have p6 := k0_off6_inb L k _ _ _ _ _ hw1 h1
  have p7 := k0_off7_inb L k _ _ _ _ _ hw1 h2
  have p8 := k0_off8_inb L k _ _ _ _ _ hw1 h2
  have p9 := k0_off9_inb L k _ _ _ _ _ hw1 h2
  have p10 := k0_off10_inb _ hw2
  have p11 := k0_off11_inb _ hw3
  have p12 := k0_off12_inb L k _ _ _ _ _ hw1 h5
  have p13 := k0_off13_inb L k _ _ _ _ _ hw1 h5
  have p14 := k0_off14_inb L k _ _ _ _ _ hw1 h5
  -- chunk k + 1's words out of the other slot's half-share
  have hsubI : ((iCh (chunkNo L (k.val + 1)) hc1).view.set : Finset (Idx (v1Loc d))) ⊆ Finset.univ := Finset.subset_univ _
  ihave HiB2 := (pointsTo_split_subset (q := qI L ((k.val + 1) % 2)) (f := f1) hsubI).1 $$ HiB
  icases HiB2 with ⟨Hi1, HiBrest⟩
  -- chunk k's rows out of the rows still to write
  obtain ⟨etodo, dtodo⟩ := todo_step L hk200
  ihave Htodo1 := (Entails.of_eq (congrArg (fun S => (v3Loc d ↦[S]{fullShare} f3 : sProp 𝕄)) etodo)) $$ Htodo
  ihave Htodo2 := (pointsTo_union (q := fullShare) (f := f3) dtodo).1 $$ Htodo1
  icases Htodo2 with ⟨Ho0, Htodo'⟩
  ihave Ho := (Entails.of_eq (congrArg (fun S => (v3Loc d ↦[S]{fullShare} f3 : sProp 𝕄)) (oCh_set (chunkNo L k.val) hc).symm)) $$ Ho0
  -- segment 1: the next fetch, the wait for this trip's fetch
  ihave HsB' := (Entails.of_eq (pts_iSlAt (F := F) d (cV L) (jV L) (off4_W k).symm (inbI _ hb') p4 fullShare fsB)) $$ HsB
  ihave Hi1' := (Entails.of_eq (pts_iChAt (F := F) d (cV L) (jV L) (off5_W L k hk2).symm (inbIC _ hc1) p5 (qI L ((k.val + 1) % 2)) f1)) $$ Hi1
  ihave HcB' := (Entails.of_eq (semVal_sem_congr (F := F) (thr := V d (cV L) (jV L)) (semIAt_congr (off6_W k).symm (inbS _ hb') p6))) $$ HcB
  ihave HflI' := (Entails.of_eq (Flight_sem_congr (F := F) (thr := V d (cV L) (jV L)) (semIAt_congr (off9_W k).symm (inbS _ hb) p9) _ _)) $$ HflI
  sl_exec

  -- segment 2: the indexed copy of the table rows slot b's list names into row slot b, and its wait
  have hX : (iSl (k.val % 2) hb).view.writes (Elt F) fsA [⟨Rect.whole S1x128, (iCh (chunkNo L k.val) hc).view.read (Elt F) f1⟩]
      = (iSl (k.val % 2) hb).view.write (Elt F) fsA ((iCh (chunkNo L k.val) hc).view.read (Elt F) f1) Finset.univ :=
    (View.write_univ_eq_writes_whole (Val := Elt F) (iSl (k.val % 2) hb).view fsA [] ((iCh (chunkNo L k.val) hc).view.read (Elt F) f1)).symm
  ihave Hl0 := (Entails.of_eq (congrArg (fun g => ((iSl (k.val % 2) hb).view.loc (V d (cV L) (jV L)) ↦[(iSl (k.val % 2) hb).view.set]{fullShare} g : sProp 𝕄)) hX)) $$ HflI'_dst
  ihave Hl1 := (Entails.of_eq (pts_iSlAt (F := F) d (cV L) (jV L) (off11_W k).symm (inbI _ hb) p11 fullShare _)) $$ Hl0
  ihave Hl2 := (Entails.of_eq (pts_list (F := F) d (cV L) (jV L) _ p11 fullShare _)) $$ Hl1
  ihave HrA' := (Entails.of_eq (pts_rSlAt (F := F) d (cV L) (jV L) (off10_W k).symm (inbR _ hb) p10 fullShare frA)) $$ HrA
  have hsubT : (tabV.view.set : Finset (Idx (v2Loc d))) ⊆ Finset.univ := Finset.subset_univ _
  ihave Hts := (pointsTo_split_subset (q := tsh (wL L)) (f := f2) hsubT).1 $$ Ht
  icases Hts with ⟨Hts, Htr⟩
  have HIN := hin_at (F := F) hb (off11_W k) p11 _ _ (list_in_range (k.val % 2) hb (chunkNo L k.val) hc f1 fsA hin)
  iapply (SparseCore.wp_indirectGatherLocal countersEmb 𝒱₀ (V d (cV L) (jV L)) none (hg := gathers_S1000x128_S128x128) (default : HIx 1)
      (rSlAt (k0_off10 (W7 k.val)) p10).view.dmaCredit (SparseCore.sum_rowCredit_eq_dmaCredit _ _ (fun _ => rfl)) (by decide) HIN) $$ [Hts HrA' Hl2 HcG]
  · isplitl [Hts]; · iexact Hts
    isplitl [HrA']; · iexact HrA'
    isplitl [Hl2]; · iexact Hl2
    iexact HcG
  iintro Hfl
  sl_exec
  iapply (Transfers.wp_waitLocalO countersEmb 𝒱₀ (V d (cV L) (jV L)) none (default : HIx 1) (rfl : (rSlAt (k0_off10 (W7 k.val)) p10).view.dmaCredit = _)) $$ [Hfl HO]
  · isplitl [Hfl]; · iexact Hfl
    isplitl [HO]; · iexact HO
    iapply (Transfers.MayWaits.elim (SemLoc.dma semG)) $$ Hmw
  iintro ⟨⟨Hrw, Hts, Hlw⟩, HcG, HO⟩

  -- segment 3: the copy-out of row slot b to chunk k's rows, the wait for chunk k - 1's copy-out
  ihave Hrw' := (Entails.of_eq (pts_rSlAt (F := F) d (cV L) (jV L) ((off10_W k).trans (off12_W k).symm) p10 p12 fullShare _)) $$ Hrw
  ihave Ho' := (Entails.of_eq (pts_oChAt (F := F) d (cV L) (jV L) (off13_W L k).symm (inbOC _ hc) p13 fullShare f3)) $$ Ho
  ihave HcOA' := (Entails.of_eq (semVal_sem_congr (F := F) (thr := V d (cV L) (jV L)) (semOAt_congr (off14_W k).symm (inbS _ hb) p14))) $$ HcOA
  sl_exec
  -- the trip returns: the invariant at k + 1
  sl_step
  subst hQ
  unfold Inv
  rw [dif_pos (by omega : k.val + 1 < 200)]
  rw [dif_pos (⟨by omega, by omega⟩ : 1 ≤ k.val + 1 ∧ k.val + 1 ≤ 200)]
  rw [IdxRest_congr (F := F) d L f1 (show (k.val + 1 + 1) % 2 = k.val % 2 by omega) _ hb,
    OutFly_congr (F := F) d L f1 f2 (show k.val + 1 - 1 = k.val by omega) (show (k.val + 1 + 1) % 2 = k.val % 2 by omega) _ hc _ hb]
  unfold IdxRest RowRest
  have hsubIk : ((iCh (chunkNo L k.val) hc).view.set : Finset (Idx (v1Loc d))) ⊆ Finset.univ := Finset.subset_univ _
  -- the words
  isplitr
  · ipureintro; exact yld_W L k
  isplitr
  · iexact Hmw
  -- the table share, whole again
  isplitl [Hts Htr]
  · iapply (pointsTo_split_subset (q := tsh (wL L)) (f := f2) hsubT).2
    isplitl [Hts] <;> iassumption
  isplitl [HcG]
  · iexact HcG
  -- the next chunk's fetch, in flight into the other slot
  isplitl [HcB' HiBrest]
  · iapply (idxFly_of (F := F) d L f1 hb' hc1 (off4_W k) (off5_W L k hk2) (off6_W k) p4 p5 p6 fsB)
    isplitl [HcB']
    · iexact HcB'
    · iexact HiBrest
  -- this trip's index slot, at rest again, its half-share whole again
  isplitl [Hlw HflI' Hirest]
  · isplitl [Hlw]
    · iexists _
      iapply (Entails.of_eq (pts_iSlAt (F := F) d (cV L) (jV L) (off11_W k) p11 (inbI _ hb) fullShare _))
      iapply (Entails.of_eq (pts_list (F := F) d (cV L) (jV L) _ p11 fullShare _).symm)
      iexact Hlw
    isplitl [HflI']
    · iapply (Entails.of_eq (semVal_sem_congr (F := F) (thr := V d (cV L) (jV L)) (semIAt_congr (off9_W k) p9 (inbS _ hb))))
      iexact HflI'
    · iexact Hirest
  -- the other row slot, still at rest
  isplitl [HrB HcOB]
  · isplitl [HrB]
    · iexists _; iexact HrB
    · iexact HcOB
  -- this trip's rows, on their way out
  isplitl [HcOA']
  · iapply (outFly_of (F := F) d L f1 f2 f3 hb hc (off10_W k) (off11_W k) (off12_W k) (off13_W L k) (off14_W k) p10 p11 p12 p13 p14 fsA frA _ HIN)
    iexact HcOA'
  -- nothing finished yet
  isplitl [Hdone]
  · iapply (Entails.of_eq (congrArg (fun S => (v3Loc d ↦[S]{fullShare} Stages.gathered f2 f1 : sProp 𝕄))
      ((done_small L (by omega : k.val ≤ 1)).trans (done_small L (by omega : k.val + 1 ≤ 1)).symm)))
    iexact Hdone
  isplitl [Htodo']
  · iexact Htodo'
  -- the waits recorded
  iexists _; isplitr
  swap; · iexact HO
  ipureintro; intro p hp
  repeat (rcases Finset.mem_insert.mp hp with hp | hp; · exact .inr (hp ▸ rfl))
  exact hW' p hp

end Cert.Proof.KB

end
-- ==== Proof.KB.TileTripB.lean ====
import proofs.«203052_g23699629540016_cont_8to1_215_27_alg».proof.Proof.KB.TileInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

set_option maxHeartbeats 8000000 in
/-- A middle trip, `1 ≤ k < 199`: all four guarded steps are taken. -/
theorem trip_mid [FloatOps F] (d : Dev nD) (L : grid0.Coords) (f1 : Buf (Elt F) (v1Loc d)) (f2 : Buf (Elt F) (v2Loc d)) (f3 : Buf (Elt F) (v3Loc d))
    (hin : ∀ x, (f1 x).toNat < 1000) (O : CellTallies nD τ sig (HIx 1)) (W : Waits sig (HIx 1))
    (k : Fin k0_t1_loop.trips) (hk1 : 1 ≤ k.val) (hk2 : k.val < 199) (acc : BitVec 32 × BitVec 32 × BitVec 32 × BitVec 32 × BitVec 32) :
    Inv d L f1 f2 f3 O W k.val acc
      ⊢ wp frame (wpE (defs₀ (F := F)) 𝒱₀ (V d (cV L) (jV L)) none) Set.univ
          (k0_t1_body L (Memref.whole main_v2_scv) (Memref.isWhole_whole _) (Memref.whole main_v1_scv) (Memref.isWhole_whole _) (Memref.whole main_v3_scv) (Memref.isWhole_whole _)
            (Memref.whole cc0_scoped0) (Memref.isWhole_whole _) cc0_scoped1 (Memref.whole cc0_scoped2) (Memref.isWhole_whole _) cc0_scoped3 cc0_scoped4 (V4 L) k acc)
          (Inv d L f1 f2 f3 O W (k.val + 1)) := by
  have hk200 : k.val < 200 := klt k
  have hb : k.val % 2 < 2 := par_lt _
  have hb' : (k.val + 1) % 2 < 2 := par_lt _
  have hc := cinb L k.val hk200
  have hc1 := cinb L (k.val + 1) (by omega)
  have hcm := cinb L (k.val - 1) (by omega)
  generalize hQ : Inv d L f1 f2 f3 O W (k.val + 1) = Q
  unfold Inv
  rw [dif_pos hk200]
  rw [dif_pos (⟨hk1, by omega⟩ : 1 ≤ k.val ∧ k.val ≤ 200)]
  unfold IdxFly IdxRest RowRest OutFly
  iintro ⟨%hacc, #Hmw, Ht, HcG, ⟨⟨%fsA, HflI⟩, Hirest⟩, ⟨⟨%fsB, HsB⟩, HcB, HiB⟩, ⟨⟨%frA, HrA⟩, HcOA⟩, HflO, Hdone, Htodo, %W', %hW', HO⟩
  subst hacc
  have hw3 := chk3_W k
  have hw2 := chk2_W k
  have hw1 := chk1_W L k
  have h2 := cond2_true L k
  have h5 := cond5_true L k
  have h1 : k0_cond1 L k (W10 k.val) = 1#1 := (cond1_iff L k).2 hk2
  have h7 : k0_cond7 L k (W10 k.val) = 1#1 := (cond7_iff L k).2 hk1
  have p4 := k0_off4_inb L k _ _ _ _ _ hw1 h1
  have p5 := k0_off5_inb L k _ _ _ _ _ hw1 h1
  have p6 := k0_off6_inb L k _ _ _ _ _ hw1 h1
  have p7 := k0_off7_inb L k _ _ _ _ _ hw1 h2
  have p8 := k0_off8_inb L k _ _ _ _ _ hw1 h2
  have p9 := k0_off9_inb L k _ _ _ _ _ hw1 h2
  have p10 := k0_off10_inb _ hw2
  have p11 := k0_off11_inb _ hw3
  have p12 := k0_off12_inb L k _ _ _ _ _ hw1 h5
  have p13 := k0_off13_inb L k _ _ _ _ _ hw1 h5
  have p14 := k0_off14_inb L k _ _ _ _ _ hw1 h5
  have p15 := k0_off15_inb L k _ _ _ _ _ hw1 h7
  have p16 := k0_off16_inb L k _ _ _ _ _ hw1 h7
  have p17 := k0_off17_inb L k _ _ _ _ _ hw1 h7
  -- chunk k + 1's words out of the other slot's half-share
  have hsubI : ((iCh (chunkNo L (k.val + 1)) hc1).view.set : Finset (Idx (v1Loc d))) ⊆ Finset.univ := Finset.subset_univ _
  ihave HiB2 := (pointsTo_split_subset (q := qI L ((k.val + 1) % 2)) (f := f1) hsubI).1 $$ HiB
  icases HiB2 with ⟨Hi1, HiBrest⟩
  -- chunk k's rows out of the rows still to write
  obtain ⟨etodo, dtodo⟩ := todo_step L hk200
  ihave Htodo1 := (Entails.of_eq (congrArg (fun S => (v3Loc d ↦[S]{fullShare} f3 : sProp 𝕄)) etodo)) $$ Htodo
  ihave Htodo2 := (pointsTo_union (q := fullShare) (f := f3) dtodo).1 $$ Htodo1
  icases Htodo2 with ⟨Ho0, Htodo'⟩
  ihave Ho := (Entails.of_eq (congrArg (fun S => (v3Loc d ↦[S]{fullShare} f3 : sProp 𝕄)) (oCh_set (chunkNo L k.val) hc).symm)) $$ Ho0
  -- segment 1: the next fetch, the wait for this trip's fetch
  ihave HsB' := (Entails.of_eq (pts_iSlAt (F := F) d (cV L) (jV L) (off4_W k).symm (inbI _ hb') p4 fullShare fsB)) $$ HsB
  ihave Hi1' := (Entails.of_eq (pts_iChAt (F := F) d (cV L) (jV L) (off5_W L k hk2).symm (inbIC _ hc1) p5 (qI L ((k.val + 1) % 2)) f1)) $$ Hi1
  ihave HcB' := (Entails.of_eq (semVal_sem_congr (F := F) (thr := V d (cV L) (jV L)) (semIAt_congr (off6_W k).symm (inbS _ hb') p6))) $$ HcB
  ihave HflI' := (Entails.of_eq (Flight_sem_congr (F := F) (thr := V d (cV L) (jV L)) (semIAt_congr (off9_W k).symm (inbS _ hb) p9) _ _)) $$ HflI
  sl_exec

  -- segment 2: the indexed copy of the table rows slot b's list names into row slot b, and its wait
  have hX : (iSl (k.val % 2) hb).view.writes (Elt F) fsA [⟨Rect.whole S1x128, (iCh (chunkNo L k.val) hc).view.read (Elt F) f1⟩]
      = (iSl (k.val % 2) hb).view.write (Elt F) fsA ((iCh (chunkNo L k.val) hc).view.read (Elt F) f1) Finset.univ :=
    (View.write_univ_eq_writes_whole (Val := Elt F) (iSl (k.val % 2) hb).view fsA [] ((iCh (chunkNo L k.val) hc).view.read (Elt F) f1)).symm
  ihave Hl0 := (Entails.of_eq (congrArg (fun g => ((iSl (k.val % 2) hb).view.loc (V d (cV L) (jV L)) ↦[(iSl (k.val % 2) hb).view.set]{fullShare} g : sProp 𝕄)) hX)) $$ HflI'_dst
  ihave Hl1 := (Entails.of_eq (pts_iSlAt (F := F) d (cV L) (jV L) (off11_W k).symm (inbI _ hb) p11 fullShare _)) $$ Hl0
  ihave Hl2 := (Entails.of_eq (pts_list (F := F) d (cV L) (jV L) _ p11 fullShare _)) $$ Hl1
  ihave HrA' := (Entails.of_eq (pts_rSlAt (F := F) d (cV L) (jV L) (off10_W k).symm (inbR _ hb) p10 fullShare frA)) $$ HrA
  have hsubT : (tabV.view.set : Finset (Idx (v2Loc d))) ⊆ Finset.univ := Finset.subset_univ _
  ihave Hts := (pointsTo_split_subset (q := tsh (wL L)) (f := f2) hsubT).1 $$ Ht
  icases Hts with ⟨Hts, Htr⟩
  have HIN := hin_at (F := F) hb (off11_W k) p11 _ _ (list_in_range (k.val % 2) hb (chunkNo L k.val) hc f1 fsA hin)
  iapply (SparseCore.wp_indirectGatherLocal countersEmb 𝒱₀ (V d (cV L) (jV L)) none (hg := gathers_S1000x128_S128x128) (default : HIx 1)
      (rSlAt (k0_off10 (W7 k.val)) p10).view.dmaCredit (SparseCore.sum_rowCredit_eq_dmaCredit _ _ (fun _ => rfl)) (by decide) HIN) $$ [Hts HrA' Hl2 HcG]
  · isplitl [Hts]; · iexact Hts
    isplitl [HrA']; · iexact HrA'
    isplitl [Hl2]; · iexact Hl2
    iexact HcG
  iintro Hfl
  sl_exec
  iapply (Transfers.wp_waitLocalO countersEmb 𝒱₀ (V d (cV L) (jV L)) none (default : HIx 1) (rfl : (rSlAt (k0_off10 (W7 k.val)) p10).view.dmaCredit = _)) $$ [Hfl HO]
  · isplitl [Hfl]; · iexact Hfl
    isplitl [HO]; · iexact HO
    iapply (Transfers.MayWaits.elim (SemLoc.dma semG)) $$ Hmw
  iintro ⟨⟨Hrw, Hts, Hlw⟩, HcG, HO⟩

  -- segment 3: the copy-out of row slot b to chunk k's rows, the wait for chunk k - 1's copy-out
  ihave Hrw' := (Entails.of_eq (pts_rSlAt (F := F) d (cV L) (jV L) ((off10_W k).trans (off12_W k).symm) p10 p12 fullShare _)) $$ Hrw
  ihave Ho' := (Entails.of_eq (pts_oChAt (F := F) d (cV L) (jV L) (off13_W L k).symm (inbOC _ hc) p13 fullShare f3)) $$ Ho
  ihave HcOA' := (Entails.of_eq (semVal_sem_congr (F := F) (thr := V d (cV L) (jV L)) (semOAt_congr (off14_W k).symm (inbS _ hb) p14))) $$ HcOA
  ihave HflO' := (Entails.of_eq (Flight_sem_congr (F := F) (thr := V d (cV L) (jV L)) (semOAt_congr (off17_W k hk1).symm (inbS _ hb') p17) _ _)) $$ HflO
  sl_exec
  iapply (Transfers.wp_waitLocalO countersEmb 𝒱₀ (V d (cV L) (jV L)) none (default : HIx 1) (N := 524288) (by rfl)) $$ [HflO' HO]
  · isplitl [HflO']; · iexact HflO'
    isplitl [HO]; · iexact HO
    iapply (Transfers.MayWaits.elim (SemLoc.dma (semOAt (k0_off17 (W9 k.val)) p17))) $$ Hmw
  iintro ⟨⟨HflO'_dst, HflO'_src⟩, HflO', HO⟩
  sl_exec
  -- the trip returns: the invariant at k + 1
  sl_step
  subst hQ
  unfold Inv
  rw [dif_pos (by omega : k.val + 1 < 200)]
  rw [dif_pos (⟨by omega, by omega⟩ : 1 ≤ k.val + 1 ∧ k.val + 1 ≤ 200)]
  rw [IdxRest_congr (F := F) d L f1 (show (k.val + 1 + 1) % 2 = k.val % 2 by omega) _ hb,
    OutFly_congr (F := F) d L f1 f2 (show k.val + 1 - 1 = k.val by omega) (show (k.val + 1 + 1) % 2 = k.val % 2 by omega) _ hc _ hb]
  unfold IdxRest RowRest
  have hsubIk : ((iCh (chunkNo L k.val) hc).view.set : Finset (Idx (v1Loc d))) ⊆ Finset.univ := Finset.subset_univ _
  -- the words
  isplitr
  · ipureintro; exact yld_W L k
  isplitr
  · iexact Hmw
  -- the table share, whole again
  isplitl [Hts Htr]
  · iapply (pointsTo_split_subset (q := tsh (wL L)) (f := f2) hsubT).2
    isplitl [Hts] <;> iassumption
  isplitl [HcG]
  · iexact HcG
  -- the next chunk's fetch, in flight into the other slot
  isplitl [HcB' HiBrest]
  · iapply (idxFly_of (F := F) d L f1 hb' hc1 (off4_W k) (off5_W L k hk2) (off6_W k) p4 p5 p6 fsB)
    isplitl [HcB']
    · iexact HcB'
    · iexact HiBrest
  -- this trip's index slot, at rest again, its half-share whole again
  isplitl [Hlw HflI' Hirest]
  · isplitl [Hlw]
    · iexists _
      iapply (Entails.of_eq (pts_iSlAt (F := F) d (cV L) (jV L) (off11_W k) p11 (inbI _ hb) fullShare _))
      iapply (Entails.of_eq (pts_list (F := F) d (cV L) (jV L) _ p11 fullShare _).symm)
      iexact Hlw
    isplitl [HflI']
    · iapply (Entails.of_eq (semVal_sem_congr (F := F) (thr := V d (cV L) (jV L)) (semIAt_congr (off9_W k) p9 (inbS _ hb))))
      iexact HflI'
    · iexact Hirest
  -- the other row slot, back from its copy-out
  isplitl [HflO'_src HflO']
  · isplitl [HflO'_src]
    · iexact HflO'_src
    · iapply (Entails.of_eq (semVal_sem_congr (F := F) (thr := V d (cV L) (jV L)) (semOAt_congr (off17_W k hk1) p17 (inbS _ hb'))))
      iexact HflO'
  -- this trip's rows, on their way out
  isplitl [HcOA']
  · iapply (outFly_of (F := F) d L f1 f2 f3 hb hc (off10_W k) (off11_W k) (off12_W k) (off13_W L k) (off14_W k) p10 p11 p12 p13 p14 fsA frA _ HIN)
    iexact HcOA'
  -- the previous chunk's rows join the finished ones
  obtain ⟨edone, ddone⟩ := done_step L hk1 (by omega : k.val ≤ 200)
  isplitl [Hdone HflO'_dst]
  · iapply (Entails.of_eq (congrArg (fun S => (v3Loc d ↦[S]{fullShare} Stages.gathered f2 f1 : sProp 𝕄)) edone.symm))
    iapply (pointsTo_union (q := fullShare) (f := Stages.gathered f2 f1) ddone).2
    isplitl [Hdone]
    · iexact Hdone
    · iapply (Entails.of_eq (congrArg (fun S => (v3Loc d ↦[S]{fullShare} Stages.gathered f2 f1 : sProp 𝕄)) (oCh_set (chunkNo L (k.val - 1)) hcm)))
      iexact HflO'_dst
  isplitl [Htodo']
  · iexact Htodo'
  -- the waits recorded
  iexists _; isplitr
  swap; · iexact HO
  ipureintro; intro p hp
  repeat (rcases Finset.mem_insert.mp hp with hp | hp; · exact .inr (hp ▸ rfl))
  exact hW' p hp

end Cert.Proof.KB

end
-- ==== Proof.KB.TileTripC.lean ====
import proofs.«203052_g23699629540016_cont_8to1_215_27_alg».proof.Proof.KB.TileInv

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

set_option maxHeartbeats 8000000 in
/-- The last trip, `k = 199`: there is no next chunk, so no fetch is started. -/
theorem trip_last [FloatOps F] (d : Dev nD) (L : grid0.Coords) (f1 : Buf (Elt F) (v1Loc d)) (f2 : Buf (Elt F) (v2Loc d)) (f3 : Buf (Elt F) (v3Loc d))
    (hin : ∀ x, (f1 x).toNat < 1000) (O : CellTallies nD τ sig (HIx 1)) (W : Waits sig (HIx 1))
    (k : Fin k0_t1_loop.trips) (hk199 : k.val = 199) (acc : BitVec 32 × BitVec 32 × BitVec 32 × BitVec 32 × BitVec 32) :
    Inv d L f1 f2 f3 O W k.val acc
      ⊢ wp frame (wpE (defs₀ (F := F)) 𝒱₀ (V d (cV L) (jV L)) none) Set.univ
          (k0_t1_body L (Memref.whole main_v2_scv) (Memref.isWhole_whole _) (Memref.whole main_v1_scv) (Memref.isWhole_whole _) (Memref.whole main_v3_scv) (Memref.isWhole_whole _)
            (Memref.whole cc0_scoped0) (Memref.isWhole_whole _) cc0_scoped1 (Memref.whole cc0_scoped2) (Memref.isWhole_whole _) cc0_scoped3 cc0_scoped4 (V4 L) k acc)
          (Inv d L f1 f2 f3 O W (k.val + 1)) := by
  have hk200 : k.val < 200 := klt k
  have hnk2 : ¬ k.val < 199 := by omega
  have hk1 : 1 ≤ k.val := by omega
  have hb : k.val % 2 < 2 := par_lt _
  have hb' : (k.val + 1) % 2 < 2 := par_lt _
  have hc := cinb L k.val hk200
  have hcm := cinb L (k.val - 1) (by omega)
  generalize hQ : Inv d L f1 f2 f3 O W (k.val + 1) = Q
  unfold Inv
  rw [dif_pos hk200]
  rw [dif_pos (⟨hk1, by omega⟩ : 1 ≤ k.val ∧ k.val ≤ 200)]
  unfold IdxFly IdxRest RowRest OutFly
  iintro ⟨%hacc, #Hmw, Ht, HcG, ⟨⟨%fsA, HflI⟩, Hirest⟩, ⟨⟨%fsB, HsB⟩, HcB, HiB⟩, ⟨⟨%frA, HrA⟩, HcOA⟩, HflO, Hdone, Htodo, %W', %hW', HO⟩
  subst hacc
  have hw3 := chk3_W k
  have hw2 := chk2_W k
  have hw1 := chk1_W L k
  have h2 := cond2_true L k
  have h5 := cond5_true L k
  have h1 : ¬ k0_cond1 L k (W10 k.val) = 1#1 := fun h => hnk2 ((cond1_iff L k).1 h)
  have h7 : k0_cond7 L k (W10 k.val) = 1#1 := (cond7_iff L k).2 hk1
  have p7 := k0_off7_inb L k _ _ _ _ _ hw1 h2
  have p8 := k0_off8_inb L k _ _ _ _ _ hw1 h2
  have p9 := k0_off9_inb L k _ _ _ _ _ hw1 h2
  have p10 := k0_off10_inb _ hw2
  have p11 := k0_off11_inb _ hw3
  have p12 := k0_off12_inb L k _ _ _ _ _ hw1 h5
  have p13 := k0_off13_inb L k _ _ _ _ _ hw1 h5
  have p14 := k0_off14_inb L k _ _ _ _ _ hw1 h5
  have p15 := k0_off15_inb L k _ _ _ _ _ hw1 h7
  have p16 := k0_off16_inb L k _ _ _ _ _ hw1 h7
  have p17 := k0_off17_inb L k _ _ _ _ _ hw1 h7
  -- chunk k's rows out of the rows still to write
  obtain ⟨etodo, dtodo⟩ := todo_step L hk200
  ihave Htodo1 := (Entails.of_eq (congrArg (fun S => (v3Loc d ↦[S]{fullShare} f3 : sProp 𝕄)) etodo)) $$ Htodo
  ihave Htodo2 := (pointsTo_union (q := fullShare) (f := f3) dtodo).1 $$ Htodo1
  icases Htodo2 with ⟨Ho0, Htodo'⟩
  ihave Ho := (Entails.of_eq (congrArg (fun S => (v3Loc d ↦[S]{fullShare} f3 : sProp 𝕄)) (oCh_set (chunkNo L k.val) hc).symm)) $$ Ho0
  -- segment 1: the next fetch, the wait for this trip's fetch
  ihave HflI' := (Entails.of_eq (Flight_sem_congr (F := F) (thr := V d (cV L) (jV L)) (semIAt_congr (off9_W k).symm (inbS _ hb) p9) _ _)) $$ HflI
  sl_exec

  -- segment 2: the indexed copy of the table rows slot b's list names into row slot b, and its wait
  have hX : (iSl (k.val % 2) hb).view.writes (Elt F) fsA [⟨Rect.whole S1x128, (iCh (chunkNo L k.val) hc).view.read (Elt F) f1⟩]
      = (iSl (k.val % 2) hb).view.write (Elt F) fsA ((iCh (chunkNo L k.val) hc).view.read (Elt F) f1) Finset.univ :=
    (View.write_univ_eq_writes_whole (Val := Elt F) (iSl (k.val % 2) hb).view fsA [] ((iCh (chunkNo L k.val) hc).view.read (Elt F) f1)).symm
  ihave Hl0 := (Entails.of_eq (congrArg (fun g => ((iSl (k.val % 2) hb).view.loc (V d (cV L) (jV L)) ↦[(iSl (k.val % 2) hb).view.set]{fullShare} g : sProp 𝕄)) hX)) $$ HflI'_dst
  ihave Hl1 := (Entails.of_eq (pts_iSlAt (F := F) d (cV L) (jV L) (off11_W k).symm (inbI _ hb) p11 fullShare _)) $$ Hl0
  ihave Hl2 := (Entails.of_eq (pts_list (F := F) d (cV L) (jV L) _ p11 fullShare _)) $$ Hl1
  ihave HrA' := (Entails.of_eq (pts_rSlAt (F := F) d (cV L) (jV L) (off10_W k).symm (inbR _ hb) p10 fullShare frA)) $$ HrA
  have hsubT : (tabV.view.set : Finset (Idx (v2Loc d))) ⊆ Finset.univ := Finset.subset_univ _
  ihave Hts := (pointsTo_split_subset (q := tsh (wL L)) (f := f2) hsubT).1 $$ Ht
  icases Hts with ⟨Hts, Htr⟩
  have HIN := hin_at (F := F) hb (off11_W k) p11 _ _ (list_in_range (k.val % 2) hb (chunkNo L k.val) hc f1 fsA hin)
  iapply (SparseCore.wp_indirectGatherLocal countersEmb 𝒱₀ (V d (cV L) (jV L)) none (hg := gathers_S1000x128_S128x128) (default : HIx 1)
      (rSlAt (k0_off10 (W7 k.val)) p10).view.dmaCredit (SparseCore.sum_rowCredit_eq_dmaCredit _ _ (fun _ => rfl)) (by decide) HIN) $$ [Hts HrA' Hl2 HcG]
  · isplitl [Hts]; · iexact Hts
    isplitl [HrA']; · iexact HrA'
    isplitl [Hl2]; · iexact Hl2
    iexact HcG
  iintro Hfl
  sl_exec
  iapply (Transfers.wp_waitLocalO countersEmb 𝒱₀ (V d (cV L) (jV L)) none (default : HIx 1) (rfl : (rSlAt (k0_off10 (W7 k.val)) p10).view.dmaCredit = _)) $$ [Hfl HO]
  · isplitl [Hfl]; · iexact Hfl
    isplitl [HO]; · iexact HO
    iapply (Transfers.MayWaits.elim (SemLoc.dma semG)) $$ Hmw
  iintro ⟨⟨Hrw, Hts, Hlw⟩, HcG, HO⟩

  -- segment 3: the copy-out of row slot b to chunk k's rows, the wait for chunk k - 1's copy-out
  ihave Hrw' := (Entails.of_eq (pts_rSlAt (F := F) d (cV L) (jV L) ((off10_W k).trans (off12_W k).symm) p10 p12 fullShare _)) $$ Hrw
  ihave Ho' := (Entails.of_eq (pts_oChAt (F := F) d (cV L) (jV L) (off13_W L k).symm (inbOC _ hc) p13 fullShare f3)) $$ Ho
  ihave HcOA' := (Entails.of_eq (semVal_sem_congr (F := F) (thr := V d (cV L) (jV L)) (semOAt_congr (off14_W k).symm (inbS _ hb) p14))) $$ HcOA
  ihave HflO' := (Entails.of_eq (Flight_sem_congr (F := F) (thr := V d (cV L) (jV L)) (semOAt_congr (off17_W k hk1).symm (inbS _ hb') p17) _ _)) $$ HflO
  sl_exec
  iapply (Transfers.wp_waitLocalO countersEmb 𝒱₀ (V d (cV L) (jV L)) none (default : HIx 1) (N := 524288) (by rfl)) $$ [HflO' HO]
  · isplitl [HflO']; · iexact HflO'
    isplitl [HO]; · iexact HO
    iapply (Transfers.MayWaits.elim (SemLoc.dma (semOAt (k0_off17 (W9 k.val)) p17))) $$ Hmw
  iintro ⟨⟨HflO'_dst, HflO'_src⟩, HflO', HO⟩
  sl_exec
  -- the trip returns: the invariant at k + 1
  sl_step
  subst hQ
  unfold Inv
  rw [dif_neg (by omega : ¬ k.val + 1 < 200)]
  rw [dif_pos (⟨by omega, by omega⟩ : 1 ≤ k.val + 1 ∧ k.val + 1 ≤ 200)]
  rw [IdxRest_congr (F := F) d L f1 (show (k.val + 1 + 1) % 2 = k.val % 2 by omega) _ hb,
    OutFly_congr (F := F) d L f1 f2 (show k.val + 1 - 1 = k.val by omega) (show (k.val + 1 + 1) % 2 = k.val % 2 by omega) _ hc _ hb]
  unfold IdxRest RowRest
  have hsubIk : ((iCh (chunkNo L k.val) hc).view.set : Finset (Idx (v1Loc d))) ⊆ Finset.univ := Finset.subset_univ _
  -- the words
  isplitr
  · ipureintro; exact yld_W L k
  isplitr
  · iexact Hmw
  -- the table share, whole again
  isplitl [Hts Htr]
  · iapply (pointsTo_split_subset (q := tsh (wL L)) (f := f2) hsubT).2
    isplitl [Hts] <;> iassumption
  isplitl [HcG]
  · iexact HcG
  -- no next chunk: the other slot stays at rest
  isplitl [HsB HcB HiB]
  · isplitl [HsB]
    · iexists _; iexact HsB
    isplitl [HcB] <;> iassumption
  -- this trip's index slot, at rest again, its half-share whole again
  isplitl [Hlw HflI' Hirest]
  · isplitl [Hlw]
    · iexists _
      iapply (Entails.of_eq (pts_iSlAt (F := F) d (cV L) (jV L) (off11_W k) p11 (inbI _ hb) fullShare _))
      iapply (Entails.of_eq (pts_list (F := F) d (cV L) (jV L) _ p11 fullShare _).symm)
      iexact Hlw
    isplitl [HflI']
    · iapply (Entails.of_eq (semVal_sem_congr (F := F) (thr := V d (cV L) (jV L)) (semIAt_congr (off9_W k) p9 (inbS _ hb))))
      iexact HflI'
    · iexact Hirest
  -- the other row slot, back from its copy-out
  isplitl [HflO'_src HflO']
  · isplitl [HflO'_src]
    · iexact HflO'_src
    · iapply (Entails.of_eq (semVal_sem_congr (F := F) (thr := V d (cV L) (jV L)) (semOAt_congr (off17_W k hk1) p17 (inbS _ hb'))))
      iexact HflO'
  -- this trip's rows, on their way out
  isplitl [HcOA']
  · iapply (outFly_of (F := F) d L f1 f2 f3 hb hc (off10_W k) (off11_W k) (off12_W k) (off13_W L k) (off14_W k) p10 p11 p12 p13 p14 fsA frA _ HIN)
    iexact HcOA'
  -- the previous chunk's rows join the finished ones
  obtain ⟨edone, ddone⟩ := done_step L hk1 (by omega : k.val ≤ 200)
  isplitl [Hdone HflO'_dst]
  · iapply (Entails.of_eq (congrArg (fun S => (v3Loc d ↦[S]{fullShare} Stages.gathered f2 f1 : sProp 𝕄)) edone.symm))
    iapply (pointsTo_union (q := fullShare) (f := Stages.gathered f2 f1) ddone).2
    isplitl [Hdone]
    · iexact Hdone
    · iapply (Entails.of_eq (congrArg (fun S => (v3Loc d ↦[S]{fullShare} Stages.gathered f2 f1 : sProp 𝕄)) (oCh_set (chunkNo L (k.val - 1)) hcm)))
      iexact HflO'_dst
  isplitl [Htodo']
  · iexact Htodo'
  -- the waits recorded
  iexists _; isplitr
  swap; · iexact HO
  ipureintro; intro p hp
  repeat (rcases Finset.mem_insert.mp hp with hp | hp; · exact .inr (hp ▸ rfl))
  exact hW' p hp

end Cert.Proof.KB

end
-- ==== Proof.KB.TileBody.lean ====
/-
  One tile's task, proved: the first index chunk's fetch is started; the counted loop is taken through by its invariant,
  one trip obligation for the first trip, one for the middle trips, one for the last; after it the last chunk's
  copy-out is waited for, and what the tile holds is put back together: the two halves of its share of the flat index
  array, the table share, its 200 chunks of rows (all at the gathered rows), the two scratch buffers from their slots,
  the five semaphores at zero.
-/
import proofs.«203052_g23699629540016_cont_8to1_215_27_alg».proof.Proof.KB.TileInv
import proofs.«203052_g23699629540016_cont_8to1_215_27_alg».proof.Proof.KB.TileTripA
import proofs.«203052_g23699629540016_cont_8to1_215_27_alg».proof.Proof.KB.TileTripB
import proofs.«203052_g23699629540016_cont_8to1_215_27_alg».proof.Proof.KB.TileTripC

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The task's body: the first fetch, the loop by its invariant, the last wait -/

theorem rest_iChAt (d : Dev nD) {off off' : Fin 2 → ℕ} (h : off = off') (p p') (q : PosShare TreeShare) (f : Buf (Elt F) (v1Loc d)) :
    (v1Loc d ↦[Finset.univ \ (iChAt off p).view.set]{q} f : sProp 𝕄) = (v1Loc d ↦[Finset.univ \ (iChAt off' p').view.set]{q} f) := by
  subst h; rfl

set_option maxHeartbeats 8000000 in
/-- One tile's task: from its pieces of the two read arrays, its rows of the gathered array and its own scratch, the
    body runs to its end and leaves those rows at the gathered rows, everything else as it was. -/
theorem tile_body [FloatOps F] (d : Dev nD) (L : grid0.Coords) (f1 : Buf (Elt F) (v1Loc d)) (f2 : Buf (Elt F) (v2Loc d)) (f3 : Buf (Elt F) (v3Loc d))
    (hF : (K (F := F)).Facts) (hin : ∀ x, (f1 x).toNat < 1000) (O : CellTallies nD τ sig (HIx 1)) (W : Waits sig (HIx 1)) (hO : ∀ g, O g none = 0) :
    iprop(levAts (K (F := F)).L (K (F := F)).lev ∗ emp ∗ tileIn d f1 f2 f3 (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L (Memref.whole main_v2_scv) (Memref.isWhole_whole _) (Memref.whole main_v1_scv) (Memref.isWhole_whole _) (Memref.whole main_v3_scv) (Memref.isWhole_whole _)
            (Memref.whole cc0_scoped0) (Memref.isWhole_whole _) cc0_scoped1 (Memref.whole cc0_scoped2) (Memref.isWhole_whole _) cc0_scoped3 cc0_scoped4)
          fun _ => iprop(tileOut d f1 f2 (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel
  simp only [k0_part4_eq_skeleton]
  rw [(K (F := F)).scopedBufs_V hF d (cV L) (jV L), SparseCore.Cfg.scopedSems0_V (Val := Elt F) d (cV L) (jV L), ownSems0_V5, ownBufs_V2]
  iintro ⟨#Hlv, -, ⟨Hi, Ht, Ho⟩, ⟨⟨%fs, Hs⟩, ⟨%fr, Hr⟩, Hbufs⟩, ⟨Hc0, Hc1, Hc2, Hc3, Hc4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the index array's share in two halves, one per index slot; the two scratch buffers in their two slots
  ihave Hi2 := (pointsTo_share (q := tsh (wL L)) (f := f1) (I := Finset.univ) (ℓ := v1Loc d) (PosShare.mem_left_op_right (tsh (wL L)))).1 $$ Hi
  icases Hi2 with ⟨HiL, HiR⟩
  ihave Hs2 := (Entails.of_eq (iSlots_eq (F := F) d (cV L) (jV L) fs)) $$ Hs
  icases Hs2 with ⟨Hs0, Hs1⟩
  ihave Hr2 := (Entails.of_eq (rSlots_eq (F := F) d (cV L) (jV L) fr)) $$ Hr
  icases Hr2 with ⟨Hr0, Hr1⟩
  ihave HiL' := (Entails.of_eq (show (v1Loc d ↦{(tsh (wL L)).left} f1 : sProp 𝕄)
      = ((Memref.whole main_v1_scv : Memref sig .scVector .hbm S1x819200 .i32).view.loc (V d (cV L) (jV L)) ↦{(tsh (wL L)).left} f1) from rfl)) $$ HiL
  -- the first fetch
  sl_exec
  -- the loop
  sl_for (Inv d L f1 f2 f3 O W) $$ [Ht Hc4 Hc0 HiL' Hs1 Hc1 HiR Hr0 Hc2 Hr1 Hc3 Ho HO]
  case region =>
    intro k acc
    rcases Nat.eq_zero_or_pos k.val with h0 | h1
    · exact trip_first d L f1 f2 f3 hin O W k h0 acc
    · rcases Nat.lt_or_ge k.val 199 with h2 | h2
      · exact trip_mid d L f1 f2 f3 hin O W k h1 h2 acc
      · exact trip_last d L f1 f2 f3 hin O W k (by have := klt k; omega) acc
  · -- the invariant before trip 0
    unfold Inv
    rw [dif_pos (by decide : (0 : ℕ) < 200), dif_neg (by decide : ¬ (1 ≤ (0 : ℕ) ∧ (0 : ℕ) ≤ 200))]
    isplitr
    · ipureintro; exact W_zero
    isplitr
    · iexact Hmw
    isplitl [Ht]
    · iexact Ht
    isplitl [Hc4]
    · iexact Hc4
    isplitl [Hc0 HiL']
    · ihave H1 := (Entails.of_eq (Flight_sem_congr (F := F) (thr := V d (cV L) (jV L)) (semI_val 0 h02).symm _ _)) $$ Hc0
      ihave H2 := (Entails.of_eq (rest_iChAt (F := F) d (off2_W L) (k0_off2_inb L) (inbIC _ (cinb L 0 (by decide))) _ f1)) $$ HiL'
      iapply (idxFly_of (F := F) d L f1 (b := 0) (j := 0) h02 (cinb L 0 (by decide)) rfl (off2_W L) rfl (inbI 0 h02) (k0_off2_inb L) (inbS 0 h02) fs)
      isplitl [H1]
      · iexact H1
      · iexact H2
    isplitl [Hs1 Hc1 HiR]
    · unfold IdxRest
      isplitl [Hs1]
      · iexists _; iexact Hs1
      isplitl [Hc1]
      · iexact Hc1
      · iexact HiR
    isplitl [Hr0 Hc2]
    · unfold RowRest
      isplitl [Hr0]
      · iexists _; iexact Hr0
      · iexact Hc2
    isplitl [Hr1 Hc3]
    · unfold RowRest
      isplitl [Hr1]
      · iexists _; iexact Hr1
      · iexact Hc3
    isplitl []
    · rw [done_small L (Nat.zero_le 1), pointsTo_empty]; iempintro
    isplitl [Ho]
    · iapply (Entails.of_eq (congrArg (fun S => (v3Loc d ↦[S]{fullShare} f3 : sProp 𝕄)) (todo_zero L).symm)); iexact Ho
    iexists W; isplitr
    swap; · iexact HO
    ipureintro; exact fun p hp => .inl hp
  -- after the loop: the last copy-out's wait
  iintro %acc HI
  have e200 : Scf.trips k0_t1_loop.lb k0_t1_loop.ub k0_t1_loop.st = 200 := trips_eq
  ihave HI' := (Entails.of_eq (congrArg (fun n => (Inv d L f1 f2 f3 O W n acc : sProp 𝕄)) e200)) $$ HI
  unfold Inv
  rw [dif_neg (by decide : ¬ (200 : ℕ) < 200), dif_pos (by decide : 1 ≤ (200 : ℕ) ∧ (200 : ℕ) ≤ 200)]
  unfold IdxRest RowRest OutFly
  icases HI' with ⟨%hacc, -, Ht, HcG, ⟨⟨%fsA, HsA⟩, HcA, HiA⟩, ⟨⟨%fsB, HsB⟩, HcB, HiB⟩, ⟨⟨%frA, HrA⟩, HcOA⟩, HflO, Hdone, Htodo, %W', %hW', HO⟩
  subst hacc
  have hw5 := chk5_W L
  have hw4 := chk4_W
  have p20 := k0_off20_inb _ hw4
  ihave HflO' := (Entails.of_eq (Flight_sem_congr (F := F) (thr := V d (cV L) (jV L)) (semOAt_congr off20_W.symm (inbS _ (par_lt 201)) p20) _ _)) $$ HflO
  sl_exec
  iapply (Transfers.wp_waitLocalO countersEmb 𝒱₀ (V d (cV L) (jV L)) none (default : HIx 1) (N := 524288) (by rfl)) $$ [HflO' HO]
  · isplitl [HflO']; · iexact HflO'
    isplitl [HO]; · iexact HO
    iapply (Transfers.MayWaits.elim (SemLoc.dma (semOAt (k0_off20 (W9 200)) p20))) $$ Hmw
  iintro ⟨⟨Hod, Hos⟩, HcOB, HO⟩
  sl_exec
  sl_step
  -- what the task ends with
  isplitl [HiA HiB Ht Hdone Hod Htodo]
  · isplitl [HiA HiB]
    · iapply (pointsTo_share (q := tsh (wL L)) (f := f1) (I := Finset.univ) (ℓ := v1Loc d) (PosShare.mem_left_op_right (tsh (wL L)))).2
      isplitl [HiA]
      · iexact HiA
      · iexact HiB
    isplitl [Ht]
    · iexact Ht
    · obtain ⟨edone, ddone⟩ := done_step L (k := 200) (by decide) (by decide)
      ihave Htd := (Entails.of_eq (show (v3Loc d ↦[todoS L 200]{fullShare} f3 : sProp 𝕄) = (iprop(emp) : sProp 𝕄) by rw [todo_end L, pointsTo_empty])) $$ Htodo
      icases Htd with -
      iapply (Entails.of_eq (congrArg (fun S => (v3Loc d ↦[S]{fullShare} Stages.gathered f2 f1 : sProp 𝕄)) (edone.symm.trans (done_end L))))
      iapply (pointsTo_union (q := fullShare) (f := Stages.gathered f2 f1) ddone).2
      isplitl [Hdone]
      · iexact Hdone
      · iapply (Entails.of_eq (congrArg (fun S => (v3Loc d ↦[S]{fullShare} Stages.gathered f2 f1 : sProp 𝕄)) (oCh_set (chunkNo L (200 - 1)) (cinb L (200 - 1) (by decide)))))
        iexact Hod
  isplitl [HsA HsB HrA Hos Hbufs]
  · isplitl [HsA HsB]
    · iapply (iSlots_join (F := F) d (cV L) (jV L) _ _)
      isplitl [HsA]
      · iexact HsA
      · iexact HsB
    isplitl [HrA Hos]
    · icases Hos with ⟨%frB, Hos⟩
      iapply (rSlots_join (F := F) d (cV L) (jV L) _ _)
      isplitl [HrA]
      · iexact HrA
      · iexact Hos
    iexact Hbufs
  isplitl [HcA HcB HcOA HcOB HcG Hsems]
  · isplitl [HcA]
    · iexact HcA
    isplitl [HcB]
    · iexact HcB
    isplitl [HcOA]
    · iexact HcOA
    isplitl [HcOB]
    · iapply (Entails.of_eq (semVal_sem_congr (F := F) (thr := V d (cV L) (jV L)) (semOAt_congr off20_W p20 (inbS 1 h12))))
      iexact HcOB
    isplitl [HcG]
    · iexact HcG
    iexact Hsems
  iexists _; isplitr
  swap; · iexact HO
  ipureintro; intro p hp
  repeat (rcases Finset.mem_insert.mp hp with hp | hp; · exact .inr (hp ▸ rfl))
  exact hW' p hp

end Cert.Proof.KB

end
-- ==== Proof.KB.TileBodyFinal.lean ====
/-
  The tile's task in the words the launch's obligation is stated in.
-/
import proofs.«203052_g23699629540016_cont_8to1_215_27_alg».proof.Proof.KB.TileObl
import proofs.«203052_g23699629540016_cont_8to1_215_27_alg».proof.Proof.KB.TileBody

noncomputable section

namespace Cert.Proof.KB

open Cert.Kernel Cert.Kernel.Gen
open Idealize.ShloMosaic

variable {F : FTy → Type}

theorem tileBody [FloatOps F] : TileBodyStmt (F := F) :=
  fun d L f1 f2 f3 hF hin O W hO => tile_body d L f1 f2 f3 hF hin O W hO

end Cert.Proof.KB

end
-- ==== Proof.KB.Run.lean ====
/-
  The program's run: every weakly fair execution of the TensorCore's program and the thirty-two tiles' tasks ends,
  nothing faulting, with the result array at the staged program's result and the two arguments unchanged.
-/
import proofs.«203052_g23699629540016_cont_8to1_215_27_alg».proof.Proof.KB.RunOf
import proofs.«203052_g23699629540016_cont_8to1_215_27_alg».proof.Proof.KB.TileBodyFinal

noncomputable section

namespace Cert.Proof.KB

open Cert.Kernel Cert.Kernel.Gen
open Idealize.ShloMosaic Idealize.SL.Sem

variable {F : FTy → Type} [FloatOps F]

theorem run_main [∀ e, Nonempty (Elt F e)] (m : (ℓ : Loc nD τ sig) → Buf (Elt F) ℓ) (ρ : Dev nD → PrngReg)
    (hin : ∀ d x, (F1 m d x).toNat < 1000) :
    θ_run (Cert.Kernel.defs (F := F)) (Cert.Kernel.threads (F := F)) ⟨m, fun _ => 0, ρ⟩ (QC m) :=
  run_main_of_body tileBody m ρ hin

end Cert.Proof.KB

end
-- ==== Proof.KI.StagesValue.lean ====
/-
  The staged program read index by index: it is the lookup.

  Each of the six arrays of the staged program is read at an index given by explicit coordinates:
    the flat index array at word n·4096 + b is `atom_types[b, n]` (a transposition, then a row-major re-layout:
      entry (n, b) of the 200 × 4096 transpose sits at position n·4096 + b of the single row);
    the widened table at (r, e), e < 64, is `table[r, e]` (the index lies inside the operand, so the fill value is not read);
    the regrouped rows at (n, b, e) are gathered row n·4096 + b, column e (both positions are (n·4096 + b)·128 + e);
    the last transposition at (b, n, d) is its operand at (n, d, b).
  Chaining them, entry (b, n, d) of the result is column d of the widened table's row named by flat word n·4096 + b,
  which is column d of the table row named by `atom_types[b, n]`: the lookup. No arithmetic touches a table entry,
  so the statement holds at every element type.
-/
import proofs.«203052_g23699629540016_cont_8to1_215_27_alg».proof.Proof.KI.Stages
import Idealize.ShloMosaic.Lib.ValueIdx
import Idealize.ShloMosaic.Lib.Pipeline.Value
import Idealize.ShloMosaic.Lib.ValueLayout
import Idealize.ShloMosaic.Lib.KernelVsHost

noncomputable section

namespace Cert.Proof.KI.Stages

open Cert.KernelIdeal Cert.KernelIdeal.Gen
open Idealize.ShloMosaic Idealize.ShloMosaic.ValueIdx

variable {F : FTy → Type} [FloatOps F]

/-- Word `k = n·4096 + b` of the flat index array is `atom_types[b, n]`, whatever the unit coordinate. -/
theorem idxFlat_apply_of_eq (a0 : IVec S4096x200 32) (b : Fin 4096) (n : Fin 200) (u : Fin 1) (k : Fin 819200)
    (hk : k.val = n.val * 4096 + b.val) : idxFlat a0 (ix2 u k) = a0 (ix2 b n) := by
  unfold idxFlat
  refine (shapeCast_apply _ shapeCasts_S200x4096_S1x819200 (ix2 u k) (ix2 n b) ?_).trans
    (transpose_ix2_apply a0 transposes_S4096x200_S200x4096_1_0 n b)
  have hu : u.val = 0 := by omega
  rw [Shape.rowMajor_val_two, Shape.rowMajor_val_two]
  show n.val * 4096 + b.val = u.val * 819200 + k.val
  rw [hu, hk, Nat.zero_mul, Nat.zero_add]

/-- Word `n·4096 + b` of the flat index array is `atom_types[b, n]`. -/
theorem idxFlat_apply (a0 : IVec S4096x200 32) (b : Fin 4096) (n : Fin 200) :
    idxFlat a0 (ix2 (⟨0, Nat.one_pos⟩ : Fin 1)
      (⟨n.val * 4096 + b.val, by have := n.isLt; have := b.isLt; omega⟩ : Fin 819200)) = a0 (ix2 b n) :=
  idxFlat_apply_of_eq a0 b n _ _ rfl

/-- The widened table at a column below 64 is the table there: the fill value is not read. -/
theorem tabPad_apply (a1 : FVec F S1000x64 .f32) (r : Fin 1000) (e : Fin 64) :
    tabPad a1 (ix2 r (⟨e.val, Nat.lt_of_lt_of_le e.isLt (by decide : 64 ≤ 128)⟩ : Fin 128)) = a1 (ix2 r e) := by
  unfold tabPad
  refine pad_apply_of_inside _ _ _ a1 _ pads_S1000x64_S1000x128_000_0640 h_S_ _ (ix2 r e) fun a => ?_
  match a with
  | ⟨0, _⟩ => show r.val = 0 + r.val * (0 + 1); omega
  | ⟨1, _⟩ => show e.val = 0 + e.val * (0 + 1); omega

/-- The gathered rows at row `k`, column `e`: the operand's row named by flat word `k`, column `e`. -/
theorem gathered_apply {α : Type} (f2 : S1000x128.Idx → α) (f1 : S1x819200.Idx → BitVec 32) (k : Fin 819200) (e : Fin 128) :
    gathered f2 f1 (ix2 k e) = f2 (ix2 (Cert.Spec.rowOfWord (f1 (ix2 (⟨0, Nat.one_pos⟩ : Fin 1) k))) e) := rfl

/-- Slab `n`, row `b`, column `e` of the regrouped rows is gathered row `k = n·4096 + b`, column `e`. -/
theorem regrouped_apply_of_eq (f3 : FVec F S819200x128 .f32) (n : Fin 200) (b : Fin 4096) (e : Fin 128) (k : Fin 819200)
    (hk : k.val = n.val * 4096 + b.val) : regrouped f3 (ix3 n b e) = f3 (ix2 k e) := by
  unfold regrouped
  refine shapeCast_apply f3 shapeCasts_S819200x128_S200x4096x128 (ix3 n b e) (ix2 k e) ?_
  rw [Shape.rowMajor_val_two, Shape.rowMajor_val_three]
  show k.val * 128 + e.val = (n.val * 4096 + b.val) * 128 + e.val
  rw [hk]

/-- Slab `n`, row `b`, column `e` of the regrouped rows is gathered row `n·4096 + b`, column `e`. -/
theorem regrouped_apply (f3 : FVec F S819200x128 .f32) (n : Fin 200) (b : Fin 4096) (e : Fin 128) :
    regrouped f3 (ix3 n b e)
      = f3 (ix2 (⟨n.val * 4096 + b.val, by have := n.isLt; have := b.isLt; omega⟩ : Fin 819200) e) :=
  regrouped_apply_of_eq f3 n b e _ rfl

/-- Entry `(n, d, b)` of the cut and transposed slabs is slab `n`'s row `b`, column `d`. -/
theorem slabsT_apply {α : Type} (f4 : S200x4096x128.Idx → α) (n : Fin 200) (d : Fin 64) (b : Fin 4096) :
    slabsT f4 (ix3 n d b)
      = f4 (ix3 n b (⟨d.val, Nat.lt_of_lt_of_le d.isLt (by decide : 64 ≤ 128)⟩ : Fin 128)) := rfl

/-- The last transposition at `(b, n, d)` is its operand at `(n, d, b)`. -/
theorem final_apply (f5 : FVec F S200x64x4096 .f32) (b : Fin 4096) (n : Fin 200) (d : Fin 64) :
    final f5 (ix3 b n d) = f5 (ix3 n d b) := by
  unfold final
  exact transpose_apply _ f5 transposes_S200x64x4096_S4096x200x64_2_0_1 (ix3 b n d) (ix3 n d b)
    fun c => match c with | ⟨0, _⟩ => rfl | ⟨1, _⟩ => rfl | ⟨2, _⟩ => rfl

/-- Entry `(b, n, d)` of the staged program's result is column `d` of the table row that `atom_types[b, n]` names. -/
theorem result_apply (a0 : IVec S4096x200 32) (a1 : FVec F S1000x64 .f32) (b : Fin 4096) (n : Fin 200) (d : Fin 64) :
    result a0 a1 (ix3 b n d) = a1 (ix2 (Cert.Spec.rowOfWord (a0 (ix2 b n))) d) := by
  unfold result
  rw [final_apply, slabsT_apply, regrouped_apply, gathered_apply, idxFlat_apply, tabPad_apply]

/-- The staged program's result is the lookup. -/
theorem result_eq_lookup (a0 : IVec S4096x200 32) (a1 : FVec F S1000x64 .f32) :
    result a0 a1 = Cert.Spec.lookup a0 a1 := by
  funext j
  obtain ⟨b, n, d, rfl⟩ : ∃ (b : Fin 4096) (n : Fin 200) (d : Fin 64), j = ix3 b n d := ⟨j 0, j 1, j 2, eq_ix3 j⟩
  exact (result_apply a0 a1 b n d).trans (Cert.Spec.lookup_apply a0 a1 b n d).symm

end Cert.Proof.KI.Stages

end
-- ==== Proof.KI.IdxRange.lean ====
/-
  The flat index array holds only words the index array holds: word `k` is `atom_types[k mod 4096, k div 4096]`.
  So a bound on every index word is a bound on every flat word.
-/
import proofs.«203052_g23699629540016_cont_8to1_215_27_alg».proof.Proof.KI.StagesValue

noncomputable section

namespace Cert.Proof.KI.Stages

open Cert.KernelIdeal Cert.KernelIdeal.Gen
open Idealize.ShloMosaic Idealize.ShloMosaic.ValueIdx

theorem idxFlat_lt (a0 : IVec S4096x200 32) (h : ∀ j, (a0 j).toNat < 1000) : ∀ x, (idxFlat a0 x).toNat < 1000 := by
  intro x
  obtain ⟨u, k, rfl⟩ : ∃ (u : Fin 1) (k : Fin 819200), x = ix2 u k := ⟨x 0, x 1, eq_ix2 x⟩
  have hk := k.isLt
  rw [idxFlat_apply_of_eq a0 (⟨k.val % 4096, Nat.mod_lt _ (by decide)⟩ : Fin 4096) (⟨k.val / 4096, by omega⟩ : Fin 200) u k
    (by show k.val = k.val / 4096 * 4096 + k.val % 4096; omega)]
  exact h _

end Cert.Proof.KI.Stages

end
-- ==== Proof.KB.StagesValue.lean ====
/-
  The staged program read index by index: it is the lookup.

  Each of the six arrays of the staged program is read at an index given by explicit coordinates:
    the flat index array at word n·4096 + b is `atom_types[b, n]` (a transposition, then a row-major re-layout:
      entry (n, b) of the 200 × 4096 transpose sits at position n·4096 + b of the single row);
    the widened table at (r, e), e < 64, is `table[r, e]` (the index lies inside the operand, so the fill value is not read);
    the regrouped rows at (n, b, e) are gathered row n·4096 + b, column e (both positions are (n·4096 + b)·128 + e);
    the last transposition at (b, n, d) is its operand at (n, d, b).
  Chaining them, entry (b, n, d) of the result is column d of the widened table's row named by flat word n·4096 + b,
  which is column d of the table row named by `atom_types[b, n]`: the lookup. No arithmetic touches a table entry,
  so the statement holds at every element type.
-/
import proofs.«203052_g23699629540016_cont_8to1_215_27_alg».proof.Proof.KB.Stages
import Idealize.ShloMosaic.Lib.ValueIdx
import Idealize.ShloMosaic.Lib.Pipeline.Value
import Idealize.ShloMosaic.Lib.ValueLayout
import Idealize.ShloMosaic.Lib.KernelVsHost

noncomputable section

namespace Cert.Proof.KB.Stages

open Cert.Kernel Cert.Kernel.Gen
open Idealize.ShloMosaic Idealize.ShloMosaic.ValueIdx

variable {F : FTy → Type} [FloatOps F]

/-- Word `k = n·4096 + b` of the flat index array is `atom_types[b, n]`, whatever the unit coordinate. -/
theorem idxFlat_apply_of_eq (a0 : IVec S4096x200 32) (b : Fin 4096) (n : Fin 200) (u : Fin 1) (k : Fin 819200)
    (hk : k.val = n.val * 4096 + b.val) : idxFlat a0 (ix2 u k) = a0 (ix2 b n) := by
  unfold idxFlat
  refine (shapeCast_apply _ shapeCasts_S200x4096_S1x819200 (ix2 u k) (ix2 n b) ?_).trans
    (transpose_ix2_apply a0 transposes_S4096x200_S200x4096_1_0 n b)
  have hu : u.val = 0 := by omega
  rw [Shape.rowMajor_val_two, Shape.rowMajor_val_two]
  show n.val * 4096 + b.val = u.val * 819200 + k.val
  rw [hu, hk, Nat.zero_mul, Nat.zero_add]

/-- Word `n·4096 + b` of the flat index array is `atom_types[b, n]`. -/
theorem idxFlat_apply (a0 : IVec S4096x200 32) (b : Fin 4096) (n : Fin 200) :
    idxFlat a0 (ix2 (⟨0, Nat.one_pos⟩ : Fin 1)
      (⟨n.val * 4096 + b.val, by have := n.isLt; have := b.isLt; omega⟩ : Fin 819200)) = a0 (ix2 b n) :=
  idxFlat_apply_of_eq a0 b n _ _ rfl

/-- The widened table at a column below 64 is the table there: the fill value is not read. -/
theorem tabPad_apply (a1 : FVec F S1000x64 .f32) (r : Fin 1000) (e : Fin 64) :
    tabPad a1 (ix2 r (⟨e.val, Nat.lt_of_lt_of_le e.isLt (by decide : 64 ≤ 128)⟩ : Fin 128)) = a1 (ix2 r e) := by
  unfold tabPad
  refine pad_apply_of_inside _ _ _ a1 _ pads_S1000x64_S1000x128_000_0640 h_S_ _ (ix2 r e) fun a => ?_
  match a with
  | ⟨0, _⟩ => show r.val = 0 + r.val * (0 + 1); omega
  | ⟨1, _⟩ => show e.val = 0 + e.val * (0 + 1); omega

/-- The gathered rows at row `k`, column `e`: the operand's row named by flat word `k`, column `e`. -/
theorem gathered_apply {α : Type} (f2 : S1000x128.Idx → α) (f1 : S1x819200.Idx → BitVec 32) (k : Fin 819200) (e : Fin 128) :
    gathered f2 f1 (ix2 k e) = f2 (ix2 (Cert.Spec.rowOfWord (f1 (ix2 (⟨0, Nat.one_pos⟩ : Fin 1) k))) e) := rfl

/-- Slab `n`, row `b`, column `e` of the regrouped rows is gathered row `k = n·4096 + b`, column `e`. -/
theorem regrouped_apply_of_eq (f3 : FVec F S819200x128 .f32) (n : Fin 200) (b : Fin 4096) (e : Fin 128) (k : Fin 819200)
    (hk : k.val = n.val * 4096 + b.val) : regrouped f3 (ix3 n b e) = f3 (ix2 k e) := by
  unfold regrouped
  refine shapeCast_apply f3 shapeCasts_S819200x128_S200x4096x128 (ix3 n b e) (ix2 k e) ?_
  rw [Shape.rowMajor_val_two, Shape.rowMajor_val_three]
  show k.val * 128 + e.val = (n.val * 4096 + b.val) * 128 + e.val
  rw [hk]

/-- Slab `n`, row `b`, column `e` of the regrouped rows is gathered row `n·4096 + b`, column `e`. -/
theorem regrouped_apply (f3 : FVec F S819200x128 .f32) (n : Fin 200) (b : Fin 4096) (e : Fin 128) :
    regrouped f3 (ix3 n b e)
      = f3 (ix2 (⟨n.val * 4096 + b.val, by have := n.isLt; have := b.isLt; omega⟩ : Fin 819200) e) :=
  regrouped_apply_of_eq f3 n b e _ rfl

/-- Entry `(n, d, b)` of the cut and transposed slabs is slab `n`'s row `b`, column `d`. -/
theorem slabsT_apply {α : Type} (f4 : S200x4096x128.Idx → α) (n : Fin 200) (d : Fin 64) (b : Fin 4096) :
    slabsT f4 (ix3 n d b)
      = f4 (ix3 n b (⟨d.val, Nat.lt_of_lt_of_le d.isLt (by decide : 64 ≤ 128)⟩ : Fin 128)) := rfl

/-- The last transposition at `(b, n, d)` is its operand at `(n, d, b)`. -/
theorem final_apply (f5 : FVec F S200x64x4096 .f32) (b : Fin 4096) (n : Fin 200) (d : Fin 64) :
    final f5 (ix3 b n d) = f5 (ix3 n d b) := by
  unfold final
  exact transpose_apply _ f5 transposes_S200x64x4096_S4096x200x64_2_0_1 (ix3 b n d) (ix3 n d b)
    fun c => match c with | ⟨0, _⟩ => rfl | ⟨1, _⟩ => rfl | ⟨2, _⟩ => rfl

/-- Entry `(b, n, d)` of the staged program's result is column `d` of the table row that `atom_types[b, n]` names. -/
theorem result_apply (a0 : IVec S4096x200 32) (a1 : FVec F S1000x64 .f32) (b : Fin 4096) (n : Fin 200) (d : Fin 64) :
    result a0 a1 (ix3 b n d) = a1 (ix2 (Cert.Spec.rowOfWord (a0 (ix2 b n))) d) := by
  unfold result
  rw [final_apply, slabsT_apply, regrouped_apply, gathered_apply, idxFlat_apply, tabPad_apply]

/-- The staged program's result is the lookup. -/
theorem result_eq_lookup (a0 : IVec S4096x200 32) (a1 : FVec F S1000x64 .f32) :
    result a0 a1 = Cert.Spec.lookup a0 a1 := by
  funext j
  obtain ⟨b, n, d, rfl⟩ : ∃ (b : Fin 4096) (n : Fin 200) (d : Fin 64), j = ix3 b n d := ⟨j 0, j 1, j 2, eq_ix3 j⟩
  exact (result_apply a0 a1 b n d).trans (Cert.Spec.lookup_apply a0 a1 b n d).symm

end Cert.Proof.KB.Stages

end
-- ==== Proof.KB.IdxRange.lean ====
/-
  The flat index array holds only words the index array holds: word `k` is `atom_types[k mod 4096, k div 4096]`.
  So a bound on every index word is a bound on every flat word.
-/
import proofs.«203052_g23699629540016_cont_8to1_215_27_alg».proof.Proof.KB.StagesValue

noncomputable section

namespace Cert.Proof.KB.Stages

open Cert.Kernel Cert.Kernel.Gen
open Idealize.ShloMosaic Idealize.ShloMosaic.ValueIdx

theorem idxFlat_lt (a0 : IVec S4096x200 32) (h : ∀ j, (a0 j).toNat < 1000) : ∀ x, (idxFlat a0 x).toNat < 1000 := by
  intro x
  obtain ⟨u, k, rfl⟩ : ∃ (u : Fin 1) (k : Fin 819200), x = ix2 u k := ⟨x 0, x 1, eq_ix2 x⟩
  have hk := k.isLt
  rw [idxFlat_apply_of_eq a0 (⟨k.val % 4096, Nat.mod_lt _ (by decide)⟩ : Fin 4096) (⟨k.val / 4096, by omega⟩ : Fin 200) u k
    (by show k.val = k.val / 4096 * 4096 + k.val % 4096; omega)]
  exact h _

end Cert.Proof.KB.Stages

end
-- ==== Proof.lean ====
/-
  An embedding lookup: `result[b, n, d] = table[atom_types[b, n], d]`.

  The kernel's program transposes the index array and lays it out flat, widens the table to 128 columns with
  zeros, has thirty-two SparseCore vector subcores gather the widened table's rows in chunks of 128 (each chunk's
  index words copied in, the rows gathered by an indexed copy, the rows copied out, the copies of neighbouring
  chunks overlapped on two slots each with a semaphore of its own), regroups the gathered rows into 200 slabs,
  and has a pipelined TensorCore kernel cut each slab back to 64 columns and transpose it, before a last
  transposition. The reference gathers the table's rows by the indices directly. Both are pure data movement:
  no arithmetic is applied to a table entry, and read index by index both are the lookup (the widening's zero
  columns are never read; the three re-layouts undo one another; under the precondition every index word is
  between 0 and 999, so the reference's wrap of negative indices, its bounds mask and its clamp are all the
  identity and its fill value is never selected). So the two programs end with equal results on every input
  the precondition admits, at the extended reals as at any element type.

  The three frames are the runs with the value dropped. The idealization rewrote nothing, so the kernel at the
  word level and at the extended reals is one text, and one proof, generic in the instance, serves both.
-/
import proofs.«203052_g23699629540016_cont_8to1_215_27_alg».proof.Defs
import proofs.«203052_g23699629540016_cont_8to1_215_27_alg».proof.Proof.Gen.Kernel
import proofs.«203052_g23699629540016_cont_8to1_215_27_alg».proof.Proof.Gen.KernelIdeal
import proofs.«203052_g23699629540016_cont_8to1_215_27_alg».proof.Proof.Gen.ReferenceIdeal
import proofs.«203052_g23699629540016_cont_8to1_215_27_alg».proof.Proof.Gen.Pre_input_domain
import proofs.«203052_g23699629540016_cont_8to1_215_27_alg».proof.Proof.PreFacts
import proofs.«203052_g23699629540016_cont_8to1_215_27_alg».proof.Proof.RefRun
import proofs.«203052_g23699629540016_cont_8to1_215_27_alg».proof.Proof.KI.Run
import proofs.«203052_g23699629540016_cont_8to1_215_27_alg».proof.Proof.KB.Run
import proofs.«203052_g23699629540016_cont_8to1_215_27_alg».proof.Proof.KI.IdxRange
import proofs.«203052_g23699629540016_cont_8to1_215_27_alg».proof.Proof.KB.IdxRange
import Idealize.ShloMosaic.Adequacy
import Idealize.ShloMosaic.Init

noncomputable section

namespace Cert.Proof

open Idealize.ShloMosaic Idealize.SL.Sem

/-- Under the precondition every word of the flat index array is below 1000: at the extended reals, -/
theorem hinI (m : (ℓ : Loc Cert.KernelIdeal.nD Cert.KernelIdeal.τ Cert.KernelIdeal.sig) → Buf (Elt Ideal) ℓ) (hpre : Cert.Pre_KernelIdeal m) :
    ∀ d x, (KI.F1 m d x).toNat < 1000 :=
  fun d => KI.Stages.idxFlat_lt _ (PreFacts.idx_lt _ _ (hpre d))

/-- and at the word level. -/
theorem hinB (m : (ℓ : Loc Cert.Kernel.nD Cert.Kernel.τ Cert.Kernel.sig) → Buf (Elt Bits) ℓ) (hpre : Cert.Pre_Kernel m) :
    ∀ d x, (KB.F1 m d x).toNat < 1000 :=
  fun d => KB.Stages.idxFlat_lt _ (PreFacts.idx_lt _ _ (hpre d))

theorem frame_K : Cert.frame_Kernel := fun m ρ hpre =>
  (θ_run Cert.Kernel.defs _ _).mono (fun _ h c => ⟨(h c).2.1, (h c).2.2⟩) (KB.run_main (F := Bits) m ρ (hinB m hpre))

theorem frame_KI : Cert.frame_KernelIdeal := fun m ρ hpre =>
  (θ_run Cert.KernelIdeal.defs _ _).mono (fun _ h c => ⟨(h c).2.1, (h c).2.2⟩) (KI.run_main (F := Ideal) m ρ (hinI m hpre))

theorem frame_R : Cert.frame_ReferenceIdeal := fun m ρ hpre =>
  (θ_run Cert.ReferenceIdeal.defs _ _).mono (fun _ h c => ⟨(h c).2.1, (h c).2.2⟩)
    (RefRun.run m ρ fun c => PreFacts.idx_lt _ _ (hpre c))

/-- Both programs end with the lookup of the arguments in their result arrays. -/
theorem algebraic : Cert.algebraic_KernelIdeal_ReferenceIdeal := by
  intro m ρ m' ρ' hpre hagree
  refine ⟨fun c => Cert.Spec.lookup (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (KI.Stages.result_eq_lookup _ _), (h c).2.1, (h c).2.2⟩) (KI.run_main (F := Ideal) m ρ (hinI m hpre))
  · refine (θ_run Cert.ReferenceIdeal.defs _ _).mono (fun _ h c => ⟨?_, (h c).2.1, (h c).2.2⟩)
      (RefRun.run m' ρ' fun c => by rw [(hagree c).1]; exact PreFacts.idx_lt _ _ (hpre c))
    rw [(h c).1, (hagree c).1, (hagree c).2]

theorem claim : Cert.Claim := ⟨Cert.Kernel.Gen.facts, Cert.KernelIdeal.Gen.facts, Cert.ReferenceIdeal.Gen.facts, Cert.Pre_input_domain.Gen.facts,
  frame_K, frame_KI, frame_R, trivial, algebraic⟩

end Cert.Proof

end
